-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v29)) (v2 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v29) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v197) = v0 c
          ∧ r.2.mem ((c.tc : Thread Cert.ReferenceIdeal.nD Cert.ReferenceIdeal.τ).loc Cert.ReferenceIdeal.main_v226) = v1 c
          ∧ r.2.mem ((c.tc : Thread Cert.ReferenceIdeal.nD Cert.ReferenceIdeal.τ).loc Cert.ReferenceIdeal.main_v249) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x512 : Shape := ⟨3, ![64, 512, 512]⟩
abbrev S6x512x64 : Shape := ⟨3, ![6, 512, 64]⟩
abbrev S64 : Shape := ⟨1, ![64]⟩
abbrev S6x64x64 : Shape := ⟨3, ![6, 64, 64]⟩
abbrev S512x64 : Shape := ⟨2, ![512, 64]⟩
abbrev S256x64 : Shape := ⟨2, ![256, 64]⟩
abbrev S64x64 : Shape := ⟨2, ![64, 64]⟩
abbrev S64x4 : Shape := ⟨2, ![64, 4]⟩
abbrev S4 : Shape := ⟨1, ![4]⟩
abbrev S64x2 : Shape := ⟨2, ![64, 2]⟩
abbrev S2 : Shape := ⟨1, ![2]⟩
abbrev S_ : Shape := ⟨0, ![]⟩

class Facts : Prop where
  bcast_S_S64x512x512 : S_.BroadcastsInDim S64x512x512 (![] : Fin 0 → Fin S64x512x512.rank)
  reducesTo_S64x512x512_S_d0_1_2 : S64x512x512.ReducesTo [0, 1, 2] S_
  h_S_ : 0 < S_.numel
  bcast_S_S6x512x64 : S_.BroadcastsInDim S6x512x64 (![] : Fin 0 → Fin S6x512x64.rank)
  reducesTo_S6x512x64_S_d0_1_2 : S6x512x64.ReducesTo [0, 1, 2] S_
  bcast_S_S64 : S_.BroadcastsInDim S64 (![] : Fin 0 → Fin S64.rank)
  reducesTo_S64_S_d0 : S64.ReducesTo [0] S_
  bcast_S_S6x64x64 : S_.BroadcastsInDim S6x64x64 (![] : Fin 0 → Fin S6x64x64.rank)
  reducesTo_S6x64x64_S_d0_1_2 : S6x64x64.ReducesTo [0, 1, 2] S_
  bcast_S_S512x64 : S_.BroadcastsInDim S512x64 (![] : Fin 0 → Fin S512x64.rank)
  reducesTo_S512x64_S_d0_1 : S512x64.ReducesTo [0, 1] S_
  bcast_S_S256x64 : S_.BroadcastsInDim S256x64 (![] : Fin 0 → Fin S256x64.rank)
  reducesTo_S256x64_S_d0_1 : S256x64.ReducesTo [0, 1] S_
  bcast_S_S64x64 : S_.BroadcastsInDim S64x64 (![] : Fin 0 → Fin S64x64.rank)
  reducesTo_S64x64_S_d0_1 : S64x64.ReducesTo [0, 1] S_
  bcast_S_S64x4 : S_.BroadcastsInDim S64x4 (![] : Fin 0 → Fin S64x4.rank)
  reducesTo_S64x4_S_d0_1 : S64x4.ReducesTo [0, 1] S_
  bcast_S_S4 : S_.BroadcastsInDim S4 (![] : Fin 0 → Fin S4.rank)
  reducesTo_S4_S_d0 : S4.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part6 {F : FTy → Type} [FloatOps F] (main_arg21 : FVec F S64 .f32) (main_arg22 : FVec F S64x2 .f32) (main_arg23 : FVec F S2 .f32) (main_v98 : IVec S_ 1) (main_v101 : IVec S64x64 1) (main_c_39 : IVec S_ 1) : IVec S_ 1 :=
  let main_v102 : IVec S_ 1 := (fun x v => Host.reduce IntOp.andi x v reducesTo_S64x64_S_d0_1 h_S_) main_v101 main_c_39
  let main_v103 : IVec S_ 1 := andi main_v98 main_v102
  let main_v104 : FVec F S64 .f32 := Host.absf main_arg21
  let main_cst_40 : FVec F S_ .f32 := constant S_ .f32 0x7F800000#32
  let main_v105 : FVec F S64 .f32 := broadcastInDim S64 ![] bcast_S_S64 main_cst_40
  let main_v106 : IVec S64 1 := cmpf .olt main_v104 main_v105
  let main_c_41 : IVec S_ 1 := constantI S_ 1 1#1
  let main_v107 : IVec S_ 1 := (fun x v => Host.reduce IntOp.andi x v reducesTo_S64_S_d0 h_S_) main_v106 main_c_41
  let main_v108 : IVec S_ 1 := andi main_v103 main_v107
  let main_v109 : FVec F S64x2 .f32 := Host.absf main_arg22
  let main_cst_42 : FVec F S_ .f32 := constant S_ .f32 0x7F800000#32
  let main_v110 : FVec F S64x2 .f32 := broadcastInDim S64x2 ![] bcast_S_S64x2 main_cst_42
  let main_v111 : IVec S64x2 1 := cmpf .olt main_v109 main_v110
  let main_c_43 : IVec S_ 1 := constantI S_ 1 1#1
  let main_v112 : IVec S_ 1 := (fun x v => Host.reduce IntOp.andi x v reducesTo_S64x2_S_d0_1 h_S_) main_v111 main_c_43
  let main_v113 : IVec S_ 1 := andi main_v108 main_v112
  let main_v114 : FVec F S2 .f32 := Host.absf main_arg23
  let main_cst_44 : FVec F S_ .f32 := constant S_ .f32 0x7F800000#32
  let main_v115 : FVec F S2 .f32 := broadcastInDim S2 ![] bcast_S_S2 main_cst_44
  let main_v116 : IVec S2 1 := cmpf .olt main_v114 main_v115
  let main_c_45 : IVec S_ 1 := constantI S_ 1 1#1
  let main_v117 : IVec S_ 1 := (fun x v => Host.reduce IntOp.andi x v reducesTo_S2_S_d0 h_S_) main_v116 main_c_45
  let main_v118 : IVec S_ 1 := andi main_v113 main_v117
  main_v118

def fn_part5 {F : FTy → Type} [FloatOps F] (main_arg18 : FVec F S256x64 .f32) (main_arg19 : FVec F S64 .f32) (main_arg20 : FVec F S64x64 .f32) (main_arg21 : FVec F S64 .f32) (main_arg22 : FVec F S64x2 .f32) (main_arg23 : FVec F S2 .f32) (main_v83 : IVec S_ 1) (main_v84 : FVec F S4 .f32) (main_cst_32 : FVec F S_ .f32) : IVec S_ 1 :=
  let main_v85 : FVec F S4 .f32 := broadcastInDim S4 ![] bcast_S_S4 main_cst_32
  let main_v86 : IVec S4 1 := cmpf .olt main_v84 main_v85
  let main_c_33 : IVec S_ 1 := constantI S_ 1 1#1
  let main_v87 : IVec S_ 1 := (fun x v => Host.reduce IntOp.andi x v reducesTo_S4_S_d0 h_S_) main_v86 main_c_33
  let main_v88 : IVec S_ 1 := andi main_v83 main_v87
  let main_v89 : FVec F S256x64 .f32 := Host.absf main_arg18
  let main_cst_34 : FVec F S_ .f32 := constant S_ .f32 0x7F800000#32
  let main_v90 : FVec F S256x64 .f32 := broadcastInDim S256x64 ![] bcast_S_S256x64 main_cst_34
  let main_v91 : IVec S256x64 1 := cmpf .olt main_v89 main_v90
  let main_c_35 : IVec S_ 1 := constantI S_ 1 1#1
  let main_v92 : IVec S_ 1 := (fun x v => Host.reduce IntOp.andi x v reducesTo_S256x64_S_d0_1 h_S_) main_v91 main_c_35
  let main_v93 : IVec S_ 1 := andi main_v88 main_v92
  let main_v94 : FVec F S64 .f32 := Host.absf main_arg19
  let main_cst_36 : FVec F S_ .f32 := constant S_ .f32 0x7F800000#32
  let main_v95 : FVec F S64 .f32 := broadcastInDim S64 ![] bcast_S_S64 main_cst_36
  let main_v96 : IVec S64 1 := cmpf .olt main_v94 main_v95
  let main_c_37 : IVec S_ 1 := constantI S_ 1 1#1
  let main_v97 : IVec S_ 1 := (fun x v => Host.reduce IntOp.andi x v reducesTo_S64_S_d0 h_S_) main_v96 main_c_37
  let main_v98 : IVec S_ 1 := andi main_v93 main_v97
  let main_v99 : FVec F S64x64 .f32 := Host.absf main_arg20
  let main_cst_38 : FVec F S_ .f32 := constant S_ .f32 0x7F800000#32
  let main_v100 : FVec F S64x64 .f32 := broadcastInDim S64x64 ![] bcast_S_S64x64 main_cst_38
  let main_v101 : IVec S64x64 1 := cmpf .olt main_v99 main_v100
  let main_c_39 : IVec S_ 1 := constantI S_ 1 1#1
  fn_part6 (F := F) main_arg21 main_arg22 main_arg23 main_v98 main_v101 main_c_39

def fn_part4 {F : FTy → Type} [FloatOps F] (main_arg14 : FVec F S64x64 .f32) (main_arg15 : FVec F S64 .f32) (main_arg16 : FVec F S64x4 .f32) (main_arg17 : FVec F S4 .f32) (main_arg18 : FVec F S256x64 .f32) (main_arg19 : FVec F S64 .f32) (main_arg20 : FVec F S64x64 .f32) (main_arg21 : FVec F S64 .f32) (main_arg22 : FVec F S64x2 .f32) (main_arg23 : FVec F S2 .f32) (main_v63 : IVec S_ 1) (main_v67 : IVec S_ 1) : IVec S_ 1 :=
  let main_v68 : IVec S_ 1 := andi main_v63 main_v67
  let main_v69 : FVec F S64x64 .f32 := Host.absf main_arg14
  let main_cst_26 : FVec F S_ .f32 := constant S_ .f32 0x7F800000#32
  let main_v70 : FVec F S64x64 .f32 := broadcastInDim S64x64 ![] bcast_S_S64x64 main_cst_26
  let main_v71 : IVec S64x64 1 := cmpf .olt main_v69 main_v70
  let main_c_27 : IVec S_ 1 := constantI S_ 1 1#1
  let main_v72 : IVec S_ 1 := (fun x v => Host.reduce IntOp.andi x v reducesTo_S64x64_S_d0_1 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64x4 .f32 := Host.absf main_arg16
  let main_cst_30 : FVec F S_ .f32 := constant S_ .f32 0x7F800000#32
  let main_v80 : FVec F S64x4 .f32 := broadcastInDim S64x4 ![] bcast_S_S64x4 main_cst_30
  let main_v81 : IVec S64x4 1 := cmpf .olt main_v79 main_v80
  let main_c_31 : IVec S_ 1 := constantI S_ 1 1#1
  let main_v82 : IVec S_ 1 := (fun x v => Host.reduce IntOp.andi x v reducesTo_S64x4_S_d0_1 h_S_) main_v81 main_c_31
  let main_v83 : IVec S_ 1 := andi main_v78 main_v82
  let main_v84 : FVec F S4 .f32 := Host.absf main_arg17
  let main_cst_32 : FVec F S_ .f32 := constant S_ .f32 0x7F800000#32
  fn_part5 (F := F) main_arg18 main_arg19 main_arg20 main_arg21 main_arg22 main_arg23 main_v83 main_v84 main_cst_32

def fn_part3 {F : FTy → Type} [FloatOps F] (main_arg11 : FVec F S512x64 .f32) (main_arg12 : FVec F S256x64 .f32) (main_arg13 : FVec F S64 .f32) (main_arg14 : FVec F S64x64 .f32) (main_arg15 : FVec F S64 .f32) (main_arg16 : FVec F S64x4 .f32) (main_arg17 : FVec F S4 .f32) (main_arg18 : FVec F S256x64 .f32) (main_arg19 : FVec F S64 .f32) (main_arg20 : FVec F S64x64 .f32) (main_arg21 : FVec F S64 .f32) (main_arg22 : FVec F S64x2 .f32) (main_arg23 : FVec F S2 .f32) (main_v48 : IVec S_ 1) (main_v49 : FVec F S512x64 .f32) (main_v50 : FVec F S512x64 .f32) : IVec S_ 1 :=
  let main_v51 : IVec S512x64 1 := cmpf .olt main_v49 main_v50
  let main_c_19 : IVec S_ 1 := constantI S_ 1 1#1
  let main_v52 : IVec S_ 1 := (fun x v => Host.reduce IntOp.andi x v reducesTo_S512x64_S_d0_1 h_S_) main_v51 main_c_19
  let main_v53 : IVec S_ 1 := andi main_v48 main_v52
  let main_v54 : FVec F S512x64 .f32 := Host.absf main_arg11
  let main_cst_20 : FVec F S_ .f32 := constant S_ .f32 0x7F800000#32
  let main_v55 : FVec F S512x64 .f32 := broadcastInDim S512x64 ![] bcast_S_S512x64 main_cst_20
  let main_v56 : IVec S512x64 1 := cmpf .olt main_v54 main_v55
  let main_c_21 : IVec S_ 1 := constantI S_ 1 1#1
  let main_v57 : IVec S_ 1 := (fun x v => Host.reduce IntOp.andi x v reducesTo_S512x64_S_d0_1 h_S_) main_v56 main_c_21
  let main_v58 : IVec S_ 1 := andi main_v53 main_v57
  let main_v59 : FVec F S256x64 .f32 := Host.absf main_arg12
  let main_cst_22 : FVec F S_ .f32 := constant S_ .f32 0x7F800000#32
  let main_v60 : FVec F S256x64 .f32 := broadcastInDim S256x64 ![] bcast_S_S256x64 main_cst_22
  let main_v61 : IVec S256x64 1 := cmpf .olt main_v59 main_v60
  let main_c_23 : IVec S_ 1 := constantI S_ 1 1#1
  let main_v62 : IVec S_ 1 := (fun x v => Host.reduce IntOp.andi x v reducesTo_S256x64_S_d0_1 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg21 main_arg22 main_arg23 main_v63 main_v67

def fn_part2 {F : FTy → Type} [FloatOps F] (main_arg7 : FVec F S64 .f32) (main_arg8 : FVec F S512x64 .f32) (main_arg9 : FVec F S512x64 .f32) (main_arg10 : FVec F S512x64 .f32) (main_arg11 : FVec F S512x64 .f32) (main_arg12 : FVec F S256x64 .f32) (main_arg13 : FVec F S64 .f32) (main_arg14 : FVec F S64x64 .f32) (main_arg15 : FVec F S64 .f32) (main_arg16 : FVec F S64x4 .f32) (main_arg17 : FVec F S4 .f32) (main_arg18 : FVec F S256x64 .f32) (main_arg19 : FVec F S64 .f32) (main_arg20 : FVec F S64x64 .f32) (main_arg21 : FVec F S64 .f32) (main_arg22 : FVec F S64x2 .f32) (main_arg23 : FVec F S2 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S512x64 .f32 := Host.absf main_arg8
  let main_cst_14 : FVec F S_ .f32 := constant S_ .f32 0x7F800000#32
  let main_v40 : FVec F S512x64 .f32 := broadcastInDim S512x64 ![] bcast_S_S512x64 main_cst_14
  let main_v41 : IVec S512x64 1 := cmpf .olt main_v39 main_v40
  let main_c_15 : IVec S_ 1 := constantI S_ 1 1#1
  let main_v42 : IVec S_ 1 := (fun x v => Host.reduce IntOp.andi x v reducesTo_S512x64_S_d0_1 h_S_) main_v41 main_c_15
  let main_v43 : IVec S_ 1 := andi main_v38 main_v42
  let main_v44 : FVec F S512x64 .f32 := Host.absf main_arg9
  let main_cst_16 : FVec F S_ .f32 := constant S_ .f32 0x7F800000#32
  let main_v45 : FVec F S512x64 .f32 := broadcastInDim S512x64 ![] bcast_S_S512x64 main_cst_16
  let main_v46 : IVec S512x64 1 := cmpf .olt main_v44 main_v45
  let main_c_17 : IVec S_ 1 := constantI S_ 1 1#1
  let main_v47 : IVec S_ 1 := (fun x v => Host.reduce IntOp.andi x v reducesTo_S512x64_S_d0_1 h_S_) main_v46 main_c_17
  let main_v48 : IVec S_ 1 := andi main_v43 main_v47
  let main_v49 : FVec F S512x64 .f32 := Host.absf main_arg10
  let main_cst_18 : FVec F S_ .f32 := constant S_ .f32 0x7F800000#32
  let main_v50 : FVec F S512x64 .f32 := broadcastInDim S512x64 ![] bcast_S_S512x64 main_cst_18
  fn_part3 (F := F) main_arg11 main_arg12 main_arg13 main_arg14 main_arg15 main_arg16 main_arg17 main_arg18 main_arg19 main_arg20 main_arg21 main_arg22 main_arg23 main_v48 main_v49 main_v50

def fn_part1 {F : FTy → Type} [FloatOps F] (main_arg4 : FVec F S6x64x64 .f32) (main_arg5 : FVec F S64 .f32) (main_arg6 : FVec F S6x64x64 .f32) (main_arg7 : FVec F S64 .f32) (main_arg8 : FVec F S512x64 .f32) (main_arg9 : FVec F S512x64 .f32) (main_arg10 : FVec F S512x64 .f32) (main_arg11 : FVec F S512x64 .f32) (main_arg12 : FVec F S256x64 .f32) (main_arg13 : FVec F S64 .f32) (main_arg14 : FVec F S64x64 .f32) (main_arg15 : FVec F S64 .f32) (main_arg16 : FVec F S64x4 .f32) (main_arg17 : FVec F S4 .f32) (main_arg18 : FVec F S256x64 .f32) (main_arg19 : FVec F S64 .f32) (main_arg20 : FVec F S64x64 .f32) (main_arg21 : FVec F S64 .f32) (main_arg22 : FVec F S64x2 .f32) (main_arg23 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S6x64x64 .f32 := Host.absf main_arg4
  let main_cst_6 : FVec F S_ .f32 := constant S_ .f32 0x7F800000#32
  let main_v20 : FVec F S6x64x64 .f32 := broadcastInDim S6x64x64 ![] bcast_S_S6x64x64 main_cst_6
  let main_v21 : IVec S6x64x64 1 := cmpf .olt main_v19 main_v20
  let main_c_7 : IVec S_ 1 := constantI S_ 1 1#1
  let main_v22 : IVec S_ 1 := (fun x v => Host.reduce IntOp.andi x v reducesTo_S6x64x64_S_d0_1_2 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S6x64x64 .f32 := Host.absf main_arg6
  let main_cst_10 : FVec F S_ .f32 := constant S_ .f32 0x7F800000#32
  let main_v30 : FVec F S6x64x64 .f32 := broadcastInDim S6x64x64 ![] bcast_S_S6x64x64 main_cst_10
  let main_v31 : IVec S6x64x64 1 := cmpf .olt main_v29 main_v30
  let main_c_11 : IVec S_ 1 := constantI S_ 1 1#1
  let main_v32 : IVec S_ 1 := (fun x v => Host.reduce IntOp.andi x v reducesTo_S6x64x64_S_d0_1_2 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_arg23 main_v33

def fn {F : FTy → Type} [FloatOps F] (main_arg0 : FVec F S64x512x512 .f32) (main_arg1 : FVec F S64x512x512 .f32) (main_arg2 : FVec F S6x512x64 .f32) (main_arg3 : FVec F S64 .f32) (main_arg4 : FVec F S6x64x64 .f32) (main_arg5 : FVec F S64 .f32) (main_arg6 : FVec F S6x64x64 .f32) (main_arg7 : FVec F S64 .f32) (main_arg8 : FVec F S512x64 .f32) (main_arg9 : FVec F S512x64 .f32) (main_arg10 : FVec F S512x64 .f32) (main_arg11 : FVec F S512x64 .f32) (main_arg12 : FVec F S256x64 .f32) (main_arg13 : FVec F S64 .f32) (main_arg14 : FVec F S64x64 .f32) (main_arg15 : FVec F S64 .f32) (main_arg16 : FVec F S64x4 .f32) (main_arg17 : FVec F S4 .f32) (main_arg18 : FVec F S256x64 .f32) (main_arg19 : FVec F S64 .f32) (main_arg20 : FVec F S64x64 .f32) (main_arg21 : FVec F S64 .f32) (main_arg22 : FVec F S64x2 .f32) (main_arg23 : FVec F S2 .f32) : IVec S_ 1 :=
  let main_v0 : FVec F S64x512x512 .f32 := Host.absf main_arg0
  let main_cst : FVec F S_ .f32 := constant S_ .f32 0x7F800000#32
  let main_v1 : FVec F S64x512x512 .f32 := broadcastInDim S64x512x512 ![] bcast_S_S64x512x512 main_cst
  let main_v2 : IVec S64x512x512 1 := cmpf .olt main_v0 main_v1
  let main_c : IVec S_ 1 := constantI S_ 1 1#1
  let main_v3 : IVec S_ 1 := (fun x v => Host.reduce IntOp.andi x v reducesTo_S64x512x512_S_d0_1_2 h_S_) main_v2 main_c
  let main_v4 : FVec F S64x512x512 .f32 := Host.absf main_arg1
  let main_cst_0 : FVec F S_ .f32 := constant S_ .f32 0x7F800000#32
  let main_v5 : FVec F S64x512x512 .f32 := broadcastInDim S64x512x512 ![] bcast_S_S64x512x512 main_cst_0
  let main_v6 : IVec S64x512x512 1 := cmpf .olt main_v4 main_v5
  let main_c_1 : IVec S_ 1 := constantI S_ 1 1#1
  let main_v7 : IVec S_ 1 := (fun x v => Host.reduce IntOp.andi x v reducesTo_S64x512x512_S_d0_1_2 h_S_) main_v6 main_c_1
  let main_v8 : IVec S_ 1 := andi main_v3 main_v7
  let main_v9 : FVec F S6x512x64 .f32 := Host.absf main_arg2
  let main_cst_2 : FVec F S_ .f32 := constant S_ .f32 0x7F800000#32
  let main_v10 : FVec F S6x512x64 .f32 := broadcastInDim S6x512x64 ![] bcast_S_S6x512x64 main_cst_2
  let main_v11 : IVec S6x512x64 1 := cmpf .olt main_v9 main_v10
  let main_c_3 : IVec S_ 1 := constantI S_ 1 1#1
  let main_v12 : IVec S_ 1 := (fun x v => Host.reduce IntOp.andi x v reducesTo_S6x512x64_S_d0_1_2 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_arg23 main_v13 main_v16
-- ==== Kernel.lean ====
abbrev S64x512x512 : Shape := ⟨3, ![64, 512, 512]⟩
abbrev S6x512x64 : Shape := ⟨3, ![6, 512, 64]⟩
abbrev S64 : Shape := ⟨1, ![64]⟩
abbrev S6x64x64 : Shape := ⟨3, ![6, 64, 64]⟩
abbrev S512x64 : Shape := ⟨2, ![512, 64]⟩
abbrev S256x64 : Shape := ⟨2, ![256, 64]⟩
abbrev S64x64 : Shape := ⟨2, ![64, 64]⟩
abbrev S64x4 : Shape := ⟨2, ![64, 4]⟩
abbrev S4 : Shape := ⟨1, ![4]⟩
abbrev S64x2 : Shape := ⟨2, ![64, 2]⟩
abbrev S2 : Shape := ⟨1, ![2]⟩
abbrev S64x1x256 : Shape := ⟨3, ![64, 1, 256]⟩
abbrev S1x512x512 : Shape := ⟨3, ![1, 512, 512]⟩
abbrev S1x1x256 : Shape := ⟨3, ![1, 1, 256]⟩
abbrev S512x512 : Shape := ⟨2, ![512, 512]⟩
abbrev S1x512x64 : Shape := ⟨3, ![1, 512, 64]⟩
abbrev S1x64 : Shape := ⟨2, ![1, 64]⟩
abbrev S512 : Shape := ⟨1, ![512]⟩
abbrev S512x1 : Shape := ⟨2, ![512, 1]⟩
abbrev S1 : Shape := ⟨1, ![1]⟩
abbrev S1x1 : Shape := ⟨2, ![1, 1]⟩
abbrev S1x64x64 : Shape := ⟨3, ![1, 64, 64]⟩
abbrev S1x1x64 : Shape := ⟨3, ![1, 1, 64]⟩
abbrev S64x512 : Shape := ⟨2, ![64, 512]⟩
abbrev S64x256 : Shape := ⟨2, ![64, 256]⟩
abbrev S_ : Shape := ⟨0, ![]⟩
abbrev S1x4 : Shape := ⟨2, ![1, 4]⟩
abbrev S1x2 : Shape := ⟨2, ![1, 2]⟩
abbrev S64x1 : Shape := ⟨2, ![64, 1]⟩

abbrev nBuf : Space → Nat
  | .hbm => 102
  | .vmem => 18
  | .smem => 0
  | _ => 0

abbrev bufTy : (tb : Table) → Fin (tcTables nBuf tb) → BufTy
  | .hbm, ⟨0, _⟩ => ⟨S64x512x512, .f32⟩
  | .hbm, ⟨1, _⟩ => ⟨S64x512x512, .f32⟩
  | .hbm, ⟨2, _⟩ => ⟨S6x512x64, .f32⟩
  | .hbm, ⟨3, _⟩ => ⟨S64, .f32⟩
  | .hbm, ⟨4, _⟩ => ⟨S6x64x64, .f32⟩
  | .hbm, ⟨5, _⟩ => ⟨S64, .f32⟩
  | .hbm, ⟨6, _⟩ => ⟨S6x64x64, .f32⟩
  | .hbm, ⟨7, _⟩ => ⟨S64, .f32⟩
  | .hbm, ⟨8, _⟩ => ⟨S512x64, .f32⟩
  | .hbm, ⟨9, _⟩ => ⟨S512x64, .f32⟩
  | .hbm, ⟨10, _⟩ => ⟨S512x64, .f32⟩
  | .hbm, ⟨11, _⟩ => ⟨S512x64, .f32⟩
  | .hbm, ⟨12, _⟩ => ⟨S256x64, .f32⟩
  | .hbm, ⟨13, _⟩ => ⟨S64, .f32⟩
  | .hbm, ⟨14, _⟩ => ⟨S64x64, .f32⟩
  | .hbm, ⟨15, _⟩ => ⟨S64, .f32⟩
  | .hbm, ⟨16, _⟩ => ⟨S64x4, .f32⟩
  | .hbm, ⟨17, _⟩ => ⟨S4, .f32⟩
  | .hbm, ⟨18, _⟩ => ⟨S256x64, .f32⟩
  | .hbm, ⟨19, _⟩ => ⟨S64, .f32⟩
  | .hbm, ⟨20, _⟩ => ⟨S64x64, .f32⟩
  | .hbm, ⟨21, _⟩ => ⟨S64, .f32⟩
  | .hbm, ⟨22, _⟩ => ⟨S64x2, .f32⟩
  | .hbm, ⟨23, _⟩ => ⟨S2, .f32⟩
  | .hbm, ⟨24, _⟩ => ⟨S64x512x512, .f32⟩
  | .hbm, ⟨25, _⟩ => ⟨S64x1x256, .f32⟩
  | .hbm, ⟨26, _⟩ => ⟨S64x256, .f32⟩
  | .hbm, ⟨27, _⟩ => ⟨S64x64, .f32⟩
  | .hbm, ⟨28, _⟩ => ⟨S1x64, .f32⟩
  | .hbm, ⟨29, _⟩ => ⟨S64x64, .f32⟩
  | .hbm, ⟨30, _⟩ => ⟨S64x64, .f32⟩
  | .hbm, ⟨31, _⟩ => ⟨S_, .f32⟩
  | .hbm, ⟨32, _⟩ => ⟨S64x64, .f32⟩
  | .hbm, ⟨33, _⟩ => ⟨S64x64, .i1⟩
  | .hbm, ⟨34, _⟩ => ⟨S_, .f32⟩
  | .hbm, ⟨35, _⟩ => ⟨S64x64, .f32⟩
  | .hbm, ⟨36, _⟩ => ⟨S64x64, .f32⟩
  | .hbm, ⟨37, _⟩ => ⟨S64x64, .f32⟩
  | .hbm, ⟨38, _⟩ => ⟨S64x64, .f32⟩
  | .hbm, ⟨39, _⟩ => ⟨S1x64, .f32⟩
  | .hbm, ⟨40, _⟩ => ⟨S64x64, .f32⟩
  | .hbm, ⟨41, _⟩ => ⟨S64x64, .f32⟩
  | .hbm, ⟨42, _⟩ => ⟨S_, .f32⟩
  | .hbm, ⟨43, _⟩ => ⟨S64x64, .f32⟩
  | .hbm, ⟨44, _⟩ => ⟨S64x64, .i1⟩
  | .hbm, ⟨45, _⟩ => ⟨S_, .f32⟩
  | .hbm, ⟨46, _⟩ => ⟨S64x64, .f32⟩
  | .hbm, ⟨47, _⟩ => ⟨S64x64, .f32⟩
  | .hbm, ⟨48, _⟩ => ⟨S64x64, .f32⟩
  | .hbm, ⟨49, _⟩ => ⟨S64x4, .f32⟩
  | .hbm, ⟨50, _⟩ => ⟨S1x4, .f32⟩
  | .hbm, ⟨51, _⟩ => ⟨S64x4, .f32⟩
  | .hbm, ⟨52, _⟩ => ⟨S64x4, .f32⟩
  | .hbm, ⟨53, _⟩ => ⟨S64x4, .f32⟩
  | .hbm, ⟨54, _⟩ => ⟨S64x4, .f32⟩
  | .hbm, ⟨55, _⟩ => ⟨S_, .f32⟩
  | .hbm, ⟨56, _⟩ => ⟨S64x4, .f32⟩
  | .hbm, ⟨57, _⟩ => ⟨S64x4, .f32⟩
  | .hbm, ⟨58, _⟩ => ⟨S_, .f32⟩
  | .hbm, ⟨59, _⟩ => ⟨S64x4, .f32⟩
  | .hbm, ⟨60, _⟩ => ⟨S64x4, .f32⟩
  | .hbm, ⟨61, _⟩ => ⟨S64x64, .f32⟩
  | .hbm, ⟨62, _⟩ => ⟨S1x64, .f32⟩
  | .hbm, ⟨63, _⟩ => ⟨S64x64, .f32⟩
  | .hbm, ⟨64, _⟩ => ⟨S64x64, .f32⟩
  | .hbm, ⟨65, _⟩ => ⟨S_, .f32⟩
  | .hbm, ⟨66, _⟩ => ⟨S64x64, .f32⟩
  | .hbm, ⟨67, _⟩ => ⟨S64x64, .i1⟩
  | .hbm, ⟨68, _⟩ => ⟨S_, .f32⟩
  | .hbm, ⟨69, _⟩ => ⟨S64x64, .f32⟩
  | .hbm, ⟨70, _⟩ => ⟨S64x64, .f32⟩
  | .hbm, ⟨71, _⟩ => ⟨S64x64, .f32⟩
  | .hbm, ⟨72, _⟩ => ⟨S64x64, .f32⟩
  | .hbm, ⟨73, _⟩ => ⟨S1x64, .f32⟩
  | .hbm, ⟨74, _⟩ => ⟨S64x64, .f32⟩
  | .hbm, ⟨75, _⟩ => ⟨S64x64, .f32⟩
  | .hbm, ⟨76, _⟩ => ⟨S_, .f32⟩
  | .hbm, ⟨77, _⟩ => ⟨S64x64, .f32⟩
  | .hbm, ⟨78, _⟩ => ⟨S64x64, .i1⟩
  | .hbm, ⟨79, _⟩ => ⟨S_, .f32⟩
  | .hbm, ⟨80, _⟩ => ⟨S64x64, .f32⟩
  | .hbm, ⟨81, _⟩ => ⟨S64x64, .f32⟩
  | .hbm, ⟨82, _⟩ => ⟨S64x64, .f32⟩
  | .hbm, ⟨83, _⟩ => ⟨S64x2, .f32⟩
  | .hbm, ⟨84, _⟩ => ⟨S1x2, .f32⟩
  | .hbm, ⟨85, _⟩ => ⟨S64x2, .f32⟩
  | .hbm, ⟨86, _⟩ => ⟨S64x2, .f32⟩
  | .hbm, ⟨87, _⟩ => ⟨S_, .f32⟩
  | .hbm, ⟨88, _⟩ => ⟨S64, .f32⟩
  | .hbm, ⟨89, _⟩ => ⟨S_, .f32⟩
  | .hbm, ⟨90, _⟩ => ⟨S64, .f32⟩
  | .hbm, ⟨91, _⟩ => ⟨S64, .f32⟩
  | .hbm, ⟨92, _⟩ => ⟨S64x1, .f32⟩
  | .hbm, ⟨93, _⟩ => ⟨S64x2, .f32⟩
  | .hbm, ⟨94, _⟩ => ⟨S64x2, .f32⟩
  | .hbm, ⟨95, _⟩ => ⟨S64x2, .f32⟩
  | .hbm, ⟨96, _⟩ => ⟨S_, .f32⟩
  | .hbm, ⟨97, _⟩ => ⟨S64, .f32⟩
  | .hbm, ⟨98, _⟩ => ⟨S64x1, .f32⟩
  | .hbm, ⟨99, _⟩ => ⟨S64x1, .f32⟩
  | .hbm, ⟨100, _⟩ => ⟨S64x2, .f32⟩
  | .hbm, ⟨101, _⟩ => ⟨S64x2, .f32⟩
  | .local _ .vmem, ⟨0, _⟩ => ⟨S1x512x512, .f32⟩
  | .local _ .vmem, ⟨1, _⟩ => ⟨S1x512x512, .f32⟩
  | .local _ .vmem, ⟨2, _⟩ => ⟨S1x512x512, .f32⟩
  | .local _ .vmem, ⟨3, _⟩ => ⟨S1x512x512, .f32⟩
  | .local _ .vmem, ⟨4, _⟩ => ⟨S6x512x64, .f32⟩
  | .local _ .vmem, ⟨5, _⟩ => ⟨S64, .f32⟩
  | .local _ .vmem, ⟨6, _⟩ => ⟨S6x64x64, .f32⟩
  | .local _ .vmem, ⟨7, _⟩ => ⟨S64, .f32⟩
  | .local _ .vmem, ⟨8, _⟩ => ⟨S6x64x64, .f32⟩
  | .local _ .vmem, ⟨9, _⟩ => ⟨S64, .f32⟩
  | .local _ .vmem, ⟨10, _⟩ => ⟨S512x64, .f32⟩
  | .local _ .vmem, ⟨11, _⟩ => ⟨S512x64, .f32⟩
  | .local _ .vmem, ⟨12, _⟩ => ⟨S512x64, .f32⟩
  | .local _ .vmem, ⟨13, _⟩ => ⟨S512x64, .f32⟩
  | .local _ .vmem, ⟨14, _⟩ => ⟨S1x512x512, .f32⟩
  | .local _ .vmem, ⟨15, _⟩ => ⟨S1x512x512, .f32⟩
  | .local _ .vmem, ⟨16, _⟩ => ⟨S1x1x256, .f32⟩
  | .local _ .vmem, ⟨17, _⟩ => ⟨S1x1x256, .f32⟩
  | _, _ => ⟨S64x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0_0 : Ref sig .tc := ⟨.hbm, 24, rfl⟩
abbrev main_v0_1 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5 : Ref sig .tc := ⟨.hbm, 30, rfl⟩
abbrev main_cst : Ref sig .tc := ⟨.hbm, 31, rfl⟩
abbrev main_v6 : Ref sig .tc := ⟨.hbm, 32, rfl⟩
abbrev main_v7 : Ref sig .tc := ⟨.hbm, 33, rfl⟩
abbrev main_cst_0 : Ref sig .tc := ⟨.hbm, 34, rfl⟩
abbrev main_v8 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_cst_1 : Ref sig .tc := ⟨.hbm, 42, rfl⟩
abbrev main_v15 : Ref sig .tc := ⟨.hbm, 43, rfl⟩
abbrev main_v16 : Ref sig .tc := ⟨.hbm, 44, rfl⟩
abbrev main_cst_2 : Ref sig .tc := ⟨.hbm, 45, rfl⟩
abbrev main_v17 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_cst_3 : Ref sig .tc := ⟨.hbm, 55, rfl⟩
abbrev main_v26 : Ref sig .tc := ⟨.hbm, 56, rfl⟩
abbrev main_v27 : Ref sig .tc := ⟨.hbm, 57, rfl⟩
abbrev main_cst_4 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_cst_5 : Ref sig .tc := ⟨.hbm, 65, rfl⟩
abbrev main_v34 : Ref sig .tc := ⟨.hbm, 66, rfl⟩
abbrev main_v35 : Ref sig .tc := ⟨.hbm, 67, rfl⟩
abbrev main_cst_6 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_cst_7 : Ref sig .tc := ⟨.hbm, 76, rfl⟩
abbrev main_v43 : Ref sig .tc := ⟨.hbm, 77, rfl⟩
abbrev main_v44 : Ref sig .tc := ⟨.hbm, 78, rfl⟩
abbrev main_cst_8 : Ref sig .tc := ⟨.hbm, 79, rfl⟩
abbrev main_v45 : Ref sig .tc := ⟨.hbm, 80, rfl⟩
abbrev main_v46 : Ref sig .tc := ⟨.hbm, 81, rfl⟩
abbrev main_v47 : Ref sig .tc := ⟨.hbm, 82, rfl⟩
abbrev main_v48 : Ref sig .tc := ⟨.hbm, 83, rfl⟩
abbrev main_v49 : Ref sig .tc := ⟨.hbm, 84, rfl⟩
abbrev main_v50 : Ref sig .tc := ⟨.hbm, 85, rfl⟩
abbrev main_v51 : Ref sig .tc := ⟨.hbm, 86, rfl⟩
abbrev main_call4_cst : Ref sig .tc := ⟨.hbm, 87, rfl⟩
abbrev main_call4_v0 : Ref sig .tc := ⟨.hbm, 88, rfl⟩
abbrev main_call4_cst_0 : Ref sig .tc := ⟨.hbm, 89, rfl⟩
abbrev main_call4_v1 : Ref sig .tc := ⟨.hbm, 90, rfl⟩
abbrev main_call4_v2 : Ref sig .tc := ⟨.hbm, 91, rfl⟩
abbrev main_call4_v3 : Ref sig .tc := ⟨.hbm, 92, rfl⟩
abbrev main_call4_v4 : Ref sig .tc := ⟨.hbm, 93, rfl⟩
abbrev main_call4_v5 : Ref sig .tc := ⟨.hbm, 94, rfl⟩
abbrev main_call4_v6 : Ref sig .tc := ⟨.hbm, 95, rfl⟩
abbrev main_call4_cst_1 : Ref sig .tc := ⟨.hbm, 96, rfl⟩
abbrev main_call4_v7 : Ref sig .tc := ⟨.hbm, 97, rfl⟩
abbrev main_call4_v8 : Ref sig .tc := ⟨.hbm, 98, rfl⟩
abbrev main_call4_v9 : Ref sig .tc := ⟨.hbm, 99, rfl⟩
abbrev main_call4_v10 : Ref sig .tc := ⟨.hbm, 100, rfl⟩
abbrev main_v52 : Ref sig .tc := ⟨.hbm, 101, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S6x64x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S1x512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S1x1x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

class Facts₀ : Prop where
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  inb_S6x512x64_S6x512x64_0_0_0 : ∀ a, (![0, 0, 0] : Fin 3 → Nat) a + S6x512x64.size a ≤ S6x512x64.size a
  h_S6x512x64 : 0 < S6x512x64.numel
  inb_S64_S64_0 : ∀ a, (![0] : Fin 1 → Nat) a + S64.size a ≤ S64.size a
  h_S64 : 0 < S64.numel
  bitsLt_bf16_f32 : FTy.bits .bf16 < FTy.bits .f32
  slices_S6x512x64_o0_0_0_S1x512x64 : S6x512x64.Slices ![0, 0, 0] S1x512x64
  shapeCasts_S1x512x64_S512x64 : S1x512x64.ShapeCasts S512x64
  slices_S6x512x64_o1_0_0_S1x512x64 : S6x512x64.Slices ![1, 0, 0] S1x512x64
  slices_S6x512x64_o2_0_0_S1x512x64 : S6x512x64.Slices ![2, 0, 0] S1x512x64
  slices_S6x512x64_o3_0_0_S1x512x64 : S6x512x64.Slices ![3, 0, 0] S1x512x64
  slices_S6x512x64_o4_0_0_S1x512x64 : S6x512x64.Slices ![4, 0, 0] S1x512x64
  slices_S6x512x64_o5_0_0_S1x512x64 : S6x512x64.Slices ![5, 0, 0] S1x512x64
  shapeCasts_S64_S1x64 : S64.ShapeCasts S1x64
  broadcasts_S1x64_S512x64 : S1x64.Broadcasts S512x64
  inb_S512x64_S512x64_0_0 : ∀ a, (![0, 0] : Fin 2 → Nat) a + S512x64.size a ≤ S512x64.size a
  h_S512x64 : 0 < S512x64.numel
  reduces_S512x64_S512 : S512x64.Reduces [1] S512
  shapeCasts_S512_S512x1 : S512.ShapeCasts S512x1
  reduces_S512x1_S1 : S512x1.Reduces [0] S1
  shapeCasts_S1_S1x1 : S1.ShapeCasts S1x1
  broadcasts_S1x1_S512x64 : S1x1.Broadcasts S512x64
  reduces_S512x64_S64 : S512x64.Reduces [0] S64
  inb_S6x64x64_S6x64x64_0_0_0 : ∀ a, (![0, 0, 0] : Fin 3 → Nat) a + S6x64x64.size a ≤ S6x64x64.size a
  h_S6x64x64 : 0 < S6x64x64.numel
  slices_S6x64x64_o0_0_0_S1x64x64 : S6x64x64.Slices ![0, 0, 0] S1x64x64
  shapeCasts_S1x64x64_S64x64 : S1x64x64.ShapeCasts S64x64
  slices_S6x64x64_o1_0_0_S1x64x64 : S6x64x64.Slices ![1, 0, 0] S1x64x64
  slices_S6x64x64_o2_0_0_S1x64x64 : S6x64x64.Slices ![2, 0, 0] S1x64x64
  slices_S6x64x64_o3_0_0_S1x64x64 : S6x64x64.Slices ![3, 0, 0] S1x64x64
  slices_S6x64x64_o4_0_0_S1x64x64 : S6x64x64.Slices ![4, 0, 0] S1x64x64
  slices_S6x64x64_o5_0_0_S1x64x64 : S6x64x64.Slices ![5, 0, 0] S1x64x64
  inb_S1x1x256_S1x1x64_0_0_0 : ∀ a, (![0, 0, 0] : Fin 3 → Nat) a + S1x1x64.size a ≤ S1x1x256.size a
  h_S1x1x64 : 0 < S1x1x64.numel
  shapeCasts_S1x1x64_S1x64 : S1x1x64.ShapeCasts S1x64
  shapeCasts_S1x64_S1x1x64 : S1x64.ShapeCasts S1x1x64
  inb_S1x1x256_S1x1x64_0_0_64 : ∀ a, (![0, 0, 64] : Fin 3 → Nat) a + S1x1x64.size a ≤ S1x1x256.size a
  inb_S1x1x256_S1x1x64_0_0_128 : ∀ a, (![0, 0, 128] : Fin 3 → Nat) a + S1x1x64.size a ≤ S1x1x256.size a
  inb_S1x1x256_S1x1x64_0_0_192 : ∀ a, (![0, 0, 192] : Fin 3 → Nat) a + S1x1x64.size a ≤ S1x1x256.size a
  transposes_S512x64_p1_0_S64x512 : S512x64.Transposes [1, 0] S64x512
  iota_S512x512_d0_w32 : S512x512.Iotas .tc 32 [0]
  iota_S512x512_d1_w32 : S512x512.Iotas .tc 32 [1]
  natLt_1_32 : 1 < 32
  transposes_S512x512_p1_0_S512x512 : S512x512.Transposes [1, 0] S512x512
  shapeCasts_S512x512_S1x512x512 : S512x512.ShapeCasts S1x512x512
  shapeCasts_S64x1x256_S64x256 : S64x1x256.ShapeCasts S64x256
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  dot_S512x512_S512x512_S512x512_1_0_0_1_n_n_wf : DotDims.WF S512x512 S512x512 S512x512 [1] [0] [0] [1] [] []
  dot_S512x512_S512x64_S512x64_1_0_0_1_n_n_wf : DotDims.WF S512x512 S512x64 S512x64 [1] [0] [0] [1] [] []
  dot_S512x64_S64x64_S512x64_1_0_0_1_n_n_wf : DotDims.WF S512x64 S64x64 S512x64 [1] [0] [0] [1] [] []
  dot_S512x64_S64x512_S512x512_1_0_0_1_n_n_wf : DotDims.WF S512x64 S64x512 S512x512 [1] [0] [0] [1] [] []
  dot_S64x256_S256x64_S64x64_1_0_0_1_n_n_wf : DotDims.WF S64x256 S256x64 S64x64 [1] [0] [0] [1] [] []
  dot_S64x64_S64x64_S64x64_1_0_0_1_n_n_wf : DotDims.WF S64x64 S64x64 S64x64 [1] [0] [0] [1] [] []
  dot_S64x64_S64x4_S64x4_1_0_0_1_n_n_wf : DotDims.WF S64x64 S64x4 S64x4 [1] [0] [0] [1] [] []
  dot_S64x64_S64x2_S64x2_1_0_0_1_n_n_wf : DotDims.WF S64x64 S64x2 S64x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x512.size a ≤ S64x512x512.size a
  hwx0_0 : ∀ i : grid0.Coords, EltTy.bits .f32 = 32 ∨ (Rect.block (s := S64x512x512) S1x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x512.size a ≤ S64x512x512.size a
  hwx0_1 : ∀ i : grid0.Coords, EltTy.bits .f32 = 32 ∨ (Rect.block (s := S64x512x512) S1x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x512x64.size a ≤ S6x512x64.size a
  hwx0_2 : ∀ i : grid0.Coords, EltTy.bits .f32 = 32 ∨ (Rect.block (s := S6x512x64) S6x512x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64.size a ≤ S64.size a
  hwx0_3 : ∀ i : grid0.Coords, EltTy.bits .f32 = 32 ∨ (Rect.block (s := S64) S64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x64x64.size a ≤ S6x64x64.size a
  hwx0_4 : ∀ i : grid0.Coords, EltTy.bits .f32 = 32 ∨ (Rect.block (s := S6x64x64) S6x64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S6x64x64.size a ≤ S6x64x64.size a
  hwx0_6 : ∀ i : grid0.Coords, EltTy.bits .f32 = 32 ∨ (Rect.block (s := S6x64x64) S6x64x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S64.size a ≤ S64.size a
  hwx0_7 : ∀ i : grid0.Coords, EltTy.bits .f32 = 32 ∨ (Rect.block (s := S64) S64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S512x64.size a ≤ S512x64.size a
  hwx0_8 : ∀ i : grid0.Coords, EltTy.bits .f32 = 32 ∨ (Rect.block (s := S512x64) S512x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S512x64.size a ≤ S512x64.size a
  hwx0_9 : ∀ i : grid0.Coords, EltTy.bits .f32 = 32 ∨ (Rect.block (s := S512x64) S512x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S512x64.size a ≤ S512x64.size a
  hwx0_10 : ∀ i : grid0.Coords, EltTy.bits .f32 = 32 ∨ (Rect.block (s := S512x64) S512x64.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S512x64.size a ≤ S512x64.size a
  hwx0_11 : ∀ i : grid0.Coords, EltTy.bits .f32 = 32 ∨ (Rect.block (s := S512x64) S512x64.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S1x512x512.size a ≤ S64x512x512.size a
  hwx0_12 : ∀ i : grid0.Coords, EltTy.bits .f32 = 32 ∨ (Rect.block (s := S64x512x512) S1x512x512.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S1x1x256.size a ≤ S64x1x256.size a
  hwx0_13 : ∀ i : grid0.Coords, EltTy.bits .f32 = 32 ∨ (Rect.block (s := S64x1x256) S1x1x256.size (cc0_transform_13 i) (hinb0_13 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf
def dot_S512x512_S512x64_S512x64_1_0_0_1_n_n : DotDims S512x512 S512x64 S512x64 where
  lhsContracting := [1]
  rhsContracting := [0]
  lhsNonContracting := [0]
  rhsNonContracting := [1]
  lhsBatch := []
  rhsBatch := []
  wf := dot_S512x512_S512x64_S512x64_1_0_0_1_n_n_wf
def dot_S512x64_S64x64_S512x64_1_0_0_1_n_n : DotDims S512x64 S64x64 S512x64 where
  lhsContracting := [1]
  rhsContracting := [0]
  lhsNonContracting := [0]
  rhsNonContracting := [1]
  lhsBatch := []
  rhsBatch := []
  wf := dot_S512x64_S64x64_S512x64_1_0_0_1_n_n_wf
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x4_S64x4_1_0_0_1_n_n : DotDims S64x64 S64x4 S64x4 where
  lhsContracting := [1]
  rhsContracting := [0]
  lhsNonContracting := [0]
  rhsNonContracting := [1]
  lhsBatch := []
  rhsBatch := []
  wf := dot_S64x64_S64x4_S64x4_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

abbrev win0_0 : Pipeline.Window sig grid0 :=
  Pipeline.Window.ofSpec (Memref.whole main_arg0) S1x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S6x512x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S6x64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S6x64x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S512x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S512x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S512x64.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_arg11) S512x64.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v0_0) S1x512x512.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v0_1) S1x1x256.size cc0_transform_13 reads0_13 true false 2 stage0_13 sem0_13
    hrank0 hreads0_13 hinb0_13 nbuf0_13 (Memref.isWhole_whole _) hwx0_13 hstage0_13

abbrev win0 : Fin 14 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | ⟨_ + 14, h⟩ => absurd h (Nat.not_lt.2 (Nat.le_add_left _ _))
abbrev spec0 : Fin 14 → Pipeline.WinSpec sig grid0.rank := fun w => (win0 w).toWinSpec

class Facts : Prop extends Facts₀ where

variable [Facts]
-- ==== ReferenceIdeal.lean ====
abbrev S64x512x512 : Shape := ⟨3, ![64, 512, 512]⟩
abbrev S6x512x64 : Shape := ⟨3, ![6, 512, 64]⟩
abbrev S64 : Shape := ⟨1, ![64]⟩
abbrev S6x64x64 : Shape := ⟨3, ![6, 64, 64]⟩
abbrev S512x64 : Shape := ⟨2, ![512, 64]⟩
abbrev S256x64 : Shape := ⟨2, ![256, 64]⟩
abbrev S64x64 : Shape := ⟨2, ![64, 64]⟩
abbrev S64x4 : Shape := ⟨2, ![64, 4]⟩
abbrev S4 : Shape := ⟨1, ![4]⟩
abbrev S64x2 : Shape := ⟨2, ![64, 2]⟩
abbrev S2 : Shape := ⟨1, ![2]⟩
abbrev S1x512x64 : Shape := ⟨3, ![1, 512, 64]⟩
abbrev S64x512x64 : Shape := ⟨3, ![64, 512, 64]⟩
abbrev S_ : Shape := ⟨0, ![]⟩
abbrev S1x1x64 : Shape := ⟨3, ![1, 1, 64]⟩
abbrev S64x1x1 : Shape := ⟨3, ![64, 1, 1]⟩
abbrev S64x1x64 : Shape := ⟨3, ![64, 1, 64]⟩
abbrev S64x1x128 : Shape := ⟨3, ![64, 1, 128]⟩
abbrev S1x64x64 : Shape := ⟨3, ![1, 64, 64]⟩
abbrev S64x1x256 : Shape := ⟨3, ![64, 1, 256]⟩
abbrev S512x512 : Shape := ⟨2, ![512, 512]⟩
abbrev S1x512x512 : Shape := ⟨3, ![1, 512, 512]⟩
abbrev S64x256 : Shape := ⟨2, ![64, 256]⟩
abbrev S1x64 : Shape := ⟨2, ![1, 64]⟩
abbrev S1x4 : Shape := ⟨2, ![1, 4]⟩
abbrev S1x2 : Shape := ⟨2, ![1, 2]⟩
abbrev S64x1 : Shape := ⟨2, ![64, 1]⟩

abbrev nBuf : Space → Nat
  | .hbm => 377
  | .vmem => 0
  | .smem => 0
  | _ => 0

abbrev hbmTy0_0 (i : Nat) : BufTy := match i % 128 with
  | 0 => ⟨S64x512x512, .f32⟩
  | 1 => ⟨S64x512x512, .f32⟩
  | 2 => ⟨S6x512x64, .f32⟩
  | 3 => ⟨S64, .f32⟩
  | 4 => ⟨S6x64x64, .f32⟩
  | 5 => ⟨S64, .f32⟩
  | 6 => ⟨S6x64x64, .f32⟩
  | 7 => ⟨S64, .f32⟩
  | 8 => ⟨S512x64, .f32⟩
  | 9 => ⟨S512x64, .f32⟩
  | 10 => ⟨S512x64, .f32⟩
  | 11 => ⟨S512x64, .f32⟩
  | 12 => ⟨S256x64, .f32⟩
  | 13 => ⟨S64, .f32⟩
  | 14 => ⟨S64x64, .f32⟩
  | 15 => ⟨S64, .f32⟩
  | 16 => ⟨S64x4, .f32⟩
  | 17 => ⟨S4, .f32⟩
  | 18 => ⟨S256x64, .f32⟩
  | 19 => ⟨S64, .f32⟩
  | 20 => ⟨S64x64, .f32⟩
  | 21 => ⟨S64, .f32⟩
  | 22 => ⟨S64x2, .f32⟩
  | 23 => ⟨S2, .f32⟩
  | 24 => ⟨S64x512x512, .f32⟩
  | 25 => ⟨S1x512x64, .f32⟩
  | 26 => ⟨S512x64, .f32⟩
  | 27 => ⟨S64x512x64, .f32⟩
  | 28 => ⟨S1x512x64, .f32⟩
  | 29 => ⟨S512x64, .f32⟩
  | 30 => ⟨S64x512x64, .f32⟩
  | 31 => ⟨S64x512x64, .f32⟩
  | 32 => ⟨S64x512x512, .f32⟩
  | 33 => ⟨S_, .f32⟩
  | 34 => ⟨S64x512x512, .f32⟩
  | 35 => ⟨S64x512x512, .f32⟩
  | 36 => ⟨S64x512x512, .f32⟩
  | 37 => ⟨S1x512x64, .f32⟩
  | 38 => ⟨S512x64, .f32⟩
  | 39 => ⟨S64x512x64, .f32⟩
  | 40 => ⟨S64x512x64, .f32⟩
  | 41 => ⟨S64x512x512, .f32⟩
  | 42 => ⟨S_, .f32⟩
  | 43 => ⟨S64x512x512, .f32⟩
  | 44 => ⟨S64x512x512, .f32⟩
  | 45 => ⟨S64x512x512, .f32⟩
  | 46 => ⟨S1x512x64, .f32⟩
  | 47 => ⟨S512x64, .f32⟩
  | 48 => ⟨S64x512x64, .f32⟩
  | 49 => ⟨S64x512x64, .f32⟩
  | 50 => ⟨S64x512x512, .f32⟩
  | 51 => ⟨S_, .f32⟩
  | 52 => ⟨S64x512x512, .f32⟩
  | 53 => ⟨S64x512x512, .f32⟩
  | 54 => ⟨S64x512x512, .f32⟩
  | 55 => ⟨S1x512x64, .f32⟩
  | 56 => ⟨S512x64, .f32⟩
  | 57 => ⟨S64x512x64, .f32⟩
  | 58 => ⟨S64x512x64, .f32⟩
  | 59 => ⟨S64x512x512, .f32⟩
  | 60 => ⟨S_, .f32⟩
  | 61 => ⟨S64x512x512, .f32⟩
  | 62 => ⟨S64x512x512, .f32⟩
  | 63 => ⟨S64x512x512, .f32⟩
  | 64 => ⟨S1x512x64, .f32⟩
  | 65 => ⟨S512x64, .f32⟩
  | 66 => ⟨S64x512x64, .f32⟩
  | 67 => ⟨S64x512x64, .f32⟩
  | 68 => ⟨S1x1x64, .f32⟩
  | 69 => ⟨S64x512x64, .f32⟩
  | 70 => ⟨S64x512x64, .f32⟩
  | 71 => ⟨S_, .f32⟩
  | 72 => ⟨S64, .f32⟩
  | 73 => ⟨S64x1x1, .f32⟩
  | 74 => ⟨S_, .f32⟩
  | 75 => ⟨S64x1x1, .f32⟩
  | 76 => ⟨S64x1x1, .f32⟩
  | 77 => ⟨S_, .i32⟩
  | 78 => ⟨S_, .f32⟩
  | 79 => ⟨S64, .f32⟩
  | 80 => ⟨S64x1x1, .f32⟩
  | 81 => ⟨S_, .f32⟩
  | 82 => ⟨S64x1x1, .f32⟩
  | 83 => ⟨S64x1x1, .f32⟩
  | 84 => ⟨S64x512x64, .f32⟩
  | 85 => ⟨S64x512x64, .f32⟩
  | 86 => ⟨S64x512x64, .f32⟩
  | 87 => ⟨S_, .f32⟩
  | 88 => ⟨S_, .f32⟩
  | 89 => ⟨S_, .f32⟩
  | 90 => ⟨S_, .f32⟩
  | 91 => ⟨S64, .f32⟩
  | 92 => ⟨S64x1x1, .f32⟩
  | 93 => ⟨S64x1x1, .f32⟩
  | 94 => ⟨S64x1x1, .f32⟩
  | 95 => ⟨S_, .f32⟩
  | 96 => ⟨S_, .i1⟩
  | 97 => ⟨S_, .f32⟩
  | 98 => ⟨S_, .f32⟩
  | 99 => ⟨S64x1x1, .f32⟩
  | 100 => ⟨S64x1x1, .f32⟩
  | 101 => ⟨S64x512x64, .f32⟩
  | 102 => ⟨S64x512x64, .f32⟩
  | 103 => ⟨S_, .f32⟩
  | 104 => ⟨S64x1x1, .f32⟩
  | 105 => ⟨S64x1x1, .f32⟩
  | 106 => ⟨S64x1x1, .f32⟩
  | 107 => ⟨S64x512x64, .f32⟩
  | 108 => ⟨S64x512x64, .f32⟩
  | 109 => ⟨S1x512x64, .f32⟩
  | 110 => ⟨S64x512x64, .f32⟩
  | 111 => ⟨S64x512x64, .f32⟩
  | 112 => ⟨S1x512x64, .f32⟩
  | 113 => ⟨S64x512x64, .f32⟩
  | 114 => ⟨S64x512x64, .f32⟩
  | 115 => ⟨S_, .f32⟩
  | 116 => ⟨S64x512x64, .f32⟩
  | 117 => ⟨S64x512x64, .f32⟩
  | 118 => ⟨S_, .f32⟩
  | 119 => ⟨S64x64, .f32⟩
  | 120 => ⟨S64x1x64, .f32⟩
  | 121 => ⟨S_, .f32⟩
  | 122 => ⟨S64x1x64, .f32⟩
  | 123 => ⟨S64x1x64, .f32⟩
  | 124 => ⟨S_, .f32⟩
  | 125 => ⟨S64x64, .f32⟩
  | 126 => ⟨S64x1x64, .f32⟩
  | 127 => ⟨S64x1x128, .f32⟩
  | _ => ⟨S64x512x512, .f32⟩

abbrev hbmTy0_1 (i : Nat) : BufTy := match i % 128 with
  | 0 => ⟨S64x512x64, .f32⟩
  | 1 => ⟨S1x64x64, .f32⟩
  | 2 => ⟨S64x64, .f32⟩
  | 3 => ⟨S64x512x64, .f32⟩
  | 4 => ⟨S1x64x64, .f32⟩
  | 5 => ⟨S64x64, .f32⟩
  | 6 => ⟨S64x512x64, .f32⟩
  | 7 => ⟨S64x512x64, .f32⟩
  | 8 => ⟨S64x512x64, .f32⟩
  | 9 => ⟨S_, .f32⟩
  | 10 => ⟨S64x512x64, .f32⟩
  | 11 => ⟨S64x512x64, .f32⟩
  | 12 => ⟨S64x512x64, .f32⟩
  | 13 => ⟨S1x64x64, .f32⟩
  | 14 => ⟨S64x64, .f32⟩
  | 15 => ⟨S64x512x64, .f32⟩
  | 16 => ⟨S64x512x64, .f32⟩
  | 17 => ⟨S64x512x64, .f32⟩
  | 18 => ⟨S_, .f32⟩
  | 19 => ⟨S64x512x64, .f32⟩
  | 20 => ⟨S64x512x64, .f32⟩
  | 21 => ⟨S64x512x64, .f32⟩
  | 22 => ⟨S1x64x64, .f32⟩
  | 23 => ⟨S64x64, .f32⟩
  | 24 => ⟨S64x512x64, .f32⟩
  | 25 => ⟨S64x512x64, .f32⟩
  | 26 => ⟨S64x512x64, .f32⟩
  | 27 => ⟨S_, .f32⟩
  | 28 => ⟨S64x512x64, .f32⟩
  | 29 => ⟨S64x512x64, .f32⟩
  | 30 => ⟨S64x512x64, .f32⟩
  | 31 => ⟨S1x64x64, .f32⟩
  | 32 => ⟨S64x64, .f32⟩
  | 33 => ⟨S64x512x64, .f32⟩
  | 34 => ⟨S64x512x64, .f32⟩
  | 35 => ⟨S64x512x64, .f32⟩
  | 36 => ⟨S_, .f32⟩
  | 37 => ⟨S64x512x64, .f32⟩
  | 38 => ⟨S64x512x64, .f32⟩
  | 39 => ⟨S64x512x64, .f32⟩
  | 40 => ⟨S1x64x64, .f32⟩
  | 41 => ⟨S64x64, .f32⟩
  | 42 => ⟨S64x512x64, .f32⟩
  | 43 => ⟨S64x512x64, .f32⟩
  | 44 => ⟨S1x1x64, .f32⟩
  | 45 => ⟨S64x512x64, .f32⟩
  | 46 => ⟨S64x512x64, .f32⟩
  | 47 => ⟨S_, .f32⟩
  | 48 => ⟨S64, .f32⟩
  | 49 => ⟨S64x1x1, .f32⟩
  | 50 => ⟨S_, .f32⟩
  | 51 => ⟨S64x1x1, .f32⟩
  | 52 => ⟨S64x1x1, .f32⟩
  | 53 => ⟨S_, .i32⟩
  | 54 => ⟨S_, .f32⟩
  | 55 => ⟨S64, .f32⟩
  | 56 => ⟨S64x1x1, .f32⟩
  | 57 => ⟨S_, .f32⟩
  | 58 => ⟨S64x1x1, .f32⟩
  | 59 => ⟨S64x1x1, .f32⟩
  | 60 => ⟨S64x512x64, .f32⟩
  | 61 => ⟨S64x512x64, .f32⟩
  | 62 => ⟨S64x512x64, .f32⟩
  | 63 => ⟨S_, .f32⟩
  | 64 => ⟨S_, .f32⟩
  | 65 => ⟨S_, .f32⟩
  | 66 => ⟨S_, .f32⟩
  | 67 => ⟨S64, .f32⟩
  | 68 => ⟨S64x1x1, .f32⟩
  | 69 => ⟨S64x1x1, .f32⟩
  | 70 => ⟨S64x1x1, .f32⟩
  | 71 => ⟨S_, .f32⟩
  | 72 => ⟨S_, .i1⟩
  | 73 => ⟨S_, .f32⟩
  | 74 => ⟨S_, .f32⟩
  | 75 => ⟨S64x1x1, .f32⟩
  | 76 => ⟨S64x1x1, .f32⟩
  | 77 => ⟨S64x512x64, .f32⟩
  | 78 => ⟨S64x512x64, .f32⟩
  | 79 => ⟨S_, .f32⟩
  | 80 => ⟨S64x1x1, .f32⟩
  | 81 => ⟨S64x1x1, .f32⟩
  | 82 => ⟨S64x1x1, .f32⟩
  | 83 => ⟨S64x512x64, .f32⟩
  | 84 => ⟨S64x512x64, .f32⟩
  | 85 => ⟨S1x512x64, .f32⟩
  | 86 => ⟨S64x512x64, .f32⟩
  | 87 => ⟨S64x512x64, .f32⟩
  | 88 => ⟨S1x512x64, .f32⟩
  | 89 => ⟨S64x512x64, .f32⟩
  | 90 => ⟨S64x512x64, .f32⟩
  | 91 => ⟨S_, .f32⟩
  | 92 => ⟨S64x512x64, .f32⟩
  | 93 => ⟨S64x512x64, .f32⟩
  | 94 => ⟨S_, .f32⟩
  | 95 => ⟨S64x64, .f32⟩
  | 96 => ⟨S64x1x64, .f32⟩
  | 97 => ⟨S_, .f32⟩
  | 98 => ⟨S64x1x64, .f32⟩
  | 99 => ⟨S64x1x64, .f32⟩
  | 100 => ⟨S_, .f32⟩
  | 101 => ⟨S64x64, .f32⟩
  | 102 => ⟨S64x1x64, .f32⟩
  | 103 => ⟨S64x1x256, .f32⟩
  | 104 => ⟨S64x512x64, .f32⟩
  | 105 => ⟨S1x64x64, .f32⟩
  | 106 => ⟨S64x64, .f32⟩
  | 107 => ⟨S64x512x64, .f32⟩
  | 108 => ⟨S1x64x64, .f32⟩
  | 109 => ⟨S64x64, .f32⟩
  | 110 => ⟨S64x512x64, .f32⟩
  | 111 => ⟨S64x512x64, .f32⟩
  | 112 => ⟨S64x512x64, .f32⟩
  | 113 => ⟨S_, .f32⟩
  | 114 => ⟨S64x512x64, .f32⟩
  | 115 => ⟨S64x512x64, .f32⟩
  | 116 => ⟨S64x512x64, .f32⟩
  | 117 => ⟨S1x64x64, .f32⟩
  | 118 => ⟨S64x64, .f32⟩
  | 119 => ⟨S64x512x64, .f32⟩
  | 120 => ⟨S64x512x64, .f32⟩
  | 121 => ⟨S64x512x64, .f32⟩
  | 122 => ⟨S_, .f32⟩
  | 123 => ⟨S64x512x64, .f32⟩
  | 124 => ⟨S64x512x64, .f32⟩
  | 125 => ⟨S64x512x64, .f32⟩
  | 126 => ⟨S1x64x64, .f32⟩
  | 127 => ⟨S64x64, .f32⟩
  | _ => ⟨S64x512x512, .f32⟩

abbrev hbmTy0_2 (i : Nat) : BufTy := match i % 128 with
  | 0 => ⟨S64x512x64, .f32⟩
  | 1 => ⟨S64x512x64, .f32⟩
  | 2 => ⟨S64x512x64, .f32⟩
  | 3 => ⟨S_, .f32⟩
  | 4 => ⟨S64x512x64, .f32⟩
  | 5 => ⟨S64x512x64, .f32⟩
  | 6 => ⟨S64x512x64, .f32⟩
  | 7 => ⟨S1x64x64, .f32⟩
  | 8 => ⟨S64x64, .f32⟩
  | 9 => ⟨S64x512x64, .f32⟩
  | 10 => ⟨S64x512x64, .f32⟩
  | 11 => ⟨S64x512x64, .f32⟩
  | 12 => ⟨S_, .f32⟩
  | 13 => ⟨S64x512x64, .f32⟩
  | 14 => ⟨S64x512x64, .f32⟩
  | 15 => ⟨S64x512x64, .f32⟩
  | 16 => ⟨S1x64x64, .f32⟩
  | 17 => ⟨S64x64, .f32⟩
  | 18 => ⟨S64x512x64, .f32⟩
  | 19 => ⟨S64x512x64, .f32⟩
  | 20 => ⟨S1x1x64, .f32⟩
  | 21 => ⟨S64x512x64, .f32⟩
  | 22 => ⟨S64x512x64, .f32⟩
  | 23 => ⟨S64x512x512, .f32⟩
  | 24 => ⟨S_, .f32⟩
  | 25 => ⟨S64x512x512, .f32⟩
  | 26 => ⟨S64x512x512, .f32⟩
  | 27 => ⟨S512x512, .i32⟩
  | 28 => ⟨S512x512, .i32⟩
  | 29 => ⟨S_, .i32⟩
  | 30 => ⟨S512x512, .i32⟩
  | 31 => ⟨S512x512, .i32⟩
  | 32 => ⟨S512x512, .i1⟩
  | 33 => ⟨S512x512, .f32⟩
  | 34 => ⟨S_, .f32⟩
  | 35 => ⟨S512x512, .f32⟩
  | 36 => ⟨S512x512, .f32⟩
  | 37 => ⟨S1x512x512, .f32⟩
  | 38 => ⟨S64x512x512, .f32⟩
  | 39 => ⟨S64x512x512, .f32⟩
  | 40 => ⟨S64x512x512, .f32⟩
  | 41 => ⟨S64x512x512, .f32⟩
  | 42 => ⟨S_, .f32⟩
  | 43 => ⟨S64x512x512, .f32⟩
  | 44 => ⟨S64x512x512, .f32⟩
  | 45 => ⟨S64x256, .f32⟩
  | 46 => ⟨S64x64, .f32⟩
  | 47 => ⟨S1x64, .f32⟩
  | 48 => ⟨S64x64, .f32⟩
  | 49 => ⟨S64x64, .f32⟩
  | 50 => ⟨S_, .f32⟩
  | 51 => ⟨S64x64, .f32⟩
  | 52 => ⟨S64x64, .i1⟩
  | 53 => ⟨S_, .f32⟩
  | 54 => ⟨S64x64, .f32⟩
  | 55 => ⟨S64x64, .f32⟩
  | 56 => ⟨S64x64, .f32⟩
  | 57 => ⟨S64x64, .f32⟩
  | 58 => ⟨S1x64, .f32⟩
  | 59 => ⟨S64x64, .f32⟩
  | 60 => ⟨S64x64, .f32⟩
  | 61 => ⟨S_, .f32⟩
  | 62 => ⟨S64x64, .f32⟩
  | 63 => ⟨S64x64, .i1⟩
  | 64 => ⟨S_, .f32⟩
  | 65 => ⟨S64x64, .f32⟩
  | 66 => ⟨S64x64, .f32⟩
  | 67 => ⟨S64x64, .f32⟩
  | 68 => ⟨S64x4, .f32⟩
  | 69 => ⟨S1x4, .f32⟩
  | 70 => ⟨S64x4, .f32⟩
  | 71 => ⟨S64x4, .f32⟩
  | 72 => ⟨S64x4, .f32⟩
  | 73 => ⟨S64x4, .f32⟩
  | 74 => ⟨S_, .f32⟩
  | 75 => ⟨S64x4, .f32⟩
  | 76 => ⟨S64x4, .f32⟩
  | 77 => ⟨S_, .f32⟩
  | 78 => ⟨S64x4, .f32⟩
  | 79 => ⟨S64x4, .f32⟩
  | 80 => ⟨S64x64, .f32⟩
  | 81 => ⟨S1x64, .f32⟩
  | 82 => ⟨S64x64, .f32⟩
  | 83 => ⟨S64x64, .f32⟩
  | 84 => ⟨S_, .f32⟩
  | 85 => ⟨S64x64, .f32⟩
  | 86 => ⟨S64x64, .i1⟩
  | 87 => ⟨S_, .f32⟩
  | 88 => ⟨S64x64, .f32⟩
  | 89 => ⟨S64x64, .f32⟩
  | 90 => ⟨S64x64, .f32⟩
  | 91 => ⟨S64x64, .f32⟩
  | 92 => ⟨S1x64, .f32⟩
  | 93 => ⟨S64x64, .f32⟩
  | 94 => ⟨S64x64, .f32⟩
  | 95 => ⟨S_, .f32⟩
  | 96 => ⟨S64x64, .f32⟩
  | 97 => ⟨S64x64, .i1⟩
  | 98 => ⟨S_, .f32⟩
  | 99 => ⟨S64x64, .f32⟩
  | 100 => ⟨S64x64, .f32⟩
  | 101 => ⟨S64x64, .f32⟩
  | 102 => ⟨S64x2, .f32⟩
  | 103 => ⟨S1x2, .f32⟩
  | 104 => ⟨S64x2, .f32⟩
  | 105 => ⟨S64x2, .f32⟩
  | 106 => ⟨S_, .f32⟩
  | 107 => ⟨S64, .f32⟩
  | 108 => ⟨S_, .f32⟩
  | 109 => ⟨S64, .f32⟩
  | 110 => ⟨S64, .f32⟩
  | 111 => ⟨S64x1, .f32⟩
  | 112 => ⟨S64x2, .f32⟩
  | 113 => ⟨S64x2, .f32⟩
  | 114 => ⟨S64x2, .f32⟩
  | 115 => ⟨S_, .f32⟩
  | 116 => ⟨S64, .f32⟩
  | 117 => ⟨S64x1, .f32⟩
  | 118 => ⟨S64x1, .f32⟩
  | 119 => ⟨S64x2, .f32⟩
  | 120 => ⟨S64x2, .f32⟩
  | _ => ⟨S64x512x512, .f32⟩

abbrev hbmTy (i : Nat) : BufTy := match i / 128 with
  | 0 => hbmTy0_0 i
  | 1 => hbmTy0_1 i
  | 2 => hbmTy0_2 i
  | _ => ⟨S64x512x512, .f32⟩

abbrev bufTy : (tb : Table) → Fin (tcTables nBuf tb) → BufTy
  | .hbm, ⟨i, _⟩ => hbmTy i
  | _, _ => ⟨S64x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_v0 : Ref sig .tc := ⟨.hbm, 24, rfl⟩
abbrev main_v1 : Ref sig .tc := ⟨.hbm, 25, rfl⟩
abbrev main_v2 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_cst : Ref sig .tc := ⟨.hbm, 33, rfl⟩
abbrev main_v9 : Ref sig .tc := ⟨.hbm, 34, rfl⟩
abbrev main_v10 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_cst_0 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_cst_1 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_cst_2 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_cst_3 : Ref sig .tc := ⟨.hbm, 71, rfl⟩
abbrev main_v43 : Ref sig .tc := ⟨.hbm, 72, rfl⟩
abbrev main_v44 : Ref sig .tc := ⟨.hbm, 73, rfl⟩
abbrev main_cst_4 : Ref sig .tc := ⟨.hbm, 74, rfl⟩
abbrev main_v45 : Ref sig .tc := ⟨.hbm, 75, rfl⟩
abbrev main_v46 : Ref sig .tc := ⟨.hbm, 76, rfl⟩
abbrev main_c : Ref sig .tc := ⟨.hbm, 77, rfl⟩
abbrev main_call0_cst : Ref sig .tc := ⟨.hbm, 78, rfl⟩
abbrev main_call0_v0 : Ref sig .tc := ⟨.hbm, 79, rfl⟩
abbrev main_call0_v1 : Ref sig .tc := ⟨.hbm, 80, rfl⟩
abbrev main_call0_cst_0 : Ref sig .tc := ⟨.hbm, 81, rfl⟩
abbrev main_call0_v2 : Ref sig .tc := ⟨.hbm, 82, rfl⟩
abbrev main_call0_v3 : Ref sig .tc := ⟨.hbm, 83, rfl⟩
abbrev main_call0_v4 : Ref sig .tc := ⟨.hbm, 84, rfl⟩
abbrev main_call0_v5 : Ref sig .tc := ⟨.hbm, 85, rfl⟩
abbrev main_call0_v6 : Ref sig .tc := ⟨.hbm, 86, rfl⟩
abbrev main_call0_v7 : Ref sig .tc := ⟨.hbm, 87, rfl⟩
abbrev main_call0_cst_1 : Ref sig .tc := ⟨.hbm, 88, rfl⟩
abbrev main_call0_v8 : Ref sig .tc := ⟨.hbm, 89, rfl⟩
abbrev main_call0_cst_2 : Ref sig .tc := ⟨.hbm, 90, rfl⟩
abbrev main_call0_v9 : Ref sig .tc := ⟨.hbm, 91, rfl⟩
abbrev main_call0_v10 : Ref sig .tc := ⟨.hbm, 92, rfl⟩
abbrev main_call0_v11 : Ref sig .tc := ⟨.hbm, 93, rfl⟩
abbrev main_call0_v12 : Ref sig .tc := ⟨.hbm, 94, rfl⟩
abbrev main_call0_cst_3 : Ref sig .tc := ⟨.hbm, 95, rfl⟩
abbrev main_call0_v13 : Ref sig .tc := ⟨.hbm, 96, rfl⟩
abbrev main_call0_cst_4 : Ref sig .tc := ⟨.hbm, 97, rfl⟩
abbrev main_call0_call0_v0 : Ref sig .tc := ⟨.hbm, 98, rfl⟩
abbrev main_call0_call0_v1 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_cst_5 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54 : Ref sig .tc := ⟨.hbm, 108, rfl⟩
abbrev main_v55 : Ref sig .tc := ⟨.hbm, 109, rfl⟩
abbrev main_v56 : Ref sig .tc := ⟨.hbm, 110, rfl⟩
abbrev main_v57 : Ref sig .tc := ⟨.hbm, 111, rfl⟩
abbrev main_v58 : Ref sig .tc := ⟨.hbm, 112, rfl⟩
abbrev main_v59 : Ref sig .tc := ⟨.hbm, 113, rfl⟩
abbrev main_v60 : Ref sig .tc := ⟨.hbm, 114, rfl⟩
abbrev main_call1_cst : Ref sig .tc := ⟨.hbm, 115, rfl⟩
abbrev main_call1_v0 : Ref sig .tc := ⟨.hbm, 116, rfl⟩
abbrev main_v61 : Ref sig .tc := ⟨.hbm, 117, rfl⟩
abbrev main_cst_6 : Ref sig .tc := ⟨.hbm, 118, rfl⟩
abbrev main_v62 : Ref sig .tc := ⟨.hbm, 119, rfl⟩
abbrev main_v63 : Ref sig .tc := ⟨.hbm, 120, rfl⟩
abbrev main_cst_7 : Ref sig .tc := ⟨.hbm, 121, rfl⟩
abbrev main_v64 : Ref sig .tc := ⟨.hbm, 122, rfl⟩
abbrev main_v65 : Ref sig .tc := ⟨.hbm, 123, rfl⟩
abbrev main_cst_8 : Ref sig .tc := ⟨.hbm, 124, rfl⟩
abbrev main_v66 : Ref sig .tc := ⟨.hbm, 125, rfl⟩
abbrev main_v67 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_cst_9 : Ref sig .tc := ⟨.hbm, 137, rfl⟩
abbrev main_v78 : Ref sig .tc := ⟨.hbm, 138, rfl⟩
abbrev main_v79 : Ref sig .tc := ⟨.hbm, 139, rfl⟩
abbrev main_v80 : Ref sig .tc := ⟨.hbm, 140, rfl⟩
abbrev main_v81 : Ref sig .tc := ⟨.hbm, 141, rfl⟩
abbrev main_v82 : Ref sig .tc := ⟨.hbm, 142, rfl⟩
abbrev main_v83 : Ref sig .tc := ⟨.hbm, 143, rfl⟩
abbrev main_v84 : Ref sig .tc := ⟨.hbm, 144, rfl⟩
abbrev main_v85 : Ref sig .tc := ⟨.hbm, 145, rfl⟩
abbrev main_cst_10 : Ref sig .tc := ⟨.hbm, 146, rfl⟩
abbrev main_v86 : Ref sig .tc := ⟨.hbm, 147, rfl⟩
abbrev main_v87 : Ref sig .tc := ⟨.hbm, 148, rfl⟩
abbrev main_v88 : Ref sig .tc := ⟨.hbm, 149, rfl⟩
abbrev main_v89 : Ref sig .tc := ⟨.hbm, 150, rfl⟩
abbrev main_v90 : Ref sig .tc := ⟨.hbm, 151, rfl⟩
abbrev main_v91 : Ref sig .tc := ⟨.hbm, 152, rfl⟩
abbrev main_v92 : Ref sig .tc := ⟨.hbm, 153, rfl⟩
abbrev main_v93 : Ref sig .tc := ⟨.hbm, 154, rfl⟩
abbrev main_cst_11 : Ref sig .tc := ⟨.hbm, 155, rfl⟩
abbrev main_v94 : Ref sig .tc := ⟨.hbm, 156, rfl⟩
abbrev main_v95 : Ref sig .tc := ⟨.hbm, 157, rfl⟩
abbrev main_v96 : Ref sig .tc := ⟨.hbm, 158, rfl⟩
abbrev main_v97 : Ref sig .tc := ⟨.hbm, 159, rfl⟩
abbrev main_v98 : Ref sig .tc := ⟨.hbm, 160, rfl⟩
abbrev main_v99 : Ref sig .tc := ⟨.hbm, 161, rfl⟩
abbrev main_v100 : Ref sig .tc := ⟨.hbm, 162, rfl⟩
abbrev main_v101 : Ref sig .tc := ⟨.hbm, 163, rfl⟩
abbrev main_cst_12 : Ref sig .tc := ⟨.hbm, 164, rfl⟩
abbrev main_v102 : Ref sig .tc := ⟨.hbm, 165, rfl⟩
abbrev main_v103 : Ref sig .tc := ⟨.hbm, 166, rfl⟩
abbrev main_v104 : Ref sig .tc := ⟨.hbm, 167, rfl⟩
abbrev main_v105 : Ref sig .tc := ⟨.hbm, 168, rfl⟩
abbrev main_v106 : Ref sig .tc := ⟨.hbm, 169, rfl⟩
abbrev main_v107 : Ref sig .tc := ⟨.hbm, 170, rfl⟩
abbrev main_v108 : Ref sig .tc := ⟨.hbm, 171, rfl⟩
abbrev main_v109 : Ref sig .tc := ⟨.hbm, 172, rfl⟩
abbrev main_v110 : Ref sig .tc := ⟨.hbm, 173, rfl⟩
abbrev main_v111 : Ref sig .tc := ⟨.hbm, 174, rfl⟩
abbrev main_cst_13 : Ref sig .tc := ⟨.hbm, 175, rfl⟩
abbrev main_v112 : Ref sig .tc := ⟨.hbm, 176, rfl⟩
abbrev main_v113 : Ref sig .tc := ⟨.hbm, 177, rfl⟩
abbrev main_cst_14 : Ref sig .tc := ⟨.hbm, 178, rfl⟩
abbrev main_v114 : Ref sig .tc := ⟨.hbm, 179, rfl⟩
abbrev main_v115 : Ref sig .tc := ⟨.hbm, 180, rfl⟩
abbrev main_c_15 : Ref sig .tc := ⟨.hbm, 181, rfl⟩
abbrev main_call2_cst : Ref sig .tc := ⟨.hbm, 182, rfl⟩
abbrev main_call2_v0 : Ref sig .tc := ⟨.hbm, 183, rfl⟩
abbrev main_call2_v1 : Ref sig .tc := ⟨.hbm, 184, rfl⟩
abbrev main_call2_cst_0 : Ref sig .tc := ⟨.hbm, 185, rfl⟩
abbrev main_call2_v2 : Ref sig .tc := ⟨.hbm, 186, rfl⟩
abbrev main_call2_v3 : Ref sig .tc := ⟨.hbm, 187, rfl⟩
abbrev main_call2_v4 : Ref sig .tc := ⟨.hbm, 188, rfl⟩
abbrev main_call2_v5 : Ref sig .tc := ⟨.hbm, 189, rfl⟩
abbrev main_call2_v6 : Ref sig .tc := ⟨.hbm, 190, rfl⟩
abbrev main_call2_v7 : Ref sig .tc := ⟨.hbm, 191, rfl⟩
abbrev main_call2_cst_1 : Ref sig .tc := ⟨.hbm, 192, rfl⟩
abbrev main_call2_v8 : Ref sig .tc := ⟨.hbm, 193, rfl⟩
abbrev main_call2_cst_2 : Ref sig .tc := ⟨.hbm, 194, rfl⟩
abbrev main_call2_v9 : Ref sig .tc := ⟨.hbm, 195, rfl⟩
abbrev main_call2_v10 : Ref sig .tc := ⟨.hbm, 196, rfl⟩
abbrev main_call2_v11 : Ref sig .tc := ⟨.hbm, 197, rfl⟩
abbrev main_call2_v12 : Ref sig .tc := ⟨.hbm, 198, rfl⟩
abbrev main_call2_cst_3 : Ref sig .tc := ⟨.hbm, 199, rfl⟩
abbrev main_call2_v13 : Ref sig .tc := ⟨.hbm, 200, rfl⟩
abbrev main_call2_cst_4 : Ref sig .tc := ⟨.hbm, 201, rfl⟩
abbrev main_call2_call0_v0 : Ref sig .tc := ⟨.hbm, 202, rfl⟩
abbrev main_call2_call0_v1 : Ref sig .tc := ⟨.hbm, 203, rfl⟩
abbrev main_v116 : Ref sig .tc := ⟨.hbm, 204, rfl⟩
abbrev main_v117 : Ref sig .tc := ⟨.hbm, 205, rfl⟩
abbrev main_v118 : Ref sig .tc := ⟨.hbm, 206, rfl⟩
abbrev main_cst_16 : Ref sig .tc := ⟨.hbm, 207, rfl⟩
abbrev main_v119 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_v123 : Ref sig .tc := ⟨.hbm, 212, rfl⟩
abbrev main_v124 : Ref sig .tc := ⟨.hbm, 213, rfl⟩
abbrev main_v125 : Ref sig .tc := ⟨.hbm, 214, rfl⟩
abbrev main_v126 : Ref sig .tc := ⟨.hbm, 215, rfl⟩
abbrev main_v127 : Ref sig .tc := ⟨.hbm, 216, rfl⟩
abbrev main_v128 : Ref sig .tc := ⟨.hbm, 217, rfl⟩
abbrev main_v129 : Ref sig .tc := ⟨.hbm, 218, rfl⟩
abbrev main_call3_cst : Ref sig .tc := ⟨.hbm, 219, rfl⟩
abbrev main_call3_v0 : Ref sig .tc := ⟨.hbm, 220, rfl⟩
abbrev main_v130 : Ref sig .tc := ⟨.hbm, 221, rfl⟩
abbrev main_cst_17 : Ref sig .tc := ⟨.hbm, 222, rfl⟩
abbrev main_v131 : Ref sig .tc := ⟨.hbm, 223, rfl⟩
abbrev main_v132 : Ref sig .tc := ⟨.hbm, 224, rfl⟩
abbrev main_cst_18 : Ref sig .tc := ⟨.hbm, 225, rfl⟩
abbrev main_v133 : Ref sig .tc := ⟨.hbm, 226, rfl⟩
abbrev main_v134 : Ref sig .tc := ⟨.hbm, 227, rfl⟩
abbrev main_cst_19 : Ref sig .tc := ⟨.hbm, 228, rfl⟩
abbrev main_v135 : Ref sig .tc := ⟨.hbm, 229, rfl⟩
abbrev main_v136 : Ref sig .tc := ⟨.hbm, 230, rfl⟩
abbrev main_v137 : Ref sig .tc := ⟨.hbm, 231, rfl⟩
abbrev main_v138 : Ref sig .tc := ⟨.hbm, 232, rfl⟩
abbrev main_v139 : Ref sig .tc := ⟨.hbm, 233, rfl⟩
abbrev main_v140 : Ref sig .tc := ⟨.hbm, 234, rfl⟩
abbrev main_v141 : Ref sig .tc := ⟨.hbm, 235, rfl⟩
abbrev main_v142 : Ref sig .tc := ⟨.hbm, 236, rfl⟩
abbrev main_v143 : Ref sig .tc := ⟨.hbm, 237, rfl⟩
abbrev main_v144 : Ref sig .tc := ⟨.hbm, 238, rfl⟩
abbrev main_v145 : Ref sig .tc := ⟨.hbm, 239, rfl⟩
abbrev main_v146 : Ref sig .tc := ⟨.hbm, 240, rfl⟩
abbrev main_cst_20 : Ref sig .tc := ⟨.hbm, 241, rfl⟩
abbrev main_v147 : Ref sig .tc := ⟨.hbm, 242, rfl⟩
abbrev main_v148 : Ref sig .tc := ⟨.hbm, 243, rfl⟩
abbrev main_v149 : Ref sig .tc := ⟨.hbm, 244, rfl⟩
abbrev main_v150 : Ref sig .tc := ⟨.hbm, 245, rfl⟩
abbrev main_v151 : Ref sig .tc := ⟨.hbm, 246, rfl⟩
abbrev main_v152 : Ref sig .tc := ⟨.hbm, 247, rfl⟩
abbrev main_v153 : Ref sig .tc := ⟨.hbm, 248, rfl⟩
abbrev main_v154 : Ref sig .tc := ⟨.hbm, 249, rfl⟩
abbrev main_cst_21 : Ref sig .tc := ⟨.hbm, 250, rfl⟩
abbrev main_v155 : Ref sig .tc := ⟨.hbm, 251, rfl⟩
abbrev main_v156 : Ref sig .tc := ⟨.hbm, 252, rfl⟩
abbrev main_v157 : Ref sig .tc := ⟨.hbm, 253, rfl⟩
abbrev main_v158 : Ref sig .tc := ⟨.hbm, 254, rfl⟩
abbrev main_v159 : Ref sig .tc := ⟨.hbm, 255, rfl⟩
abbrev main_v160 : Ref sig .tc := ⟨.hbm, 256, rfl⟩
abbrev main_v161 : Ref sig .tc := ⟨.hbm, 257, rfl⟩
abbrev main_v162 : Ref sig .tc := ⟨.hbm, 258, rfl⟩
abbrev main_cst_22 : Ref sig .tc := ⟨.hbm, 259, rfl⟩
abbrev main_v163 : Ref sig .tc := ⟨.hbm, 260, rfl⟩
abbrev main_v164 : Ref sig .tc := ⟨.hbm, 261, rfl⟩
abbrev main_v165 : Ref sig .tc := ⟨.hbm, 262, rfl⟩
abbrev main_v166 : Ref sig .tc := ⟨.hbm, 263, rfl⟩
abbrev main_v167 : Ref sig .tc := ⟨.hbm, 264, rfl⟩
abbrev main_v168 : Ref sig .tc := ⟨.hbm, 265, rfl⟩
abbrev main_v169 : Ref sig .tc := ⟨.hbm, 266, rfl⟩
abbrev main_v170 : Ref sig .tc := ⟨.hbm, 267, rfl⟩
abbrev main_cst_23 : Ref sig .tc := ⟨.hbm, 268, rfl⟩
abbrev main_v171 : Ref sig .tc := ⟨.hbm, 269, rfl⟩
abbrev main_v172 : Ref sig .tc := ⟨.hbm, 270, rfl⟩
abbrev main_v173 : Ref sig .tc := ⟨.hbm, 271, rfl⟩
abbrev main_v174 : Ref sig .tc := ⟨.hbm, 272, rfl⟩
abbrev main_v175 : Ref sig .tc := ⟨.hbm, 273, rfl⟩
abbrev main_v176 : Ref sig .tc := ⟨.hbm, 274, rfl⟩
abbrev main_v177 : Ref sig .tc := ⟨.hbm, 275, rfl⟩
abbrev main_v178 : Ref sig .tc := ⟨.hbm, 276, rfl⟩
abbrev main_v179 : Ref sig .tc := ⟨.hbm, 277, rfl⟩
abbrev main_v180 : Ref sig .tc := ⟨.hbm, 278, rfl⟩
abbrev main_v181 : Ref sig .tc := ⟨.hbm, 279, rfl⟩
abbrev main_call4_cst : Ref sig .tc := ⟨.hbm, 280, rfl⟩
abbrev main_call4_v0 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_c_24 : Ref sig .tc := ⟨.hbm, 285, rfl⟩
abbrev main_v185 : Ref sig .tc := ⟨.hbm, 286, rfl⟩
abbrev main_v186 : Ref sig .tc := ⟨.hbm, 287, rfl⟩
abbrev main_v187 : Ref sig .tc := ⟨.hbm, 288, rfl⟩
abbrev main_v188 : Ref sig .tc := ⟨.hbm, 289, rfl⟩
abbrev main_cst_25 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_v193 : Ref sig .tc := ⟨.hbm, 295, rfl⟩
abbrev main_v194 : Ref sig .tc := ⟨.hbm, 296, rfl⟩
abbrev main_v195 : Ref sig .tc := ⟨.hbm, 297, rfl⟩
abbrev main_cst_26 : Ref sig .tc := ⟨.hbm, 298, rfl⟩
abbrev main_v196 : Ref sig .tc := ⟨.hbm, 299, rfl⟩
abbrev main_v197 : Ref sig .tc := ⟨.hbm, 300, rfl⟩
abbrev main_v198 : Ref sig .tc := ⟨.hbm, 301, rfl⟩
abbrev main_v199 : Ref sig .tc := ⟨.hbm, 302, rfl⟩
abbrev main_v200 : Ref sig .tc := ⟨.hbm, 303, rfl⟩
abbrev main_v201 : Ref sig .tc := ⟨.hbm, 304, rfl⟩
abbrev main_v202 : Ref sig .tc := ⟨.hbm, 305, rfl⟩
abbrev main_cst_27 : Ref sig .tc := ⟨.hbm, 306, rfl⟩
abbrev main_v203 : Ref sig .tc := ⟨.hbm, 307, rfl⟩
abbrev main_v204 : Ref sig .tc := ⟨.hbm, 308, rfl⟩
abbrev main_cst_28 : Ref sig .tc := ⟨.hbm, 309, rfl⟩
abbrev main_v205 : Ref sig .tc := ⟨.hbm, 310, rfl⟩
abbrev main_v206 : Ref sig .tc := ⟨.hbm, 311, rfl⟩
abbrev main_v207 : Ref sig .tc := ⟨.hbm, 312, rfl⟩
abbrev main_v208 : Ref sig .tc := ⟨.hbm, 313, rfl⟩
abbrev main_v209 : Ref sig .tc := ⟨.hbm, 314, rfl⟩
abbrev main_v210 : Ref sig .tc := ⟨.hbm, 315, rfl⟩
abbrev main_v211 : Ref sig .tc := ⟨.hbm, 316, rfl⟩
abbrev main_cst_29 : Ref sig .tc := ⟨.hbm, 317, rfl⟩
abbrev main_v212 : Ref sig .tc := ⟨.hbm, 318, rfl⟩
abbrev main_v213 : Ref sig .tc := ⟨.hbm, 319, rfl⟩
abbrev main_cst_30 : Ref sig .tc := ⟨.hbm, 320, rfl⟩
abbrev main_v214 : Ref sig .tc := ⟨.hbm, 321, rfl⟩
abbrev main_v215 : Ref sig .tc := ⟨.hbm, 322, rfl⟩
abbrev main_v216 : Ref sig .tc := ⟨.hbm, 323, rfl⟩
abbrev main_v217 : Ref sig .tc := ⟨.hbm, 324, rfl⟩
abbrev main_v218 : Ref sig .tc := ⟨.hbm, 325, rfl⟩
abbrev main_v219 : Ref sig .tc := ⟨.hbm, 326, rfl⟩
abbrev main_v220 : Ref sig .tc := ⟨.hbm, 327, rfl⟩
abbrev main_v221 : Ref sig .tc := ⟨.hbm, 328, rfl⟩
abbrev main_v222 : Ref sig .tc := ⟨.hbm, 329, rfl⟩
abbrev main_cst_31 : Ref sig .tc := ⟨.hbm, 330, rfl⟩
abbrev main_v223 : Ref sig .tc := ⟨.hbm, 331, rfl⟩
abbrev main_v224 : Ref sig .tc := ⟨.hbm, 332, rfl⟩
abbrev main_cst_32 : Ref sig .tc := ⟨.hbm, 333, rfl⟩
abbrev main_v225 : Ref sig .tc := ⟨.hbm, 334, rfl⟩
abbrev main_v226 : Ref sig .tc := ⟨.hbm, 335, rfl⟩
abbrev main_v227 : Ref sig .tc := ⟨.hbm, 336, rfl⟩
abbrev main_v228 : Ref sig .tc := ⟨.hbm, 337, rfl⟩
abbrev main_v229 : Ref sig .tc := ⟨.hbm, 338, rfl⟩
abbrev main_v230 : Ref sig .tc := ⟨.hbm, 339, rfl⟩
abbrev main_cst_33 : Ref sig .tc := ⟨.hbm, 340, rfl⟩
abbrev main_v231 : Ref sig .tc := ⟨.hbm, 341, rfl⟩
abbrev main_v232 : Ref sig .tc := ⟨.hbm, 342, rfl⟩
abbrev main_cst_34 : Ref sig .tc := ⟨.hbm, 343, rfl⟩
abbrev main_v233 : Ref sig .tc := ⟨.hbm, 344, rfl⟩
abbrev main_v234 : Ref sig .tc := ⟨.hbm, 345, rfl⟩
abbrev main_v235 : Ref sig .tc := ⟨.hbm, 346, rfl⟩
abbrev main_v236 : Ref sig .tc := ⟨.hbm, 347, rfl⟩
abbrev main_v237 : Ref sig .tc := ⟨.hbm, 348, rfl⟩
abbrev main_v238 : Ref sig .tc := ⟨.hbm, 349, rfl⟩
abbrev main_v239 : Ref sig .tc := ⟨.hbm, 350, rfl⟩
abbrev main_cst_35 : Ref sig .tc := ⟨.hbm, 351, rfl⟩
abbrev main_v240 : Ref sig .tc := ⟨.hbm, 352, rfl⟩
abbrev main_v241 : Ref sig .tc := ⟨.hbm, 353, rfl⟩
abbrev main_cst_36 : Ref sig .tc := ⟨.hbm, 354, rfl⟩
abbrev main_v242 : Ref sig .tc := ⟨.hbm, 355, rfl⟩
abbrev main_v243 : Ref sig .tc := ⟨.hbm, 356, rfl⟩
abbrev main_v244 : Ref sig .tc := ⟨.hbm, 357, rfl⟩
abbrev main_v245 : Ref sig .tc := ⟨.hbm, 358, rfl⟩
abbrev main_v246 : Ref sig .tc := ⟨.hbm, 359, rfl⟩
abbrev main_v247 : Ref sig .tc := ⟨.hbm, 360, rfl⟩
abbrev main_v248 : Ref sig .tc := ⟨.hbm, 361, rfl⟩
abbrev main_call9_cst : Ref sig .tc := ⟨.hbm, 362, rfl⟩
abbrev main_call9_v0 : Ref sig .tc := ⟨.hbm, 363, rfl⟩
abbrev main_call9_cst_0 : Ref sig .tc := ⟨.hbm, 364, rfl⟩
abbrev main_call9_v1 : Ref sig .tc := ⟨.hbm, 365, rfl⟩
abbrev main_call9_v2 : Ref sig .tc := ⟨.hbm, 366, rfl⟩
abbrev main_call9_v3 : Ref sig .tc := ⟨.hbm, 367, rfl⟩
abbrev main_call9_v4 : Ref sig .tc := ⟨.hbm, 368, rfl⟩
abbrev main_call9_v5 : Ref sig .tc := ⟨.hbm, 369, rfl⟩
abbrev main_call9_v6 : Ref sig .tc := ⟨.hbm, 370, rfl⟩
abbrev main_call9_cst_1 : Ref sig .tc := ⟨.hbm, 371, rfl⟩
abbrev main_call9_v7 : Ref sig .tc := ⟨.hbm, 372, rfl⟩
abbrev main_call9_v8 : Ref sig .tc := ⟨.hbm, 373, rfl⟩
abbrev main_call9_v9 : Ref sig .tc := ⟨.hbm, 374, rfl⟩
abbrev main_call9_v10 : Ref sig .tc := ⟨.hbm, 375, rfl⟩
abbrev main_v249 : Ref sig .tc := ⟨.hbm, 376, rfl⟩

abbrev nD : Nat := 1
abbrev τ : Topo := Topo.v7x

variable {F : FTy → Type} [FloatOps F]

class Facts₀ : Prop where
  slices_S6x512x64_S1x512x64_0_0_0 : S6x512x64.Slices ![0, 0, 0] S1x512x64
  shapeCasts_S1x512x64_S512x64 : S1x512x64.ShapeCasts S512x64
  slices_S6x512x64_S1x512x64_1_0_0 : S6x512x64.Slices ![1, 0, 0] S1x512x64
  bcast_S_S64x512x512 : S_.BroadcastsInDim S64x512x512 (![] : Fin 0 → Fin S64x512x512.rank)
  slices_S6x512x64_S1x512x64_2_0_0 : S6x512x64.Slices ![2, 0, 0] S1x512x64
  slices_S6x512x64_S1x512x64_3_0_0 : S6x512x64.Slices ![3, 0, 0] S1x512x64
  slices_S6x512x64_S1x512x64_4_0_0 : S6x512x64.Slices ![4, 0, 0] S1x512x64
  slices_S6x512x64_S1x512x64_5_0_0 : S6x512x64.Slices ![5, 0, 0] S1x512x64
  bcast_S64_S1x1x64_2 : S64.BroadcastsInDim S1x1x64 (![2] : Fin 1 → Fin S1x1x64.rank)
  bcast_S1x1x64_S64x512x64_0_1_2 : S1x1x64.BroadcastsInDim S64x512x64 (![0, 1, 2] : Fin 3 → Fin S64x512x64.rank)
  reducesTo_S64x512x64_S64_d1_2 : S64x512x64.ReducesTo [1, 2] S64
  h_S_ : 0 < S_.numel
  bcast_S64_S64x1x1_0 : S64.BroadcastsInDim S64x1x1 (![0] : Fin 1 → Fin S64x1x1.rank)
  bcast_S_S64x1x1 : S_.BroadcastsInDim S64x1x1 (![] : Fin 0 → Fin S64x1x1.rank)
  bcast_S64x1x1_S64x512x64_0_1_2 : S64x1x1.BroadcastsInDim S64x512x64 (![0, 1, 2] : Fin 3 → Fin S64x512x64.rank)
  bcast_S512x64_S1x512x64_1_2 : S512x64.BroadcastsInDim S1x512x64 (![1, 2] : Fin 2 → Fin S1x512x64.rank)
  bcast_S1x512x64_S64x512x64_0_1_2 : S1x512x64.BroadcastsInDim S64x512x64 (![0, 1, 2] : Fin 3 → Fin S64x512x64.rank)
  bcast_S_S64x512x64 : S_.BroadcastsInDim S64x512x64 (![] : Fin 0 → Fin S64x512x64.rank)
  reducesTo_S64x512x64_S64x64_d1 : S64x512x64.ReducesTo [1] S64x64
  bcast_S64x64_S64x1x64_0_2 : S64x64.BroadcastsInDim S64x1x64 (![0, 2] : Fin 2 → Fin S64x1x64.rank)
  bcast_S_S64x1x64 : S_.BroadcastsInDim S64x1x64 (![] : Fin 0 → Fin S64x1x64.rank)
  concatenates_S64x1x64_S64x1x64_S64x1x128_d2 : Shape.Concatenates [S64x1x64, S64x1x64] S64x1x128 2
  slices_S6x64x64_S1x64x64_0_0_0 : S6x64x64.Slices ![0, 0, 0] S1x64x64
  shapeCasts_S1x64x64_S64x64 : S1x64x64.ShapeCasts S64x64
  slices_S6x64x64_S1x64x64_1_0_0 : S6x64x64.Slices ![1, 0, 0] S1x64x64
  slices_S6x64x64_S1x64x64_2_0_0 : S6x64x64.Slices ![2, 0, 0] S1x64x64
  slices_S6x64x64_S1x64x64_3_0_0 : S6x64x64.Slices ![3, 0, 0] S1x64x64
  slices_S6x64x64_S1x64x64_4_0_0 : S6x64x64.Slices ![4, 0, 0] S1x64x64
  slices_S6x64x64_S1x64x64_5_0_0 : S6x64x64.Slices ![5, 0, 0] S1x64x64
  concatenates_S64x1x128_S64x1x64_S64x1x64_S64x1x256_d2 : Shape.Concatenates [S64x1x128, S64x1x64, S64x1x64] S64x1x256 2
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  transposes_S64x512x512_S64x512x512_0_2_1 : S64x512x512.Transposes [0, 2, 1] S64x512x512
  shapeCasts_S64x1x256_S64x256 : S64x1x256.ShapeCasts S64x256
  bcast_S64_S1x64_1 : S64.BroadcastsInDim S1x64 (![1] : Fin 1 → Fin S1x64.rank)
  bcast_S1x64_S64x64_0_1 : S1x64.BroadcastsInDim S64x64 (![0, 1] : Fin 2 → Fin S64x64.rank)
  bcast_S_S64x64 : S_.BroadcastsInDim S64x64 (![] : Fin 0 → Fin S64x64.rank)
  bcast_S4_S1x4_1 : S4.BroadcastsInDim S1x4 (![1] : Fin 1 → Fin S1x4.rank)
  bcast_S1x4_S64x4_0_1 : S1x4.BroadcastsInDim S64x4 (![0, 1] : Fin 2 → Fin S64x4.rank)
  bcast_S_S64x4 : S_.BroadcastsInDim S64x4 (![] : Fin 0 → Fin S64x4.rank)
  bcast_S2_S1x2_1 : S2.BroadcastsInDim S1x2 (![1] : Fin 1 → Fin S1x2.rank)
  bcast_S1x2_S64x2_0_1 : S1x2.BroadcastsInDim S64x2 (![0, 1] : Fin 2 → Fin S64x2.rank)
  reducesTo_S64x2_S64_d1 : S64x2.ReducesTo [1] S64
  bcast_S_S64 : S_.BroadcastsInDim S64 (![] : Fin 0 → Fin S64.rank)
  bcast_S64_S64x1_0 : S64.BroadcastsInDim S64x1 (![0] : Fin 1 → Fin S64x1.rank)
  bcast_S64x1_S64x2_0_1 : S64x1.BroadcastsInDim S64x2 (![0, 1] : Fin 2 → Fin S64x2.rank)
  dot_S64x512x512_S64x512x512_S64x512x512_2_1_1_2_0_0_wf : DotDims.WF S64x512x512 S64x512x512 S64x512x512 [2] [1] [1] [2] [0] [0]
  dot_S64x512x512_S512x64_S64x512x64_2_0_01_1_n_n_wf : DotDims.WF S64x512x512 S512x64 S64x512x64 [2] [0] [0, 1] [1] [] []
  dot_S64x512x512_S64x512x64_S64x512x64_2_1_1_2_0_0_wf : DotDims.WF S64x512x512 S64x512x64 S64x512x64 [2] [1] [1] [2] [0] [0]
  dot_S64x512x64_S64x64_S64x512x64_2_0_01_1_n_n_wf : DotDims.WF S64x512x64 S64x64 S64x512x64 [2] [0] [0, 1] [1] [] []
  dot_S64x512x64_S64x512x64_S64x512x512_2_2_1_1_0_0_wf : DotDims.WF S64x512x64 S64x512x64 S64x512x512 [2] [2] [1] [1] [0] [0]
  dot_S64x256_S256x64_S64x64_1_0_0_1_n_n_wf : DotDims.WF S64x256 S256x64 S64x64 [1] [0] [0] [1] [] []
  dot_S64x64_S64x64_S64x64_1_0_0_1_n_n_wf : DotDims.WF S64x64 S64x64 S64x64 [1] [0] [0] [1] [] []
  dot_S64x64_S64x4_S64x4_1_0_0_1_n_n_wf : DotDims.WF S64x64 S64x4 S64x4 [1] [0] [0] [1] [] []
  dot_S64x64_S64x2_S64x2_1_0_0_1_n_n_wf : DotDims.WF S64x64 S64x2 S64x2 [1] [0] [0] [1] [] []

variable [Facts₀]

def dot_S64x512x512_S64x512x512_S64x512x512_2_1_1_2_0_0 : DotDims S64x512x512 S64x512x512 S64x512x512 where
  lhsContracting := [2]
  rhsContracting := [1]
  lhsNonContracting := [1]
  rhsNonContracting := [2]
  lhsBatch := [0]
  rhsBatch := [0]
  wf := dot_S64x512x512_S64x512x512_S64x512x512_2_1_1_2_0_0_wf
def dot_S64x512x512_S512x64_S64x512x64_2_0_01_1_n_n : DotDims S64x512x512 S512x64 S64x512x64 where
  lhsContracting := [2]
  rhsContracting := [0]
  lhsNonContracting := [0, 1]
  rhsNonContracting := [1]
  lhsBatch := []
  rhsBatch := []
  wf := dot_S64x512x512_S512x64_S64x512x64_2_0_01_1_n_n_wf
def dot_S64x512x512_S64x512x64_S64x512x64_2_1_1_2_0_0 : DotDims S64x512x512 S64x512x64 S64x512x64 where
  lhsContracting := [2]
  rhsContracting := [1]
  lhsNonContracting := [1]
  rhsNonContracting := [2]
  lhsBatch := [0]
  rhsBatch := [0]
  wf := dot_S64x512x512_S64x512x64_S64x512x64_2_1_1_2_0_0_wf
def dot_S64x512x64_S64x64_S64x512x64_2_0_01_1_n_n : DotDims S64x512x64 S64x64 S64x512x64 where
  lhsContracting := [2]
  rhsContracting := [0]
  lhsNonContracting := [0, 1]
  rhsNonContracting := [1]
  lhsBatch := []
  rhsBatch := []
  wf := dot_S64x512x64_S64x64_S64x512x64_2_0_01_1_n_n_wf
def dot_S64x512x64_S64x512x64_S64x512x512_2_2_1_1_0_0 : DotDims S64x512x64 S64x512x64 S64x512x512 where
  lhsContracting := [2]
  rhsContracting := [2]
  lhsNonContracting := [1]
  rhsNonContracting := [1]
  lhsBatch := [0]
  rhsBatch := [0]
  wf := dot_S64x512x64_S64x512x64_S64x512x512_2_2_1_1_0_0_wf
def dot_S64x256_S256x64_S64x64_1_0_0_1_n_n : DotDims S64x256 S256x64 S64x64 where
  lhsContracting := [1]
  rhsContracting := [0]
  lhsNonContracting := [0]
  rhsNonContracting := [1]
  lhsBatch := []
  rhsBatch := []
  wf := dot_S64x256_S256x64_S64x64_1_0_0_1_n_n_wf
def dot_S64x64_S64x64_S64x64_1_0_0_1_n_n : DotDims S64x64 S64x64 S64x64 where
  lhsContracting := [1]
  rhsContracting := [0]
  lhsNonContracting := [0]
  rhsNonContracting := [1]
  lhsBatch := []
  rhsBatch := []
  wf := dot_S64x64_S64x64_S64x64_1_0_0_1_n_n_wf
def dot_S64x64_S64x4_S64x4_1_0_0_1_n_n : DotDims S64x64 S64x4 S64x4 where
  lhsContracting := [1]
  rhsContracting := [0]
  lhsNonContracting := [0]
  rhsNonContracting := [1]
  lhsBatch := []
  rhsBatch := []
  wf := dot_S64x64_S64x4_S64x4_1_0_0_1_n_n_wf
def dot_S64x64_S64x2_S64x2_1_0_0_1_n_n : DotDims S64x64 S64x2 S64x2 where
  lhsContracting := [1]
  rhsContracting := [0]
  lhsNonContracting := [0]
  rhsNonContracting := [1]
  lhsBatch := []
  rhsBatch := []
  wf := dot_S64x64_S64x2_S64x2_1_0_0_1_n_n_wf

class Facts : Prop extends Facts₀ where

variable [Facts]
-- ==== Proof.KFrameData.lean ====
/- The frame certificate of the kernel program, first part: the contents of the arrays when the one region is entered,
   each window's block at a grid point, the rectangles of the body's loads and stores, what the body leaves in the two
   output windows' staging buffers (the canonical form of its stores over the skeleton's payloads of the input blocks),
   and the pipeline's proof data built from them. -/
import proofs.«115478_j10110353015360_2_alg».proof.Proof.Gen.Kernel.Launch
import proofs.«115478_j10110353015360_2_alg».proof.Proof.Gen.Kernel.Skeleton
import proofs.«115478_j10110353015360_2_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per coordinate of the long axes
set_option maxRecDepth 16384

noncomputable section

namespace Cert.Kernel.HFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents when the region is entered -/

/-- Core `c`'s TensorCore buffer contents when the region is entered, as a valuation: no host operation precedes the
    region, so the fold is over the empty list. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev r0_0 : Rect S1x512x512 := Rect.unit (s := S1x512x512) ![0, 0, 0] S1x512x512.size inb_S1x512x512_S1x512x512_0_0_0
abbrev r0_1 : Rect S6x512x64 := Rect.unit (s := S6x512x64) ![0, 0, 0] S6x512x64.size inb_S6x512x64_S6x512x64_0_0_0
abbrev r0_2 : Rect S64 := Rect.unit (s := S64) ![0] S64.size inb_S64_S64_0
abbrev r0_3 : Rect S512x64 := Rect.unit (s := S512x64) ![0, 0] S512x64.size inb_S512x64_S512x64_0_0
abbrev r0_4 : Rect S6x64x64 := Rect.unit (s := S6x64x64) ![0, 0, 0] S6x64x64.size inb_S6x64x64_S6x64x64_0_0_0
abbrev r0_5 : Rect S1x1x256 := Rect.unit (s := S1x1x256) ![0, 0, 0] S1x1x64.size inb_S1x1x256_S1x1x64_0_0_0
abbrev r0_6 : Rect S1x1x256 := Rect.unit (s := S1x1x256) ![0, 0, 64] S1x1x64.size inb_S1x1x256_S1x1x64_0_0_64
abbrev r0_7 : Rect S1x1x256 := Rect.unit (s := S1x1x256) ![0, 0, 128] S1x1x64.size inb_S1x1x256_S1x1x64_0_0_128
abbrev r0_8 : Rect S1x1x256 := Rect.unit (s := S1x1x256) ![0, 0, 192] S1x1x64.size inb_S1x1x256_S1x1x64_0_0_192

/-! ## What the body leaves in each output window's buffer -/

/-- Window 12's staging buffer after the body, from the input windows' blocks: its one store of the whole block, as a
    piece over the skeleton's payloads (the values the body computes on the way are named as the body names them). -/
def out0_12 (x0 : Vec F S1x512x512 .f32) (x1 : Vec F S1x512x512 .f32) (x2 : Vec F S6x512x64 .f32) (x3 : Vec F S64 .f32) (x4 : Vec F S6x64x64 .f32) (x5 : Vec F S64 .f32) (x6 : Vec F S6x64x64 .f32) (x7 : Vec F S64 .f32) (x8 : Vec F S512x64 .f32) (x9 : Vec F S512x64 .f32) (x10 : Vec F S512x64 .f32) (x11 : Vec F S512x64 .f32) : Vec F S1x512x512 .f32 :=
  have v0 : Vec F S1x512x512 .f32 := View.ld x0 r0_0
  have v2 : Vec F S1x512x512 .f32 := View.ld x1 r0_0
  have v4 : Vec F S6x512x64 .f32 := View.ld x2 r0_1
  have v5 : Vec F S64 .f32 := View.ld x3 r0_2
  have cst_16 : FVec F S512x64 .f32 := constant S512x64 .f32 0x00000000#32
  have v1 : FVec F S512x512 .f32 := k0_pay2 v0
  have v6 : FVec F S512x512 .bf16 := k0_pay4 v0
  have v24 : FVec F S512x512 .f32 := k0_pay6 v0 v2
  have v30 : FVec F S512x64 .f32 := k0_pay7 v0 v2 v4
  have v35 : FVec F S512x512 .f32 := k0_pay8 v0 v2
  have v38 : FVec F S512x512 .bf16 := k0_pay9 v0 v2
  have v39 : FVec F S512x64 .bf16 := k0_pay10 v4
  have v67 : Vec F S512x64 .f32 := View.ld x8 r0_3
  have v68 : Vec F S512x64 .f32 := View.ld x9 r0_3
  have v66 : FVec F S512x64 .f32 := k0_pay11 v4 v5 v6 v24 v30 v35 v38 v39 cst_16
  have v74 : FVec F S1x1 .f32 := k0_pay12 v4 v5 v6 v24 v30 v35 v38 v39 cst_16
  have v83 : FVec F S1x1 .f32 := k0_pay13 v4 v5 v6 v24 v30 v35 v38 v39 cst_16
  have v101 : Vec F S6x64x64 .f32 := View.ld x4 r0_4
  have v102 : Vec F S64 .f32 := View.ld x5 r0_2
  have v98 : FVec F S1x64 .f32 := k0_pay15 v66 v67 v68 v74 v83
  have v100 : FVec F S1x64 .f32 := k0_pay16 v66 v67 v68 v74 v83
  have v103 : FVec F S512x512 .bf16 := k0_pay17 v1
  have v105 : FVec F S512x64 .f32 := k0_pay18 v1 v66 v67 v68 v74 v83
  have v121 : FVec F S512x64 .f32 := k0_pay19 v1 v66 v67 v68 v74 v83
  have v127 : FVec F S512x64 .f32 := k0_pay20 v1 v66 v67 v68 v74 v83 v101
  have v128 : FVec F S512x64 .bf16 := k0_pay21 v1 v66 v67 v68 v74 v83
  have v164 : Vec F S512x64 .f32 := View.ld x10 r0_3
  have v165 : Vec F S512x64 .f32 := View.ld x11 r0_3
  have v163 : FVec F S512x64 .f32 := k0_pay22 v101 v102 v103 v105 v121 v127 v128
  have v171 : FVec F S1x1 .f32 := k0_pay23 v101 v102 v103 v105 v121 v127 v128
  have v172 : FVec F S512x64 .f32 := k0_pay24 v101 v102 v103 v105 v121 v127 v128
  have v191 : FVec F S512x64 .f32 := k0_pay25 v163 v164 v165 v171 v172
  have v210 : Vec F S6x64x64 .f32 := View.ld x6 r0_4
  have v211 : Vec F S64 .f32 := View.ld x7 r0_2
  have v212 : FVec F S512x512 .bf16 := k0_pay30 v1
  have v241 : FVec F S512x64 .f32 := k0_pay33 v1 v191
  have v247 : FVec F S512x64 .f32 := k0_pay34 v1 v191 v210
  have v252 : FVec F S512x64 .f32 := k0_pay35 v1 v191
  have v253 : FVec F S1x64x64 .f32 := k0_pay36 v210
  View.canon [⟨r0_0, k0_pay1 v210 v211 v212 v241 v247 v252 v253⟩]

/-- Its store is the whole buffer (checked by evaluation), so it covers it. -/
theorem cover0_12 (p0 : Vec F S1x512x512 .f32) (y : S1x512x512.Idx) :
    ∃ pc ∈ ([⟨r0_0, p0⟩] : List (View.Piece (Elt F) S1x512x512 .f32)), y ∈ pc.1.set :=
  View.cover_of_tiled [⟨r0_0, p0⟩] S1x512x512.size (by rfl) y

/-- Window 13's staging buffer after the body, from the input windows' blocks: its four stores into the lane ranges
    0:64, 64:128, 128:192, 192:256 as pieces, LAST FIRST, over the skeleton's payloads. -/
def out0_13 (x0 : Vec F S1x512x512 .f32) (x1 : Vec F S1x512x512 .f32) (x2 : Vec F S6x512x64 .f32) (x3 : Vec F S64 .f32) (x4 : Vec F S6x64x64 .f32) (x5 : Vec F S64 .f32) (x6 : Vec F S6x64x64 .f32) (x7 : Vec F S64 .f32) (x8 : Vec F S512x64 .f32) (x9 : Vec F S512x64 .f32) (x10 : Vec F S512x64 .f32) (x11 : Vec F S512x64 .f32) : Vec F S1x1x256 .f32 :=
  have v0 : Vec F S1x512x512 .f32 := View.ld x0 r0_0
  have v2 : Vec F S1x512x512 .f32 := View.ld x1 r0_0
  have v4 : Vec F S6x512x64 .f32 := View.ld x2 r0_1
  have v5 : Vec F S64 .f32 := View.ld x3 r0_2
  have cst_16 : FVec F S512x64 .f32 := constant S512x64 .f32 0x00000000#32
  have v1 : FVec F S512x512 .f32 := k0_pay2 v0
  have v6 : FVec F S512x512 .bf16 := k0_pay4 v0
  have v24 : FVec F S512x512 .f32 := k0_pay6 v0 v2
  have v30 : FVec F S512x64 .f32 := k0_pay7 v0 v2 v4
  have v35 : FVec F S512x512 .f32 := k0_pay8 v0 v2
  have v38 : FVec F S512x512 .bf16 := k0_pay9 v0 v2
  have v39 : FVec F S512x64 .bf16 := k0_pay10 v4
  have v67 : Vec F S512x64 .f32 := View.ld x8 r0_3
  have v68 : Vec F S512x64 .f32 := View.ld x9 r0_3
  have v66 : FVec F S512x64 .f32 := k0_pay11 v4 v5 v6 v24 v30 v35 v38 v39 cst_16
  have v74 : FVec F S1x1 .f32 := k0_pay12 v4 v5 v6 v24 v30 v35 v38 v39 cst_16
  have v83 : FVec F S1x1 .f32 := k0_pay13 v4 v5 v6 v24 v30 v35 v38 v39 cst_16
  have v101 : Vec F S6x64x64 .f32 := View.ld x4 r0_4
  have v102 : Vec F S64 .f32 := View.ld x5 r0_2
  have v98 : FVec F S1x64 .f32 := k0_pay15 v66 v67 v68 v74 v83
  have v100 : FVec F S1x64 .f32 := k0_pay16 v66 v67 v68 v74 v83
  have v103 : FVec F S512x512 .bf16 := k0_pay17 v1
  have v105 : FVec F S512x64 .f32 := k0_pay18 v1 v66 v67 v68 v74 v83
  have v121 : FVec F S512x64 .f32 := k0_pay19 v1 v66 v67 v68 v74 v83
  have v127 : FVec F S512x64 .f32 := k0_pay20 v1 v66 v67 v68 v74 v83 v101
  have v128 : FVec F S512x64 .bf16 := k0_pay21 v1 v66 v67 v68 v74 v83
  have v164 : Vec F S512x64 .f32 := View.ld x10 r0_3
  have v165 : Vec F S512x64 .f32 := View.ld x11 r0_3
  have v163 : FVec F S512x64 .f32 := k0_pay22 v101 v102 v103 v105 v121 v127 v128
  have v171 : FVec F S1x1 .f32 := k0_pay23 v101 v102 v103 v105 v121 v127 v128
  have v172 : FVec F S512x64 .f32 := k0_pay24 v101 v102 v103 v105 v121 v127 v128
  View.canon [⟨r0_8, k0_pay29 v163 v164 v165 v171 v172⟩,
    ⟨r0_7, k0_pay28 v163 v164 v165 v171 v172⟩,
    ⟨r0_6, k0_pay27 v100⟩,
    ⟨r0_5, k0_pay26 v98⟩]

/-- Its stores tile the buffer (checked by evaluation), so they cover it. -/
theorem cover0_13 (p0 : Vec F S1x1x64 .f32) (p1 : Vec F S1x1x64 .f32) (p2 : Vec F S1x1x64 .f32) (p3 : Vec F S1x1x64 .f32) (y : S1x1x256.Idx) :
    ∃ pc ∈ ([⟨r0_8, p0⟩, ⟨r0_7, p1⟩, ⟨r0_6, p2⟩, ⟨r0_5, p3⟩] : List (View.Piece (Elt F) S1x1x256 .f32)), y ∈ pc.1.set :=
  View.cover_of_tiled [⟨r0_8, p0⟩, ⟨r0_7, p1⟩, ⟨r0_6, p2⟩, ⟨r0_5, p3⟩] S1x1x64.size (by rfl) y

/-! ## The pipeline's proof data -/

/-- The proof data of the one pipeline on core `c`: the arrays as the region finds them (`V`); after the body at
    point `t` each input's buffer at its block and each output's at `out0_W` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents: the definition projected. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

end Cert.Kernel.HFrame

end
-- ==== Proof.KFrameBody.lean ====
/- The frame certificate of the kernel program, second part: each input window's staging buffer holds its block at
   every point, the body's triple on whole staging buffers (the symbolic run through the six printed parts), and the
   library's body obligation at a generic point. -/
import proofs.«115478_j10110353015360_2_alg».proof.Proof.KFrameData

-- membership in a rectangle of production extents: the elaborator's structural look recurses once per coordinate of the long axes
set_option maxRecDepth 16384

noncomputable section

namespace Cert.Kernel.HFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The inputs' staging buffers -/

/-- Input window 0's current staging buffer holds its block at every point, fetched there or not (unfetched, the
    block index has not moved), for any proof data over the region-entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data over the region-entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data over the region-entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data over the region-entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the
    block index has not moved), for any proof data over the region-entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the
    block index has not moved), for any proof data over the region-entry contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, the
    block index has not moved), for any proof data over the region-entry contents whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, the
    block index has not moved), for any proof data over the region-entry contents whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (unfetched, the
    block index has not moved), for any proof data over the region-entry contents whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (unfetched, the
    block index has not moved), for any proof data over the region-entry contents whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (unfetched, the
    block index has not moved), for any proof data over the region-entry contents whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (unfetched, the
    block index has not moved), for any proof data over the region-entry contents whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

set_option maxHeartbeats 4000000 in
/-- The kernel body on whole staging memrefs, the inputs' at read contents `xW` and the outputs' at anything, runs to
    the continuation holding the inputs' as they were and each output's at `out0_W` of the inputs': the printed functions
    are their skeletons, which the symbolic executor runs through every part call. -/
theorem sound_kernel (c : Dev nD) (E : Set ℕ) (i : grid0.Coords) (arg1 : Memref sig .tc .vmem S1x512x512 .f32) (harg1 : arg1.IsWhole) (arg2 : Memref sig .tc .vmem S1x512x512 .f32) (harg2 : arg2.IsWhole) (arg3 : Memref sig .tc .vmem S6x512x64 .f32) (harg3 : arg3.IsWhole) (arg4 : Memref sig .tc .vmem S64 .f32) (harg4 : arg4.IsWhole) (arg5 : Memref sig .tc .vmem S6x64x64 .f32) (harg5 : arg5.IsWhole) (arg6 : Memref sig .tc .vmem S64 .f32) (harg6 : arg6.IsWhole) (arg7 : Memref sig .tc .vmem S6x64x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S1x512x512 .f32) (harg13 : arg13.IsWhole) (arg14 : Memref sig .tc .vmem S1x1x256 .f32) (harg14 : arg14.IsWhole)
    (x0 : Vec F S1x512x512 .f32) (x1 : Vec F S1x512x512 .f32) (x2 : Vec F S6x512x64 .f32) (x3 : Vec F S64 .f32) (x4 : Vec F S6x64x64 .f32) (x5 : Vec F S64 .f32) (x6 : Vec F S6x64x64 .f32) (x7 : Vec F S64 .f32) (x8 : Vec F S512x64 .f32) (x9 : Vec F S512x64 .f32) (x10 : Vec F S512x64 .f32) (x11 : Vec F S512x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover0_12 _)
  iexists _; isplitr
  swap; · iexact H13
  ipureintro
  try dsimp only
  exact View.read_writes_eq_canon _ _ _ (cover0_13 _ _ _ _)

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1600000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.HFrame

end
-- ==== Proof.KFrameRun.lean ====
/- The frame certificate of the kernel program, third part: @main around its one region (no host operation before it,
   seventy-six after it in ten stretches), what the later operations touch, allocate and write, the argument arrays read
   back, the run of @main and the frame claim's post at any float instance. -/
import proofs.«115478_j10110353015360_2_alg».proof.Proof.KFrameBody

-- membership in a rectangle of production extents: the elaborator's structural look recurses once per coordinate of the long axes
set_option maxRecDepth 16384

noncomputable section

namespace Cert.Kernel.HFrame

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor

set_option maxHeartbeats 4000000 in
/-- @main around the region, at the certificate's variants `𝒱₀`: the region, then the host operations after it: it
    reduces to the region CONTINUED BY the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9]) :=
  Pipeline.hmain_around cfgs 0 defs₀ 𝒱₀ m main [] [hostOps1, hostOps1_1, hostOps1_2, hostOps1_3, hostOps1_4, hostOps1_5, hostOps1_6, hostOps1_7, hostOps1_8, hostOps1_9] (by simp only [List.Forall])
    (by simp only [List.Forall]) main_chain

/-- The operations after the region touch the pipeline's arrays and the bypassing buffers only (each operation's buffers
    are unscoped TensorCore references, and with nothing prefetched every such reference is one or the other). -/
theorem sfx_sub : ∀ ops ∈ ([hostOps1, hostOps1_1, hostOps1_2, hostOps1_3, hostOps1_4, hostOps1_5, hostOps1_6, hostOps1_7, hostOps1_8, hostOps1_9] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
/-- They allocate nothing. -/
theorem sfx_fresh : ∀ ops ∈ ([hostOps1, hostOps1_1, hostOps1_2, hostOps1_3, hostOps1_4, hostOps1_5, hostOps1_6, hostOps1_7, hostOps1_8, hostOps1_9] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop

/-! Each later operation writes only its own result buffer, which is no array of the pipeline: stated per stretch as
    one conjunct per operation, each decided over the fourteen windows at once. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_9_keeps : (hostOps1_9 : List (HloOp τ sig (Elt F))).Forall fun op =>
    ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))

/-- And write no array of the pipeline. -/
theorem sfx_keeps : ∀ ops ∈ ([hostOps1, hostOps1_1, hostOps1_2, hostOps1_3, hostOps1_4, hostOps1_5, hostOps1_6, hostOps1_7, hostOps1_8, hostOps1_9] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop

/-! ## The argument arrays read back -/

/-- No host operation precedes the region: it finds `main_arg0` as launched. -/
theorem V_main_arg0 (c : Dev nD) : V m c main_arg0 = m ((c : Thread nD τ).loc main_arg0) := rfl
/-- No host operation precedes the region: it finds `main_arg1` as launched. -/
theorem V_main_arg1 (c : Dev nD) : V m c main_arg1 = m ((c : Thread nD τ).loc main_arg1) := rfl
/-- No host operation precedes the region: it finds `main_arg2` as launched. -/
theorem V_main_arg2 (c : Dev nD) : V m c main_arg2 = m ((c : Thread nD τ).loc main_arg2) := rfl
/-- No host operation precedes the region: it finds `main_arg3` as launched. -/
theorem V_main_arg3 (c : Dev nD) : V m c main_arg3 = m ((c : Thread nD τ).loc main_arg3) := rfl
/-- No host operation precedes the region: it finds `main_arg4` as launched. -/
theorem V_main_arg4 (c : Dev nD) : V m c main_arg4 = m ((c : Thread nD τ).loc main_arg4) := rfl
/-- No host operation precedes the region: it finds `main_arg5` as launched. -/
theorem V_main_arg5 (c : Dev nD) : V m c main_arg5 = m ((c : Thread nD τ).loc main_arg5) := rfl
/-- No host operation precedes the region: it finds `main_arg6` as launched. -/
theorem V_main_arg6 (c : Dev nD) : V m c main_arg6 = m ((c : Thread nD τ).loc main_arg6) := rfl
/-- No host operation precedes the region: it finds `main_arg7` as launched. -/
theorem V_main_arg7 (c : Dev nD) : V m c main_arg7 = m ((c : Thread nD τ).loc main_arg7) := rfl
/-- No host operation precedes the region: it finds `main_arg8` as launched. -/
theorem V_main_arg8 (c : Dev nD) : V m c main_arg8 = m ((c : Thread nD τ).loc main_arg8) := rfl
/-- No host operation precedes the region: it finds `main_arg9` as launched. -/
theorem V_main_arg9 (c : Dev nD) : V m c main_arg9 = m ((c : Thread nD τ).loc main_arg9) := rfl
/-- No host operation precedes the region: it finds `main_arg10` as launched. -/
theorem V_main_arg10 (c : Dev nD) : V m c main_arg10 = m ((c : Thread nD τ).loc main_arg10) := rfl
/-- No host operation precedes the region: it finds `main_arg11` as launched. -/
theorem V_main_arg11 (c : Dev nD) : V m c main_arg11 = m ((c : Thread nD τ).loc main_arg11) := rfl
/-- No host operation precedes the region: it finds `main_arg12` as launched. -/
theorem V_main_arg12 (c : Dev nD) : V m c main_arg12 = m ((c : Thread nD τ).loc main_arg12) := rfl
/-- No host operation precedes the region: it finds `main_arg13` as launched. -/
theorem V_main_arg13 (c : Dev nD) : V m c main_arg13 = m ((c : Thread nD τ).loc main_arg13) := rfl
/-- No host operation precedes the region: it finds `main_arg14` as launched. -/
theorem V_main_arg14 (c : Dev nD) : V m c main_arg14 = m ((c : Thread nD τ).loc main_arg14) := rfl
/-- No host operation precedes the region: it finds `main_arg15` as launched. -/
theorem V_main_arg15 (c : Dev nD) : V m c main_arg15 = m ((c : Thread nD τ).loc main_arg15) := rfl
/-- No host operation precedes the region: it finds `main_arg16` as launched. -/
theorem V_main_arg16 (c : Dev nD) : V m c main_arg16 = m ((c : Thread nD τ).loc main_arg16) := rfl
/-- No host operation precedes the region: it finds `main_arg17` as launched. -/
theorem V_main_arg17 (c : Dev nD) : V m c main_arg17 = m ((c : Thread nD τ).loc main_arg17) := rfl
/-- No host operation precedes the region: it finds `main_arg18` as launched. -/
theorem V_main_arg18 (c : Dev nD) : V m c main_arg18 = m ((c : Thread nD τ).loc main_arg18) := rfl
/-- No host operation precedes the region: it finds `main_arg19` as launched. -/
theorem V_main_arg19 (c : Dev nD) : V m c main_arg19 = m ((c : Thread nD τ).loc main_arg19) := rfl
/-- No host operation precedes the region: it finds `main_arg20` as launched. -/
theorem V_main_arg20 (c : Dev nD) : V m c main_arg20 = m ((c : Thread nD τ).loc main_arg20) := rfl
/-- No host operation precedes the region: it finds `main_arg21` as launched. -/
theorem V_main_arg21 (c : Dev nD) : V m c main_arg21 = m ((c : Thread nD τ).loc main_arg21) := rfl
/-- No host operation precedes the region: it finds `main_arg22` as launched. -/
theorem V_main_arg22 (c : Dev nD) : V m c main_arg22 = m ((c : Thread nD τ).loc main_arg22) := rfl
/-- No host operation precedes the region: it finds `main_arg23` as launched. -/
theorem V_main_arg23 (c : Dev nD) : V m c main_arg23 = m ((c : Thread nD τ).loc main_arg23) := rfl

/-- The argument arrays no window stages. -/
def restArgs : Finset (Ref sig .tc) := {main_arg12, main_arg13, main_arg14, main_arg15, main_arg16, main_arg17, main_arg18, main_arg19, main_arg20, main_arg21, main_arg22, main_arg23}

/-- No operation after the region writes one of them: each operation's result buffer is none of the twelve. -/
theorem tail_not_writes (b : Ref sig .tc) (hb : b ∈ restArgs) :
    ∀ op ∈ (List.flatten [hostOps1, hostOps1_1, hostOps1_2, hostOps1_3, hostOps1_4, hostOps1_5, hostOps1_6, hostOps1_7, hostOps1_8, hostOps1_9] : List (HloOp τ sig (Elt F))), Proc.devRef .tc b ∉ op.writes := by
  have H : (List.flatten [hostOps1, hostOps1_1, hostOps1_2, hostOps1_3, hostOps1_4, hostOps1_5, hostOps1_6, hostOps1_7, hostOps1_8, hostOps1_9] : List (HloOp τ sig (Elt F))).Forall fun op =>
      ∀ b ∈ restArgs, Proc.devRef .tc b ∉ op.writes := by
    simp only [hostOps1, hostOps1_1, hostOps1_2, hostOps1_3, hostOps1_4, hostOps1_5, hostOps1_6, hostOps1_7, hostOps1_8, hostOps1_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b hb; decide))
  exact fun op hop => (List.forall_iff_forall_mem.mp H) op hop b hb

/-- No host operation after the region writes `main_arg12`: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg12 = m ((c : Thread nD τ).loc main_arg12) := by
  unfold Pipeline.afterTail₀
  rw [StableHlo.after_of_forall_not_mem (b := Proc.devRef .tc main_arg12) _ _ (tail_not_writes main_arg12 (by decide)),
    Pipeline.withArrays_of_ne _ c (V0 m c) _ main_arg12 (by exact (by decide : ∀ w, Pipeline.arrRef spec0 w ≠ main_arg12))]
  exact V_main_arg12 m c
/-- No host operation after the region writes `main_arg13`: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg13 = m ((c : Thread nD τ).loc main_arg13) := by
  unfold Pipeline.afterTail₀
  rw [StableHlo.after_of_forall_not_mem (b := Proc.devRef .tc main_arg13) _ _ (tail_not_writes main_arg13 (by decide)),
    Pipeline.withArrays_of_ne _ c (V0 m c) _ main_arg13 (by exact (by decide : ∀ w, Pipeline.arrRef spec0 w ≠ main_arg13))]
  exact V_main_arg13 m c
/-- No host operation after the region writes `main_arg14`: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg14 = m ((c : Thread nD τ).loc main_arg14) := by
  unfold Pipeline.afterTail₀
  rw [StableHlo.after_of_forall_not_mem (b := Proc.devRef .tc main_arg14) _ _ (tail_not_writes main_arg14 (by decide)),
    Pipeline.withArrays_of_ne _ c (V0 m c) _ main_arg14 (by exact (by decide : ∀ w, Pipeline.arrRef spec0 w ≠ main_arg14))]
  exact V_main_arg14 m c
/-- No host operation after the region writes `main_arg15`: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg15 = m ((c : Thread nD τ).loc main_arg15) := by
  unfold Pipeline.afterTail₀
  rw [StableHlo.after_of_forall_not_mem (b := Proc.devRef .tc main_arg15) _ _ (tail_not_writes main_arg15 (by decide)),
    Pipeline.withArrays_of_ne _ c (V0 m c) _ main_arg15 (by exact (by decide : ∀ w, Pipeline.arrRef spec0 w ≠ main_arg15))]
  exact V_main_arg15 m c
/-- No host operation after the region writes `main_arg16`: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg16 = m ((c : Thread nD τ).loc main_arg16) := by
  unfold Pipeline.afterTail₀
  rw [StableHlo.after_of_forall_not_mem (b := Proc.devRef .tc main_arg16) _ _ (tail_not_writes main_arg16 (by decide)),
    Pipeline.withArrays_of_ne _ c (V0 m c) _ main_arg16 (by exact (by decide : ∀ w, Pipeline.arrRef spec0 w ≠ main_arg16))]
  exact V_main_arg16 m c
/-- No host operation after the region writes `main_arg17`: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg17 = m ((c : Thread nD τ).loc main_arg17) := by
  unfold Pipeline.afterTail₀
  rw [StableHlo.after_of_forall_not_mem (b := Proc.devRef .tc main_arg17) _ _ (tail_not_writes main_arg17 (by decide)),
    Pipeline.withArrays_of_ne _ c (V0 m c) _ main_arg17 (by exact (by decide : ∀ w, Pipeline.arrRef spec0 w ≠ main_arg17))]
  exact V_main_arg17 m c
/-- No host operation after the region writes `main_arg18`: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg18 = m ((c : Thread nD τ).loc main_arg18) := by
  unfold Pipeline.afterTail₀
  rw [StableHlo.after_of_forall_not_mem (b := Proc.devRef .tc main_arg18) _ _ (tail_not_writes main_arg18 (by decide)),
    Pipeline.withArrays_of_ne _ c (V0 m c) _ main_arg18 (by exact (by decide : ∀ w, Pipeline.arrRef spec0 w ≠ main_arg18))]
  exact V_main_arg18 m c
/-- No host operation after the region writes `main_arg19`: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg19 = m ((c : Thread nD τ).loc main_arg19) := by
  unfold Pipeline.afterTail₀
  rw [StableHlo.after_of_forall_not_mem (b := Proc.devRef .tc main_arg19) _ _ (tail_not_writes main_arg19 (by decide)),
    Pipeline.withArrays_of_ne _ c (V0 m c) _ main_arg19 (by exact (by decide : ∀ w, Pipeline.arrRef spec0 w ≠ main_arg19))]
  exact V_main_arg19 m c
/-- No host operation after the region writes `main_arg20`: it ends as launched. -/
theorem W_main_arg20 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg20 = m ((c : Thread nD τ).loc main_arg20) := by
  unfold Pipeline.afterTail₀
  rw [StableHlo.after_of_forall_not_mem (b := Proc.devRef .tc main_arg20) _ _ (tail_not_writes main_arg20 (by decide)),
    Pipeline.withArrays_of_ne _ c (V0 m c) _ main_arg20 (by exact (by decide : ∀ w, Pipeline.arrRef spec0 w ≠ main_arg20))]
  exact V_main_arg20 m c
/-- No host operation after the region writes `main_arg21`: it ends as launched. -/
theorem W_main_arg21 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg21 = m ((c : Thread nD τ).loc main_arg21) := by
  unfold Pipeline.afterTail₀
  rw [StableHlo.after_of_forall_not_mem (b := Proc.devRef .tc main_arg21) _ _ (tail_not_writes main_arg21 (by decide)),
    Pipeline.withArrays_of_ne _ c (V0 m c) _ main_arg21 (by exact (by decide : ∀ w, Pipeline.arrRef spec0 w ≠ main_arg21))]
  exact V_main_arg21 m c
/-- No host operation after the region writes `main_arg22`: it ends as launched. -/
theorem W_main_arg22 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg22 = m ((c : Thread nD τ).loc main_arg22) := by
  unfold Pipeline.afterTail₀
  rw [StableHlo.after_of_forall_not_mem (b := Proc.devRef .tc main_arg22) _ _ (tail_not_writes main_arg22 (by decide)),
    Pipeline.withArrays_of_ne _ c (V0 m c) _ main_arg22 (by exact (by decide : ∀ w, Pipeline.arrRef spec0 w ≠ main_arg22))]
  exact V_main_arg22 m c
/-- No host operation after the region writes `main_arg23`: it ends as launched. -/
theorem W_main_arg23 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg23 = m ((c : Thread nD τ).loc main_arg23) := by
  unfold Pipeline.afterTail₀
  rw [StableHlo.after_of_forall_not_mem (b := Proc.devRef .tc main_arg23) _ _ (tail_not_writes main_arg23 (by decide)),
    Pipeline.withArrays_of_ne _ c (V0 m c) _ main_arg23 (by exact (by decide : ∀ w, Pipeline.arrRef spec0 w ≠ main_arg23))]
  exact V_main_arg23 m c

/-! ## The frame claim's post from the frame run's -/

set_option maxHeartbeats 1440000 in
/-- THE FRAME from a frame run: for any proof data whose arrays are the region-entry contents (`hA`), a run to the
    library's frame post read at the argument arrays — a staged input through the library's read-back of an input
    window's array, an array no window stages by the post's second clause — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8, hostOps1_9]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      (((h c).2 main_arg12 (Pipeline.mem_restRefs_of main_arg12 (by decide) (by decide))).trans (W_main_arg12 m dats c)),
      (((h c).2 main_arg13 (Pipeline.mem_restRefs_of main_arg13 (by decide) (by decide))).trans (W_main_arg13 m dats c)),
      (((h c).2 main_arg14 (Pipeline.mem_restRefs_of main_arg14 (by decide) (by decide))).trans (W_main_arg14 m dats c)),
      (((h c).2 main_arg15 (Pipeline.mem_restRefs_of main_arg15 (by decide) (by decide))).trans (W_main_arg15 m dats c)),
      (((h c).2 main_arg16 (Pipeline.mem_restRefs_of main_arg16 (by decide) (by decide))).trans (W_main_arg16 m dats c)),
      (((h c).2 main_arg17 (Pipeline.mem_restRefs_of main_arg17 (by decide) (by decide))).trans (W_main_arg17 m dats c)),
      (((h c).2 main_arg18 (Pipeline.mem_restRefs_of main_arg18 (by decide) (by decide))).trans (W_main_arg18 m dats c)),
      (((h c).2 main_arg19 (Pipeline.mem_restRefs_of main_arg19 (by decide) (by decide))).trans (W_main_arg19 m dats c)),
      (((h c).2 main_arg20 (Pipeline.mem_restRefs_of main_arg20 (by decide) (by decide))).trans (W_main_arg20 m dats c)),
      (((h c).2 main_arg21 (Pipeline.mem_restRefs_of main_arg21 (by decide) (by decide))).trans (W_main_arg21 m dats c)),
      (((h c).2 main_arg22 (Pipeline.mem_restRefs_of main_arg22 (by decide) (by decide))).trans (W_main_arg22 m dats c)),
      (((h c).2 main_arg23 (Pipeline.mem_restRefs_of main_arg23 (by decide) (by decide))).trans (W_main_arg23 m dats c))⟩) h

/-! ## The run and the frame -/

-- the launch theorem's implicit arguments are found by unifying its conclusion with this one, which takes unfolding plain
-- definitions in a metavariable's type
set_option backward.isDefEq.respectTransparency.types false in
set_option maxHeartbeats 8000000 in
/-- At the compiled mesh, for any values, from any memory with zero counters: every weakly fair execution of @main on the
    TensorCores terminates, and every final state has every array of the pipeline at what the library computes from the
    proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9]) (hsub := sfx_sub) (hfresh := sfx_fresh) (hkeep := sfx_keeps)
    (hmain := hmain m Variants.none) (hA := A_eq m) (hΦ := fun _ _ => rfl)

/-- THE FRAME: the frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

end Cert.Kernel.HFrame

end
-- ==== Proof.KIFrameData.lean ====
/- The frame certificate of the kernel program, first part: the contents of the arrays when the one region is entered,
   each window's block at a grid point, the rectangles of the body's loads and stores, what the body leaves in the two
   output windows' staging buffers (the canonical form of its stores over the skeleton's payloads of the input blocks),
   and the pipeline's proof data built from them. -/
import proofs.«115478_j10110353015360_2_alg».proof.Proof.Gen.KernelIdeal.Launch
import proofs.«115478_j10110353015360_2_alg».proof.Proof.Gen.KernelIdeal.Skeleton
import proofs.«115478_j10110353015360_2_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of production extents: the elaborator's structural look recurses once per coordinate of the long axes
set_option maxRecDepth 16384

noncomputable section

namespace Cert.KernelIdeal.HFrame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The contents when the region is entered -/

/-- Core `c`'s TensorCore buffer contents when the region is entered, as a valuation: no host operation precedes the
    region, so the fold is over the empty list. -/
abbrev V0 (c : Dev nD) : Valuation τ sig (Elt F) := StableHlo.after (List.flatten []) (fun b => m (c, b))
/-- The same read at a TensorCore reference. -/
abbrev V (c : Dev nD) (b : Ref sig .tc) : Buf (Elt F) ((c : Thread nD τ).loc b) := V0 m c (Proc.devRef .tc b)

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! ## The body's accesses -/

abbrev r0_0 : Rect S1x512x512 := Rect.unit (s := S1x512x512) ![0, 0, 0] S1x512x512.size inb_S1x512x512_S1x512x512_0_0_0
abbrev r0_1 : Rect S6x512x64 := Rect.unit (s := S6x512x64) ![0, 0, 0] S6x512x64.size inb_S6x512x64_S6x512x64_0_0_0
abbrev r0_2 : Rect S64 := Rect.unit (s := S64) ![0] S64.size inb_S64_S64_0
abbrev r0_3 : Rect S512x64 := Rect.unit (s := S512x64) ![0, 0] S512x64.size inb_S512x64_S512x64_0_0
abbrev r0_4 : Rect S6x64x64 := Rect.unit (s := S6x64x64) ![0, 0, 0] S6x64x64.size inb_S6x64x64_S6x64x64_0_0_0
abbrev r0_5 : Rect S1x1x256 := Rect.unit (s := S1x1x256) ![0, 0, 0] S1x1x64.size inb_S1x1x256_S1x1x64_0_0_0
abbrev r0_6 : Rect S1x1x256 := Rect.unit (s := S1x1x256) ![0, 0, 64] S1x1x64.size inb_S1x1x256_S1x1x64_0_0_64
abbrev r0_7 : Rect S1x1x256 := Rect.unit (s := S1x1x256) ![0, 0, 128] S1x1x64.size inb_S1x1x256_S1x1x64_0_0_128
abbrev r0_8 : Rect S1x1x256 := Rect.unit (s := S1x1x256) ![0, 0, 192] S1x1x64.size inb_S1x1x256_S1x1x64_0_0_192

/-! ## What the body leaves in each output window's buffer -/

/-- Window 12's staging buffer after the body, from the input windows' blocks: its one store of the whole block, as a
    piece over the skeleton's payloads (the values the body computes on the way are named as the body names them). -/
def out0_12 (x0 : Vec F S1x512x512 .f32) (x1 : Vec F S1x512x512 .f32) (x2 : Vec F S6x512x64 .f32) (x3 : Vec F S64 .f32) (x4 : Vec F S6x64x64 .f32) (x5 : Vec F S64 .f32) (x6 : Vec F S6x64x64 .f32) (x7 : Vec F S64 .f32) (x8 : Vec F S512x64 .f32) (x9 : Vec F S512x64 .f32) (x10 : Vec F S512x64 .f32) (x11 : Vec F S512x64 .f32) : Vec F S1x512x512 .f32 :=
  have v0 : Vec F S1x512x512 .f32 := View.ld x0 r0_0
  have v2 : Vec F S1x512x512 .f32 := View.ld x1 r0_0
  have v4 : Vec F S6x512x64 .f32 := View.ld x2 r0_1
  have v5 : Vec F S64 .f32 := View.ld x3 r0_2
  have cst_16 : FVec F S512x64 .f32 := constant S512x64 .f32 0x00000000#32
  have v1 : FVec F S512x512 .f32 := k0_pay2 v0
  have v6 : FVec F S512x512 .bf16 := k0_pay4 v0
  have v24 : FVec F S512x512 .f32 := k0_pay6 v0 v2
  have v30 : FVec F S512x64 .f32 := k0_pay7 v0 v2 v4
  have v35 : FVec F S512x512 .f32 := k0_pay8 v0 v2
  have v38 : FVec F S512x512 .bf16 := k0_pay9 v0 v2
  have v39 : FVec F S512x64 .bf16 := k0_pay10 v4
  have v67 : Vec F S512x64 .f32 := View.ld x8 r0_3
  have v68 : Vec F S512x64 .f32 := View.ld x9 r0_3
  have v66 : FVec F S512x64 .f32 := k0_pay11 v4 v5 v6 v24 v30 v35 v38 v39 cst_16
  have v74 : FVec F S1x1 .f32 := k0_pay12 v4 v5 v6 v24 v30 v35 v38 v39 cst_16
  have v83 : FVec F S1x1 .f32 := k0_pay13 v4 v5 v6 v24 v30 v35 v38 v39 cst_16
  have v101 : Vec F S6x64x64 .f32 := View.ld x4 r0_4
  have v102 : Vec F S64 .f32 := View.ld x5 r0_2
  have v98 : FVec F S1x64 .f32 := k0_pay15 v66 v67 v68 v74 v83
  have v100 : FVec F S1x64 .f32 := k0_pay16 v66 v67 v68 v74 v83
  have v103 : FVec F S512x512 .bf16 := k0_pay17 v1
  have v105 : FVec F S512x64 .f32 := k0_pay18 v1 v66 v67 v68 v74 v83
  have v121 : FVec F S512x64 .f32 := k0_pay19 v1 v66 v67 v68 v74 v83
  have v127 : FVec F S512x64 .f32 := k0_pay20 v1 v66 v67 v68 v74 v83 v101
  have v128 : FVec F S512x64 .bf16 := k0_pay21 v1 v66 v67 v68 v74 v83
  have v164 : Vec F S512x64 .f32 := View.ld x10 r0_3
  have v165 : Vec F S512x64 .f32 := View.ld x11 r0_3
  have v163 : FVec F S512x64 .f32 := k0_pay22 v101 v102 v103 v105 v121 v127 v128
  have v171 : FVec F S1x1 .f32 := k0_pay23 v101 v102 v103 v105 v121 v127 v128
  have v172 : FVec F S512x64 .f32 := k0_pay24 v101 v102 v103 v105 v121 v127 v128
  have v191 : FVec F S512x64 .f32 := k0_pay25 v163 v164 v165 v171 v172
  have v210 : Vec F S6x64x64 .f32 := View.ld x6 r0_4
  have v211 : Vec F S64 .f32 := View.ld x7 r0_2
  have v212 : FVec F S512x512 .bf16 := k0_pay30 v1
  have v241 : FVec F S512x64 .f32 := k0_pay33 v1 v191
  have v247 : FVec F S512x64 .f32 := k0_pay34 v1 v191 v210
  have v252 : FVec F S512x64 .f32 := k0_pay35 v1 v191
  have v253 : FVec F S1x64x64 .f32 := k0_pay36 v210
  View.canon [⟨r0_0, k0_pay1 v210 v211 v212 v241 v247 v252 v253⟩]

/-- Its store is the whole buffer (checked by evaluation), so it covers it. -/
theorem cover0_12 (p0 : Vec F S1x512x512 .f32) (y : S1x512x512.Idx) :
    ∃ pc ∈ ([⟨r0_0, p0⟩] : List (View.Piece (Elt F) S1x512x512 .f32)), y ∈ pc.1.set :=
  View.cover_of_tiled [⟨r0_0, p0⟩] S1x512x512.size (by rfl) y

/-- Window 13's staging buffer after the body, from the input windows' blocks: its four stores into the lane ranges
    0:64, 64:128, 128:192, 192:256 as pieces, LAST FIRST, over the skeleton's payloads. -/
def out0_13 (x0 : Vec F S1x512x512 .f32) (x1 : Vec F S1x512x512 .f32) (x2 : Vec F S6x512x64 .f32) (x3 : Vec F S64 .f32) (x4 : Vec F S6x64x64 .f32) (x5 : Vec F S64 .f32) (x6 : Vec F S6x64x64 .f32) (x7 : Vec F S64 .f32) (x8 : Vec F S512x64 .f32) (x9 : Vec F S512x64 .f32) (x10 : Vec F S512x64 .f32) (x11 : Vec F S512x64 .f32) : Vec F S1x1x256 .f32 :=
  have v0 : Vec F S1x512x512 .f32 := View.ld x0 r0_0
  have v2 : Vec F S1x512x512 .f32 := View.ld x1 r0_0
  have v4 : Vec F S6x512x64 .f32 := View.ld x2 r0_1
  have v5 : Vec F S64 .f32 := View.ld x3 r0_2
  have cst_16 : FVec F S512x64 .f32 := constant S512x64 .f32 0x00000000#32
  have v1 : FVec F S512x512 .f32 := k0_pay2 v0
  have v6 : FVec F S512x512 .bf16 := k0_pay4 v0
  have v24 : FVec F S512x512 .f32 := k0_pay6 v0 v2
  have v30 : FVec F S512x64 .f32 := k0_pay7 v0 v2 v4
  have v35 : FVec F S512x512 .f32 := k0_pay8 v0 v2
  have v38 : FVec F S512x512 .bf16 := k0_pay9 v0 v2
  have v39 : FVec F S512x64 .bf16 := k0_pay10 v4
  have v67 : Vec F S512x64 .f32 := View.ld x8 r0_3
  have v68 : Vec F S512x64 .f32 := View.ld x9 r0_3
  have v66 : FVec F S512x64 .f32 := k0_pay11 v4 v5 v6 v24 v30 v35 v38 v39 cst_16
  have v74 : FVec F S1x1 .f32 := k0_pay12 v4 v5 v6 v24 v30 v35 v38 v39 cst_16
  have v83 : FVec F S1x1 .f32 := k0_pay13 v4 v5 v6 v24 v30 v35 v38 v39 cst_16
  have v101 : Vec F S6x64x64 .f32 := View.ld x4 r0_4
  have v102 : Vec F S64 .f32 := View.ld x5 r0_2
  have v98 : FVec F S1x64 .f32 := k0_pay15 v66 v67 v68 v74 v83
  have v100 : FVec F S1x64 .f32 := k0_pay16 v66 v67 v68 v74 v83
  have v103 : FVec F S512x512 .bf16 := k0_pay17 v1
  have v105 : FVec F S512x64 .f32 := k0_pay18 v1 v66 v67 v68 v74 v83
  have v121 : FVec F S512x64 .f32 := k0_pay19 v1 v66 v67 v68 v74 v83
  have v127 : FVec F S512x64 .f32 := k0_pay20 v1 v66 v67 v68 v74 v83 v101
  have v128 : FVec F S512x64 .bf16 := k0_pay21 v1 v66 v67 v68 v74 v83
  have v164 : Vec F S512x64 .f32 := View.ld x10 r0_3
  have v165 : Vec F S512x64 .f32 := View.ld x11 r0_3
  have v163 : FVec F S512x64 .f32 := k0_pay22 v101 v102 v103 v105 v121 v127 v128
  have v171 : FVec F S1x1 .f32 := k0_pay23 v101 v102 v103 v105 v121 v127 v128
  have v172 : FVec F S512x64 .f32 := k0_pay24 v101 v102 v103 v105 v121 v127 v128
  View.canon [⟨r0_8, k0_pay29 v163 v164 v165 v171 v172⟩,
    ⟨r0_7, k0_pay28 v163 v164 v165 v171 v172⟩,
    ⟨r0_6, k0_pay27 v100⟩,
    ⟨r0_5, k0_pay26 v98⟩]

/-- Its stores tile the buffer (checked by evaluation), so they cover it. -/
theorem cover0_13 (p0 : Vec F S1x1x64 .f32) (p1 : Vec F S1x1x64 .f32) (p2 : Vec F S1x1x64 .f32) (p3 : Vec F S1x1x64 .f32) (y : S1x1x256.Idx) :
    ∃ pc ∈ ([⟨r0_8, p0⟩, ⟨r0_7, p1⟩, ⟨r0_6, p2⟩, ⟨r0_5, p3⟩] : List (View.Piece (Elt F) S1x1x256 .f32)), y ∈ pc.1.set :=
  View.cover_of_tiled [⟨r0_8, p0⟩, ⟨r0_7, p1⟩, ⟨r0_6, p2⟩, ⟨r0_5, p3⟩] S1x1x64.size (by rfl) y

/-! ## The pipeline's proof data -/

/-- The proof data of the one pipeline on core `c`: the arrays as the region finds them (`V`); after the body at
    point `t` each input's buffer at its block and each output's at `out0_W` of the input blocks; the invariant the
    scoped rest and the generator register, untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
    | ⟨13, _⟩ => out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t)
  Φ _ := Pipeline.ΦA spec0 c
  q _ := fullShare
  owed _ := 0

/-- The proof data's arrays are the region-entry contents: the definition projected. -/
theorem A_eq (c : Dev nD) (w : Fin cfg0.W) : (dats m 0 c).A w = V m c (Pipeline.arrRef spec0 w) := by
  dsimp only [dats]

/-- What the body leaves, window by window (the proof data's `match` reduced). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = out0_12 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]
theorem after0_13 (c : Dev nD) (t : Fin cfg0.N) : (dats m 0 c).after 13 t = out0_13 (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by dsimp only [dats]

end Cert.KernelIdeal.HFrame

end
-- ==== Proof.KIFrameBody.lean ====
/- The frame certificate of the kernel program, second part: each input window's staging buffer holds its block at
   every point, the body's triple on whole staging buffers (the symbolic run through the six printed parts), and the
   library's body obligation at a generic point. -/
import proofs.«115478_j10110353015360_2_alg».proof.Proof.KIFrameData

-- membership in a rectangle of production extents: the elaborator's structural look recurses once per coordinate of the long axes
set_option maxRecDepth 16384

noncomputable section

namespace Cert.KernelIdeal.HFrame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The inputs' staging buffers -/

/-- Input window 0's current staging buffer holds its block at every point, fetched there or not (unfetched, the
    block index has not moved), for any proof data over the region-entry contents whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not (unfetched, the
    block index has not moved), for any proof data over the region-entry contents whose body leaves the block in place. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not (unfetched, the
    block index has not moved), for any proof data over the region-entry contents whose body leaves the block in place. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not (unfetched, the
    block index has not moved), for any proof data over the region-entry contents whose body leaves the block in place. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not (unfetched, the
    block index has not moved), for any proof data over the region-entry contents whose body leaves the block in place. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not (unfetched, the
    block index has not moved), for any proof data over the region-entry contents whose body leaves the block in place. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not (unfetched, the
    block index has not moved), for any proof data over the region-entry contents whose body leaves the block in place. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not (unfetched, the
    block index has not moved), for any proof data over the region-entry contents whose body leaves the block in place. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not (unfetched, the
    block index has not moved), for any proof data over the region-entry contents whose body leaves the block in place. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not (unfetched, the
    block index has not moved), for any proof data over the region-entry contents whose body leaves the block in place. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
/-- Input window 10's current staging buffer holds its block at every point, fetched there or not (unfetched, the
    block index has not moved), for any proof data over the region-entry contents whose body leaves the block in place. -/
theorem before0_10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)
/-- Input window 11's current staging buffer holds its block at every point, fetched there or not (unfetched, the
    block index has not moved), for any proof data over the region-entry contents whose body leaves the block in place. -/
theorem before0_11_of {c : Dev nD} (dat : Dat τ (Elt F) Unit ℕ (UR sig nD τ) ℕ cfg0 c) (hA : dat.A 11 = V m c (Pipeline.arrRef spec0 11))
    (hafter : ∀ t, dat.after 11 t = iblk m c 11 t) (t : Fin cfg0.N) (d) : dat.before 11 t d = iblk m c 11 t :=
  (dat.before_in_eq_fetched 11 rfl (fun _ => rfl) (fun _ _ _ => rfl) (fun t => by rw [hafter]; unfold Dat.blockOf iblk; rw [hA]; try rfl) t d).trans
    (by unfold Dat.fetched Dat.blockOf iblk; rw [hA]; try rfl)

/-! ## The body's triple -/

set_option maxHeartbeats 4000000 in
/-- The kernel body on whole staging memrefs, the inputs' at read contents `xW` and the outputs' at anything, runs to
    the continuation holding the inputs' as they were and each output's at `out0_W` of the inputs': the printed functions
    are their skeletons, which the symbolic executor runs through every part call. -/
theorem sound_kernel (c : Dev nD) (E : Set ℕ) (i : grid0.Coords) (arg1 : Memref sig .tc .vmem S1x512x512 .f32) (harg1 : arg1.IsWhole) (arg2 : Memref sig .tc .vmem S1x512x512 .f32) (harg2 : arg2.IsWhole) (arg3 : Memref sig .tc .vmem S6x512x64 .f32) (harg3 : arg3.IsWhole) (arg4 : Memref sig .tc .vmem S64 .f32) (harg4 : arg4.IsWhole) (arg5 : Memref sig .tc .vmem S6x64x64 .f32) (harg5 : arg5.IsWhole) (arg6 : Memref sig .tc .vmem S64 .f32) (harg6 : arg6.IsWhole) (arg7 : Memref sig .tc .vmem S6x64x64 .f32) (harg7 : arg7.IsWhole) (arg8 : Memref sig .tc .vmem S64 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S1x512x512 .f32) (harg13 : arg13.IsWhole) (arg14 : Memref sig .tc .vmem S1x1x256 .f32) (harg14 : arg14.IsWhole)
    (x0 : Vec F S1x512x512 .f32) (x1 : Vec F S1x512x512 .f32) (x2 : Vec F S6x512x64 .f32) (x3 : Vec F S64 .f32) (x4 : Vec F S6x64x64 .f32) (x5 : Vec F S64 .f32) (x6 : Vec F S6x64x64 .f32) (x7 : Vec F S64 .f32) (x8 : Vec F S512x64 .f32) (x9 : Vec F S512x64 .f32) (x10 : Vec F S512x64 .f32) (x11 : Vec F S512x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ (∃ d, owns (c : Thread nD τ) arg13 fullShare d) ∗ (∃ d, owns (c : Thread nD τ) arg14 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare (out0_12 x0 x1 x2 x3 x4 x5 x6 x7 x8 x9 x10 x11) ∗ owns (c : Thread nD τ) arg14 fullShare (out0_13 x0 x1 x2 x3 x4 x5 x6 x7 x8 x9 x10 x11)) -∗ K ⟨⟩))
      ⊢ wp frame (wpE (defs₀ (F := F)) Variants.none c none) E (cc0__fused_kernel i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__fused_kernel_eq_skeleton]; unfold cc0__fused_kernel_skel
  simp only [k0_part1_eq_skeleton]; unfold k0_part1_skel
  simp only [k0_part2_eq_skeleton]; unfold k0_part2_skel
  simp only [k0_part3_eq_skeleton]; unfold k0_part3_skel
  simp only [k0_part4_eq_skeleton]; unfold k0_part4_skel
  simp only [k0_part5_eq_skeleton]; unfold k0_part5_skel
  simp only [k0_part6_eq_skeleton]; unfold k0_part6_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    try dsimp only
    exact View.read_writes_eq_canon _ _ _ (cover0_12 _)
  iexists _; isplitr
  swap; · iexact H13
  ipureintro
  try dsimp only
  exact View.read_writes_eq_canon _ _ _ (cover0_13 _ _ _ _)

/-- Each input's current staging buffer holds its block at every point, fetched there or not. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d

/-! ## The body obligation, at a generic point -/

/-- What the body is called with at point `t` (the library's body obligation's precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t))

set_option maxHeartbeats 1600000 in
/-- The body at any point: the inputs' memrefs hold their blocks, so `sound_kernel` applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  iintro ⟨H0, H1, H2, H3, H4, H5, H6, H7, H8, H9, H10, H11, H12, H13⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  iexact H13

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.HFrame

end
-- ==== Proof.KIFrameRun.lean ====
/- The frame certificate of the kernel program, third part: @main around its one region (no host operation before it,
   seventy-six after it in ten stretches), what the later operations touch, allocate and write, the argument arrays read
   back, the run of @main and the frame claim's post at any float instance. -/
import proofs.«115478_j10110353015360_2_alg».proof.Proof.KIFrameBody

-- membership in a rectangle of production extents: the elaborator's structural look recurses once per coordinate of the long axes
set_option maxRecDepth 16384

noncomputable section

namespace Cert.KernelIdeal.HFrame

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor
theorem hostOps1_7_fresh : (hostOps1_7 : List (HloOp τ sig (Elt F))).Forall fun op => op.fresh = ∅ := by
  simp only [List.Forall]; repeat' constructor
theorem hostOps1_8_fresh : (hostOps1_8 : List (HloOp τ sig (Elt F))).Forall fun op => op.fresh = ∅ := by
  simp only [List.Forall]; repeat' constructor
theorem hostOps1_9_fresh : (hostOps1_9 : List (HloOp τ sig (Elt F))).Forall fun op => op.fresh = ∅ := by
  simp only [List.Forall]; repeat' constructor

set_option maxHeartbeats 4000000 in
/-- @main around the region, at the certificate's variants `𝒱₀`: the region, then the host operations after it: it
    reduces to the region CONTINUED BY the later operations. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2, StableHlo.seq hostOps1_3, StableHlo.seq hostOps1_4, StableHlo.seq hostOps1_5, StableHlo.seq hostOps1_6, StableHlo.seq hostOps1_7, StableHlo.seq hostOps1_8, StableHlo.seq hostOps1_9]) :=
  Pipeline.hmain_around cfgs 0 defs₀ 𝒱₀ m main [] [hostOps1, hostOps1_1, hostOps1_2, hostOps1_3, hostOps1_4, hostOps1_5, hostOps1_6, hostOps1_7, hostOps1_8, hostOps1_9] (by simp only [List.Forall])
    (by simp only [List.Forall]) main_chain

/-- The operations after the region touch the pipeline's arrays and the bypassing buffers only (each operation's buffers
    are unscoped TensorCore references, and with nothing prefetched every such reference is one or the other). -/
theorem sfx_sub : ∀ ops ∈ ([hostOps1, hostOps1_1, hostOps1_2, hostOps1_3, hostOps1_4, hostOps1_5, hostOps1_6, hostOps1_7, hostOps1_8, hostOps1_9] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)
  · exact Pipeline.sub_ucRefs op ((List.forall_iff_forall_mem.mp hostOps1_7_sub) op hop)
  · exact Pipeline.sub_ucRefs op ((List.forall_iff_forall_mem.mp hostOps1_8_sub) op hop)
  · exact Pipeline.sub_ucRefs op ((List.forall_iff_forall_mem.mp hostOps1_9_sub) op hop)
/-- They allocate nothing. -/
theorem sfx_fresh : ∀ ops ∈ ([hostOps1, hostOps1_1, hostOps1_2, hostOps1_3, hostOps1_4, hostOps1_5, hostOps1_6, hostOps1_7, hostOps1_8, hostOps1_9] : List (List (HloOp τ sig (Elt F)))), ∀ op ∈ ops, op.fresh = ∅ := by
  intro ops hops op hop
  simp only [List.mem_cons, List.mem_nil_iff, or_false] at hops
  rcases hops with rfl | rfl | rfl | rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop
  · exact (List.forall_iff_forall_mem.mp hostOps1_7_fresh) op hop
  · exact (List.forall_iff_forall_mem.mp hostOps1_8_fresh) op hop
  · exact (List.forall_iff_forall_mem.mp hostOps1_9_fresh) op hop

/-! Each later operation writes only its own result buffer, which is no array of the pipeline: stated per stretch as
    one conjunct per operation, each decided over the fourteen windows at once. -/
theorem hostOps1_keeps : (hostOps1 : List (HloOp τ sig (Elt F))).Forall fun op =>
    ∀ w, Proc.devRef .tc (Pipeline.arrRef spec0 w) ∉ op.writes := by
  simp only [hostOps1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_1_keeps : (hostOps1_1 : List (HloOp τ sig (Elt F))).Forall fun op =>
    ∀ w, Proc.devRef .tc (Pipeline.arrRef spec0 w) ∉ op.writes := by
  simp only [hostOps1_1, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_2_keeps : (hostOps1_2 : List (HloOp τ sig (Elt F))).Forall fun op =>
    ∀ w, Proc.devRef .tc (Pipeline.arrRef spec0 w) ∉ op.writes := by
  simp only [hostOps1_2, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_3_keeps : (hostOps1_3 : List (HloOp τ sig (Elt F))).Forall fun op =>
    ∀ w, Proc.devRef .tc (Pipeline.arrRef spec0 w) ∉ op.writes := by
  simp only [hostOps1_3, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_4_keeps : (hostOps1_4 : List (HloOp τ sig (Elt F))).Forall fun op =>
    ∀ w, Proc.devRef .tc (Pipeline.arrRef spec0 w) ∉ op.writes := by
  simp only [hostOps1_4, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_5_keeps : (hostOps1_5 : List (HloOp τ sig (Elt F))).Forall fun op =>
    ∀ w, Proc.devRef .tc (Pipeline.arrRef spec0 w) ∉ op.writes := by
  simp only [hostOps1_5, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_6_keeps : (hostOps1_6 : List (HloOp τ sig (Elt F))).Forall fun op =>
    ∀ w, Proc.devRef .tc (Pipeline.arrRef spec0 w) ∉ op.writes := by
  simp only [hostOps1_6, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_7_keeps : (hostOps1_7 : List (HloOp τ sig (Elt F))).Forall fun op =>
    ∀ w, Proc.devRef .tc (Pipeline.arrRef spec0 w) ∉ op.writes := by
  simp only [hostOps1_7, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_8_keeps : (hostOps1_8 : List (HloOp τ sig (Elt F))).Forall fun op =>
    ∀ w, Proc.devRef .tc (Pipeline.arrRef spec0 w) ∉ op.writes := by
  simp only [hostOps1_8, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))
theorem hostOps1_9_keeps : (hostOps1_9 : List (HloOp τ sig (Elt F))).Forall fun op =>
    ∀ w, Proc.devRef .tc (Pipeline.arrRef spec0 w) ∉ op.writes := by
  simp only [hostOps1_9, List.Forall, StableHlo.nullary_writes, StableHlo.unary_writes, StableHlo.binary_writes, StableHlo.ternary_writes, StableHlo.quaternary_writes, StableHlo.reshape_writes, StableHlo.binaryIndexed_writes, Finset.mem_singleton]
  repeat' apply And.intro
  all_goals (intro w; exact StableHlo.devRef_ne_of_ne (by revert w; decide))

/-- And write no array of the pipeline. -/
theorem sfx_keeps : ∀ ops ∈ ([hostOps1, hostOps1_1, hostOps1_2, hostOps1_3, hostOps1_4, hostOps1_5, hostOps1_6, hostOps1_7, hostOps1_8, hostOps1_9] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop
  · exact (List.forall_iff_forall_mem.mp hostOps1_7_keeps) op hop
  · exact (List.forall_iff_forall_mem.mp hostOps1_8_keeps) op hop
  · exact (List.forall_iff_forall_mem.mp hostOps1_9_keeps) op hop

/-! ## The argument arrays read back -/

/-- No host operation precedes the region: it finds `main_arg0` as launched. -/
theorem V_main_arg0 (c : Dev nD) : V m c main_arg0 = m ((c : Thread nD τ).loc main_arg0) := rfl
/-- No host operation precedes the region: it finds `main_arg1` as launched. -/
theorem V_main_arg1 (c : Dev nD) : V m c main_arg1 = m ((c : Thread nD τ).loc main_arg1) := rfl
/-- No host operation precedes the region: it finds `main_arg2` as launched. -/
theorem V_main_arg2 (c : Dev nD) : V m c main_arg2 = m ((c : Thread nD τ).loc main_arg2) := rfl
/-- No host operation precedes the region: it finds `main_arg3` as launched. -/
theorem V_main_arg3 (c : Dev nD) : V m c main_arg3 = m ((c : Thread nD τ).loc main_arg3) := rfl
/-- No host operation precedes the region: it finds `main_arg4` as launched. -/
theorem V_main_arg4 (c : Dev nD) : V m c main_arg4 = m ((c : Thread nD τ).loc main_arg4) := rfl
/-- No host operation precedes the region: it finds `main_arg5` as launched. -/
theorem V_main_arg5 (c : Dev nD) : V m c main_arg5 = m ((c : Thread nD τ).loc main_arg5) := rfl
/-- No host operation precedes the region: it finds `main_arg6` as launched. -/
theorem V_main_arg6 (c : Dev nD) : V m c main_arg6 = m ((c : Thread nD τ).loc main_arg6) := rfl
/-- No host operation precedes the region: it finds `main_arg7` as launched. -/
theorem V_main_arg7 (c : Dev nD) : V m c main_arg7 = m ((c : Thread nD τ).loc main_arg7) := rfl
/-- No host operation precedes the region: it finds `main_arg8` as launched. -/
theorem V_main_arg8 (c : Dev nD) : V m c main_arg8 = m ((c : Thread nD τ).loc main_arg8) := rfl
/-- No host operation precedes the region: it finds `main_arg9` as launched. -/
theorem V_main_arg9 (c : Dev nD) : V m c main_arg9 = m ((c : Thread nD τ).loc main_arg9) := rfl
/-- No host operation precedes the region: it finds `main_arg10` as launched. -/
theorem V_main_arg10 (c : Dev nD) : V m c main_arg10 = m ((c : Thread nD τ).loc main_arg10) := rfl
/-- No host operation precedes the region: it finds `main_arg11` as launched. -/
theorem V_main_arg11 (c : Dev nD) : V m c main_arg11 = m ((c : Thread nD τ).loc main_arg11) := rfl
/-- No host operation precedes the region: it finds `main_arg12` as launched. -/
theorem V_main_arg12 (c : Dev nD) : V m c main_arg12 = m ((c : Thread nD τ).loc main_arg12) := rfl
/-- No host operation precedes the region: it finds `main_arg13` as launched. -/
theorem V_main_arg13 (c : Dev nD) : V m c main_arg13 = m ((c : Thread nD τ).loc main_arg13) := rfl
/-- No host operation precedes the region: it finds `main_arg14` as launched. -/
theorem V_main_arg14 (c : Dev nD) : V m c main_arg14 = m ((c : Thread nD τ).loc main_arg14) := rfl
/-- No host operation precedes the region: it finds `main_arg15` as launched. -/
theorem V_main_arg15 (c : Dev nD) : V m c main_arg15 = m ((c : Thread nD τ).loc main_arg15) := rfl
/-- No host operation precedes the region: it finds `main_arg16` as launched. -/
theorem V_main_arg16 (c : Dev nD) : V m c main_arg16 = m ((c : Thread nD τ).loc main_arg16) := rfl
/-- No host operation precedes the region: it finds `main_arg17` as launched. -/
theorem V_main_arg17 (c : Dev nD) : V m c main_arg17 = m ((c : Thread nD τ).loc main_arg17) := rfl
/-- No host operation precedes the region: it finds `main_arg18` as launched. -/
theorem V_main_arg18 (c : Dev nD) : V m c main_arg18 = m ((c : Thread nD τ).loc main_arg18) := rfl
/-- No host operation precedes the region: it finds `main_arg19` as launched. -/
theorem V_main_arg19 (c : Dev nD) : V m c main_arg19 = m ((c : Thread nD τ).loc main_arg19) := rfl
/-- No host operation precedes the region: it finds `main_arg20` as launched. -/
theorem V_main_arg20 (c : Dev nD) : V m c main_arg20 = m ((c : Thread nD τ).loc main_arg20) := rfl
/-- No host operation precedes the region: it finds `main_arg21` as launched. -/
theorem V_main_arg21 (c : Dev nD) : V m c main_arg21 = m ((c : Thread nD τ).loc main_arg21) := rfl
/-- No host operation precedes the region: it finds `main_arg22` as launched. -/
theorem V_main_arg22 (c : Dev nD) : V m c main_arg22 = m ((c : Thread nD τ).loc main_arg22) := rfl
/-- No host operation precedes the region: it finds `main_arg23` as launched. -/
theorem V_main_arg23 (c : Dev nD) : V m c main_arg23 = m ((c : Thread nD τ).loc main_arg23) := rfl

/-- The argument arrays no window stages. -/
def restArgs : Finset (Ref sig .tc) := {main_arg12, main_arg13, main_arg14, main_arg15, main_arg16, main_arg17, main_arg18, main_arg19, main_arg20, main_arg21, main_arg22, main_arg23}

/-- No operation after the region writes one of them: each operation's result buffer is none of the twelve. -/
theorem tail_not_writes (b : Ref sig .tc) (hb : b ∈ restArgs) :
    ∀ op ∈ (List.flatten [hostOps1, hostOps1_1, hostOps1_2, hostOps1_3, hostOps1_4, hostOps1_5, hostOps1_6, hostOps1_7, hostOps1_8, hostOps1_9] : List (HloOp τ sig (Elt F))), Proc.devRef .tc b ∉ op.writes := by
  have H : (List.flatten [hostOps1, hostOps1_1, hostOps1_2, hostOps1_3, hostOps1_4, hostOps1_5, hostOps1_6, hostOps1_7, hostOps1_8, hostOps1_9] : List (HloOp τ sig (Elt F))).Forall fun op =>
      ∀ b ∈ restArgs, Proc.devRef .tc b ∉ op.writes := by
    simp only [hostOps1, hostOps1_1, hostOps1_2, hostOps1_3, hostOps1_4, hostOps1_5, hostOps1_6, hostOps1_7, hostOps1_8, hostOps1_9, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals (intro b hb; exact StableHlo.devRef_ne_of_ne (by revert b hb; decide))
  exact fun op hop => (List.forall_iff_forall_mem.mp H) op hop b hb

/-- No host operation after the region writes `main_arg12`: it ends as launched. -/
theorem W_main_arg12 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg12 = m ((c : Thread nD τ).loc main_arg12) := by
  unfold Pipeline.afterTail₀
  rw [StableHlo.after_of_forall_not_mem (b := Proc.devRef .tc main_arg12) _ _ (tail_not_writes main_arg12 (by decide)),
    Pipeline.withArrays_of_ne _ c (V0 m c) _ main_arg12 (by exact (by decide : ∀ w, Pipeline.arrRef spec0 w ≠ main_arg12))]
  exact V_main_arg12 m c
/-- No host operation after the region writes `main_arg13`: it ends as launched. -/
theorem W_main_arg13 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg13 = m ((c : Thread nD τ).loc main_arg13) := by
  unfold Pipeline.afterTail₀
  rw [StableHlo.after_of_forall_not_mem (b := Proc.devRef .tc main_arg13) _ _ (tail_not_writes main_arg13 (by decide)),
    Pipeline.withArrays_of_ne _ c (V0 m c) _ main_arg13 (by exact (by decide : ∀ w, Pipeline.arrRef spec0 w ≠ main_arg13))]
  exact V_main_arg13 m c
/-- No host operation after the region writes `main_arg14`: it ends as launched. -/
theorem W_main_arg14 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg14 = m ((c : Thread nD τ).loc main_arg14) := by
  unfold Pipeline.afterTail₀
  rw [StableHlo.after_of_forall_not_mem (b := Proc.devRef .tc main_arg14) _ _ (tail_not_writes main_arg14 (by decide)),
    Pipeline.withArrays_of_ne _ c (V0 m c) _ main_arg14 (by exact (by decide : ∀ w, Pipeline.arrRef spec0 w ≠ main_arg14))]
  exact V_main_arg14 m c
/-- No host operation after the region writes `main_arg15`: it ends as launched. -/
theorem W_main_arg15 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg15 = m ((c : Thread nD τ).loc main_arg15) := by
  unfold Pipeline.afterTail₀
  rw [StableHlo.after_of_forall_not_mem (b := Proc.devRef .tc main_arg15) _ _ (tail_not_writes main_arg15 (by decide)),
    Pipeline.withArrays_of_ne _ c (V0 m c) _ main_arg15 (by exact (by decide : ∀ w, Pipeline.arrRef spec0 w ≠ main_arg15))]
  exact V_main_arg15 m c
/-- No host operation after the region writes `main_arg16`: it ends as launched. -/
theorem W_main_arg16 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg16 = m ((c : Thread nD τ).loc main_arg16) := by
  unfold Pipeline.afterTail₀
  rw [StableHlo.after_of_forall_not_mem (b := Proc.devRef .tc main_arg16) _ _ (tail_not_writes main_arg16 (by decide)),
    Pipeline.withArrays_of_ne _ c (V0 m c) _ main_arg16 (by exact (by decide : ∀ w, Pipeline.arrRef spec0 w ≠ main_arg16))]
  exact V_main_arg16 m c
/-- No host operation after the region writes `main_arg17`: it ends as launched. -/
theorem W_main_arg17 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg17 = m ((c : Thread nD τ).loc main_arg17) := by
  unfold Pipeline.afterTail₀
  rw [StableHlo.after_of_forall_not_mem (b := Proc.devRef .tc main_arg17) _ _ (tail_not_writes main_arg17 (by decide)),
    Pipeline.withArrays_of_ne _ c (V0 m c) _ main_arg17 (by exact (by decide : ∀ w, Pipeline.arrRef spec0 w ≠ main_arg17))]
  exact V_main_arg17 m c
/-- No host operation after the region writes `main_arg18`: it ends as launched. -/
theorem W_main_arg18 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg18 = m ((c : Thread nD τ).loc main_arg18) := by
  unfold Pipeline.afterTail₀
  rw [StableHlo.after_of_forall_not_mem (b := Proc.devRef .tc main_arg18) _ _ (tail_not_writes main_arg18 (by decide)),
    Pipeline.withArrays_of_ne _ c (V0 m c) _ main_arg18 (by exact (by decide : ∀ w, Pipeline.arrRef spec0 w ≠ main_arg18))]
  exact V_main_arg18 m c
/-- No host operation after the region writes `main_arg19`: it ends as launched. -/
theorem W_main_arg19 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg19 = m ((c : Thread nD τ).loc main_arg19) := by
  unfold Pipeline.afterTail₀
  rw [StableHlo.after_of_forall_not_mem (b := Proc.devRef .tc main_arg19) _ _ (tail_not_writes main_arg19 (by decide)),
    Pipeline.withArrays_of_ne _ c (V0 m c) _ main_arg19 (by exact (by decide : ∀ w, Pipeline.arrRef spec0 w ≠ main_arg19))]
  exact V_main_arg19 m c
/-- No host operation after the region writes `main_arg20`: it ends as launched. -/
theorem W_main_arg20 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg20 = m ((c : Thread nD τ).loc main_arg20) := by
  unfold Pipeline.afterTail₀
  rw [StableHlo.after_of_forall_not_mem (b := Proc.devRef .tc main_arg20) _ _ (tail_not_writes main_arg20 (by decide)),
    Pipeline.withArrays_of_ne _ c (V0 m c) _ main_arg20 (by exact (by decide : ∀ w, Pipeline.arrRef spec0 w ≠ main_arg20))]
  exact V_main_arg20 m c
/-- No host operation after the region writes `main_arg21`: it ends as launched. -/
theorem W_main_arg21 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg21 = m ((c : Thread nD τ).loc main_arg21) := by
  unfold Pipeline.afterTail₀
  rw [StableHlo.after_of_forall_not_mem (b := Proc.devRef .tc main_arg21) _ _ (tail_not_writes main_arg21 (by decide)),
    Pipeline.withArrays_of_ne _ c (V0 m c) _ main_arg21 (by exact (by decide : ∀ w, Pipeline.arrRef spec0 w ≠ main_arg21))]
  exact V_main_arg21 m c
/-- No host operation after the region writes `main_arg22`: it ends as launched. -/
theorem W_main_arg22 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg22 = m ((c : Thread nD τ).loc main_arg22) := by
  unfold Pipeline.afterTail₀
  rw [StableHlo.after_of_forall_not_mem (b := Proc.devRef .tc main_arg22) _ _ (tail_not_writes main_arg22 (by decide)),
    Pipeline.withArrays_of_ne _ c (V0 m c) _ main_arg22 (by exact (by decide : ∀ w, Pipeline.arrRef spec0 w ≠ main_arg22))]
  exact V_main_arg22 m c
/-- No host operation after the region writes `main_arg23`: it ends as launched. -/
theorem W_main_arg23 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2, hostOps1_3, hostOps1_4, hostOps1_5, hostOps1_6, hostOps1_7, hostOps1_8, hostOps1_9] c main_arg23 = m ((c : Thread nD τ).loc main_arg23) := by
  unfold Pipeline.afterTail₀
  rw [StableHlo.after_of_forall_not_mem (b := Proc.devRef .tc main_arg23) _ _ (tail_not_writes main_arg23 (by decide)),
    Pipeline.withArrays_of_ne _ c (V0 m c) _ main_arg23 (by exact (by decide : ∀ w, Pipeline.arrRef spec0 w ≠ main_arg23))]
  exact V_main_arg23 m c

/-! ## The frame claim's post from the frame run's -/

set_option maxHeartbeats 1440000 in
/-- THE FRAME from a frame run: for any proof data whose arrays are the region-entry contents (`hA`), a run to the
    library's frame post read at the argument arrays — a staged input through the library's read-back of an input
    window's array, an array no window stages by the post's second clause — is the frame claim's post. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1, hostOps1_1, hostOps1_2, hostOps1_3, hostOps1_4, hostOps1_5, hostOps1_6, hostOps1_7, hostOps1_8, hostOps1_9]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).1 3).trans (((dats 0 c).arrAt_in 3 rfl _).trans ((hA c 3).trans (V_main_arg3 m c))),
      ((h c).1 4).trans (((dats 0 c).arrAt_in 4 rfl _).trans ((hA c 4).trans (V_main_arg4 m c))),
      ((h c).1 5).trans (((dats 0 c).arrAt_in 5 rfl _).trans ((hA c 5).trans (V_main_arg5 m c))),
      ((h c).1 6).trans (((dats 0 c).arrAt_in 6 rfl _).trans ((hA c 6).trans (V_main_arg6 m c))),
      ((h c).1 7).trans (((dats 0 c).arrAt_in 7 rfl _).trans ((hA c 7).trans (V_main_arg7 m c))),
      ((h c).1 8).trans (((dats 0 c).arrAt_in 8 rfl _).trans ((hA c 8).trans (V_main_arg8 m c))),
      ((h c).1 9).trans (((dats 0 c).arrAt_in 9 rfl _).trans ((hA c 9).trans (V_main_arg9 m c))),
      ((h c).1 10).trans (((dats 0 c).arrAt_in 10 rfl _).trans ((hA c 10).trans (V_main_arg10 m c))),
      ((h c).1 11).trans (((dats 0 c).arrAt_in 11 rfl _).trans ((hA c 11).trans (V_main_arg11 m c))),
      (((h c).2 main_arg12 (Pipeline.mem_restRefs_of main_arg12 (by decide) (by decide))).trans (W_main_arg12 m dats c)),
      (((h c).2 main_arg13 (Pipeline.mem_restRefs_of main_arg13 (by decide) (by decide))).trans (W_main_arg13 m dats c)),
      (((h c).2 main_arg14 (Pipeline.mem_restRefs_of main_arg14 (by decide) (by decide))).trans (W_main_arg14 m dats c)),
      (((h c).2 main_arg15 (Pipeline.mem_restRefs_of main_arg15 (by decide) (by decide))).trans (W_main_arg15 m dats c)),
      (((h c).2 main_arg16 (Pipeline.mem_restRefs_of main_arg16 (by decide) (by decide))).trans (W_main_arg16 m dats c)),
      (((h c).2 main_arg17 (Pipeline.mem_restRefs_of main_arg17 (by decide) (by decide))).trans (W_main_arg17 m dats c)),
      (((h c).2 main_arg18 (Pipeline.mem_restRefs_of main_arg18 (by decide) (by decide))).trans (W_main_arg18 m dats c)),
      (((h c).2 main_arg19 (Pipeline.mem_restRefs_of main_arg19 (by decide) (by decide))).trans (W_main_arg19 m dats c)),
      (((h c).2 main_arg20 (Pipeline.mem_restRefs_of main_arg20 (by decide) (by decide))).trans (W_main_arg20 m dats c)),
      (((h c).2 main_arg21 (Pipeline.mem_restRefs_of main_arg21 (by decide) (by decide))).trans (W_main_arg21 m dats c)),
      (((h c).2 main_arg22 (Pipeline.mem_restRefs_of main_arg22 (by decide) (by decide))).trans (W_main_arg22 m dats c)),
      (((h c).2 main_arg23 (Pipeline.mem_restRefs_of main_arg23 (by decide) (by decide))).trans (W_main_arg23 m dats c))⟩) h

/-! ## The run and the frame -/

-- the launch theorem's implicit arguments are found by unifying its conclusion with this one, which takes unfolding plain
-- definitions in a metavariable's type
set_option backward.isDefEq.respectTransparency.types false in
set_option maxHeartbeats 8000000 in
/-- At the compiled mesh, for any values, from any memory with zero counters: every weakly fair execution of @main on the
    TensorCores terminates, and every final state has every array of the pipeline at what the library computes from the
    proof data and every other unscoped buffer as the operations after the region leave it. -/
theorem run_main : θ_run defs (onTc (τ := τ) (main (F := F))) (s₀ m ρ) (Pipeline.FramePost cfgs (dats m) 0 (Pipeline.afterTail₀ cfgs (dats m) 0 (V0 m) [hostOps1, hostOps1_1, hostOps1_2, hostOps1_3, hostOps1_4, hostOps1_5, hostOps1_6, hostOps1_7, hostOps1_8, hostOps1_9])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1, hostOps1_1, hostOps1_2, hostOps1_3, hostOps1_4, hostOps1_5, hostOps1_6, hostOps1_7, hostOps1_8, hostOps1_9]) (hsub := sfx_sub) (hfresh := sfx_fresh) (hkeep := sfx_keeps)
    (hmain := hmain m Variants.none) (hA := A_eq m) (hΦ := fun _ _ => rfl)

/-- THE FRAME: the frame claim's statement at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  frame_of m ρ (dats m) (A_eq m) (run_main m ρ)

end Cert.KernelIdeal.HFrame

end
-- ==== Proof.RefRunOps.lean ====
/- The reference's @main as a list of host operations, the functions it calls unfolded at their call sites over
   each call's own buffers, in thirteen consecutive stretches cut at the mathematical joints (a Chebyshev layer,
   a layer normalization, the pooling, the concatenation, the masked product, each head). -/
import proofs.«115478_j10110353015360_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- Two 64 x 1 x 64 blocks side by side along the last axis. -/
def cat2 (x y : (⟨S64x1x64, .f32⟩ : BufTy).Contents (Elt F)) : (⟨S64x1x128, .f32⟩ : BufTy).Contents (Elt F) :=
  concatenate S64x1x128 2 [⟨S64x1x64, x⟩, ⟨S64x1x64, y⟩] concatenates_S64x1x64_S64x1x64_S64x1x128_d2

/-- A 64 x 1 x 128 block and two 64 x 1 x 64 blocks side by side along the last axis. -/
def cat3 (x : (⟨S64x1x128, .f32⟩ : BufTy).Contents (Elt F)) (y z : (⟨S64x1x64, .f32⟩ : BufTy).Contents (Elt F)) :
    (⟨S64x1x256, .f32⟩ : BufTy).Contents (Elt F) :=
  concatenate S64x1x256 2 [⟨S64x1x128, x⟩, ⟨S64x1x64, y⟩, ⟨S64x1x64, z⟩] concatenates_S64x1x128_S64x1x64_S64x1x64_S64x1x256_d2

/-- @main's operations 1 … 47 of 353, calls unfolded. -/
abbrev w0 : List (HloOp τ sig (Elt F)) :=
  [ binary main_arg0 main_arg1 main_v0 ((fun l r => Host.dotGeneral dot_S64x512x512_S64x512x512_S64x512x512_2_1_1_2_0_0 none l r) : (⟨S64x512x512, .f32⟩ : BufTy).Contents (Elt F) → (⟨S64x512x512, .f32⟩ : BufTy).Contents (Elt F) → (⟨S64x512x512, .f32⟩ : BufTy).Contents (Elt F)),
    unary main_arg2 main_v1 ((extractStridedSlice S1x512x64 ![0, 0, 0] · slices_S6x512x64_S1x512x64_0_0_0) : (⟨S6x512x64, .f32⟩ : BufTy).Contents (Elt F) → (⟨S1x512x64, .f32⟩ : BufTy).Contents (Elt F)),
    reshape main_v1 main_v2 rfl shapeCasts_S1x512x64_S512x64,
    binary main_arg1 main_v2 main_v3 ((fun l r => Host.dotGeneral dot_S64x512x512_S512x64_S64x512x64_2_0_01_1_n_n none l r) : (⟨S64x512x512, .f32⟩ : BufTy).Contents (Elt F) → (⟨S512x64, .f32⟩ : BufTy).Contents (Elt F) → (⟨S64x512x64, .f32⟩ : BufTy).Contents (Elt F)),
    unary main_arg2 main_v4 ((extractStridedSlice S1x512x64 ![1, 0, 0] · slices_S6x512x64_S1x512x64_1_0_0) : (⟨S6x512x64, .f32⟩ : BufTy).Contents (Elt F) → (⟨S1x512x64, .f32⟩ : BufTy).Contents (Elt F)),
    reshape main_v4 main_v5 rfl shapeCasts_S1x512x64_S512x64,
    binary main_v0 main_v5 main_v6 ((fun l r => Host.dotGeneral dot_S64x512x512_S512x64_S64x512x64_2_0_01_1_n_n none l r) : (⟨S64x512x512, .f32⟩ : BufTy).Contents (Elt F) → (⟨S512x64, .f32⟩ : BufTy).Contents (Elt F) → (⟨S64x512x64, .f32⟩ : BufTy).Contents (Elt F)),
    binary main_v3 main_v6 main_v7 (addf : (⟨S64x512x64, .f32⟩ : BufTy).Contents (Elt F) → (⟨S64x512x64, .f32⟩ : BufTy).Contents (Elt F) → (⟨S64x512x64, .f32⟩ : BufTy).Contents (Elt F)),
    binary main_arg0 main_v0 main_v8 ((fun l r => Host.dotGeneral dot_S64x512x512_S64x512x512_S64x512x512_2_1_1_2_0_0 none l r) : (⟨S64x512x512, .f32⟩ : BufTy).Contents (Elt F) → (⟨S64x512x512, .f32⟩ : BufTy).Contents (Elt F) → (⟨S64x512x512, .f32⟩ : BufTy).Contents (Elt F)),
    nullary main_cst (constant S_ .f32 0x40000000#32),
    unary main_cst main_v9 (broadcastInDim S64x512x512 ![] bcast_S_S64x512x512 : (⟨S_, .f32⟩ : BufTy).Contents (Elt F) → (⟨S64x512x512, .f32⟩ : BufTy).Contents (Elt F)),
    binary main_v9 main_v8 main_v10 (mulf : (⟨S64x512x512, .f32⟩ : BufTy).Contents (Elt F) → (⟨S64x512x512, .f32⟩ : BufTy).Contents (Elt F) → (⟨S64x512x512, .f32⟩ : BufTy).Contents (Elt F)),
    binary main_v10 main_arg1 main_v11 (subf : (⟨S64x512x512, .f32⟩ : BufTy).Contents (Elt F) → (⟨S64x512x512, .f32⟩ : BufTy).Contents (Elt F) → (⟨S64x512x512, .f32⟩ : BufTy).Contents (Elt F)),
    unary main_arg2 main_v12 ((extractStridedSlice S1x512x64 ![2, 0, 0] · slices_S6x512x64_S1x512x64_2_0_0) : (⟨S6x512x64, .f32⟩ : BufTy).Contents (Elt F) → (⟨S1x512x64, .f32⟩ : BufTy).Contents (Elt F)),
    reshape main_v12 main_v13 rfl shapeCasts_S1x512x64_S512x64,
    binary main_v11 main_v13 main_v14 ((fun l r => Host.dotGeneral dot_S64x512x512_S512x64_S64x512x64_2_0_01_1_n_n none l r) : (⟨S64x512x512, .f32⟩ : BufTy).Contents (Elt F) → (⟨S512x64, .f32⟩ : BufTy).Contents (Elt F) → (⟨S64x512x64, .f32⟩ : BufTy).Contents (Elt F)),
    binary main_v7 main_v14 main_v15 (addf : (⟨S64x512x64, .f32⟩ : BufTy).Contents (Elt F) → (⟨S64x512x64, .f32⟩ : BufTy).Contents (Elt F) → (⟨S64x512x64, .f32⟩ : BufTy).Contents (Elt F)),
    binary main_arg0 main_v11 main_v16 ((fun l r => Host.dotGeneral dot_S64x512x512_S64x512x512_S64x512x512_2_1_1_2_0_0 none l r) : (⟨S64x512x512, .f32⟩ : BufTy).Contents (Elt F) → (⟨S64x512x512, .f32⟩ : BufTy).Contents (Elt F) → (⟨S64x512x512, .f32⟩ : BufTy).Contents (Elt F)),
    nullary main_cst_0 (constant S_ .f32 0x40000000#32),
    unary main_cst_0 main_v17 (broadcastInDim S64x512x512 ![] bcast_S_S64x512x512 : (⟨S_, .f32⟩ : BufTy).Contents (Elt F) → (⟨S64x512x512, .f32⟩ : BufTy).Contents (Elt F)),
    binary main_v17 main_v16 main_v18 (mulf : (⟨S64x512x512, .f32⟩ : BufTy).Contents (Elt F) → (⟨S64x512x512, .f32⟩ : BufTy).Contents (Elt F) → (⟨S64x512x512, .f32⟩ : BufTy).Contents (Elt F)),
    binary main_v18 main_v0 main_v19 (subf : (⟨S64x512x512, .f32⟩ : BufTy).Contents (Elt F) → (⟨S64x512x512, .f32⟩ : BufTy).Contents (Elt F) → (⟨S64x512x512, .f32⟩ : BufTy).Contents (Elt F)),
    unary main_arg2 main_v20 ((extractStridedSlice S1x512x64 ![3, 0, 0] · slices_S6x512x64_S1x512x64_3_0_0) : (⟨S6x512x64, .f32⟩ : BufTy).Contents (Elt F) → (⟨S1x512x64, .f32⟩ : BufTy).Contents (Elt F)),
    reshape main_v20 main_v21 rfl shapeCasts_S1x512x64_S512x64,
    binary main_v19 main_v21 main_v22 ((fun l r => Host.dotGeneral dot_S64x512x512_S512x64_S64x512x64_2_0_01_1_n_n none l r) : (⟨S64x512x512, .f32⟩ : BufTy).Contents (Elt F) → (⟨S512x64, .f32⟩ : BufTy).Contents (Elt F) → (⟨S64x512x64, .f32⟩ : BufTy).Contents (Elt F)),
    binary main_v15 main_v22 main_v23 (addf : (⟨S64x512x64, .f32⟩ : BufTy).Contents (Elt F) → (⟨S64x512x64, .f32⟩ : BufTy).Contents (Elt F) → (⟨S64x512x64, .f32⟩ : BufTy).Contents (Elt F)),
    binary main_arg0 main_v19 main_v24 ((fun l r => Host.dotGeneral dot_S64x512x512_S64x512x512_S64x512x512_2_1_1_2_0_0 none l r) : (⟨S64x512x512, .f32⟩ : BufTy).Contents (Elt F) → (⟨S64x512x512, .f32⟩ : BufTy).Contents (Elt F) → (⟨S64x512x512, .f32⟩ : BufTy).Contents (Elt F)),
    nullary main_cst_1 (constant S_ .f32 0x40000000#32),
    unary main_cst_1 main_v25 (broadcastInDim S64x512x512 ![] bcast_S_S64x512x512 : (⟨S_, .f32⟩ : BufTy).Contents (Elt F) → (⟨S64x512x512, .f32⟩ : BufTy).Contents (Elt F)),
    binary main_v25 main_v24 main_v26 (mulf : (⟨S64x512x512, .f32⟩ : BufTy).Contents (Elt F) → (⟨S64x512x512, .f32⟩ : BufTy).Contents (Elt F) → (⟨S64x512x512, .f32⟩ : BufTy).Contents (Elt F)),
    binary main_v26 main_v11 main_v27 (subf : (⟨S64x512x512, .f32⟩ : BufTy).Contents (Elt F) → (⟨S64x512x512, .f32⟩ : BufTy).Contents (Elt F) → (⟨S64x512x512, .f32⟩ : BufTy).Contents (Elt F)),
    unary main_arg2 main_v28 ((extractStridedSlice S1x512x64 ![4, 0, 0] · slices_S6x512x64_S1x512x64_4_0_0) : (⟨S6x512x64, .f32⟩ : BufTy).Contents (Elt F) → (⟨S1x512x64, .f32⟩ : BufTy).Contents (Elt F)),
    reshape main_v28 main_v29 rfl shapeCasts_S1x512x64_S512x64,
    binary main_v27 main_v29 main_v30 ((fun l r => Host.dotGeneral dot_S64x512x512_S512x64_S64x512x64_2_0_01_1_n_n none l r) : (⟨S64x512x512, .f32⟩ : BufTy).Contents (Elt F) → (⟨S512x64, .f32⟩ : BufTy).Contents (Elt F) → (⟨S64x512x64, .f32⟩ : BufTy).Contents (Elt F)),
    binary main_v23 main_v30 main_v31 (addf : (⟨S64x512x64, .f32⟩ : BufTy).Contents (Elt F) → (⟨S64x512x64, .f32⟩ : BufTy).Contents (Elt F) → (⟨S64x512x64, .f32⟩ : BufTy).Contents (Elt F)),
    binary main_arg0 main_v27 main_v32 ((fun l r => Host.dotGeneral dot_S64x512x512_S64x512x512_S64x512x512_2_1_1_2_0_0 none l r) : (⟨S64x512x512, .f32⟩ : BufTy).Contents (Elt F) → (⟨S64x512x512, .f32⟩ : BufTy).Contents (Elt F) → (⟨S64x512x512, .f32⟩ : BufTy).Contents (Elt F)),
    nullary main_cst_2 (constant S_ .f32 0x40000000#32),
    unary main_cst_2 main_v33 (broadcastInDim S64x512x512 ![] bcast_S_S64x512x512 : (⟨S_, .f32⟩ : BufTy).Contents (Elt F) → (⟨S64x512x512, .f32⟩ : BufTy).Contents (Elt F)),
    binary main_v33 main_v32 main_v34 (mulf : (⟨S64x512x512, .f32⟩ : BufTy).Contents (Elt F) → (⟨S64x512x512, .f32⟩ : BufTy).Contents (Elt F) → (⟨S64x512x512, .f32⟩ : BufTy).Contents (Elt F)),
    binary main_v34 main_v19 main_v35 (subf : (⟨S64x512x512, .f32⟩ : BufTy).Contents (Elt F) → (⟨S64x512x512, .f32⟩ : BufTy).Contents (Elt F) → (⟨S64x512x512, .f32⟩ : BufTy).Contents (Elt F)),
    unary main_arg2 main_v36 ((extractStridedSlice S1x512x64 ![5, 0, 0] · slices_S6x512x64_S1x512x64_5_0_0) : (⟨S6x512x64, .f32⟩ : BufTy).Contents (Elt F) → (⟨S1x512x64, .f32⟩ : BufTy).Contents (Elt F)),
    reshape main_v36 main_v37 rfl shapeCasts_S1x512x64_S512x64,
    binary main_v35 main_v37 main_v38 ((fun l r => Host.dotGeneral dot_S64x512x512_S512x64_S64x512x64_2_0_01_1_n_n none l r) : (⟨S64x512x512, .f32⟩ : BufTy).Contents (Elt F) → (⟨S512x64, .f32⟩ : BufTy).Contents (Elt F) → (⟨S64x512x64, .f32⟩ : BufTy).Contents (Elt F)),
    binary main_v31 main_v38 main_v39 (addf : (⟨S64x512x64, .f32⟩ : BufTy).Contents (Elt F) → (⟨S64x512x64, .f32⟩ : BufTy).Contents (Elt F) → (⟨S64x512x64, .f32⟩ : BufTy).Contents (Elt F)),
    unary main_arg3 main_v40 (broadcastInDim S1x1x64 ![2] bcast_S64_S1x1x64_2 : (⟨S64, .f32⟩ : BufTy).Contents (Elt F) → (⟨S1x1x64, .f32⟩ : BufTy).Contents (Elt F)),
    unary main_v40 main_v41 (broadcastInDim S64x512x64 ![0, 1, 2] bcast_S1x1x64_S64x512x64_0_1_2 : (⟨S1x1x64, .f32⟩ : BufTy).Contents (Elt F) → (⟨S64x512x64, .f32⟩ : BufTy).Contents (Elt F)),
    binary main_v39 main_v41 main_v42 (addf : (⟨S64x512x64, .f32⟩ : BufTy).Contents (Elt F) → (⟨S64x512x64, .f32⟩ : BufTy).Contents (Elt F) → (⟨S64x512x64, .f32⟩ : BufTy).Contents (Elt F)) ]

/-- The buffers stretch 0 writes. -/
abbrev w0_W : List (Ref sig .tc) := [main_v0, main_v1, main_v2, main_v3, main_v4, main_v5, main_v6, main_v7, main_v8, main_cst, main_v9, main_v10, main_v11, main_v12, main_v13, main_v14, main_v15, main_v16, main_cst_0, main_v17, main_v18, main_v19, main_v20, main_v21, main_v22, main_v23, main_v24, main_cst_1, main_v25, main_v26, main_v27, main_v28, main_v29, main_v30, main_v31, main_v32, main_cst_2, main_v33, main_v34, main_v35, main_v36, main_v37, main_v38, main_v39, main_v40, main_v41, main_v42]
set_option maxRecDepth 4096 in
theorem w0_writes : (w0 : List (HloOp τ sig (Elt F))).Forall fun op => op.writes ⊆ (w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w0_sub : (w0 : List (HloOp τ sig (Elt F))).Forall fun op => op.bufs ⊆ tcRefs τ sig :=
  ⟨binary_bufs_sub .., unary_bufs_sub .., reshape_bufs_sub .., binary_bufs_sub .., unary_bufs_sub .., reshape_bufs_sub .., binary_bufs_sub .., binary_bufs_sub .., binary_bufs_sub .., nullary_bufs_sub .., unary_bufs_sub .., binary_bufs_sub .., binary_bufs_sub .., unary_bufs_sub .., reshape_bufs_sub .., binary_bufs_sub .., binary_bufs_sub .., binary_bufs_sub .., nullary_bufs_sub .., unary_bufs_sub .., binary_bufs_sub .., binary_bufs_sub .., unary_bufs_sub .., reshape_bufs_sub .., binary_bufs_sub .., binary_bufs_sub .., binary_bufs_sub .., nullary_bufs_sub .., unary_bufs_sub .., binary_bufs_sub .., binary_bufs_sub .., unary_bufs_sub .., reshape_bufs_sub .., binary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub ..⟩

/-- @main's operations 48 … 82 of 353, calls unfolded. -/
abbrev w1 : List (HloOp τ sig (Elt F)) :=
  [ nullary main_cst_3 (constant S_ .f32 0x00000000#32),
    binary main_v42 main_cst_3 main_v43 ((fun x v => Host.reduceAdd x v reducesTo_S64x512x64_S64_d1_2 h_S_) : (⟨S64x512x64, .f32⟩ : BufTy).Contents (Elt F) → (⟨S_, .f32⟩ : BufTy).Contents (Elt F) → (⟨S64, .f32⟩ : BufTy).Contents (Elt F)),
    unary main_v43 main_v44 (broadcastInDim S64x1x1 ![0] bcast_S64_S64x1x1_0 : (⟨S64, .f32⟩ : BufTy).Contents (Elt F) → (⟨S64x1x1, .f32⟩ : BufTy).Contents (Elt F)),
    nullary main_cst_4 (constant S_ .f32 0x47000000#32),
    unary main_cst_4 main_v45 (broadcastInDim S64x1x1 ![] bcast_S_S64x1x1 : (⟨S_, .f32⟩ : BufTy).Contents (Elt F) → (⟨S64x1x1, .f32⟩ : BufTy).Contents (Elt F)),
    binary main_v44 main_v45 main_v46 (Host.divf : (⟨S64x1x1, .f32⟩ : BufTy).Contents (Elt F) → (⟨S64x1x1, .f32⟩ : BufTy).Contents (Elt F) → (⟨S64x1x1, .f32⟩ : BufTy).Contents (Elt F)),
    nullary main_c (constantI S_ 32 0#32),
    nullary main_call0_cst (constant S_ .f32 0x00000000#32),
    binary main_v42 main_call0_cst main_call0_v0 ((fun x v => Host.reduceAdd x v reducesTo_S64x512x64_S64_d1_2 h_S_) : (⟨S64x512x64, .f32⟩ : BufTy).Contents (Elt F) → (⟨S_, .f32⟩ : BufTy).Contents (Elt F) → (⟨S64, .f32⟩ : BufTy).Contents (Elt F)),
    unary main_call0_v0 main_call0_v1 ((broadcastInDim S64x1x1 ![0] bcast_S64_S64x1x1_0) : (⟨S64, .f32⟩ : BufTy).Contents (Elt F) → (⟨S64x1x1, .f32⟩ : BufTy).Contents (Elt F)),
    nullary main_call0_cst_0 (constant S_ .f32 0x47000000#32),
    unary main_call0_cst_0 main_call0_v2 ((broadcastInDim S64x1x1 ![] bcast_S_S64x1x1) : (⟨S_, .f32⟩ : BufTy).Contents (Elt F) → (⟨S64x1x1, .f32⟩ : BufTy).Contents (Elt F)),
    binary main_call0_v1 main_call0_v2 main_call0_v3 ((Host.divf) : (⟨S64x1x1, .f32⟩ : BufTy).Contents (Elt F) → (⟨S64x1x1, .f32⟩ : BufTy).Contents (Elt F) → (⟨S64x1x1, .f32⟩ : BufTy).Contents (Elt F)),
    unary main_call0_v3 main_call0_v4 ((broadcastInDim S64x512x64 ![0, 1, 2] bcast_S64x1x1_S64x512x64_0_1_2) : (⟨S64x1x1, .f32⟩ : BufTy).Contents (Elt F) → (⟨S64x512x64, .f32⟩ : BufTy).Contents (Elt F)),
    binary main_v42 main_call0_v4 main_call0_v5 ((subf) : (⟨S64x512x64, .f32⟩ : BufTy).Contents (Elt F) → (⟨S64x512x64, .f32⟩ : BufTy).Contents (Elt F) → (⟨S64x512x64, .f32⟩ : BufTy).Contents (Elt F)),
    binary main_call0_v5 main_call0_v5 main_call0_v6 ((mulf) : (⟨S64x512x64, .f32⟩ : BufTy).Contents (Elt F) → (⟨S64x512x64, .f32⟩ : BufTy).Contents (Elt F) → (⟨S64x512x64, .f32⟩ : BufTy).Contents (Elt F)),
    unary main_c main_call0_v7 ((sitofp .f32) : (⟨S_, .i32⟩ : BufTy).Contents (Elt F) → (⟨S_, .f32⟩ : BufTy).Contents (Elt F)),
    nullary main_call0_cst_1 (constant S_ .f32 0x47000000#32),
    binary main_call0_cst_1 main_call0_v7 main_call0_v8 ((subf) : (⟨S_, .f32⟩ : BufTy).Contents (Elt F) → (⟨S_, .f32⟩ : BufTy).Contents (Elt F) → (⟨S_, .f32⟩ : BufTy).Contents (Elt F)),
    nullary main_call0_cst_2 (constant S_ .f32 0x00000000#32),
    binary main_call0_v6 main_call0_cst_2 main_call0_v9 ((fun x v => Host.reduceAdd x v reducesTo_S64x512x64_S64_d1_2 h_S_) : (⟨S64x512x64, .f32⟩ : BufTy).Contents (Elt F) → (⟨S_, .f32⟩ : BufTy).Contents (Elt F) → (⟨S64, .f32⟩ : BufTy).Contents (Elt F)),
    unary main_call0_v9 main_call0_v10 ((broadcastInDim S64x1x1 ![0] bcast_S64_S64x1x1_0) : (⟨S64, .f32⟩ : BufTy).Contents (Elt F) → (⟨S64x1x1, .f32⟩ : BufTy).Contents (Elt F)),
    unary main_call0_v8 main_call0_v11 ((broadcastInDim S64x1x1 ![] bcast_S_S64x1x1) : (⟨S_, .f32⟩ : BufTy).Contents (Elt F) → (⟨S64x1x1, .f32⟩ : BufTy).Contents (Elt F)),
    binary main_call0_v10 main_call0_v11 main_call0_v12 ((Host.divf) : (⟨S64x1x1, .f32⟩ : BufTy).Contents (Elt F) → (⟨S64x1x1, .f32⟩ : BufTy).Contents (Elt F) → (⟨S64x1x1, .f32⟩ : BufTy).Contents (Elt F)),
    nullary main_call0_cst_3 (constant S_ .f32 0x00000000#32),
    binary main_call0_v8 main_call0_cst_3 main_call0_v13 ((cmpf .ogt) : (⟨S_, .f32⟩ : BufTy).Contents (Elt F) → (⟨S_, .f32⟩ : BufTy).Contents (Elt F) → (⟨S_, .i1⟩ : BufTy).Contents (Elt F)),
    nullary main_call0_cst_4 (constant S_ .f32 0x7FC00000#32),
    unary main_call0_cst_4 main_call0_call0_v0 ((id) : (⟨S_, .f32⟩ : BufTy).Contents (Elt F) → (⟨S_, .f32⟩ : BufTy).Contents (Elt F)),
    unary main_call0_call0_v0 main_call0_call0_v1 ((broadcastInDim S64x1x1 ![] bcast_S_S64x1x1) : (⟨S_, .f32⟩ : BufTy).Contents (Elt F) → (⟨S64x1x1, .f32⟩ : BufTy).Contents (Elt F)),
    ternary main_call0_v13 main_call0_v12 main_call0_call0_v1 main_v47 ((fun p a b => select (broadcastInDim S64x1x1 ![] bcast_S_S64x1x1 p) a b) : (⟨S_, .i1⟩ : BufTy).Contents (Elt F) → (⟨S64x1x1, .f32⟩ : BufTy).Contents (Elt F) → (⟨S64x1x1, .f32⟩ : BufTy).Contents (Elt F) → (⟨S64x1x1, .f32⟩ : BufTy).Contents (Elt F)),
    unary main_v46 main_v48 (broadcastInDim S64x512x64 ![0, 1, 2] bcast_S64x1x1_S64x512x64_0_1_2 : (⟨S64x1x1, .f32⟩ : BufTy).Contents (Elt F) → (⟨S64x512x64, .f32⟩ : BufTy).Contents (Elt F)),
    binary main_v42 main_v48 main_v49 (subf : (⟨S64x512x64, .f32⟩ : BufTy).Contents (Elt F) → (⟨S64x512x64, .f32⟩ : BufTy).Contents (Elt F) → (⟨S64x512x64, .f32⟩ : BufTy).Contents (Elt F)),
    nullary main_cst_5 (constant S_ .f32 0x3727C5AC#32),
    unary main_cst_5 main_v50 (broadcastInDim S64x1x1 ![] bcast_S_S64x1x1 : (⟨S_, .f32⟩ : BufTy).Contents (Elt F) → (⟨S64x1x1, .f32⟩ : BufTy).Contents (Elt F)),
    binary main_v47 main_v50 main_v51 (addf : (⟨S64x1x1, .f32⟩ : BufTy).Contents (Elt F) → (⟨S64x1x1, .f32⟩ : BufTy).Contents (Elt F) → (⟨S64x1x1, .f32⟩ : BufTy).Contents (Elt F)) ]

/-- The buffers stretch 1 writes. -/
abbrev w1_W : List (Ref sig .tc) := [main_cst_3, main_v43, main_v44, main_cst_4, main_v45, main_v46, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_v12, main_call0_cst_3, main_call0_v13, main_call0_cst_4, main_call0_call0_v0, main_call0_call0_v1, main_v47, main_v48, main_v49, main_cst_5, main_v50, main_v51]
set_option maxRecDepth 4096 in
theorem w1_writes : (w1 : List (HloOp τ sig (Elt F))).Forall fun op => op.writes ⊆ (w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w1_sub : (w1 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub ..⟩

/-- @main's operations 83 … 94 of 353, calls unfolded. -/
abbrev w2 : List (HloOp τ sig (Elt F)) :=
  [ unary main_v51 main_v52 (Host.sqrt : (⟨S64x1x1, .f32⟩ : BufTy).Contents (Elt F) → (⟨S64x1x1, .f32⟩ : BufTy).Contents (Elt F)),
    unary main_v52 main_v53 (broadcastInDim S64x512x64 ![0, 1, 2] bcast_S64x1x1_S64x512x64_0_1_2 : (⟨S64x1x1, .f32⟩ : BufTy).Contents (Elt F) → (⟨S64x512x64, .f32⟩ : BufTy).Contents (Elt F)),
    binary main_v49 main_v53 main_v54 (Host.divf : (⟨S64x512x64, .f32⟩ : BufTy).Contents (Elt F) → (⟨S64x512x64, .f32⟩ : BufTy).Contents (Elt F) → (⟨S64x512x64, .f32⟩ : BufTy).Contents (Elt F)),
    unary main_arg8 main_v55 (broadcastInDim S1x512x64 ![1, 2] bcast_S512x64_S1x512x64_1_2 : (⟨S512x64, .f32⟩ : BufTy).Contents (Elt F) → (⟨S1x512x64, .f32⟩ : BufTy).Contents (Elt F)),
    unary main_v55 main_v56 (broadcastInDim S64x512x64 ![0, 1, 2] bcast_S1x512x64_S64x512x64_0_1_2 : (⟨S1x512x64, .f32⟩ : BufTy).Contents (Elt F) → (⟨S64x512x64, .f32⟩ : BufTy).Contents (Elt F)),
    binary main_v54 main_v56 main_v57 (mulf : (⟨S64x512x64, .f32⟩ : BufTy).Contents (Elt F) → (⟨S64x512x64, .f32⟩ : BufTy).Contents (Elt F) → (⟨S64x512x64, .f32⟩ : BufTy).Contents (Elt F)),
    unary main_arg9 main_v58 (broadcastInDim S1x512x64 ![1, 2] bcast_S512x64_S1x512x64_1_2 : (⟨S512x64, .f32⟩ : BufTy).Contents (Elt F) → (⟨S1x512x64, .f32⟩ : BufTy).Contents (Elt F)),
    unary main_v58 main_v59 (broadcastInDim S64x512x64 ![0, 1, 2] bcast_S1x512x64_S64x512x64_0_1_2 : (⟨S1x512x64, .f32⟩ : BufTy).Contents (Elt F) → (⟨S64x512x64, .f32⟩ : BufTy).Contents (Elt F)),
    binary main_v57 main_v59 main_v60 (addf : (⟨S64x512x64, .f32⟩ : BufTy).Contents (Elt F) → (⟨S64x512x64, .f32⟩ : BufTy).Contents (Elt F) → (⟨S64x512x64, .f32⟩ : BufTy).Contents (Elt F)),
    nullary main_call1_cst (constant S_ .f32 0x00000000#32),
    unary main_call1_cst main_call1_v0 ((broadcastInDim S64x512x64 ![] bcast_S_S64x512x64) : (⟨S_, .f32⟩ : BufTy).Contents (Elt F) → (⟨S64x512x64, .f32⟩ : BufTy).Contents (Elt F)),
    binary main_v60 main_call1_v0 main_v61 ((maximumf) : (⟨S64x512x64, .f32⟩ : BufTy).Contents (Elt F) → (⟨S64x512x64, .f32⟩ : BufTy).Contents (Elt F) → (⟨S64x512x64, .f32⟩ : BufTy).Contents (Elt F)) ]

/-- The buffers stretch 2 writes. -/
abbrev w2_W : List (Ref sig .tc) := [main_v52, main_v53, main_v54, main_v55, main_v56, main_v57, main_v58, main_v59, main_v60, main_call1_cst, main_call1_v0, main_v61]
set_option maxRecDepth 4096 in
theorem w2_writes : (w2 : List (HloOp τ sig (Elt F))).Forall fun op => op.writes ⊆ (w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w2_sub : (w2 : List (HloOp τ sig (Elt F))).Forall fun op => op.bufs ⊆ tcRefs τ sig :=
  ⟨unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- @main's operations 95 … 144 of 353, calls unfolded. -/
abbrev w3 : List (HloOp τ sig (Elt F)) :=
  [ nullary main_cst_6 (constant S_ .f32 0x00000000#32),
    binary main_v61 main_cst_6 main_v62 ((fun x v => Host.reduceAdd x v reducesTo_S64x512x64_S64x64_d1 h_S_) : (⟨S64x512x64, .f32⟩ : BufTy).Contents (Elt F) → (⟨S_, .f32⟩ : BufTy).Contents (Elt F) → (⟨S64x64, .f32⟩ : BufTy).Contents (Elt F)),
    unary main_v62 main_v63 (broadcastInDim S64x1x64 ![0, 2] bcast_S64x64_S64x1x64_0_2 : (⟨S64x64, .f32⟩ : BufTy).Contents (Elt F) → (⟨S64x1x64, .f32⟩ : BufTy).Contents (Elt F)),
    nullary main_cst_7 (constant S_ .f32 0x44000000#32),
    unary main_cst_7 main_v64 (broadcastInDim S64x1x64 ![] bcast_S_S64x1x64 : (⟨S_, .f32⟩ : BufTy).Contents (Elt F) → (⟨S64x1x64, .f32⟩ : BufTy).Contents (Elt F)),
    binary main_v63 main_v64 main_v65 (Host.divf : (⟨S64x1x64, .f32⟩ : BufTy).Contents (Elt F) → (⟨S64x1x64, .f32⟩ : BufTy).Contents (Elt F) → (⟨S64x1x64, .f32⟩ : BufTy).Contents (Elt F)),
    nullary main_cst_8 (constant S_ .f32 0xFF800000#32),
    binary main_v61 main_cst_8 main_v66 ((fun x v => Host.reduce FloatOps.maximumf x v reducesTo_S64x512x64_S64x64_d1 h_S_) : (⟨S64x512x64, .f32⟩ : BufTy).Contents (Elt F) → (⟨S_, .f32⟩ : BufTy).Contents (Elt F) → (⟨S64x64, .f32⟩ : BufTy).Contents (Elt F)),
    unary main_v66 main_v67 (broadcastInDim S64x1x64 ![0, 2] bcast_S64x64_S64x1x64_0_2 : (⟨S64x64, .f32⟩ : BufTy).Contents (Elt F) → (⟨S64x1x64, .f32⟩ : BufTy).Contents (Elt F)),
    binary main_v65 main_v67 main_v68 ((fun a b => cat2 a b) : (⟨S64x1x64, .f32⟩ : BufTy).Contents (Elt F) → (⟨S64x1x64, .f32⟩ : BufTy).Contents (Elt F) → (⟨S64x1x128, .f32⟩ : BufTy).Contents (Elt F)),
    binary main_arg0 main_v61 main_v69 ((fun l r => Host.dotGeneral dot_S64x512x512_S64x512x64_S64x512x64_2_1_1_2_0_0 none l r) : (⟨S64x512x512, .f32⟩ : BufTy).Contents (Elt F) → (⟨S64x512x64, .f32⟩ : BufTy).Contents (Elt F) → (⟨S64x512x64, .f32⟩ : BufTy).Contents (Elt F)),
    unary main_arg4 main_v70 ((extractStridedSlice S1x64x64 ![0, 0, 0] · slices_S6x64x64_S1x64x64_0_0_0) : (⟨S6x64x64, .f32⟩ : BufTy).Contents (Elt F) → (⟨S1x64x64, .f32⟩ : BufTy).Contents (Elt F)),
    reshape main_v70 main_v71 rfl shapeCasts_S1x64x64_S64x64,
    binary main_v61 main_v71 main_v72 ((fun l r => Host.dotGeneral dot_S64x512x64_S64x64_S64x512x64_2_0_01_1_n_n none l r) : (⟨S64x512x64, .f32⟩ : BufTy).Contents (Elt F) → (⟨S64x64, .f32⟩ : BufTy).Contents (Elt F) → (⟨S64x512x64, .f32⟩ : BufTy).Contents (Elt F)),
    unary main_arg4 main_v73 ((extractStridedSlice S1x64x64 ![1, 0, 0] · slices_S6x64x64_S1x64x64_1_0_0) : (⟨S6x64x64, .f32⟩ : BufTy).Contents (Elt F) → (⟨S1x64x64, .f32⟩ : BufTy).Contents (Elt F)),
    reshape main_v73 main_v74 rfl shapeCasts_S1x64x64_S64x64,
    binary main_v69 main_v74 main_v75 ((fun l r => Host.dotGeneral dot_S64x512x64_S64x64_S64x512x64_2_0_01_1_n_n none l r) : (⟨S64x512x64, .f32⟩ : BufTy).Contents (Elt F) → (⟨S64x64, .f32⟩ : BufTy).Contents (Elt F) → (⟨S64x512x64, .f32⟩ : BufTy).Contents (Elt F)),
    binary main_v72 main_v75 main_v76 (addf : (⟨S64x512x64, .f32⟩ : BufTy).Contents (Elt F) → (⟨S64x512x64, .f32⟩ : BufTy).Contents (Elt F) → (⟨S64x512x64, .f32⟩ : BufTy).Contents (Elt F)),
    binary main_arg0 main_v69 main_v77 ((fun l r => Host.dotGeneral dot_S64x512x512_S64x512x64_S64x512x64_2_1_1_2_0_0 none l r) : (⟨S64x512x512, .f32⟩ : BufTy).Contents (Elt F) → (⟨S64x512x64, .f32⟩ : BufTy).Contents (Elt F) → (⟨S64x512x64, .f32⟩ : BufTy).Contents (Elt F)),
    nullary main_cst_9 (constant S_ .f32 0x40000000#32),
    unary main_cst_9 main_v78 (broadcastInDim S64x512x64 ![] bcast_S_S64x512x64 : (⟨S_, .f32⟩ : BufTy).Contents (Elt F) → (⟨S64x512x64, .f32⟩ : BufTy).Contents (Elt F)),
    binary main_v78 main_v77 main_v79 (mulf : (⟨S64x512x64, .f32⟩ : BufTy).Contents (Elt F) → (⟨S64x512x64, .f32⟩ : BufTy).Contents (Elt F) → (⟨S64x512x64, .f32⟩ : BufTy).Contents (Elt F)),
    binary main_v79 main_v61 main_v80 (subf : (⟨S64x512x64, .f32⟩ : BufTy).Contents (Elt F) → (⟨S64x512x64, .f32⟩ : BufTy).Contents (Elt F) → (⟨S64x512x64, .f32⟩ : BufTy).Contents (Elt F)),
    unary main_arg4 main_v81 ((extractStridedSlice S1x64x64 ![2, 0, 0] · slices_S6x64x64_S1x64x64_2_0_0) : (⟨S6x64x64, .f32⟩ : BufTy).Contents (Elt F) → (⟨S1x64x64, .f32⟩ : BufTy).Contents (Elt F)),
    reshape main_v81 main_v82 rfl shapeCasts_S1x64x64_S64x64,
    binary main_v80 main_v82 main_v83 ((fun l r => Host.dotGeneral dot_S64x512x64_S64x64_S64x512x64_2_0_01_1_n_n none l r) : (⟨S64x512x64, .f32⟩ : BufTy).Contents (Elt F) → (⟨S64x64, .f32⟩ : BufTy).Contents (Elt F) → (⟨S64x512x64, .f32⟩ : BufTy).Contents (Elt F)),
    binary main_v76 main_v83 main_v84 (addf : (⟨S64x512x64, .f32⟩ : BufTy).Contents (Elt F) → (⟨S64x512x64, .f32⟩ : BufTy).Contents (Elt F) → (⟨S64x512x64, .f32⟩ : BufTy).Contents (Elt F)),
    binary main_arg0 main_v80 main_v85 ((fun l r => Host.dotGeneral dot_S64x512x512_S64x512x64_S64x512x64_2_1_1_2_0_0 none l r) : (⟨S64x512x512, .f32⟩ : BufTy).Contents (Elt F) → (⟨S64x512x64, .f32⟩ : BufTy).Contents (Elt F) → (⟨S64x512x64, .f32⟩ : BufTy).Contents (Elt F)),
    nullary main_cst_10 (constant S_ .f32 0x40000000#32),
    unary main_cst_10 main_v86 (broadcastInDim S64x512x64 ![] bcast_S_S64x512x64 : (⟨S_, .f32⟩ : BufTy).Contents (Elt F) → (⟨S64x512x64, .f32⟩ : BufTy).Contents (Elt F)),
    binary main_v86 main_v85 main_v87 (mulf : (⟨S64x512x64, .f32⟩ : BufTy).Contents (Elt F) → (⟨S64x512x64, .f32⟩ : BufTy).Contents (Elt F) → (⟨S64x512x64, .f32⟩ : BufTy).Contents (Elt F)),
    binary main_v87 main_v69 main_v88 (subf : (⟨S64x512x64, .f32⟩ : BufTy).Contents (Elt F) → (⟨S64x512x64, .f32⟩ : BufTy).Contents (Elt F) → (⟨S64x512x64, .f32⟩ : BufTy).Contents (Elt F)),
    unary main_arg4 main_v89 ((extractStridedSlice S1x64x64 ![3, 0, 0] · slices_S6x64x64_S1x64x64_3_0_0) : (⟨S6x64x64, .f32⟩ : BufTy).Contents (Elt F) → (⟨S1x64x64, .f32⟩ : BufTy).Contents (Elt F)),
    reshape main_v89 main_v90 rfl shapeCasts_S1x64x64_S64x64,
    binary main_v88 main_v90 main_v91 ((fun l r => Host.dotGeneral dot_S64x512x64_S64x64_S64x512x64_2_0_01_1_n_n none l r) : (⟨S64x512x64, .f32⟩ : BufTy).Contents (Elt F) → (⟨S64x64, .f32⟩ : BufTy).Contents (Elt F) → (⟨S64x512x64, .f32⟩ : BufTy).Contents (Elt F)),
    binary main_v84 main_v91 main_v92 (addf : (⟨S64x512x64, .f32⟩ : BufTy).Contents (Elt F) → (⟨S64x512x64, .f32⟩ : BufTy).Contents (Elt F) → (⟨S64x512x64, .f32⟩ : BufTy).Contents (Elt F)),
    binary main_arg0 main_v88 main_v93 ((fun l r => Host.dotGeneral dot_S64x512x512_S64x512x64_S64x512x64_2_1_1_2_0_0 none l r) : (⟨S64x512x512, .f32⟩ : BufTy).Contents (Elt F) → (⟨S64x512x64, .f32⟩ : BufTy).Contents (Elt F) → (⟨S64x512x64, .f32⟩ : BufTy).Contents (Elt F)),
    nullary main_cst_11 (constant S_ .f32 0x40000000#32),
    unary main_cst_11 main_v94 (broadcastInDim S64x512x64 ![] bcast_S_S64x512x64 : (⟨S_, .f32⟩ : BufTy).Contents (Elt F) → (⟨S64x512x64, .f32⟩ : BufTy).Contents (Elt F)),
    binary main_v94 main_v93 main_v95 (mulf : (⟨S64x512x64, .f32⟩ : BufTy).Contents (Elt F) → (⟨S64x512x64, .f32⟩ : BufTy).Contents (Elt F) → (⟨S64x512x64, .f32⟩ : BufTy).Contents (Elt F)),
    binary main_v95 main_v80 main_v96 (subf : (⟨S64x512x64, .f32⟩ : BufTy).Contents (Elt F) → (⟨S64x512x64, .f32⟩ : BufTy).Contents (Elt F) → (⟨S64x512x64, .f32⟩ : BufTy).Contents (Elt F)),
    unary main_arg4 main_v97 ((extractStridedSlice S1x64x64 ![4, 0, 0] · slices_S6x64x64_S1x64x64_4_0_0) : (⟨S6x64x64, .f32⟩ : BufTy).Contents (Elt F) → (⟨S1x64x64, .f32⟩ : BufTy).Contents (Elt F)),
    reshape main_v97 main_v98 rfl shapeCasts_S1x64x64_S64x64,
    binary main_v96 main_v98 main_v99 ((fun l r => Host.dotGeneral dot_S64x512x64_S64x64_S64x512x64_2_0_01_1_n_n none l r) : (⟨S64x512x64, .f32⟩ : BufTy).Contents (Elt F) → (⟨S64x64, .f32⟩ : BufTy).Contents (Elt F) → (⟨S64x512x64, .f32⟩ : BufTy).Contents (Elt F)),
    binary main_v92 main_v99 main_v100 (addf : (⟨S64x512x64, .f32⟩ : BufTy).Contents (Elt F) → (⟨S64x512x64, .f32⟩ : BufTy).Contents (Elt F) → (⟨S64x512x64, .f32⟩ : BufTy).Contents (Elt F)),
    binary main_arg0 main_v96 main_v101 ((fun l r => Host.dotGeneral dot_S64x512x512_S64x512x64_S64x512x64_2_1_1_2_0_0 none l r) : (⟨S64x512x512, .f32⟩ : BufTy).Contents (Elt F) → (⟨S64x512x64, .f32⟩ : BufTy).Contents (Elt F) → (⟨S64x512x64, .f32⟩ : BufTy).Contents (Elt F)),
    nullary main_cst_12 (constant S_ .f32 0x40000000#32),
    unary main_cst_12 main_v102 (broadcastInDim S64x512x64 ![] bcast_S_S64x512x64 : (⟨S_, .f32⟩ : BufTy).Contents (Elt F) → (⟨S64x512x64, .f32⟩ : BufTy).Contents (Elt F)),
    binary main_v102 main_v101 main_v103 (mulf : (⟨S64x512x64, .f32⟩ : BufTy).Contents (Elt F) → (⟨S64x512x64, .f32⟩ : BufTy).Contents (Elt F) → (⟨S64x512x64, .f32⟩ : BufTy).Contents (Elt F)),
    binary main_v103 main_v88 main_v104 (subf : (⟨S64x512x64, .f32⟩ : BufTy).Contents (Elt F) → (⟨S64x512x64, .f32⟩ : BufTy).Contents (Elt F) → (⟨S64x512x64, .f32⟩ : BufTy).Contents (Elt F)) ]

/-- The buffers stretch 3 writes. -/
abbrev w3_W : List (Ref sig .tc) := [main_cst_6, main_v62, main_v63, main_cst_7, main_v64, main_v65, main_cst_8, main_v66, main_v67, main_v68, main_v69, main_v70, main_v71, main_v72, main_v73, main_v74, main_v75, main_v76, main_v77, main_cst_9, main_v78, main_v79, main_v80, main_v81, main_v82, main_v83, main_v84, main_v85, main_cst_10, main_v86, main_v87, main_v88, main_v89, main_v90, main_v91, main_v92, main_v93, main_cst_11, main_v94, main_v95, main_v96, main_v97, main_v98, main_v99, main_v100, main_v101, main_cst_12, main_v102, main_v103, main_v104]
set_option maxRecDepth 4096 in
theorem w3_writes : (w3 : List (HloOp τ sig (Elt F))).Forall fun op => op.writes ⊆ (w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w3_sub : (w3 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., binary_bufs_sub .., unary_bufs_sub .., binary_bufs_sub .., binary_bufs_sub .., unary_bufs_sub .., reshape_bufs_sub .., binary_bufs_sub .., unary_bufs_sub .., reshape_bufs_sub .., binary_bufs_sub .., binary_bufs_sub .., binary_bufs_sub .., nullary_bufs_sub .., unary_bufs_sub .., binary_bufs_sub .., binary_bufs_sub .., unary_bufs_sub .., reshape_bufs_sub .., binary_bufs_sub .., binary_bufs_sub .., binary_bufs_sub .., nullary_bufs_sub .., unary_bufs_sub .., binary_bufs_sub .., binary_bufs_sub .., unary_bufs_sub .., reshape_bufs_sub .., binary_bufs_sub .., binary_bufs_sub .., binary_bufs_sub .., nullary_bufs_sub .., unary_bufs_sub .., binary_bufs_sub .., binary_bufs_sub .., unary_bufs_sub .., reshape_bufs_sub .., binary_bufs_sub .., binary_bufs_sub .., binary_bufs_sub .., nullary_bufs_sub .., unary_bufs_sub .., binary_bufs_sub .., binary_bufs_sub ..⟩

/-- @main's operations 145 … 151 of 353, calls unfolded. -/
abbrev w4 : List (HloOp τ sig (Elt F)) :=
  [ unary main_arg4 main_v105 ((extractStridedSlice S1x64x64 ![5, 0, 0] · slices_S6x64x64_S1x64x64_5_0_0) : (⟨S6x64x64, .f32⟩ : BufTy).Contents (Elt F) → (⟨S1x64x64, .f32⟩ : BufTy).Contents (Elt F)),
    reshape main_v105 main_v106 rfl shapeCasts_S1x64x64_S64x64,
    binary main_v104 main_v106 main_v107 ((fun l r => Host.dotGeneral dot_S64x512x64_S64x64_S64x512x64_2_0_01_1_n_n none l r) : (⟨S64x512x64, .f32⟩ : BufTy).Contents (Elt F) → (⟨S64x64, .f32⟩ : BufTy).Contents (Elt F) → (⟨S64x512x64, .f32⟩ : BufTy).Contents (Elt F)),
    binary main_v100 main_v107 main_v108 (addf : (⟨S64x512x64, .f32⟩ : BufTy).Contents (Elt F) → (⟨S64x512x64, .f32⟩ : BufTy).Contents (Elt F) → (⟨S64x512x64, .f32⟩ : BufTy).Contents (Elt F)),
    unary main_arg5 main_v109 (broadcastInDim S1x1x64 ![2] bcast_S64_S1x1x64_2 : (⟨S64, .f32⟩ : BufTy).Contents (Elt F) → (⟨S1x1x64, .f32⟩ : BufTy).Contents (Elt F)),
    unary main_v109 main_v110 (broadcastInDim S64x512x64 ![0, 1, 2] bcast_S1x1x64_S64x512x64_0_1_2 : (⟨S1x1x64, .f32⟩ : BufTy).Contents (Elt F) → (⟨S64x512x64, .f32⟩ : BufTy).Contents (Elt F)),
    binary main_v108 main_v110 main_v111 (addf : (⟨S64x512x64, .f32⟩ : BufTy).Contents (Elt F) → (⟨S64x512x64, .f32⟩ : BufTy).Contents (Elt F) → (⟨S64x512x64, .f32⟩ : BufTy).Contents (Elt F)) ]

/-- The buffers stretch 4 writes. -/
abbrev w4_W : List (Ref sig .tc) := [main_v105, main_v106, main_v107, main_v108, main_v109, main_v110, main_v111]
set_option maxRecDepth 4096 in
theorem w4_writes : (w4 : List (HloOp τ sig (Elt F))).Forall fun op => op.writes ⊆ (w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w4_sub : (w4 : List (HloOp τ sig (Elt F))).Forall fun op => op.bufs ⊆ tcRefs τ sig :=
  ⟨unary_bufs_sub .., reshape_bufs_sub .., binary_bufs_sub .., binary_bufs_sub .., unary_bufs_sub .., unary_bufs_sub .., binary_bufs_sub ..⟩

/-- @main's operations 152 … 198 of 353, calls unfolded. -/
abbrev w5 : List (HloOp τ sig (Elt F)) :=
  [ nullary main_cst_13 (constant S_ .f32 0x00000000#32),
    binary main_v111 main_cst_13 main_v112 ((fun x v => Host.reduceAdd x v reducesTo_S64x512x64_S64_d1_2 h_S_) : (⟨S64x512x64, .f32⟩ : BufTy).Contents (Elt F) → (⟨S_, .f32⟩ : BufTy).Contents (Elt F) → (⟨S64, .f32⟩ : BufTy).Contents (Elt F)),
    unary main_v112 main_v113 (broadcastInDim S64x1x1 ![0] bcast_S64_S64x1x1_0 : (⟨S64, .f32⟩ : BufTy).Contents (Elt F) → (⟨S64x1x1, .f32⟩ : BufTy).Contents (Elt F)),
    nullary main_cst_14 (constant S_ .f32 0x47000000#32),
    unary main_cst_14 main_v114 (broadcastInDim S64x1x1 ![] bcast_S_S64x1x1 : (⟨S_, .f32⟩ : BufTy).Contents (Elt F) → (⟨S64x1x1, .f32⟩ : BufTy).Contents (Elt F)),
    binary main_v113 main_v114 main_v115 (Host.divf : (⟨S64x1x1, .f32⟩ : BufTy).Contents (Elt F) → (⟨S64x1x1, .f32⟩ : BufTy).Contents (Elt F) → (⟨S64x1x1, .f32⟩ : BufTy).Contents (Elt F)),
    nullary main_c_15 (constantI S_ 32 0#32),
    nullary main_call2_cst (constant S_ .f32 0x00000000#32),
    binary main_v111 main_call2_cst main_call2_v0 ((fun x v => Host.reduceAdd x v reducesTo_S64x512x64_S64_d1_2 h_S_) : (⟨S64x512x64, .f32⟩ : BufTy).Contents (Elt F) → (⟨S_, .f32⟩ : BufTy).Contents (Elt F) → (⟨S64, .f32⟩ : BufTy).Contents (Elt F)),
    unary main_call2_v0 main_call2_v1 ((broadcastInDim S64x1x1 ![0] bcast_S64_S64x1x1_0) : (⟨S64, .f32⟩ : BufTy).Contents (Elt F) → (⟨S64x1x1, .f32⟩ : BufTy).Contents (Elt F)),
    nullary main_call2_cst_0 (constant S_ .f32 0x47000000#32),
    unary main_call2_cst_0 main_call2_v2 ((broadcastInDim S64x1x1 ![] bcast_S_S64x1x1) : (⟨S_, .f32⟩ : BufTy).Contents (Elt F) → (⟨S64x1x1, .f32⟩ : BufTy).Contents (Elt F)),
    binary main_call2_v1 main_call2_v2 main_call2_v3 ((Host.divf) : (⟨S64x1x1, .f32⟩ : BufTy).Contents (Elt F) → (⟨S64x1x1, .f32⟩ : BufTy).Contents (Elt F) → (⟨S64x1x1, .f32⟩ : BufTy).Contents (Elt F)),
    unary main_call2_v3 main_call2_v4 ((broadcastInDim S64x512x64 ![0, 1, 2] bcast_S64x1x1_S64x512x64_0_1_2) : (⟨S64x1x1, .f32⟩ : BufTy).Contents (Elt F) → (⟨S64x512x64, .f32⟩ : BufTy).Contents (Elt F)),
    binary main_v111 main_call2_v4 main_call2_v5 ((subf) : (⟨S64x512x64, .f32⟩ : BufTy).Contents (Elt F) → (⟨S64x512x64, .f32⟩ : BufTy).Contents (Elt F) → (⟨S64x512x64, .f32⟩ : BufTy).Contents (Elt F)),
    binary main_call2_v5 main_call2_v5 main_call2_v6 ((mulf) : (⟨S64x512x64, .f32⟩ : BufTy).Contents (Elt F) → (⟨S64x512x64, .f32⟩ : BufTy).Contents (Elt F) → (⟨S64x512x64, .f32⟩ : BufTy).Contents (Elt F)),
    unary main_c_15 main_call2_v7 ((sitofp .f32) : (⟨S_, .i32⟩ : BufTy).Contents (Elt F) → (⟨S_, .f32⟩ : BufTy).Contents (Elt F)),
    nullary main_call2_cst_1 (constant S_ .f32 0x47000000#32),
    binary main_call2_cst_1 main_call2_v7 main_call2_v8 ((subf) : (⟨S_, .f32⟩ : BufTy).Contents (Elt F) → (⟨S_, .f32⟩ : BufTy).Contents (Elt F) → (⟨S_, .f32⟩ : BufTy).Contents (Elt F)),
    nullary main_call2_cst_2 (constant S_ .f32 0x00000000#32),
    binary main_call2_v6 main_call2_cst_2 main_call2_v9 ((fun x v => Host.reduceAdd x v reducesTo_S64x512x64_S64_d1_2 h_S_) : (⟨S64x512x64, .f32⟩ : BufTy).Contents (Elt F) → (⟨S_, .f32⟩ : BufTy).Contents (Elt F) → (⟨S64, .f32⟩ : BufTy).Contents (Elt F)),
    unary main_call2_v9 main_call2_v10 ((broadcastInDim S64x1x1 ![0] bcast_S64_S64x1x1_0) : (⟨S64, .f32⟩ : BufTy).Contents (Elt F) → (⟨S64x1x1, .f32⟩ : BufTy).Contents (Elt F)),
    unary main_call2_v8 main_call2_v11 ((broadcastInDim S64x1x1 ![] bcast_S_S64x1x1) : (⟨S_, .f32⟩ : BufTy).Contents (Elt F) → (⟨S64x1x1, .f32⟩ : BufTy).Contents (Elt F)),
    binary main_call2_v10 main_call2_v11 main_call2_v12 ((Host.divf) : (⟨S64x1x1, .f32⟩ : BufTy).Contents (Elt F) → (⟨S64x1x1, .f32⟩ : BufTy).Contents (Elt F) → (⟨S64x1x1, .f32⟩ : BufTy).Contents (Elt F)),
    nullary main_call2_cst_3 (constant S_ .f32 0x00000000#32),
    binary main_call2_v8 main_call2_cst_3 main_call2_v13 ((cmpf .ogt) : (⟨S_, .f32⟩ : BufTy).Contents (Elt F) → (⟨S_, .f32⟩ : BufTy).Contents (Elt F) → (⟨S_, .i1⟩ : BufTy).Contents (Elt F)),
    nullary main_call2_cst_4 (constant S_ .f32 0x7FC00000#32),
    unary main_call2_cst_4 main_call2_call0_v0 ((id) : (⟨S_, .f32⟩ : BufTy).Contents (Elt F) → (⟨S_, .f32⟩ : BufTy).Contents (Elt F)),
    unary main_call2_call0_v0 main_call2_call0_v1 ((broadcastInDim S64x1x1 ![] bcast_S_S64x1x1) : (⟨S_, .f32⟩ : BufTy).Contents (Elt F) → (⟨S64x1x1, .f32⟩ : BufTy).Contents (Elt F)),
    ternary main_call2_v13 main_call2_v12 main_call2_call0_v1 main_v116 ((fun p a b => select (broadcastInDim S64x1x1 ![] bcast_S_S64x1x1 p) a b) : (⟨S_, .i1⟩ : BufTy).Contents (Elt F) → (⟨S64x1x1, .f32⟩ : BufTy).Contents (Elt F) → (⟨S64x1x1, .f32⟩ : BufTy).Contents (Elt F) → (⟨S64x1x1, .f32⟩ : BufTy).Contents (Elt F)),
    unary main_v115 main_v117 (broadcastInDim S64x512x64 ![0, 1, 2] bcast_S64x1x1_S64x512x64_0_1_2 : (⟨S64x1x1, .f32⟩ : BufTy).Contents (Elt F) → (⟨S64x512x64, .f32⟩ : BufTy).Contents (Elt F)),
    binary main_v111 main_v117 main_v118 (subf : (⟨S64x512x64, .f32⟩ : BufTy).Contents (Elt F) → (⟨S64x512x64, .f32⟩ : BufTy).Contents (Elt F) → (⟨S64x512x64, .f32⟩ : BufTy).Contents (Elt F)),
    nullary main_cst_16 (constant S_ .f32 0x3727C5AC#32),
    unary main_cst_16 main_v119 (broadcastInDim S64x1x1 ![] bcast_S_S64x1x1 : (⟨S_, .f32⟩ : BufTy).Contents (Elt F) → (⟨S64x1x1, .f32⟩ : BufTy).Contents (Elt F)),
    binary main_v116 main_v119 main_v120 (addf : (⟨S64x1x1, .f32⟩ : BufTy).Contents (Elt F) → (⟨S64x1x1, .f32⟩ : BufTy).Contents (Elt F) → (⟨S64x1x1, .f32⟩ : BufTy).Contents (Elt F)),
    unary main_v120 main_v121 (Host.sqrt : (⟨S64x1x1, .f32⟩ : BufTy).Contents (Elt F) → (⟨S64x1x1, .f32⟩ : BufTy).Contents (Elt F)),
    unary main_v121 main_v122 (broadcastInDim S64x512x64 ![0, 1, 2] bcast_S64x1x1_S64x512x64_0_1_2 : (⟨S64x1x1, .f32⟩ : BufTy).Contents (Elt F) → (⟨S64x512x64, .f32⟩ : BufTy).Contents (Elt F)),
    binary main_v118 main_v122 main_v123 (Host.divf : (⟨S64x512x64, .f32⟩ : BufTy).Contents (Elt F) → (⟨S64x512x64, .f32⟩ : BufTy).Contents (Elt F) → (⟨S64x512x64, .f32⟩ : BufTy).Contents (Elt F)),
    unary main_arg10 main_v124 (broadcastInDim S1x512x64 ![1, 2] bcast_S512x64_S1x512x64_1_2 : (⟨S512x64, .f32⟩ : BufTy).Contents (Elt F) → (⟨S1x512x64, .f32⟩ : BufTy).Contents (Elt F)),
    unary main_v124 main_v125 (broadcastInDim S64x512x64 ![0, 1, 2] bcast_S1x512x64_S64x512x64_0_1_2 : (⟨S1x512x64, .f32⟩ : BufTy).Contents (Elt F) → (⟨S64x512x64, .f32⟩ : BufTy).Contents (Elt F)),
    binary main_v123 main_v125 main_v126 (mulf : (⟨S64x512x64, .f32⟩ : BufTy).Contents (Elt F) → (⟨S64x512x64, .f32⟩ : BufTy).Contents (Elt F) → (⟨S64x512x64, .f32⟩ : BufTy).Contents (Elt F)),
    unary main_arg11 main_v127 (broadcastInDim S1x512x64 ![1, 2] bcast_S512x64_S1x512x64_1_2 : (⟨S512x64, .f32⟩ : BufTy).Contents (Elt F) → (⟨S1x512x64, .f32⟩ : BufTy).Contents (Elt F)),
    unary main_v127 main_v128 (broadcastInDim S64x512x64 ![0, 1, 2] bcast_S1x512x64_S64x512x64_0_1_2 : (⟨S1x512x64, .f32⟩ : BufTy).Contents (Elt F) → (⟨S64x512x64, .f32⟩ : BufTy).Contents (Elt F)),
    binary main_v126 main_v128 main_v129 (addf : (⟨S64x512x64, .f32⟩ : BufTy).Contents (Elt F) → (⟨S64x512x64, .f32⟩ : BufTy).Contents (Elt F) → (⟨S64x512x64, .f32⟩ : BufTy).Contents (Elt F)),
    nullary main_call3_cst (constant S_ .f32 0x00000000#32),
    unary main_call3_cst main_call3_v0 ((broadcastInDim S64x512x64 ![] bcast_S_S64x512x64) : (⟨S_, .f32⟩ : BufTy).Contents (Elt F) → (⟨S64x512x64, .f32⟩ : BufTy).Contents (Elt F)),
    binary main_v129 main_call3_v0 main_v130 ((maximumf) : (⟨S64x512x64, .f32⟩ : BufTy).Contents (Elt F) → (⟨S64x512x64, .f32⟩ : BufTy).Contents (Elt F) → (⟨S64x512x64, .f32⟩ : BufTy).Contents (Elt F)) ]

/-- The buffers stretch 5 writes. -/
abbrev w5_W : List (Ref sig .tc) := [main_cst_13, main_v112, main_v113, main_cst_14, main_v114, main_v115, main_c_15, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_v12, main_call2_cst_3, main_call2_v13, main_call2_cst_4, main_call2_call0_v0, main_call2_call0_v1, main_v116, main_v117, main_v118, main_cst_16, main_v119, main_v120, main_v121, main_v122, main_v123, main_v124, main_v125, main_v126, main_v127, main_v128, main_v129, main_call3_cst, main_call3_v0, main_v130]
set_option maxRecDepth 4096 in
theorem w5_writes : (w5 : List (HloOp τ sig (Elt F))).Forall fun op => op.writes ⊆ (w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w5_sub : (w5 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., unary_bufs_sub .., binary_bufs_sub .., nullary_bufs_sub .., binary_bufs_sub .., nullary_bufs_sub .., unary_bufs_sub .., unary_bufs_sub .., ternary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub ..⟩

/-- @main's operations 199 … 207 of 353, calls unfolded. -/
abbrev w6 : List (HloOp τ sig (Elt F)) :=
  [ nullary main_cst_17 (constant S_ .f32 0x00000000#32),
    binary main_v130 main_cst_17 main_v131 ((fun x v => Host.reduceAdd x v reducesTo_S64x512x64_S64x64_d1 h_S_) : (⟨S64x512x64, .f32⟩ : BufTy).Contents (Elt F) → (⟨S_, .f32⟩ : BufTy).Contents (Elt F) → (⟨S64x64, .f32⟩ : BufTy).Contents (Elt F)),
    unary main_v131 main_v132 (broadcastInDim S64x1x64 ![0, 2] bcast_S64x64_S64x1x64_0_2 : (⟨S64x64, .f32⟩ : BufTy).Contents (Elt F) → (⟨S64x1x64, .f32⟩ : BufTy).Contents (Elt F)),
    nullary main_cst_18 (constant S_ .f32 0x44000000#32),
    unary main_cst_18 main_v133 (broadcastInDim S64x1x64 ![] bcast_S_S64x1x64 : (⟨S_, .f32⟩ : BufTy).Contents (Elt F) → (⟨S64x1x64, .f32⟩ : BufTy).Contents (Elt F)),
    binary main_v132 main_v133 main_v134 (Host.divf : (⟨S64x1x64, .f32⟩ : BufTy).Contents (Elt F) → (⟨S64x1x64, .f32⟩ : BufTy).Contents (Elt F) → (⟨S64x1x64, .f32⟩ : BufTy).Contents (Elt F)),
    nullary main_cst_19 (constant S_ .f32 0xFF800000#32),
    binary main_v130 main_cst_19 main_v135 ((fun x v => Host.reduce FloatOps.maximumf x v reducesTo_S64x512x64_S64x64_d1 h_S_) : (⟨S64x512x64, .f32⟩ : BufTy).Contents (Elt F) → (⟨S_, .f32⟩ : BufTy).Contents (Elt F) → (⟨S64x64, .f32⟩ : BufTy).Contents (Elt F)),
    unary main_v135 main_v136 (broadcastInDim S64x1x64 ![0, 2] bcast_S64x64_S64x1x64_0_2 : (⟨S64x64, .f32⟩ : BufTy).Contents (Elt F) → (⟨S64x1x64, .f32⟩ : BufTy).Contents (Elt F)) ]

/-- The buffers stretch 6 writes. -/
abbrev w6_W : List (Ref sig .tc) := [main_cst_17, main_v131, main_v132, main_cst_18, main_v133, main_v134, main_cst_19, main_v135, main_v136]
set_option maxRecDepth 4096 in
theorem w6_writes : (w6 : List (HloOp τ sig (Elt F))).Forall fun op => op.writes ⊆ (w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w6_sub : (w6 : List (HloOp τ sig (Elt F))).Forall fun op => op.bufs ⊆ tcRefs τ sig :=
  ⟨nullary_bufs_sub .., binary_bufs_sub .., unary_bufs_sub .., nullary_bufs_sub .., unary_bufs_sub .., binary_bufs_sub .., nullary_bufs_sub .., binary_bufs_sub .., unary_bufs_sub ..⟩

/-- @main's operations 208 … 228 of 353, calls unfolded. -/
abbrev w7 : List (HloOp τ sig (Elt F)) :=
  [ nary ![main_v68, main_v134, main_v136] main_v137 (fun u => cat3 (u 0) (u 1) (u 2)),
    binary main_arg0 main_v130 main_v138 ((fun l r => Host.dotGeneral dot_S64x512x512_S64x512x64_S64x512x64_2_1_1_2_0_0 none l r) : (⟨S64x512x512, .f32⟩ : BufTy).Contents (Elt F) → (⟨S64x512x64, .f32⟩ : BufTy).Contents (Elt F) → (⟨S64x512x64, .f32⟩ : BufTy).Contents (Elt F)),
    unary main_arg6 main_v139 ((extractStridedSlice S1x64x64 ![0, 0, 0] · slices_S6x64x64_S1x64x64_0_0_0) : (⟨S6x64x64, .f32⟩ : BufTy).Contents (Elt F) → (⟨S1x64x64, .f32⟩ : BufTy).Contents (Elt F)),
    reshape main_v139 main_v140 rfl shapeCasts_S1x64x64_S64x64,
    binary main_v130 main_v140 main_v141 ((fun l r => Host.dotGeneral dot_S64x512x64_S64x64_S64x512x64_2_0_01_1_n_n none l r) : (⟨S64x512x64, .f32⟩ : BufTy).Contents (Elt F) → (⟨S64x64, .f32⟩ : BufTy).Contents (Elt F) → (⟨S64x512x64, .f32⟩ : BufTy).Contents (Elt F)),
    unary main_arg6 main_v142 ((extractStridedSlice S1x64x64 ![1, 0, 0] · slices_S6x64x64_S1x64x64_1_0_0) : (⟨S6x64x64, .f32⟩ : BufTy).Contents (Elt F) → (⟨S1x64x64, .f32⟩ : BufTy).Contents (Elt F)),
    reshape main_v142 main_v143 rfl shapeCasts_S1x64x64_S64x64,
    binary main_v138 main_v143 main_v144 ((fun l r => Host.dotGeneral dot_S64x512x64_S64x64_S64x512x64_2_0_01_1_n_n none l r) : (⟨S64x512x64, .f32⟩ : BufTy).Contents (Elt F) → (⟨S64x64, .f32⟩ : BufTy).Contents (Elt F) → (⟨S64x512x64, .f32⟩ : BufTy).Contents (Elt F)),
    binary main_v141 main_v144 main_v145 (addf : (⟨S64x512x64, .f32⟩ : BufTy).Contents (Elt F) → (⟨S64x512x64, .f32⟩ : BufTy).Contents (Elt F) → (⟨S64x512x64, .f32⟩ : BufTy).Contents (Elt F)),
    binary main_arg0 main_v138 main_v146 ((fun l r => Host.dotGeneral dot_S64x512x512_S64x512x64_S64x512x64_2_1_1_2_0_0 none l r) : (⟨S64x512x512, .f32⟩ : BufTy).Contents (Elt F) → (⟨S64x512x64, .f32⟩ : BufTy).Contents (Elt F) → (⟨S64x512x64, .f32⟩ : BufTy).Contents (Elt F)),
    nullary main_cst_20 (constant S_ .f32 0x40000000#32),
    unary main_cst_20 main_v147 (broadcastInDim S64x512x64 ![] bcast_S_S64x512x64 : (⟨S_, .f32⟩ : BufTy).Contents (Elt F) → (⟨S64x512x64, .f32⟩ : BufTy).Contents (Elt F)),
    binary main_v147 main_v146 main_v148 (mulf : (⟨S64x512x64, .f32⟩ : BufTy).Contents (Elt F) → (⟨S64x512x64, .f32⟩ : BufTy).Contents (Elt F) → (⟨S64x512x64, .f32⟩ : BufTy).Contents (Elt F)),
    binary main_v148 main_v130 main_v149 (subf : (⟨S64x512x64, .f32⟩ : BufTy).Contents (Elt F) → (⟨S64x512x64, .f32⟩ : BufTy).Contents (Elt F) → (⟨S64x512x64, .f32⟩ : BufTy).Contents (Elt F)),
    unary main_arg6 main_v150 ((extractStridedSlice S1x64x64 ![2, 0, 0] · slices_S6x64x64_S1x64x64_2_0_0) : (⟨S6x64x64, .f32⟩ : BufTy).Contents (Elt F) → (⟨S1x64x64, .f32⟩ : BufTy).Contents (Elt F)),
    reshape main_v150 main_v151 rfl shapeCasts_S1x64x64_S64x64,
    binary main_v149 main_v151 main_v152 ((fun l r => Host.dotGeneral dot_S64x512x64_S64x64_S64x512x64_2_0_01_1_n_n none l r) : (⟨S64x512x64, .f32⟩ : BufTy).Contents (Elt F) → (⟨S64x64, .f32⟩ : BufTy).Contents (Elt F) → (⟨S64x512x64, .f32⟩ : BufTy).Contents (Elt F)),
    binary main_v145 main_v152 main_v153 (addf : (⟨S64x512x64, .f32⟩ : BufTy).Contents (Elt F) → (⟨S64x512x64, .f32⟩ : BufTy).Contents (Elt F) → (⟨S64x512x64, .f32⟩ : BufTy).Contents (Elt F)),
    binary main_arg0 main_v149 main_v154 ((fun l r => Host.dotGeneral dot_S64x512x512_S64x512x64_S64x512x64_2_1_1_2_0_0 none l r) : (⟨S64x512x512, .f32⟩ : BufTy).Contents (Elt F) → (⟨S64x512x64, .f32⟩ : BufTy).Contents (Elt F) → (⟨S64x512x64, .f32⟩ : BufTy).Contents (Elt F)),
    nullary main_cst_21 (constant S_ .f32 0x40000000#32),
    unary main_cst_21 main_v155 (broadcastInDim S64x512x64 ![] bcast_S_S64x512x64 : (⟨S_, .f32⟩ : BufTy).Contents (Elt F) → (⟨S64x512x64, .f32⟩ : BufTy).Contents (Elt F)) ]

/-- The buffers stretch 7 writes. -/
abbrev w7_W : List (Ref sig .tc) := [main_v137, main_v138, main_v139, main_v140, main_v141, main_v142, main_v143, main_v144, main_v145, main_v146, main_cst_20, main_v147, main_v148, main_v149, main_v150, main_v151, main_v152, main_v153, main_v154, main_cst_21, main_v155]
set_option maxRecDepth 4096 in
theorem w7_writes : (w7 : List (HloOp τ sig (Elt F))).Forall fun op => op.writes ⊆ (w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w7_sub : (w7 : List (HloOp τ sig (Elt F))).Forall fun op => op.bufs ⊆ tcRefs τ sig :=
  ⟨nary_bufs_sub .., binary_bufs_sub .., unary_bufs_sub .., reshape_bufs_sub .., binary_bufs_sub .., unary_bufs_sub .., reshape_bufs_sub .., binary_bufs_sub .., binary_bufs_sub .., binary_bufs_sub .., nullary_bufs_sub .., unary_bufs_sub .., binary_bufs_sub .., binary_bufs_sub .., unary_bufs_sub .., reshape_bufs_sub .., binary_bufs_sub .., binary_bufs_sub .., binary_bufs_sub .., nullary_bufs_sub .., unary_bufs_sub ..⟩

/-- @main's operations 229 … 255 of 353, calls unfolded. -/
abbrev w8 : List (HloOp τ sig (Elt F)) :=
  [ binary main_v155 main_v154 main_v156 (mulf : (⟨S64x512x64, .f32⟩ : BufTy).Contents (Elt F) → (⟨S64x512x64, .f32⟩ : BufTy).Contents (Elt F) → (⟨S64x512x64, .f32⟩ : BufTy).Contents (Elt F)),
    binary main_v156 main_v138 main_v157 (subf : (⟨S64x512x64, .f32⟩ : BufTy).Contents (Elt F) → (⟨S64x512x64, .f32⟩ : BufTy).Contents (Elt F) → (⟨S64x512x64, .f32⟩ : BufTy).Contents (Elt F)),
    unary main_arg6 main_v158 ((extractStridedSlice S1x64x64 ![3, 0, 0] · slices_S6x64x64_S1x64x64_3_0_0) : (⟨S6x64x64, .f32⟩ : BufTy).Contents (Elt F) → (⟨S1x64x64, .f32⟩ : BufTy).Contents (Elt F)),
    reshape main_v158 main_v159 rfl shapeCasts_S1x64x64_S64x64,
    binary main_v157 main_v159 main_v160 ((fun l r => Host.dotGeneral dot_S64x512x64_S64x64_S64x512x64_2_0_01_1_n_n none l r) : (⟨S64x512x64, .f32⟩ : BufTy).Contents (Elt F) → (⟨S64x64, .f32⟩ : BufTy).Contents (Elt F) → (⟨S64x512x64, .f32⟩ : BufTy).Contents (Elt F)),
    binary main_v153 main_v160 main_v161 (addf : (⟨S64x512x64, .f32⟩ : BufTy).Contents (Elt F) → (⟨S64x512x64, .f32⟩ : BufTy).Contents (Elt F) → (⟨S64x512x64, .f32⟩ : BufTy).Contents (Elt F)),
    binary main_arg0 main_v157 main_v162 ((fun l r => Host.dotGeneral dot_S64x512x512_S64x512x64_S64x512x64_2_1_1_2_0_0 none l r) : (⟨S64x512x512, .f32⟩ : BufTy).Contents (Elt F) → (⟨S64x512x64, .f32⟩ : BufTy).Contents (Elt F) → (⟨S64x512x64, .f32⟩ : BufTy).Contents (Elt F)),
    nullary main_cst_22 (constant S_ .f32 0x40000000#32),
    unary main_cst_22 main_v163 (broadcastInDim S64x512x64 ![] bcast_S_S64x512x64 : (⟨S_, .f32⟩ : BufTy).Contents (Elt F) → (⟨S64x512x64, .f32⟩ : BufTy).Contents (Elt F)),
    binary main_v163 main_v162 main_v164 (mulf : (⟨S64x512x64, .f32⟩ : BufTy).Contents (Elt F) → (⟨S64x512x64, .f32⟩ : BufTy).Contents (Elt F) → (⟨S64x512x64, .f32⟩ : BufTy).Contents (Elt F)),
    binary main_v164 main_v149 main_v165 (subf : (⟨S64x512x64, .f32⟩ : BufTy).Contents (Elt F) → (⟨S64x512x64, .f32⟩ : BufTy).Contents (Elt F) → (⟨S64x512x64, .f32⟩ : BufTy).Contents (Elt F)),
    unary main_arg6 main_v166 ((extractStridedSlice S1x64x64 ![4, 0, 0] · slices_S6x64x64_S1x64x64_4_0_0) : (⟨S6x64x64, .f32⟩ : BufTy).Contents (Elt F) → (⟨S1x64x64, .f32⟩ : BufTy).Contents (Elt F)),
    reshape main_v166 main_v167 rfl shapeCasts_S1x64x64_S64x64,
    binary main_v165 main_v167 main_v168 ((fun l r => Host.dotGeneral dot_S64x512x64_S64x64_S64x512x64_2_0_01_1_n_n none l r) : (⟨S64x512x64, .f32⟩ : BufTy).Contents (Elt F) → (⟨S64x64, .f32⟩ : BufTy).Contents (Elt F) → (⟨S64x512x64, .f32⟩ : BufTy).Contents (Elt F)),
    binary main_v161 main_v168 main_v169 (addf : (⟨S64x512x64, .f32⟩ : BufTy).Contents (Elt F) → (⟨S64x512x64, .f32⟩ : BufTy).Contents (Elt F) → (⟨S64x512x64, .f32⟩ : BufTy).Contents (Elt F)),
    binary main_arg0 main_v165 main_v170 ((fun l r => Host.dotGeneral dot_S64x512x512_S64x512x64_S64x512x64_2_1_1_2_0_0 none l r) : (⟨S64x512x512, .f32⟩ : BufTy).Contents (Elt F) → (⟨S64x512x64, .f32⟩ : BufTy).Contents (Elt F) → (⟨S64x512x64, .f32⟩ : BufTy).Contents (Elt F)),
    nullary main_cst_23 (constant S_ .f32 0x40000000#32),
    unary main_cst_23 main_v171 (broadcastInDim S64x512x64 ![] bcast_S_S64x512x64 : (⟨S_, .f32⟩ : BufTy).Contents (Elt F) → (⟨S64x512x64, .f32⟩ : BufTy).Contents (Elt F)),
    binary main_v171 main_v170 main_v172 (mulf : (⟨S64x512x64, .f32⟩ : BufTy).Contents (Elt F) → (⟨S64x512x64, .f32⟩ : BufTy).Contents (Elt F) → (⟨S64x512x64, .f32⟩ : BufTy).Contents (Elt F)),
    binary main_v172 main_v157 main_v173 (subf : (⟨S64x512x64, .f32⟩ : BufTy).Contents (Elt F) → (⟨S64x512x64, .f32⟩ : BufTy).Contents (Elt F) → (⟨S64x512x64, .f32⟩ : BufTy).Contents (Elt F)),
    unary main_arg6 main_v174 ((extractStridedSlice S1x64x64 ![5, 0, 0] · slices_S6x64x64_S1x64x64_5_0_0) : (⟨S6x64x64, .f32⟩ : BufTy).Contents (Elt F) → (⟨S1x64x64, .f32⟩ : BufTy).Contents (Elt F)),
    reshape main_v174 main_v175 rfl shapeCasts_S1x64x64_S64x64,
    binary main_v173 main_v175 main_v176 ((fun l r => Host.dotGeneral dot_S64x512x64_S64x64_S64x512x64_2_0_01_1_n_n none l r) : (⟨S64x512x64, .f32⟩ : BufTy).Contents (Elt F) → (⟨S64x64, .f32⟩ : BufTy).Contents (Elt F) → (⟨S64x512x64, .f32⟩ : BufTy).Contents (Elt F)),
    binary main_v169 main_v176 main_v177 (addf : (⟨S64x512x64, .f32⟩ : BufTy).Contents (Elt F) → (⟨S64x512x64, .f32⟩ : BufTy).Contents (Elt F) → (⟨S64x512x64, .f32⟩ : BufTy).Contents (Elt F)),
    unary main_arg7 main_v178 (broadcastInDim S1x1x64 ![2] bcast_S64_S1x1x64_2 : (⟨S64, .f32⟩ : BufTy).Contents (Elt F) → (⟨S1x1x64, .f32⟩ : BufTy).Contents (Elt F)),
    unary main_v178 main_v179 (broadcastInDim S64x512x64 ![0, 1, 2] bcast_S1x1x64_S64x512x64_0_1_2 : (⟨S1x1x64, .f32⟩ : BufTy).Contents (Elt F) → (⟨S64x512x64, .f32⟩ : BufTy).Contents (Elt F)),
    binary main_v177 main_v179 main_v180 (addf : (⟨S64x512x64, .f32⟩ : BufTy).Contents (Elt F) → (⟨S64x512x64, .f32⟩ : BufTy).Contents (Elt F) → (⟨S64x512x64, .f32⟩ : BufTy).Contents (Elt F)) ]

/-- The buffers stretch 8 writes. -/
abbrev w8_W : List (Ref sig .tc) := [main_v156, main_v157, main_v158, main_v159, main_v160, main_v161, main_v162, main_cst_22, main_v163, main_v164, main_v165, main_v166, main_v167, main_v168, main_v169, main_v170, main_cst_23, main_v171, main_v172, main_v173, main_v174, main_v175, main_v176, main_v177, main_v178, main_v179, main_v180]
set_option maxRecDepth 4096 in
theorem w8_writes : (w8 : List (HloOp τ sig (Elt F))).Forall fun op => op.writes ⊆ (w8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w8_sub : (w8 : List (HloOp τ sig (Elt F))).Forall fun op => op.bufs ⊆ tcRefs τ sig :=
  ⟨binary_bufs_sub .., binary_bufs_sub .., unary_bufs_sub .., reshape_bufs_sub .., binary_bufs_sub .., binary_bufs_sub .., binary_bufs_sub .., nullary_bufs_sub .., unary_bufs_sub .., binary_bufs_sub .., binary_bufs_sub .., unary_bufs_sub .., reshape_bufs_sub .., binary_bufs_sub .., binary_bufs_sub .., binary_bufs_sub .., nullary_bufs_sub .., unary_bufs_sub .., binary_bufs_sub .., binary_bufs_sub .., unary_bufs_sub .., reshape_bufs_sub .., binary_bufs_sub .., binary_bufs_sub .., unary_bufs_sub .., unary_bufs_sub .., binary_bufs_sub ..⟩

/-- @main's operations 256 … 277 of 353, calls unfolded. -/
abbrev w9 : List (HloOp τ sig (Elt F)) :=
  [ binary main_v180 main_v180 main_v181 ((fun l r => Host.dotGeneral dot_S64x512x64_S64x512x64_S64x512x512_2_2_1_1_0_0 none l r) : (⟨S64x512x64, .f32⟩ : BufTy).Contents (Elt F) → (⟨S64x512x64, .f32⟩ : BufTy).Contents (Elt F) → (⟨S64x512x512, .f32⟩ : BufTy).Contents (Elt F)),
    nullary main_call4_cst (constant S_ .f32 0x00000000#32),
    unary main_call4_cst main_call4_v0 ((broadcastInDim S64x512x512 ![] bcast_S_S64x512x512) : (⟨S_, .f32⟩ : BufTy).Contents (Elt F) → (⟨S64x512x512, .f32⟩ : BufTy).Contents (Elt F)),
    binary main_v181 main_call4_v0 main_v182 ((maximumf) : (⟨S64x512x512, .f32⟩ : BufTy).Contents (Elt F) → (⟨S64x512x512, .f32⟩ : BufTy).Contents (Elt F) → (⟨S64x512x512, .f32⟩ : BufTy).Contents (Elt F)),
    nullary main_v183 (iotaInDim S512x512 32 0),
    nullary main_v184 (iotaInDim S512x512 32 1),
    nullary main_c_24 (constantI S_ 32 0#32),
    unary main_c_24 main_v185 (broadcastInDim S512x512 ![] bcast_S_S512x512 : (⟨S_, .i32⟩ : BufTy).Contents (Elt F) → (⟨S512x512, .i32⟩ : BufTy).Contents (Elt F)),
    binary main_v183 main_v185 main_v186 (addi : (⟨S512x512, .i32⟩ : BufTy).Contents (Elt F) → (⟨S512x512, .i32⟩ : BufTy).Contents (Elt F) → (⟨S512x512, .i32⟩ : BufTy).Contents (Elt F)),
    binary main_v186 main_v184 main_v187 (cmpi .eq : (⟨S512x512, .i32⟩ : BufTy).Contents (Elt F) → (⟨S512x512, .i32⟩ : BufTy).Contents (Elt F) → (⟨S512x512, .i1⟩ : BufTy).Contents (Elt F)),
    unary main_v187 main_v188 (uitofp .f32 : (⟨S512x512, .i1⟩ : BufTy).Contents (Elt F) → (⟨S512x512, .f32⟩ : BufTy).Contents (Elt F)),
    nullary main_cst_25 (constant S_ .f32 0x3F800000#32),
    unary main_cst_25 main_v189 (broadcastInDim S512x512 ![] bcast_S_S512x512 : (⟨S_, .f32⟩ : BufTy).Contents (Elt F) → (⟨S512x512, .f32⟩ : BufTy).Contents (Elt F)),
    binary main_v189 main_v188 main_v190 (subf : (⟨S512x512, .f32⟩ : BufTy).Contents (Elt F) → (⟨S512x512, .f32⟩ : BufTy).Contents (Elt F) → (⟨S512x512, .f32⟩ : BufTy).Contents (Elt F)),
    unary main_v190 main_v191 (broadcastInDim S1x512x512 ![1, 2] bcast_S512x512_S1x512x512_1_2 : (⟨S512x512, .f32⟩ : BufTy).Contents (Elt F) → (⟨S1x512x512, .f32⟩ : BufTy).Contents (Elt F)),
    unary main_v191 main_v192 (broadcastInDim S64x512x512 ![0, 1, 2] bcast_S1x512x512_S64x512x512_0_1_2 : (⟨S1x512x512, .f32⟩ : BufTy).Contents (Elt F) → (⟨S64x512x512, .f32⟩ : BufTy).Contents (Elt F)),
    binary main_v182 main_v192 main_v193 (mulf : (⟨S64x512x512, .f32⟩ : BufTy).Contents (Elt F) → (⟨S64x512x512, .f32⟩ : BufTy).Contents (Elt F) → (⟨S64x512x512, .f32⟩ : BufTy).Contents (Elt F)),
    unary main_v193 main_v194 ((transpose S64x512x512 [0, 2, 1] · transposes_S64x512x512_S64x512x512_0_2_1) : (⟨S64x512x512, .f32⟩ : BufTy).Contents (Elt F) → (⟨S64x512x512, .f32⟩ : BufTy).Contents (Elt F)),
    binary main_v193 main_v194 main_v195 (addf : (⟨S64x512x512, .f32⟩ : BufTy).Contents (Elt F) → (⟨S64x512x512, .f32⟩ : BufTy).Contents (Elt F) → (⟨S64x512x512, .f32⟩ : BufTy).Contents (Elt F)),
    nullary main_cst_26 (constant S_ .f32 0x3F000000#32),
    unary main_cst_26 main_v196 (broadcastInDim S64x512x512 ![] bcast_S_S64x512x512 : (⟨S_, .f32⟩ : BufTy).Contents (Elt F) → (⟨S64x512x512, .f32⟩ : BufTy).Contents (Elt F)),
    binary main_v196 main_v195 main_v197 (mulf : (⟨S64x512x512, .f32⟩ : BufTy).Contents (Elt F) → (⟨S64x512x512, .f32⟩ : BufTy).Contents (Elt F) → (⟨S64x512x512, .f32⟩ : BufTy).Contents (Elt F)) ]

/-- The buffers stretch 9 writes. -/
abbrev w9_W : List (Ref sig .tc) := [main_v181, main_call4_cst, main_call4_v0, main_v182, main_v183, main_v184, main_c_24, main_v185, main_v186, main_v187, main_v188, main_cst_25, main_v189, main_v190, main_v191, main_v192, main_v193, main_v194, main_v195, main_cst_26, main_v196, main_v197]
set_option maxRecDepth 4096 in
theorem w9_writes : (w9 : List (HloOp τ sig (Elt F))).Forall fun op => op.writes ⊆ (w9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w9_sub : (w9 : List (HloOp τ sig (Elt F))).Forall fun op => op.bufs ⊆ tcRefs τ sig :=
  ⟨binary_bufs_sub .., nullary_bufs_sub .., unary_bufs_sub .., binary_bufs_sub .., nullary_bufs_sub .., nullary_bufs_sub .., nullary_bufs_sub .., unary_bufs_sub .., binary_bufs_sub .., binary_bufs_sub .., unary_bufs_sub .., nullary_bufs_sub .., unary_bufs_sub .., binary_bufs_sub .., unary_bufs_sub .., unary_bufs_sub .., binary_bufs_sub .., unary_bufs_sub .., binary_bufs_sub .., nullary_bufs_sub .., unary_bufs_sub .., binary_bufs_sub ..⟩

/-- @main's operations 278 … 290 of 353, calls unfolded. -/
abbrev w10 : List (HloOp τ sig (Elt F)) :=
  [ reshape main_v137 main_v198 rfl shapeCasts_S64x1x256_S64x256,
    binary main_v198 main_arg12 main_v199 ((fun l r => Host.dotGeneral dot_S64x256_S256x64_S64x64_1_0_0_1_n_n none l r) : (⟨S64x256, .f32⟩ : BufTy).Contents (Elt F) → (⟨S256x64, .f32⟩ : BufTy).Contents (Elt F) → (⟨S64x64, .f32⟩ : BufTy).Contents (Elt F)),
    unary main_arg13 main_v200 (broadcastInDim S1x64 ![1] bcast_S64_S1x64_1 : (⟨S64, .f32⟩ : BufTy).Contents (Elt F) → (⟨S1x64, .f32⟩ : BufTy).Contents (Elt F)),
    unary main_v200 main_v201 (broadcastInDim S64x64 ![0, 1] bcast_S1x64_S64x64_0_1 : (⟨S1x64, .f32⟩ : BufTy).Contents (Elt F) → (⟨S64x64, .f32⟩ : BufTy).Contents (Elt F)),
    binary main_v199 main_v201 main_v202 (addf : (⟨S64x64, .f32⟩ : BufTy).Contents (Elt F) → (⟨S64x64, .f32⟩ : BufTy).Contents (Elt F) → (⟨S64x64, .f32⟩ : BufTy).Contents (Elt F)),
    nullary main_cst_27 (constant S_ .f32 0x00000000#32),
    unary main_cst_27 main_v203 (broadcastInDim S64x64 ![] bcast_S_S64x64 : (⟨S_, .f32⟩ : BufTy).Contents (Elt F) → (⟨S64x64, .f32⟩ : BufTy).Contents (Elt F)),
    binary main_v202 main_v203 main_v204 (cmpf .oge : (⟨S64x64, .f32⟩ : BufTy).Contents (Elt F) → (⟨S64x64, .f32⟩ : BufTy).Contents (Elt F) → (⟨S64x64, .i1⟩ : BufTy).Contents (Elt F)),
    nullary main_cst_28 (constant S_ .f32 0x3E4CCCCD#32),
    unary main_cst_28 main_v205 (broadcastInDim S64x64 ![] bcast_S_S64x64 : (⟨S_, .f32⟩ : BufTy).Contents (Elt F) → (⟨S64x64, .f32⟩ : BufTy).Contents (Elt F)),
    binary main_v205 main_v202 main_v206 (mulf : (⟨S64x64, .f32⟩ : BufTy).Contents (Elt F) → (⟨S64x64, .f32⟩ : BufTy).Contents (Elt F) → (⟨S64x64, .f32⟩ : BufTy).Contents (Elt F)),
    ternary main_v204 main_v202 main_v206 main_v207 ((select) : (⟨S64x64, .i1⟩ : BufTy).Contents (Elt F) → (⟨S64x64, .f32⟩ : BufTy).Contents (Elt F) → (⟨S64x64, .f32⟩ : BufTy).Contents (Elt F) → (⟨S64x64, .f32⟩ : BufTy).Contents (Elt F)),
    binary main_v207 main_arg14 main_v208 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)) ]

/-- The buffers stretch 10 writes. -/
abbrev w10_W : List (Ref sig .tc) := [main_v198, main_v199, main_v200, main_v201, main_v202, main_cst_27, main_v203, main_v204, main_cst_28, main_v205, main_v206, main_v207, main_v208]
set_option maxRecDepth 4096 in
theorem w10_writes : (w10 : List (HloOp τ sig (Elt F))).Forall fun op => op.writes ⊆ (w10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w10_sub : (w10 : List (HloOp τ sig (Elt F))).Forall fun op => op.bufs ⊆ tcRefs τ sig :=
  ⟨reshape_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub ..⟩

/-- @main's operations 291 … 312 of 353, calls unfolded. -/
abbrev w11 : List (HloOp τ sig (Elt F)) :=
  [ unary main_arg15 main_v209 (broadcastInDim S1x64 ![1] bcast_S64_S1x64_1 : (⟨S64, .f32⟩ : BufTy).Contents (Elt F) → (⟨S1x64, .f32⟩ : BufTy).Contents (Elt F)),
    unary main_v209 main_v210 (broadcastInDim S64x64 ![0, 1] bcast_S1x64_S64x64_0_1 : (⟨S1x64, .f32⟩ : BufTy).Contents (Elt F) → (⟨S64x64, .f32⟩ : BufTy).Contents (Elt F)),
    binary main_v208 main_v210 main_v211 (addf : (⟨S64x64, .f32⟩ : BufTy).Contents (Elt F) → (⟨S64x64, .f32⟩ : BufTy).Contents (Elt F) → (⟨S64x64, .f32⟩ : BufTy).Contents (Elt F)),
    nullary main_cst_29 (constant S_ .f32 0x00000000#32),
    unary main_cst_29 main_v212 (broadcastInDim S64x64 ![] bcast_S_S64x64 : (⟨S_, .f32⟩ : BufTy).Contents (Elt F) → (⟨S64x64, .f32⟩ : BufTy).Contents (Elt F)),
    binary main_v211 main_v212 main_v213 (cmpf .oge : (⟨S64x64, .f32⟩ : BufTy).Contents (Elt F) → (⟨S64x64, .f32⟩ : BufTy).Contents (Elt F) → (⟨S64x64, .i1⟩ : BufTy).Contents (Elt F)),
    nullary main_cst_30 (constant S_ .f32 0x3E4CCCCD#32),
    unary main_cst_30 main_v214 (broadcastInDim S64x64 ![] bcast_S_S64x64 : (⟨S_, .f32⟩ : BufTy).Contents (Elt F) → (⟨S64x64, .f32⟩ : BufTy).Contents (Elt F)),
    binary main_v214 main_v211 main_v215 (mulf : (⟨S64x64, .f32⟩ : BufTy).Contents (Elt F) → (⟨S64x64, .f32⟩ : BufTy).Contents (Elt F) → (⟨S64x64, .f32⟩ : BufTy).Contents (Elt F)),
    ternary main_v213 main_v211 main_v215 main_v216 ((select) : (⟨S64x64, .i1⟩ : BufTy).Contents (Elt F) → (⟨S64x64, .f32⟩ : BufTy).Contents (Elt F) → (⟨S64x64, .f32⟩ : BufTy).Contents (Elt F) → (⟨S64x64, .f32⟩ : BufTy).Contents (Elt F)),
    binary main_v216 main_arg16 main_v217 ((fun l r => Host.dotGeneral dot_S64x64_S64x4_S64x4_1_0_0_1_n_n none l r) : (⟨S64x64, .f32⟩ : BufTy).Contents (Elt F) → (⟨S64x4, .f32⟩ : BufTy).Contents (Elt F) → (⟨S64x4, .f32⟩ : BufTy).Contents (Elt F)),
    unary main_arg17 main_v218 (broadcastInDim S1x4 ![1] bcast_S4_S1x4_1 : (⟨S4, .f32⟩ : BufTy).Contents (Elt F) → (⟨S1x4, .f32⟩ : BufTy).Contents (Elt F)),
    unary main_v218 main_v219 (broadcastInDim S64x4 ![0, 1] bcast_S1x4_S64x4_0_1 : (⟨S1x4, .f32⟩ : BufTy).Contents (Elt F) → (⟨S64x4, .f32⟩ : BufTy).Contents (Elt F)),
    binary main_v217 main_v219 main_v220 (addf : (⟨S64x4, .f32⟩ : BufTy).Contents (Elt F) → (⟨S64x4, .f32⟩ : BufTy).Contents (Elt F) → (⟨S64x4, .f32⟩ : BufTy).Contents (Elt F)),
    unary main_v220 main_v221 (Host.negf : (⟨S64x4, .f32⟩ : BufTy).Contents (Elt F) → (⟨S64x4, .f32⟩ : BufTy).Contents (Elt F)),
    unary main_v221 main_v222 (Host.exp : (⟨S64x4, .f32⟩ : BufTy).Contents (Elt F) → (⟨S64x4, .f32⟩ : BufTy).Contents (Elt F)),
    nullary main_cst_31 (constant S_ .f32 0x3F800000#32),
    unary main_cst_31 main_v223 (broadcastInDim S64x4 ![] bcast_S_S64x4 : (⟨S_, .f32⟩ : BufTy).Contents (Elt F) → (⟨S64x4, .f32⟩ : BufTy).Contents (Elt F)),
    binary main_v223 main_v222 main_v224 (addf : (⟨S64x4, .f32⟩ : BufTy).Contents (Elt F) → (⟨S64x4, .f32⟩ : BufTy).Contents (Elt F) → (⟨S64x4, .f32⟩ : BufTy).Contents (Elt F)),
    nullary main_cst_32 (constant S_ .f32 0x3F800000#32),
    unary main_cst_32 main_v225 (broadcastInDim S64x4 ![] bcast_S_S64x4 : (⟨S_, .f32⟩ : BufTy).Contents (Elt F) → (⟨S64x4, .f32⟩ : BufTy).Contents (Elt F)),
    binary main_v225 main_v224 main_v226 (Host.divf : (⟨S64x4, .f32⟩ : BufTy).Contents (Elt F) → (⟨S64x4, .f32⟩ : BufTy).Contents (Elt F) → (⟨S64x4, .f32⟩ : BufTy).Contents (Elt F)) ]

/-- The buffers stretch 11 writes. -/
abbrev w11_W : List (Ref sig .tc) := [main_v209, main_v210, main_v211, main_cst_29, main_v212, main_v213, main_cst_30, main_v214, main_v215, main_v216, main_v217, main_v218, main_v219, main_v220, main_v221, main_v222, main_cst_31, main_v223, main_v224, main_cst_32, main_v225, main_v226]
set_option maxRecDepth 4096 in
theorem w11_writes : (w11 : List (HloOp τ sig (Elt F))).Forall fun op => op.writes ⊆ (w11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w11_sub : (w11 : List (HloOp τ sig (Elt F))).Forall fun op => op.bufs ⊆ tcRefs τ sig :=
  ⟨unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub ..⟩

/-- @main's operations 313 … 353 of 353, calls unfolded. -/
abbrev w12 : List (HloOp τ sig (Elt F)) :=
  [ binary main_v198 main_arg18 main_v227 ((fun l r => Host.dotGeneral dot_S64x256_S256x64_S64x64_1_0_0_1_n_n none l r) : (⟨S64x256, .f32⟩ : BufTy).Contents (Elt F) → (⟨S256x64, .f32⟩ : BufTy).Contents (Elt F) → (⟨S64x64, .f32⟩ : BufTy).Contents (Elt F)),
    unary main_arg19 main_v228 (broadcastInDim S1x64 ![1] bcast_S64_S1x64_1 : (⟨S64, .f32⟩ : BufTy).Contents (Elt F) → (⟨S1x64, .f32⟩ : BufTy).Contents (Elt F)),
    unary main_v228 main_v229 (broadcastInDim S64x64 ![0, 1] bcast_S1x64_S64x64_0_1 : (⟨S1x64, .f32⟩ : BufTy).Contents (Elt F) → (⟨S64x64, .f32⟩ : BufTy).Contents (Elt F)),
    binary main_v227 main_v229 main_v230 (addf : (⟨S64x64, .f32⟩ : BufTy).Contents (Elt F) → (⟨S64x64, .f32⟩ : BufTy).Contents (Elt F) → (⟨S64x64, .f32⟩ : BufTy).Contents (Elt F)),
    nullary main_cst_33 (constant S_ .f32 0x00000000#32),
    unary main_cst_33 main_v231 (broadcastInDim S64x64 ![] bcast_S_S64x64 : (⟨S_, .f32⟩ : BufTy).Contents (Elt F) → (⟨S64x64, .f32⟩ : BufTy).Contents (Elt F)),
    binary main_v230 main_v231 main_v232 (cmpf .oge : (⟨S64x64, .f32⟩ : BufTy).Contents (Elt F) → (⟨S64x64, .f32⟩ : BufTy).Contents (Elt F) → (⟨S64x64, .i1⟩ : BufTy).Contents (Elt F)),
    nullary main_cst_34 (constant S_ .f32 0x3E4CCCCD#32),
    unary main_cst_34 main_v233 (broadcastInDim S64x64 ![] bcast_S_S64x64 : (⟨S_, .f32⟩ : BufTy).Contents (Elt F) → (⟨S64x64, .f32⟩ : BufTy).Contents (Elt F)),
    binary main_v233 main_v230 main_v234 (mulf : (⟨S64x64, .f32⟩ : BufTy).Contents (Elt F) → (⟨S64x64, .f32⟩ : BufTy).Contents (Elt F) → (⟨S64x64, .f32⟩ : BufTy).Contents (Elt F)),
    ternary main_v232 main_v230 main_v234 main_v235 ((select) : (⟨S64x64, .i1⟩ : BufTy).Contents (Elt F) → (⟨S64x64, .f32⟩ : BufTy).Contents (Elt F) → (⟨S64x64, .f32⟩ : BufTy).Contents (Elt F) → (⟨S64x64, .f32⟩ : BufTy).Contents (Elt F)),
    binary main_v235 main_arg20 main_v236 ((fun l r => Host.dotGeneral dot_S64x64_S64x64_S64x64_1_0_0_1_n_n none l r) : (⟨S64x64, .f32⟩ : BufTy).Contents (Elt F) → (⟨S64x64, .f32⟩ : BufTy).Contents (Elt F) → (⟨S64x64, .f32⟩ : BufTy).Contents (Elt F)),
    unary main_arg21 main_v237 (broadcastInDim S1x64 ![1] bcast_S64_S1x64_1 : (⟨S64, .f32⟩ : BufTy).Contents (Elt F) → (⟨S1x64, .f32⟩ : BufTy).Contents (Elt F)),
    unary main_v237 main_v238 (broadcastInDim S64x64 ![0, 1] bcast_S1x64_S64x64_0_1 : (⟨S1x64, .f32⟩ : BufTy).Contents (Elt F) → (⟨S64x64, .f32⟩ : BufTy).Contents (Elt F)),
    binary main_v236 main_v238 main_v239 (addf : (⟨S64x64, .f32⟩ : BufTy).Contents (Elt F) → (⟨S64x64, .f32⟩ : BufTy).Contents (Elt F) → (⟨S64x64, .f32⟩ : BufTy).Contents (Elt F)),
    nullary main_cst_35 (constant S_ .f32 0x00000000#32),
    unary main_cst_35 main_v240 (broadcastInDim S64x64 ![] bcast_S_S64x64 : (⟨S_, .f32⟩ : BufTy).Contents (Elt F) → (⟨S64x64, .f32⟩ : BufTy).Contents (Elt F)),
    binary main_v239 main_v240 main_v241 (cmpf .oge : (⟨S64x64, .f32⟩ : BufTy).Contents (Elt F) → (⟨S64x64, .f32⟩ : BufTy).Contents (Elt F) → (⟨S64x64, .i1⟩ : BufTy).Contents (Elt F)),
    nullary main_cst_36 (constant S_ .f32 0x3E4CCCCD#32),
    unary main_cst_36 main_v242 (broadcastInDim S64x64 ![] bcast_S_S64x64 : (⟨S_, .f32⟩ : BufTy).Contents (Elt F) → (⟨S64x64, .f32⟩ : BufTy).Contents (Elt F)),
    binary main_v242 main_v239 main_v243 (mulf : (⟨S64x64, .f32⟩ : BufTy).Contents (Elt F) → (⟨S64x64, .f32⟩ : BufTy).Contents (Elt F) → (⟨S64x64, .f32⟩ : BufTy).Contents (Elt F)),
    ternary main_v241 main_v239 main_v243 main_v244 ((select) : (⟨S64x64, .i1⟩ : BufTy).Contents (Elt F) → (⟨S64x64, .f32⟩ : BufTy).Contents (Elt F) → (⟨S64x64, .f32⟩ : BufTy).Contents (Elt F) → (⟨S64x64, .f32⟩ : BufTy).Contents (Elt F)),
    binary main_v244 main_arg22 main_v245 ((fun l r => Host.dotGeneral dot_S64x64_S64x2_S64x2_1_0_0_1_n_n none l r) : (⟨S64x64, .f32⟩ : BufTy).Contents (Elt F) → (⟨S64x2, .f32⟩ : BufTy).Contents (Elt F) → (⟨S64x2, .f32⟩ : BufTy).Contents (Elt F)),
    unary main_arg23 main_v246 (broadcastInDim S1x2 ![1] bcast_S2_S1x2_1 : (⟨S2, .f32⟩ : BufTy).Contents (Elt F) → (⟨S1x2, .f32⟩ : BufTy).Contents (Elt F)),
    unary main_v246 main_v247 (broadcastInDim S64x2 ![0, 1] bcast_S1x2_S64x2_0_1 : (⟨S1x2, .f32⟩ : BufTy).Contents (Elt F) → (⟨S64x2, .f32⟩ : BufTy).Contents (Elt F)),
    binary main_v245 main_v247 main_v248 (addf : (⟨S64x2, .f32⟩ : BufTy).Contents (Elt F) → (⟨S64x2, .f32⟩ : BufTy).Contents (Elt F) → (⟨S64x2, .f32⟩ : BufTy).Contents (Elt F)),
    nullary main_call9_cst (constant S_ .f32 0xFF800000#32),
    binary main_v248 main_call9_cst main_call9_v0 ((fun x v => Host.reduce FloatOps.maximumf x v reducesTo_S64x2_S64_d1 h_S_) : (⟨S64x2, .f32⟩ : BufTy).Contents (Elt F) → (⟨S_, .f32⟩ : BufTy).Contents (Elt F) → (⟨S64, .f32⟩ : BufTy).Contents (Elt F)),
    nullary main_call9_cst_0 (constant S_ .f32 0xFF800000#32),
    unary main_call9_cst_0 main_call9_v1 ((broadcastInDim S64 ![] bcast_S_S64) : (⟨S_, .f32⟩ : BufTy).Contents (Elt F) → (⟨S64, .f32⟩ : BufTy).Contents (Elt F)),
    binary main_call9_v1 main_call9_v0 main_call9_v2 ((maximumf) : (⟨S64, .f32⟩ : BufTy).Contents (Elt F) → (⟨S64, .f32⟩ : BufTy).Contents (Elt F) → (⟨S64, .f32⟩ : BufTy).Contents (Elt F)),
    unary main_call9_v2 main_call9_v3 ((broadcastInDim S64x1 ![0] bcast_S64_S64x1_0) : (⟨S64, .f32⟩ : BufTy).Contents (Elt F) → (⟨S64x1, .f32⟩ : BufTy).Contents (Elt F)),
    unary main_call9_v3 main_call9_v4 ((broadcastInDim S64x2 ![0, 1] bcast_S64x1_S64x2_0_1) : (⟨S64x1, .f32⟩ : BufTy).Contents (Elt F) → (⟨S64x2, .f32⟩ : BufTy).Contents (Elt F)),
    binary main_v248 main_call9_v4 main_call9_v5 ((subf) : (⟨S64x2, .f32⟩ : BufTy).Contents (Elt F) → (⟨S64x2, .f32⟩ : BufTy).Contents (Elt F) → (⟨S64x2, .f32⟩ : BufTy).Contents (Elt F)),
    unary main_call9_v5 main_call9_v6 ((Host.exp) : (⟨S64x2, .f32⟩ : BufTy).Contents (Elt F) → (⟨S64x2, .f32⟩ : BufTy).Contents (Elt F)),
    nullary main_call9_cst_1 (constant S_ .f32 0x00000000#32),
    binary main_call9_v6 main_call9_cst_1 main_call9_v7 ((fun x v => Host.reduceAdd x v reducesTo_S64x2_S64_d1 h_S_) : (⟨S64x2, .f32⟩ : BufTy).Contents (Elt F) → (⟨S_, .f32⟩ : BufTy).Contents (Elt F) → (⟨S64, .f32⟩ : BufTy).Contents (Elt F)),
    unary main_call9_v7 main_call9_v8 ((broadcastInDim S64x1 ![0] bcast_S64_S64x1_0) : (⟨S64, .f32⟩ : BufTy).Contents (Elt F) → (⟨S64x1, .f32⟩ : BufTy).Contents (Elt F)),
    unary main_call9_v8 main_call9_v9 ((Host.log) : (⟨S64x1, .f32⟩ : BufTy).Contents (Elt F) → (⟨S64x1, .f32⟩ : BufTy).Contents (Elt F)),
    unary main_call9_v9 main_call9_v10 ((broadcastInDim S64x2 ![0, 1] bcast_S64x1_S64x2_0_1) : (⟨S64x1, .f32⟩ : BufTy).Contents (Elt F) → (⟨S64x2, .f32⟩ : BufTy).Contents (Elt F)),
    binary main_call9_v5 main_call9_v10 main_v249 ((subf) : (⟨S64x2, .f32⟩ : BufTy).Contents (Elt F) → (⟨S64x2, .f32⟩ : BufTy).Contents (Elt F) → (⟨S64x2, .f32⟩ : BufTy).Contents (Elt F)) ]

/-- The buffers stretch 12 writes. -/
abbrev w12_W : List (Ref sig .tc) := [main_v227, main_v228, main_v229, main_v230, main_cst_33, main_v231, main_v232, main_cst_34, main_v233, main_v234, main_v235, main_v236, main_v237, main_v238, main_v239, main_cst_35, main_v240, main_v241, main_cst_36, main_v242, main_v243, main_v244, main_v245, main_v246, main_v247, main_v248, main_call9_cst, main_call9_v0, main_call9_cst_0, main_call9_v1, main_call9_v2, main_call9_v3, main_call9_v4, main_call9_v5, main_call9_v6, main_call9_cst_1, main_call9_v7, main_call9_v8, main_call9_v9, main_call9_v10, main_v249]
set_option maxRecDepth 4096 in
theorem w12_writes : (w12 : List (HloOp τ sig (Elt F))).Forall fun op => op.writes ⊆ (w12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩
theorem w12_sub : (w12 : List (HloOp τ sig (Elt F))).Forall fun op => op.bufs ⊆ tcRefs τ sig :=
  ⟨binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., unary_bufs_sub .., binary_bufs_sub .., nullary_bufs_sub .., unary_bufs_sub .., binary_bufs_sub .., ternary_bufs_sub .., binary_bufs_sub .., unary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

set_option maxRecDepth 8192 in
theorem w0_fresh : ∀ op ∈ (w0 : List (HloOp τ sig (Elt F))), op.fresh = ∅ := by
  intro _ h; (repeat (cases h with | head => rfl | tail _ h => ?_)); exact nomatch h
set_option maxRecDepth 8192 in
theorem w1_fresh : ∀ op ∈ (w1 : List (HloOp τ sig (Elt F))), op.fresh = ∅ := by
  intro _ h; (repeat (cases h with | head => rfl | tail _ h => ?_)); exact nomatch h
set_option maxRecDepth 8192 in
theorem w2_fresh : ∀ op ∈ (w2 : List (HloOp τ sig (Elt F))), op.fresh = ∅ := by
  intro _ h; (repeat (cases h with | head => rfl | tail _ h => ?_)); exact nomatch h
set_option maxRecDepth 8192 in
theorem w3_fresh : ∀ op ∈ (w3 : List (HloOp τ sig (Elt F))), op.fresh = ∅ := by
  intro _ h; (repeat (cases h with | head => rfl | tail _ h => ?_)); exact nomatch h
set_option maxRecDepth 8192 in
theorem w4_fresh : ∀ op ∈ (w4 : List (HloOp τ sig (Elt F))), op.fresh = ∅ := by
  intro _ h; (repeat (cases h with | head => rfl | tail _ h => ?_)); exact nomatch h
set_option maxRecDepth 8192 in
theorem w5_fresh : ∀ op ∈ (w5 : List (HloOp τ sig (Elt F))), op.fresh = ∅ := by
  intro _ h; (repeat (cases h with | head => rfl | tail _ h => ?_)); exact nomatch h
set_option maxRecDepth 8192 in
theorem w6_fresh : ∀ op ∈ (w6 : List (HloOp τ sig (Elt F))), op.fresh = ∅ := by
  intro _ h; (repeat (cases h with | head => rfl | tail _ h => ?_)); exact nomatch h
set_option maxRecDepth 8192 in
theorem w7_fresh : ∀ op ∈ (w7 : List (HloOp τ sig (Elt F))), op.fresh = ∅ := by
  intro _ h; (repeat (cases h with | head => rfl | tail _ h => ?_)); exact nomatch h
set_option maxRecDepth 8192 in
theorem w8_fresh : ∀ op ∈ (w8 : List (HloOp τ sig (Elt F))), op.fresh = ∅ := by
  intro _ h; (repeat (cases h with | head => rfl | tail _ h => ?_)); exact nomatch h
set_option maxRecDepth 8192 in
theorem w9_fresh : ∀ op ∈ (w9 : List (HloOp τ sig (Elt F))), op.fresh = ∅ := by
  intro _ h; (repeat (cases h with | head => rfl | tail _ h => ?_)); exact nomatch h
set_option maxRecDepth 8192 in
theorem w10_fresh : ∀ op ∈ (w10 : List (HloOp τ sig (Elt F))), op.fresh = ∅ := by
  intro _ h; (repeat (cases h with | head => rfl | tail _ h => ?_)); exact nomatch h
set_option maxRecDepth 8192 in
theorem w11_fresh : ∀ op ∈ (w11 : List (HloOp τ sig (Elt F))), op.fresh = ∅ := by
  intro _ h; (repeat (cases h with | head => rfl | tail _ h => ?_)); exact nomatch h
set_option maxRecDepth 8192 in
theorem w12_fresh : ∀ op ∈ (w12 : List (HloOp τ sig (Elt F))), op.fresh = ∅ := by
  intro _ h; (repeat (cases h with | head => rfl | tail _ h => ?_)); exact nomatch h

set_option maxRecDepth 8192 in
set_option maxHeartbeats 4000000 in
/-- Window 0 of @main is its stretches in order: the called functions' bodies unfolded and the sequencing reassociated. -/
theorem main_part0_eq (c : Dev nD) : main_part0 (F := F) c = seq (w0 ++ w1) := by
  simp only [main_part0, cat2, cat3, fn_where.body, fn_var.body, fn_relu.body, fn_relu_0.body, fn_where_1.body, fn_log_softmax.body, seq_append, seq, bind_assoc, pure_bind]
  rfl

set_option maxRecDepth 8192 in
set_option maxHeartbeats 4000000 in
/-- Window 1 of @main is its stretches in order: the called functions' bodies unfolded and the sequencing reassociated. -/
theorem main_part1_eq (c : Dev nD) : main_part1 (F := F) c = seq (w2 ++ w3) := by
  simp only [main_part1, cat2, cat3, fn_where.body, fn_var.body, fn_relu.body, fn_relu_0.body, fn_where_1.body, fn_log_softmax.body, seq_append, seq, bind_assoc, pure_bind]
  rfl

set_option maxRecDepth 8192 in
set_option maxHeartbeats 4000000 in
/-- Window 2 of @main is its stretches in order: the called functions' bodies unfolded and the sequencing reassociated. -/
theorem main_part2_eq (c : Dev nD) : main_part2 (F := F) c = seq (w4 ++ w5 ++ w6 ++ w7) := by
  simp only [main_part2, cat2, cat3, fn_where.body, fn_var.body, fn_relu.body, fn_relu_0.body, fn_where_1.body, fn_log_softmax.body, seq_append, seq, bind_assoc, pure_bind]
  rfl

set_option maxRecDepth 8192 in
set_option maxHeartbeats 4000000 in
/-- Window 3 of @main is its stretches in order: the called functions' bodies unfolded and the sequencing reassociated. -/
theorem main_part3_eq (c : Dev nD) : main_part3 (F := F) c = seq (w8 ++ w9 ++ w10) := by
  simp only [main_part3, cat2, cat3, fn_where.body, fn_var.body, fn_relu.body, fn_relu_0.body, fn_where_1.body, fn_log_softmax.body, seq_append, seq, bind_assoc, pure_bind]
  rfl

set_option maxRecDepth 8192 in
set_option maxHeartbeats 4000000 in
/-- Window 4 of @main is its stretches in order: the called functions' bodies unfolded and the sequencing reassociated. -/
theorem main_part4_eq (c : Dev nD) : main_part4 (F := F) c = seq (w11 ++ w12) := by
  simp only [main_part4, cat2, cat3, fn_where.body, fn_var.body, fn_relu.body, fn_relu_0.body, fn_where_1.body, fn_log_softmax.body, seq_append, seq, bind_assoc, pure_bind]
  rfl

/-- @main's 353 operations, in order. -/
abbrev ops : List (HloOp τ sig (Elt F)) := w0 ++ w1 ++ w2 ++ w3 ++ w4 ++ w5 ++ w6 ++ w7 ++ w8 ++ w9 ++ w10 ++ w11 ++ w12

theorem main_eq (c : Dev nD) : main (F := F) c = seq ops := by
  simp only [main, ops, main_part0_eq c, main_part1_eq c, main_part2_eq c, main_part3_eq c, main_part4_eq c, seq_append, bind_assoc]

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append, or_assoc] at h
    rcases h with h | h | h | h | h | h | h | h | h | h | h | h | h
    exacts [List.forall_iff_forall_mem.mp w0_sub op h, List.forall_iff_forall_mem.mp w1_sub op h, List.forall_iff_forall_mem.mp w2_sub op h, List.forall_iff_forall_mem.mp w3_sub op h, List.forall_iff_forall_mem.mp w4_sub op h, List.forall_iff_forall_mem.mp w5_sub op h, List.forall_iff_forall_mem.mp w6_sub op h, List.forall_iff_forall_mem.mp w7_sub op h, List.forall_iff_forall_mem.mp w8_sub op h, List.forall_iff_forall_mem.mp w9_sub op h, List.forall_iff_forall_mem.mp w10_sub op h, List.forall_iff_forall_mem.mp w11_sub op h, List.forall_iff_forall_mem.mp w12_sub op h]

theorem ops_fresh : ∀ op ∈ (ops : List (HloOp τ sig (Elt F))), op.fresh = ∅ := by
  intro op h
  simp only [ops, List.mem_append, or_assoc] at h
  rcases h with h | h | h | h | h | h | h | h | h | h | h | h | h
  exacts [w0_fresh op h, w1_fresh op h, w2_fresh op h, w3_fresh op h, w4_fresh op h, w5_fresh op h, w6_fresh op h, w7_fresh op h, w8_fresh op h, w9_fresh op h, w10_fresh op h, w11_fresh op h, w12_fresh op h]

end Cert.ReferenceIdeal.RefRun

end
-- ==== Proof.Heads.lean ====
/- The two small read-out networks shared by the kernel's and the reference's host tails, as pure functions
   of the pooled feature matrix Z (64 graphs x 256 features) and the layer parameters, at the ideal instance.

   class head : Z -> leaky(Z.p1w + p1b) -> leaky(. p2w + p2b) -> . p3w + p3b -> 1 / (1 + exp(-.))
   scan head  : Z -> leaky(Z.s1w + s1b) -> leaky(. s2w + s2b) -> . p4w + p4b -> log_softmax over the 2 columns
   where leaky(x) = x if x >= 0 else 0.2f * x  (0.2f the binary32 value 0x3E4CCCCD), and
   log_softmax(x) = (x - max) - log (sum exp (x - max)), max the row maximum (joined with -inf).

   Each stage is a definition of its own, composed exactly as the host operations compose them. -/
import Idealize.ShloMosaic.Lib.StableHlo
import Idealize.ShloMosaic.PureOps
import Idealize.ShloMosaic.PureOps.Ideal

noncomputable section

namespace Cert.Heads

open Idealize.ShloMosaic

abbrev S_ : Shape := ⟨0, ![]⟩
abbrev S64 : Shape := ⟨1, ![64]⟩
abbrev S4 : Shape := ⟨1, ![4]⟩
abbrev S2 : Shape := ⟨1, ![2]⟩
abbrev S1x64 : Shape := ⟨2, ![1, 64]⟩
abbrev S1x4 : Shape := ⟨2, ![1, 4]⟩
abbrev S1x2 : Shape := ⟨2, ![1, 2]⟩
abbrev S64x1 : Shape := ⟨2, ![64, 1]⟩
abbrev S64x2 : Shape := ⟨2, ![64, 2]⟩
abbrev S64x4 : Shape := ⟨2, ![64, 4]⟩
abbrev S64x64 : Shape := ⟨2, ![64, 64]⟩
abbrev S64x256 : Shape := ⟨2, ![64, 256]⟩
abbrev S256x64 : Shape := ⟨2, ![256, 64]⟩

/-! ## The shape facts the operations take -/

theorem h_S_ : 0 < S_.numel := by decide
theorem bcast_S64_S1x64_1 : S64.BroadcastsInDim S1x64 (![1] : Fin 1 → Fin S1x64.rank) := by decide
theorem bcast_S1x64_S64x64_0_1 : S1x64.BroadcastsInDim S64x64 (![0, 1] : Fin 2 → Fin S64x64.rank) := by decide
theorem bcast_S_S64x64 : S_.BroadcastsInDim S64x64 (![] : Fin 0 → Fin S64x64.rank) := by decide
theorem bcast_S4_S1x4_1 : S4.BroadcastsInDim S1x4 (![1] : Fin 1 → Fin S1x4.rank) := by decide
theorem bcast_S1x4_S64x4_0_1 : S1x4.BroadcastsInDim S64x4 (![0, 1] : Fin 2 → Fin S64x4.rank) := by decide
theorem bcast_S_S64x4 : S_.BroadcastsInDim S64x4 (![] : Fin 0 → Fin S64x4.rank) := by decide
theorem bcast_S2_S1x2_1 : S2.BroadcastsInDim S1x2 (![1] : Fin 1 → Fin S1x2.rank) := by decide
theorem bcast_S1x2_S64x2_0_1 : S1x2.BroadcastsInDim S64x2 (![0, 1] : Fin 2 → Fin S64x2.rank) := by decide
theorem reducesTo_S64x2_S64_d1 : S64x2.ReducesTo [1] S64 := by decide
theorem bcast_S_S64 : S_.BroadcastsInDim S64 (![] : Fin 0 → Fin S64.rank) := by decide
theorem bcast_S64_S64x1_0 : S64.BroadcastsInDim S64x1 (![0] : Fin 1 → Fin S64x1.rank) := by decide
theorem bcast_S64x1_S64x2_0_1 : S64x1.BroadcastsInDim S64x2 (![0, 1] : Fin 2 → Fin S64x2.rank) := by decide
theorem dot256_wf : DotDims.WF S64x256 S256x64 S64x64 [1] [0] [0] [1] [] [] := by decide
theorem dot64_wf : DotDims.WF S64x64 S64x64 S64x64 [1] [0] [0] [1] [] [] := by decide
theorem dot4_wf : DotDims.WF S64x64 S64x4 S64x4 [1] [0] [0] [1] [] [] := by decide
theorem dot2_wf : DotDims.WF S64x64 S64x2 S64x2 [1] [0] [0] [1] [] [] := by decide

/-- Rows of a 64x256 matrix against columns of a 256x64 one. -/
def dot256 : DotDims S64x256 S256x64 S64x64 where
  lhsContracting := [1]
  rhsContracting := [0]
  lhsNonContracting := [0]
  rhsNonContracting := [1]
  lhsBatch := []
  rhsBatch := []
  wf := dot256_wf
/-- Rows of a 64x64 matrix against columns of a 64x64 one. -/
def dot64 : DotDims S64x64 S64x64 S64x64 where
  lhsContracting := [1]
  rhsContracting := [0]
  lhsNonContracting := [0]
  rhsNonContracting := [1]
  lhsBatch := []
  rhsBatch := []
  wf := dot64_wf
/-- Rows of a 64x64 matrix against columns of a 64x4 one. -/
def dot4 : DotDims S64x64 S64x4 S64x4 where
  lhsContracting := [1]
  rhsContracting := [0]
  lhsNonContracting := [0]
  rhsNonContracting := [1]
  lhsBatch := []
  rhsBatch := []
  wf := dot4_wf
/-- Rows of a 64x64 matrix against columns of a 64x2 one. -/
def dot2 : DotDims S64x64 S64x2 S64x2 where
  lhsContracting := [1]
  rhsContracting := [0]
  lhsNonContracting := [0]
  rhsNonContracting := [1]
  lhsBatch := []
  rhsBatch := []
  wf := dot2_wf

/-! ## The stages -/

/-- A bias vector of 64 entries added to every row: its 1x64 then 64x64 broadcast. -/
def bias64 (b : FVec Ideal S64 .f32) : FVec Ideal S64x64 .f32 :=
  broadcastInDim S64x64 ![0, 1] bcast_S1x64_S64x64_0_1 (broadcastInDim S1x64 ![1] bcast_S64_S1x64_1 b)

/-- leaky(x) = x where x >= 0, else 0.2f * x, elementwise. -/
def leaky (x : FVec Ideal S64x64 .f32) : FVec Ideal S64x64 .f32 :=
  select (cmpf .oge x (broadcastInDim S64x64 ![] bcast_S_S64x64 (constant (F := Ideal) S_ .f32 0x00000000#32))) x
    (mulf (broadcastInDim S64x64 ![] bcast_S_S64x64 (constant (F := Ideal) S_ .f32 0x3E4CCCCD#32)) x)

/-- Z . w, the first product of either head. -/
def mm256 (z : FVec Ideal S64x256 .f32) (w : FVec Ideal S256x64 .f32) : FVec Ideal S64x64 .f32 :=
  Host.dotGeneral (F := Ideal) dot256 none z w

/-- leaky(Z . w + b): the first hidden layer of either head. -/
def hidden1 (z : FVec Ideal S64x256 .f32) (w : FVec Ideal S256x64 .f32) (b : FVec Ideal S64 .f32) : FVec Ideal S64x64 .f32 :=
  leaky (addf (mm256 z w) (bias64 b))

/-- h . w for a 64x64 hidden activation. -/
def mm64 (h : FVec Ideal S64x64 .f32) (w : FVec Ideal S64x64 .f32) : FVec Ideal S64x64 .f32 :=
  Host.dotGeneral (F := Ideal) dot64 none h w

/-- leaky(. w + b) after a product already formed: the second hidden layer from its product. -/
def hidden2of (p : FVec Ideal S64x64 .f32) (b : FVec Ideal S64 .f32) : FVec Ideal S64x64 .f32 :=
  leaky (addf p (bias64 b))

/-- The class head's last three steps from the second layer's product: leaky(p + p2b) . p3w + p3b, then
    1 / (1 + exp(-.)). -/
def clsTail (p : FVec Ideal S64x64 .f32) (p2b : FVec Ideal S64 .f32) (p3w : FVec Ideal S64x4 .f32) (p3b : FVec Ideal S4 .f32) :
    FVec Ideal S64x4 .f32 :=
  Host.divf (broadcastInDim S64x4 ![] bcast_S_S64x4 (constant (F := Ideal) S_ .f32 0x3F800000#32))
    (addf (broadcastInDim S64x4 ![] bcast_S_S64x4 (constant (F := Ideal) S_ .f32 0x3F800000#32))
      (Host.exp (Host.negf (addf (Host.dotGeneral (F := Ideal) dot4 none (hidden2of p p2b) p3w)
        (broadcastInDim S64x4 ![0, 1] bcast_S1x4_S64x4_0_1 (broadcastInDim S1x4 ![1] bcast_S4_S1x4_1 p3b))))))

/-- The class head: 64 graphs x 4 class probabilities. -/
def headCls (z : FVec Ideal S64x256 .f32) (p1w : FVec Ideal S256x64 .f32) (p1b : FVec Ideal S64 .f32)
    (p2w : FVec Ideal S64x64 .f32) (p2b : FVec Ideal S64 .f32) (p3w : FVec Ideal S64x4 .f32) (p3b : FVec Ideal S4 .f32) :
    FVec Ideal S64x4 .f32 :=
  clsTail (mm64 (hidden1 z p1w p1b) p2w) p2b p3w p3b

/-- The scan head's logits: leaky(p + s2b) . p4w + p4b from the second layer's product. -/
def scanLogits (p : FVec Ideal S64x64 .f32) (s2b : FVec Ideal S64 .f32) (p4w : FVec Ideal S64x2 .f32) (p4b : FVec Ideal S2 .f32) :
    FVec Ideal S64x2 .f32 :=
  addf (Host.dotGeneral (F := Ideal) dot2 none (hidden2of p s2b) p4w)
    (broadcastInDim S64x2 ![0, 1] bcast_S1x2_S64x2_0_1 (broadcastInDim S1x2 ![1] bcast_S2_S1x2_1 p4b))

/-- x minus its row maximum (the maximum joined with -inf first). -/
def shifted (x : FVec Ideal S64x2 .f32) : FVec Ideal S64x2 .f32 :=
  subf x (broadcastInDim S64x2 ![0, 1] bcast_S64x1_S64x2_0_1 (broadcastInDim S64x1 ![0] bcast_S64_S64x1_0
    (maximumf (broadcastInDim S64 ![] bcast_S_S64 (constant (F := Ideal) S_ .f32 0xFF800000#32))
      (Host.reduce FloatOps.maximumf x (constant (F := Ideal) S_ .f32 0xFF800000#32) reducesTo_S64x2_S64_d1 h_S_))))

/-- log_softmax over the two columns: (x - max) - log (sum over the row of exp (x - max)). -/
def logSoftmax (x : FVec Ideal S64x2 .f32) : FVec Ideal S64x2 .f32 :=
  subf (shifted x) (broadcastInDim S64x2 ![0, 1] bcast_S64x1_S64x2_0_1 (Host.log (broadcastInDim S64x1 ![0] bcast_S64_S64x1_0
    (Host.reduceAdd (Host.exp (shifted x)) (constant (F := Ideal) S_ .f32 0x00000000#32) reducesTo_S64x2_S64_d1 h_S_))))

/-- The scan head's last steps from the second layer's product. -/
def scanTail (p : FVec Ideal S64x64 .f32) (s2b : FVec Ideal S64 .f32) (p4w : FVec Ideal S64x2 .f32) (p4b : FVec Ideal S2 .f32) :
    FVec Ideal S64x2 .f32 :=
  logSoftmax (scanLogits p s2b p4w p4b)

/-- The scan head: 64 graphs x 2 log-probabilities. -/
def headScan (z : FVec Ideal S64x256 .f32) (s1w : FVec Ideal S256x64 .f32) (s1b : FVec Ideal S64 .f32)
    (s2w : FVec Ideal S64x64 .f32) (s2b : FVec Ideal S64 .f32) (p4w : FVec Ideal S64x2 .f32) (p4b : FVec Ideal S2 .f32) :
    FVec Ideal S64x2 .f32 :=
  scanTail (mm64 (hidden1 z s1w s1b) s2w) s2b p4w p4b

end Cert.Heads

end
-- ==== Proof.RefRunDefs.lean ====
/- The reference's values, stage by stage, as pure functions of its 24 argument arrays at the ideal instance:
   three Chebyshev graph convolutions (T0 = input, T1 = A T0, T_k = 2 A T_{k-1} - T_{k-2}, output sum_k T_k W[k] + b),
   a layer normalization over each graph after the first two (mean and variance over 512 x 64 entries, then
   scale, shift and max(., 0)), mean and max pooling over nodes of both activations, the masked and
   symmetrized product E E^T of the third layer's output, and the two read-out heads on the pooled features. -/
import proofs.«115478_j10110353015360_2_alg».proof.Proof.Gen.ReferenceIdeal
import proofs.«115478_j10110353015360_2_alg».proof.Proof.Heads
import Idealize.ShloMosaic.PureOps.Ideal

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The reference's 24 argument arrays: a0 = A, a1 = X, a2 = W1, a3 = b1, a4 = W2, a5 = b2, a6 = W3, a7 = b3, a8 = g1, a9 = bt1, a10 = g2, a11 = bt2, a12 = p1w, a13 = p1b, a14 = p2w, a15 = p2b, a16 = p3w, a17 = p3b, a18 = s1w, a19 = s1b, a20 = s2w, a21 = s2b, a22 = p4w, a23 = p4b. -/
structure Args where
  a0 : FVec Ideal S64x512x512 .f32
  a1 : FVec Ideal S64x512x512 .f32
  a2 : FVec Ideal S6x512x64 .f32
  a3 : FVec Ideal S64 .f32
  a4 : FVec Ideal S6x64x64 .f32
  a5 : FVec Ideal S64 .f32
  a6 : FVec Ideal S6x64x64 .f32
  a7 : FVec Ideal S64 .f32
  a8 : FVec Ideal S512x64 .f32
  a9 : FVec Ideal S512x64 .f32
  a10 : FVec Ideal S512x64 .f32
  a11 : FVec Ideal S512x64 .f32
  a12 : FVec Ideal S256x64 .f32
  a13 : FVec Ideal S64 .f32
  a14 : FVec Ideal S64x64 .f32
  a15 : FVec Ideal S64 .f32
  a16 : FVec Ideal S64x4 .f32
  a17 : FVec Ideal S4 .f32
  a18 : FVec Ideal S256x64 .f32
  a19 : FVec Ideal S64 .f32
  a20 : FVec Ideal S64x64 .f32
  a21 : FVec Ideal S64 .f32
  a22 : FVec Ideal S64x2 .f32
  a23 : FVec Ideal S2 .f32

/-- The argument arrays of device `c` in the launch memory `m`. -/
def args (m : (ℓ : Loc nD τ sig) → Buf (Elt Ideal) ℓ) (c : Dev nD) : Args where
  a0 := m ((c.tc : Thread nD τ).loc main_arg0)
  a1 := m ((c.tc : Thread nD τ).loc main_arg1)
  a2 := m ((c.tc : Thread nD τ).loc main_arg2)
  a3 := m ((c.tc : Thread nD τ).loc main_arg3)
  a4 := m ((c.tc : Thread nD τ).loc main_arg4)
  a5 := m ((c.tc : Thread nD τ).loc main_arg5)
  a6 := m ((c.tc : Thread nD τ).loc main_arg6)
  a7 := m ((c.tc : Thread nD τ).loc main_arg7)
  a8 := m ((c.tc : Thread nD τ).loc main_arg8)
  a9 := m ((c.tc : Thread nD τ).loc main_arg9)
  a10 := m ((c.tc : Thread nD τ).loc main_arg10)
  a11 := m ((c.tc : Thread nD τ).loc main_arg11)
  a12 := m ((c.tc : Thread nD τ).loc main_arg12)
  a13 := m ((c.tc : Thread nD τ).loc main_arg13)
  a14 := m ((c.tc : Thread nD τ).loc main_arg14)
  a15 := m ((c.tc : Thread nD τ).loc main_arg15)
  a16 := m ((c.tc : Thread nD τ).loc main_arg16)
  a17 := m ((c.tc : Thread nD τ).loc main_arg17)
  a18 := m ((c.tc : Thread nD τ).loc main_arg18)
  a19 := m ((c.tc : Thread nD τ).loc main_arg19)
  a20 := m ((c.tc : Thread nD τ).loc main_arg20)
  a21 := m ((c.tc : Thread nD τ).loc main_arg21)
  a22 := m ((c.tc : Thread nD τ).loc main_arg22)
  a23 := m ((c.tc : Thread nD τ).loc main_arg23)

/-- A . X per graph: the second Chebyshev term T1 of layer 1 (T0 = X). -/
def r_v0 (a : Args) : FVec Ideal S64x512x512 .f32 :=
  (Host.dotGeneral dot_S64x512x512_S64x512x512_S64x512x512_2_1_1_2_0_0 none a.a0 a.a1)

/-- T2 = 2 A T1 - T0 of layer 1. -/
def r_v11 (a : Args) : FVec Ideal S64x512x512 .f32 :=
  (subf (mulf (broadcastInDim S64x512x512 ![] bcast_S_S64x512x512 (constant (F := Ideal) S_ .f32 0x40000000#32)) (Host.dotGeneral dot_S64x512x512_S64x512x512_S64x512x512_2_1_1_2_0_0 none a.a0 (r_v0 a))) a.a1)

/-- T3 = 2 A T2 - T1 of layer 1. -/
def r_v19 (a : Args) : FVec Ideal S64x512x512 .f32 :=
  (subf (mulf (broadcastInDim S64x512x512 ![] bcast_S_S64x512x512 (constant (F := Ideal) S_ .f32 0x40000000#32)) (Host.dotGeneral dot_S64x512x512_S64x512x512_S64x512x512_2_1_1_2_0_0 none a.a0 (r_v11 a))) (r_v0 a))

/-- T4 = 2 A T3 - T2 of layer 1. -/
def r_v27 (a : Args) : FVec Ideal S64x512x512 .f32 :=
  (subf (mulf (broadcastInDim S64x512x512 ![] bcast_S_S64x512x512 (constant (F := Ideal) S_ .f32 0x40000000#32)) (Host.dotGeneral dot_S64x512x512_S64x512x512_S64x512x512_2_1_1_2_0_0 none a.a0 (r_v19 a))) (r_v11 a))

/-- T5 = 2 A T4 - T3 of layer 1. -/
def r_v35 (a : Args) : FVec Ideal S64x512x512 .f32 :=
  (subf (mulf (broadcastInDim S64x512x512 ![] bcast_S_S64x512x512 (constant (F := Ideal) S_ .f32 0x40000000#32)) (Host.dotGeneral dot_S64x512x512_S64x512x512_S64x512x512_2_1_1_2_0_0 none a.a0 (r_v27 a))) (r_v19 a))

/-- Layer 1 before its bias: the sum over k of T_k . W1[k]. -/
def r_v39 (a : Args) : FVec Ideal S64x512x64 .f32 :=
  (addf (addf (addf (addf (addf (Host.dotGeneral dot_S64x512x512_S512x64_S64x512x64_2_0_01_1_n_n none a.a1 (shapeCast S512x64 (extractStridedSlice S1x512x64 ![0, 0, 0] a.a2 slices_S6x512x64_S1x512x64_0_0_0) shapeCasts_S1x512x64_S512x64)) (Host.dotGeneral dot_S64x512x512_S512x64_S64x512x64_2_0_01_1_n_n none (r_v0 a) (shapeCast S512x64 (extractStridedSlice S1x512x64 ![1, 0, 0] a.a2 slices_S6x512x64_S1x512x64_1_0_0) shapeCasts_S1x512x64_S512x64))) (Host.dotGeneral dot_S64x512x512_S512x64_S64x512x64_2_0_01_1_n_n none (r_v11 a) (shapeCast S512x64 (extractStridedSlice S1x512x64 ![2, 0, 0] a.a2 slices_S6x512x64_S1x512x64_2_0_0) shapeCasts_S1x512x64_S512x64))) (Host.dotGeneral dot_S64x512x512_S512x64_S64x512x64_2_0_01_1_n_n none (r_v19 a) (shapeCast S512x64 (extractStridedSlice S1x512x64 ![3, 0, 0] a.a2 slices_S6x512x64_S1x512x64_3_0_0) shapeCasts_S1x512x64_S512x64))) (Host.dotGeneral dot_S64x512x512_S512x64_S64x512x64_2_0_01_1_n_n none (r_v27 a) (shapeCast S512x64 (extractStridedSlice S1x512x64 ![4, 0, 0] a.a2 slices_S6x512x64_S1x512x64_4_0_0) shapeCasts_S1x512x64_S512x64))) (Host.dotGeneral dot_S64x512x512_S512x64_S64x512x64_2_0_01_1_n_n none (r_v35 a) (shapeCast S512x64 (extractStridedSlice S1x512x64 ![5, 0, 0] a.a2 slices_S6x512x64_S1x512x64_5_0_0) shapeCasts_S1x512x64_S512x64)))

/-- Layer 1: sum_k T_k . W1[k] + b1. -/
def r_v42 (a : Args) : FVec Ideal S64x512x64 .f32 :=
  (addf (r_v39 a) (broadcastInDim S64x512x64 ![0, 1, 2] bcast_S1x1x64_S64x512x64_0_1_2 (broadcastInDim S1x1x64 ![2] bcast_S64_S1x1x64_2 a.a3)))

/-- The sum of layer 1's output over nodes and features, per graph. -/
def r_v43 (a : Args) : FVec Ideal S64 .f32 :=
  (Host.reduceAdd (r_v42 a) (constant (F := Ideal) S_ .f32 0x00000000#32) reducesTo_S64x512x64_S64_d1_2 h_S_)

/-- The mean of layer 1's output per graph (the sum over 32768). -/
def r_v46 (a : Args) : FVec Ideal S64x1x1 .f32 :=
  (Host.divf (broadcastInDim S64x1x1 ![0] bcast_S64_S64x1x1_0 (r_v43 a)) (broadcastInDim S64x1x1 ![] bcast_S_S64x1x1 (constant (F := Ideal) S_ .f32 0x47000000#32)))

/-- The mean again, as the variance computes it. -/
def r_call0_v3 (a : Args) : FVec Ideal S64x1x1 .f32 :=
  (Host.divf (broadcastInDim S64x1x1 ![0] bcast_S64_S64x1x1_0 (Host.reduceAdd (r_v42 a) (constant (F := Ideal) S_ .f32 0x00000000#32) reducesTo_S64x512x64_S64_d1_2 h_S_)) (broadcastInDim S64x1x1 ![] bcast_S_S64x1x1 (constant (F := Ideal) S_ .f32 0x47000000#32)))

/-- Layer 1's output minus its mean. -/
def r_call0_v5 (a : Args) : FVec Ideal S64x512x64 .f32 :=
  (subf (r_v42 a) (broadcastInDim S64x512x64 ![0, 1, 2] bcast_S64x1x1_S64x512x64_0_1_2 (r_call0_v3 a)))

/-- 32768 - ddof with ddof = 0, as a float. -/
def r_call0_v8 (a : Args) : FVec Ideal S_ .f32 :=
  (subf (constant (F := Ideal) S_ .f32 0x47000000#32) (sitofp .f32 (constantI S_ 32 0#32)))

/-- The sum of squared deviations per graph. -/
def r_call0_v9 (a : Args) : FVec Ideal S64 .f32 :=
  (Host.reduceAdd (mulf (r_call0_v5 a) (r_call0_v5 a)) (constant (F := Ideal) S_ .f32 0x00000000#32) reducesTo_S64x512x64_S64_d1_2 h_S_)

/-- The sum of squared deviations over (32768 - 0). -/
def r_call0_v12 (a : Args) : FVec Ideal S64x1x1 .f32 :=
  (Host.divf (broadcastInDim S64x1x1 ![0] bcast_S64_S64x1x1_0 (r_call0_v9 a)) (broadcastInDim S64x1x1 ![] bcast_S_S64x1x1 (r_call0_v8 a)))

/-- The variance of layer 1's output per graph (NaN were 32768 - ddof not positive). -/
def r_v47 (a : Args) : FVec Ideal S64x1x1 .f32 :=
  (select (broadcastInDim S64x1x1 ![] bcast_S_S64x1x1 (cmpf .ogt (r_call0_v8 a) (constant (F := Ideal) S_ .f32 0x00000000#32))) (r_call0_v12 a) (broadcastInDim S64x1x1 ![] bcast_S_S64x1x1 (id (constant (F := Ideal) S_ .f32 0x7FC00000#32))))

/-- Layer 1's output centred. -/
def r_v49 (a : Args) : FVec Ideal S64x512x64 .f32 :=
  (subf (r_v42 a) (broadcastInDim S64x512x64 ![0, 1, 2] bcast_S64x1x1_S64x512x64_0_1_2 (r_v46 a)))

/-- Variance plus the epsilon 0x3727C5AC. -/
def r_v51 (a : Args) : FVec Ideal S64x1x1 .f32 :=
  (addf (r_v47 a) (broadcastInDim S64x1x1 ![] bcast_S_S64x1x1 (constant (F := Ideal) S_ .f32 0x3727C5AC#32)))

/-- Layer 1 normalized: centred over sqrt(var + eps). -/
def r_v54 (a : Args) : FVec Ideal S64x512x64 .f32 :=
  (Host.divf (r_v49 a) (broadcastInDim S64x512x64 ![0, 1, 2] bcast_S64x1x1_S64x512x64_0_1_2 (Host.sqrt (r_v51 a))))

/-- Normalized, scaled by g1 and shifted by bt1. -/
def r_v60 (a : Args) : FVec Ideal S64x512x64 .f32 :=
  (addf (mulf (r_v54 a) (broadcastInDim S64x512x64 ![0, 1, 2] bcast_S1x512x64_S64x512x64_0_1_2 (broadcastInDim S1x512x64 ![1, 2] bcast_S512x64_S1x512x64_1_2 a.a8))) (broadcastInDim S64x512x64 ![0, 1, 2] bcast_S1x512x64_S64x512x64_0_1_2 (broadcastInDim S1x512x64 ![1, 2] bcast_S512x64_S1x512x64_1_2 a.a9)))

/-- Layernorm 1 then max(., 0): the activation H1. -/
def r_v61 (a : Args) : FVec Ideal S64x512x64 .f32 :=
  (maximumf (r_v60 a) (broadcastInDim S64x512x64 ![] bcast_S_S64x512x64 (constant (F := Ideal) S_ .f32 0x00000000#32)))

/-- The sum of H1 over nodes. -/
def r_v62 (a : Args) : FVec Ideal S64x64 .f32 :=
  (Host.reduceAdd (r_v61 a) (constant (F := Ideal) S_ .f32 0x00000000#32) reducesTo_S64x512x64_S64x64_d1 h_S_)

/-- Mean pooling of H1 over the 512 nodes. -/
def r_v65 (a : Args) : FVec Ideal S64x1x64 .f32 :=
  (Host.divf (broadcastInDim S64x1x64 ![0, 2] bcast_S64x64_S64x1x64_0_2 (r_v62 a)) (broadcastInDim S64x1x64 ![] bcast_S_S64x1x64 (constant (F := Ideal) S_ .f32 0x44000000#32)))

/-- The maximum of H1 over nodes (from -inf). -/
def r_v66 (a : Args) : FVec Ideal S64x64 .f32 :=
  (Host.reduce FloatOps.maximumf (r_v61 a) (constant (F := Ideal) S_ .f32 0xFF800000#32) reducesTo_S64x512x64_S64x64_d1 h_S_)

/-- Max pooling of H1. -/
def r_v67 (a : Args) : FVec Ideal S64x1x64 .f32 :=
  (broadcastInDim S64x1x64 ![0, 2] bcast_S64x64_S64x1x64_0_2 (r_v66 a))

/-- Mean and max pooling of H1 side by side (64 x 1 x 128). -/
def r_v68 (a : Args) : FVec Ideal S64x1x128 .f32 :=
  (concatenate S64x1x128 2 [⟨S64x1x64, (r_v65 a)⟩, ⟨S64x1x64, (r_v67 a)⟩] concatenates_S64x1x64_S64x1x64_S64x1x128_d2)

/-- A . H1: T1 of layer 2 (T0 = H1). -/
def r_v69 (a : Args) : FVec Ideal S64x512x64 .f32 :=
  (Host.dotGeneral dot_S64x512x512_S64x512x64_S64x512x64_2_1_1_2_0_0 none a.a0 (r_v61 a))

/-- T2 of layer 2. -/
def r_v80 (a : Args) : FVec Ideal S64x512x64 .f32 :=
  (subf (mulf (broadcastInDim S64x512x64 ![] bcast_S_S64x512x64 (constant (F := Ideal) S_ .f32 0x40000000#32)) (Host.dotGeneral dot_S64x512x512_S64x512x64_S64x512x64_2_1_1_2_0_0 none a.a0 (r_v69 a))) (r_v61 a))

/-- T3 of layer 2. -/
def r_v88 (a : Args) : FVec Ideal S64x512x64 .f32 :=
  (subf (mulf (broadcastInDim S64x512x64 ![] bcast_S_S64x512x64 (constant (F := Ideal) S_ .f32 0x40000000#32)) (Host.dotGeneral dot_S64x512x512_S64x512x64_S64x512x64_2_1_1_2_0_0 none a.a0 (r_v80 a))) (r_v69 a))

/-- T4 of layer 2. -/
def r_v96 (a : Args) : FVec Ideal S64x512x64 .f32 :=
  (subf (mulf (broadcastInDim S64x512x64 ![] bcast_S_S64x512x64 (constant (F := Ideal) S_ .f32 0x40000000#32)) (Host.dotGeneral dot_S64x512x512_S64x512x64_S64x512x64_2_1_1_2_0_0 none a.a0 (r_v88 a))) (r_v80 a))

/-- Layer 2's sum through k = 4. -/
def r_v100 (a : Args) : FVec Ideal S64x512x64 .f32 :=
  (addf (addf (addf (addf (Host.dotGeneral dot_S64x512x64_S64x64_S64x512x64_2_0_01_1_n_n none (r_v61 a) (shapeCast S64x64 (extractStridedSlice S1x64x64 ![0, 0, 0] a.a4 slices_S6x64x64_S1x64x64_0_0_0) shapeCasts_S1x64x64_S64x64)) (Host.dotGeneral dot_S64x512x64_S64x64_S64x512x64_2_0_01_1_n_n none (r_v69 a) (shapeCast S64x64 (extractStridedSlice S1x64x64 ![1, 0, 0] a.a4 slices_S6x64x64_S1x64x64_1_0_0) shapeCasts_S1x64x64_S64x64))) (Host.dotGeneral dot_S64x512x64_S64x64_S64x512x64_2_0_01_1_n_n none (r_v80 a) (shapeCast S64x64 (extractStridedSlice S1x64x64 ![2, 0, 0] a.a4 slices_S6x64x64_S1x64x64_2_0_0) shapeCasts_S1x64x64_S64x64))) (Host.dotGeneral dot_S64x512x64_S64x64_S64x512x64_2_0_01_1_n_n none (r_v88 a) (shapeCast S64x64 (extractStridedSlice S1x64x64 ![3, 0, 0] a.a4 slices_S6x64x64_S1x64x64_3_0_0) shapeCasts_S1x64x64_S64x64))) (Host.dotGeneral dot_S64x512x64_S64x64_S64x512x64_2_0_01_1_n_n none (r_v96 a) (shapeCast S64x64 (extractStridedSlice S1x64x64 ![4, 0, 0] a.a4 slices_S6x64x64_S1x64x64_4_0_0) shapeCasts_S1x64x64_S64x64)))

/-- T5 of layer 2. -/
def r_v104 (a : Args) : FVec Ideal S64x512x64 .f32 :=
  (subf (mulf (broadcastInDim S64x512x64 ![] bcast_S_S64x512x64 (constant (F := Ideal) S_ .f32 0x40000000#32)) (Host.dotGeneral dot_S64x512x512_S64x512x64_S64x512x64_2_1_1_2_0_0 none a.a0 (r_v96 a))) (r_v88 a))

/-- Layer 2 before its bias. -/
def r_v108 (a : Args) : FVec Ideal S64x512x64 .f32 :=
  (addf (r_v100 a) (Host.dotGeneral dot_S64x512x64_S64x64_S64x512x64_2_0_01_1_n_n none (r_v104 a) (shapeCast S64x64 (extractStridedSlice S1x64x64 ![5, 0, 0] a.a4 slices_S6x64x64_S1x64x64_5_0_0) shapeCasts_S1x64x64_S64x64)))

/-- Layer 2: sum_k T_k . W2[k] + b2. -/
def r_v111 (a : Args) : FVec Ideal S64x512x64 .f32 :=
  (addf (r_v108 a) (broadcastInDim S64x512x64 ![0, 1, 2] bcast_S1x1x64_S64x512x64_0_1_2 (broadcastInDim S1x1x64 ![2] bcast_S64_S1x1x64_2 a.a5)))

/-- The mean of layer 2's output per graph. -/
def r_v115 (a : Args) : FVec Ideal S64x1x1 .f32 :=
  (Host.divf (broadcastInDim S64x1x1 ![0] bcast_S64_S64x1x1_0 (Host.reduceAdd (r_v111 a) (constant (F := Ideal) S_ .f32 0x00000000#32) reducesTo_S64x512x64_S64_d1_2 h_S_)) (broadcastInDim S64x1x1 ![] bcast_S_S64x1x1 (constant (F := Ideal) S_ .f32 0x47000000#32)))

/-- The mean again, as the variance computes it. -/
def r_call2_v3 (a : Args) : FVec Ideal S64x1x1 .f32 :=
  (Host.divf (broadcastInDim S64x1x1 ![0] bcast_S64_S64x1x1_0 (Host.reduceAdd (r_v111 a) (constant (F := Ideal) S_ .f32 0x00000000#32) reducesTo_S64x512x64_S64_d1_2 h_S_)) (broadcastInDim S64x1x1 ![] bcast_S_S64x1x1 (constant (F := Ideal) S_ .f32 0x47000000#32)))

/-- Layer 2's output minus its mean. -/
def r_call2_v5 (a : Args) : FVec Ideal S64x512x64 .f32 :=
  (subf (r_v111 a) (broadcastInDim S64x512x64 ![0, 1, 2] bcast_S64x1x1_S64x512x64_0_1_2 (r_call2_v3 a)))

/-- 32768 - ddof with ddof = 0, as a float. -/
def r_call2_v8 (a : Args) : FVec Ideal S_ .f32 :=
  (subf (constant (F := Ideal) S_ .f32 0x47000000#32) (sitofp .f32 (constantI S_ 32 0#32)))

/-- The sum of squared deviations per graph. -/
def r_call2_v9 (a : Args) : FVec Ideal S64 .f32 :=
  (Host.reduceAdd (mulf (r_call2_v5 a) (r_call2_v5 a)) (constant (F := Ideal) S_ .f32 0x00000000#32) reducesTo_S64x512x64_S64_d1_2 h_S_)

/-- The sum of squared deviations over (32768 - 0). -/
def r_call2_v12 (a : Args) : FVec Ideal S64x1x1 .f32 :=
  (Host.divf (broadcastInDim S64x1x1 ![0] bcast_S64_S64x1x1_0 (r_call2_v9 a)) (broadcastInDim S64x1x1 ![] bcast_S_S64x1x1 (r_call2_v8 a)))

/-- The variance of layer 2's output per graph. -/
def r_v116 (a : Args) : FVec Ideal S64x1x1 .f32 :=
  (select (broadcastInDim S64x1x1 ![] bcast_S_S64x1x1 (cmpf .ogt (r_call2_v8 a) (constant (F := Ideal) S_ .f32 0x00000000#32))) (r_call2_v12 a) (broadcastInDim S64x1x1 ![] bcast_S_S64x1x1 (id (constant (F := Ideal) S_ .f32 0x7FC00000#32))))

/-- Layer 2 normalized. -/
def r_v123 (a : Args) : FVec Ideal S64x512x64 .f32 :=
  (Host.divf (subf (r_v111 a) (broadcastInDim S64x512x64 ![0, 1, 2] bcast_S64x1x1_S64x512x64_0_1_2 (r_v115 a))) (broadcastInDim S64x512x64 ![0, 1, 2] bcast_S64x1x1_S64x512x64_0_1_2 (Host.sqrt (addf (r_v116 a) (broadcastInDim S64x1x1 ![] bcast_S_S64x1x1 (constant (F := Ideal) S_ .f32 0x3727C5AC#32))))))

/-- Normalized, scaled by g2 and shifted by bt2. -/
def r_v129 (a : Args) : FVec Ideal S64x512x64 .f32 :=
  (addf (mulf (r_v123 a) (broadcastInDim S64x512x64 ![0, 1, 2] bcast_S1x512x64_S64x512x64_0_1_2 (broadcastInDim S1x512x64 ![1, 2] bcast_S512x64_S1x512x64_1_2 a.a10))) (broadcastInDim S64x512x64 ![0, 1, 2] bcast_S1x512x64_S64x512x64_0_1_2 (broadcastInDim S1x512x64 ![1, 2] bcast_S512x64_S1x512x64_1_2 a.a11)))

/-- Layernorm 2 then max(., 0): the activation H2. -/
def r_v130 (a : Args) : FVec Ideal S64x512x64 .f32 :=
  (maximumf (r_v129 a) (broadcastInDim S64x512x64 ![] bcast_S_S64x512x64 (constant (F := Ideal) S_ .f32 0x00000000#32)))

/-- Mean pooling of H2. -/
def r_v134 (a : Args) : FVec Ideal S64x1x64 .f32 :=
  (Host.divf (broadcastInDim S64x1x64 ![0, 2] bcast_S64x64_S64x1x64_0_2 (Host.reduceAdd (r_v130 a) (constant (F := Ideal) S_ .f32 0x00000000#32) reducesTo_S64x512x64_S64x64_d1 h_S_)) (broadcastInDim S64x1x64 ![] bcast_S_S64x1x64 (constant (F := Ideal) S_ .f32 0x44000000#32)))

/-- Max pooling of H2. -/
def r_v136 (a : Args) : FVec Ideal S64x1x64 .f32 :=
  (broadcastInDim S64x1x64 ![0, 2] bcast_S64x64_S64x1x64_0_2 (Host.reduce FloatOps.maximumf (r_v130 a) (constant (F := Ideal) S_ .f32 0xFF800000#32) reducesTo_S64x512x64_S64x64_d1 h_S_))

/-- The pooled features of both layers side by side (64 x 1 x 256). -/
def r_v137 (a : Args) : FVec Ideal S64x1x256 .f32 :=
  (concatenate S64x1x256 2 [⟨S64x1x128, r_v68 a⟩, ⟨S64x1x64, r_v134 a⟩, ⟨S64x1x64, r_v136 a⟩] concatenates_S64x1x128_S64x1x64_S64x1x64_S64x1x256_d2)

/-- A . H2: T1 of layer 3 (T0 = H2). -/
def r_v138 (a : Args) : FVec Ideal S64x512x64 .f32 :=
  (Host.dotGeneral dot_S64x512x512_S64x512x64_S64x512x64_2_1_1_2_0_0 none a.a0 (r_v130 a))

/-- T2 of layer 3. -/
def r_v149 (a : Args) : FVec Ideal S64x512x64 .f32 :=
  (subf (mulf (broadcastInDim S64x512x64 ![] bcast_S_S64x512x64 (constant (F := Ideal) S_ .f32 0x40000000#32)) (Host.dotGeneral dot_S64x512x512_S64x512x64_S64x512x64_2_1_1_2_0_0 none a.a0 (r_v138 a))) (r_v130 a))

/-- Layer 3's sum through k = 2. -/
def r_v153 (a : Args) : FVec Ideal S64x512x64 .f32 :=
  (addf (addf (Host.dotGeneral dot_S64x512x64_S64x64_S64x512x64_2_0_01_1_n_n none (r_v130 a) (shapeCast S64x64 (extractStridedSlice S1x64x64 ![0, 0, 0] a.a6 slices_S6x64x64_S1x64x64_0_0_0) shapeCasts_S1x64x64_S64x64)) (Host.dotGeneral dot_S64x512x64_S64x64_S64x512x64_2_0_01_1_n_n none (r_v138 a) (shapeCast S64x64 (extractStridedSlice S1x64x64 ![1, 0, 0] a.a6 slices_S6x64x64_S1x64x64_1_0_0) shapeCasts_S1x64x64_S64x64))) (Host.dotGeneral dot_S64x512x64_S64x64_S64x512x64_2_0_01_1_n_n none (r_v149 a) (shapeCast S64x64 (extractStridedSlice S1x64x64 ![2, 0, 0] a.a6 slices_S6x64x64_S1x64x64_2_0_0) shapeCasts_S1x64x64_S64x64)))

/-- A . T2 of layer 3. -/
def r_v154 (a : Args) : FVec Ideal S64x512x64 .f32 :=
  (Host.dotGeneral dot_S64x512x512_S64x512x64_S64x512x64_2_1_1_2_0_0 none a.a0 (r_v149 a))

/-- The constant 2 at 64 x 512 x 64. -/
def r_v155 (a : Args) : FVec Ideal S64x512x64 .f32 :=
  (broadcastInDim S64x512x64 ![] bcast_S_S64x512x64 (constant (F := Ideal) S_ .f32 0x40000000#32))

/-- T3 of layer 3. -/
def r_v157 (a : Args) : FVec Ideal S64x512x64 .f32 :=
  (subf (mulf (r_v155 a) (r_v154 a)) (r_v138 a))

/-- T4 of layer 3. -/
def r_v165 (a : Args) : FVec Ideal S64x512x64 .f32 :=
  (subf (mulf (broadcastInDim S64x512x64 ![] bcast_S_S64x512x64 (constant (F := Ideal) S_ .f32 0x40000000#32)) (Host.dotGeneral dot_S64x512x512_S64x512x64_S64x512x64_2_1_1_2_0_0 none a.a0 (r_v157 a))) (r_v149 a))

/-- T5 of layer 3. -/
def r_v173 (a : Args) : FVec Ideal S64x512x64 .f32 :=
  (subf (mulf (broadcastInDim S64x512x64 ![] bcast_S_S64x512x64 (constant (F := Ideal) S_ .f32 0x40000000#32)) (Host.dotGeneral dot_S64x512x512_S64x512x64_S64x512x64_2_1_1_2_0_0 none a.a0 (r_v165 a))) (r_v157 a))

/-- Layer 3 before its bias. -/
def r_v177 (a : Args) : FVec Ideal S64x512x64 .f32 :=
  (addf (addf (addf (r_v153 a) (Host.dotGeneral dot_S64x512x64_S64x64_S64x512x64_2_0_01_1_n_n none (r_v157 a) (shapeCast S64x64 (extractStridedSlice S1x64x64 ![3, 0, 0] a.a6 slices_S6x64x64_S1x64x64_3_0_0) shapeCasts_S1x64x64_S64x64))) (Host.dotGeneral dot_S64x512x64_S64x64_S64x512x64_2_0_01_1_n_n none (r_v165 a) (shapeCast S64x64 (extractStridedSlice S1x64x64 ![4, 0, 0] a.a6 slices_S6x64x64_S1x64x64_4_0_0) shapeCasts_S1x64x64_S64x64))) (Host.dotGeneral dot_S64x512x64_S64x64_S64x512x64_2_0_01_1_n_n none (r_v173 a) (shapeCast S64x64 (extractStridedSlice S1x64x64 ![5, 0, 0] a.a6 slices_S6x64x64_S1x64x64_5_0_0) shapeCasts_S1x64x64_S64x64)))

/-- Layer 3: sum_k T_k . W3[k] + b3, the embedding E. -/
def r_v180 (a : Args) : FVec Ideal S64x512x64 .f32 :=
  (addf (r_v177 a) (broadcastInDim S64x512x64 ![0, 1, 2] bcast_S1x1x64_S64x512x64_0_1_2 (broadcastInDim S1x1x64 ![2] bcast_S64_S1x1x64_2 a.a7)))

/-- E . E^T per graph. -/
def r_v181 (a : Args) : FVec Ideal S64x512x512 .f32 :=
  (Host.dotGeneral dot_S64x512x64_S64x512x64_S64x512x512_2_2_1_1_0_0 none (r_v180 a) (r_v180 a))

/-- max(E . E^T, 0). -/
def r_v182 (a : Args) : FVec Ideal S64x512x512 .f32 :=
  (maximumf (r_v181 a) (broadcastInDim S64x512x512 ![] bcast_S_S64x512x512 (constant (F := Ideal) S_ .f32 0x00000000#32)))

/-- 1 minus the 512 x 512 identity. -/
def r_v190 (a : Args) : FVec Ideal S512x512 .f32 :=
  (subf (broadcastInDim S512x512 ![] bcast_S_S512x512 (constant (F := Ideal) S_ .f32 0x3F800000#32)) (uitofp .f32 (cmpi .eq (addi (iotaInDim S512x512 32 0) (broadcastInDim S512x512 ![] bcast_S_S512x512 (constantI S_ 32 0#32))) (iotaInDim S512x512 32 1))))

/-- The off-diagonal mask at 64 x 512 x 512. -/
def r_v192 (a : Args) : FVec Ideal S64x512x512 .f32 :=
  (broadcastInDim S64x512x512 ![0, 1, 2] bcast_S1x512x512_S64x512x512_0_1_2 (broadcastInDim S1x512x512 ![1, 2] bcast_S512x512_S1x512x512_1_2 (r_v190 a)))

/-- max(E . E^T, 0) off the diagonal. -/
def r_v193 (a : Args) : FVec Ideal S64x512x512 .f32 :=
  (mulf (r_v182 a) (r_v192 a))

/-- Half of the masked product plus its transpose: the reconstructed adjacency. -/
def r_v197 (a : Args) : FVec Ideal S64x512x512 .f32 :=
  (mulf (broadcastInDim S64x512x512 ![] bcast_S_S64x512x512 (constant (F := Ideal) S_ .f32 0x3F000000#32)) (addf (r_v193 a) (transpose S64x512x512 [0, 2, 1] (r_v193 a) transposes_S64x512x512_S64x512x512_0_2_1)))

/-- The pooled features as a 64 x 256 matrix: Z. -/
def r_v198 (a : Args) : FVec Ideal S64x256 .f32 :=
  (shapeCast S64x256 (r_v137 a) shapeCasts_S64x1x256_S64x256)

/-- The class head's second product. -/
def r_v208 (a : Args) : FVec Ideal S64x64 .f32 :=
  (Cert.Heads.mm64 (Cert.Heads.hidden1 (r_v198 a) a.a12 a.a13) a.a14)

/-- The class head's output. -/
def r_v226 (a : Args) : FVec Ideal S64x4 .f32 :=
  (Cert.Heads.headCls (r_v198 a) a.a12 a.a13 a.a14 a.a15 a.a16 a.a17)

/-- The scan head's output. -/
def r_v249 (a : Args) : FVec Ideal S64x2 .f32 :=
  (Cert.Heads.headScan (r_v198 a) a.a18 a.a19 a.a20 a.a21 a.a22 a.a23)

/-- The pooled feature matrix Z (64 x 256) the two heads read. -/
def refZ (a : Args) : FVec Ideal S64x256 .f32 := r_v198 a

/-- The reconstructed adjacency (64 x 512 x 512), the reference's first result. -/
def refAE (a : Args) : FVec Ideal S64x512x512 .f32 := r_v197 a

end Cert.ReferenceIdeal.RefRun

end
-- ==== Proof.RefRunA.lean ====
/- The reference's run read stretch by stretch from any contents of the device's buffers: after each stretch,
   every buffer still needed holds its stage's value as a function of the argument arrays. -/
import proofs.«115478_j10110353015360_2_alg».proof.Proof.RefRunOps
import proofs.«115478_j10110353015360_2_alg».proof.Proof.RefRunDefs

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The argument arrays read off any contents of the device's buffers. -/
def argsV (V : Valuation τ sig (Elt Ideal)) : Args where
  a0 := V (Proc.devRef .tc main_arg0)
  a1 := V (Proc.devRef .tc main_arg1)
  a2 := V (Proc.devRef .tc main_arg2)
  a3 := V (Proc.devRef .tc main_arg3)
  a4 := V (Proc.devRef .tc main_arg4)
  a5 := V (Proc.devRef .tc main_arg5)
  a6 := V (Proc.devRef .tc main_arg6)
  a7 := V (Proc.devRef .tc main_arg7)
  a8 := V (Proc.devRef .tc main_arg8)
  a9 := V (Proc.devRef .tc main_arg9)
  a10 := V (Proc.devRef .tc main_arg10)
  a11 := V (Proc.devRef .tc main_arg11)
  a12 := V (Proc.devRef .tc main_arg12)
  a13 := V (Proc.devRef .tc main_arg13)
  a14 := V (Proc.devRef .tc main_arg14)
  a15 := V (Proc.devRef .tc main_arg15)
  a16 := V (Proc.devRef .tc main_arg16)
  a17 := V (Proc.devRef .tc main_arg17)
  a18 := V (Proc.devRef .tc main_arg18)
  a19 := V (Proc.devRef .tc main_arg19)
  a20 := V (Proc.devRef .tc main_arg20)
  a21 := V (Proc.devRef .tc main_arg21)
  a22 := V (Proc.devRef .tc main_arg22)
  a23 := V (Proc.devRef .tc main_arg23)

/-- The device's buffer contents before the first stretch. -/
def val0 (V0 : Valuation τ sig (Elt Ideal)) : Valuation τ sig (Elt Ideal) := V0
theorem val0_main_arg0 (V0 : Valuation τ sig (Elt Ideal)) : val0 V0 (no_index (Proc.devRef .tc main_arg0)) = (argsV V0).a0 := rfl
theorem val0_main_arg1 (V0 : Valuation τ sig (Elt Ideal)) : val0 V0 (no_index (Proc.devRef .tc main_arg1)) = (argsV V0).a1 := rfl
theorem val0_main_arg2 (V0 : Valuation τ sig (Elt Ideal)) : val0 V0 (no_index (Proc.devRef .tc main_arg2)) = (argsV V0).a2 := rfl
theorem val0_main_arg3 (V0 : Valuation τ sig (Elt Ideal)) : val0 V0 (no_index (Proc.devRef .tc main_arg3)) = (argsV V0).a3 := rfl
theorem val0_main_arg4 (V0 : Valuation τ sig (Elt Ideal)) : val0 V0 (no_index (Proc.devRef .tc main_arg4)) = (argsV V0).a4 := rfl
theorem val0_main_arg5 (V0 : Valuation τ sig (Elt Ideal)) : val0 V0 (no_index (Proc.devRef .tc main_arg5)) = (argsV V0).a5 := rfl
theorem val0_main_arg6 (V0 : Valuation τ sig (Elt Ideal)) : val0 V0 (no_index (Proc.devRef .tc main_arg6)) = (argsV V0).a6 := rfl
theorem val0_main_arg7 (V0 : Valuation τ sig (Elt Ideal)) : val0 V0 (no_index (Proc.devRef .tc main_arg7)) = (argsV V0).a7 := rfl
theorem val0_main_arg8 (V0 : Valuation τ sig (Elt Ideal)) : val0 V0 (no_index (Proc.devRef .tc main_arg8)) = (argsV V0).a8 := rfl
theorem val0_main_arg9 (V0 : Valuation τ sig (Elt Ideal)) : val0 V0 (no_index (Proc.devRef .tc main_arg9)) = (argsV V0).a9 := rfl
theorem val0_main_arg10 (V0 : Valuation τ sig (Elt Ideal)) : val0 V0 (no_index (Proc.devRef .tc main_arg10)) = (argsV V0).a10 := rfl
theorem val0_main_arg11 (V0 : Valuation τ sig (Elt Ideal)) : val0 V0 (no_index (Proc.devRef .tc main_arg11)) = (argsV V0).a11 := rfl
theorem val0_main_arg12 (V0 : Valuation τ sig (Elt Ideal)) : val0 V0 (no_index (Proc.devRef .tc main_arg12)) = (argsV V0).a12 := rfl
theorem val0_main_arg13 (V0 : Valuation τ sig (Elt Ideal)) : val0 V0 (no_index (Proc.devRef .tc main_arg13)) = (argsV V0).a13 := rfl
theorem val0_main_arg14 (V0 : Valuation τ sig (Elt Ideal)) : val0 V0 (no_index (Proc.devRef .tc main_arg14)) = (argsV V0).a14 := rfl
theorem val0_main_arg15 (V0 : Valuation τ sig (Elt Ideal)) : val0 V0 (no_index (Proc.devRef .tc main_arg15)) = (argsV V0).a15 := rfl
theorem val0_main_arg16 (V0 : Valuation τ sig (Elt Ideal)) : val0 V0 (no_index (Proc.devRef .tc main_arg16)) = (argsV V0).a16 := rfl
theorem val0_main_arg17 (V0 : Valuation τ sig (Elt Ideal)) : val0 V0 (no_index (Proc.devRef .tc main_arg17)) = (argsV V0).a17 := rfl
theorem val0_main_arg18 (V0 : Valuation τ sig (Elt Ideal)) : val0 V0 (no_index (Proc.devRef .tc main_arg18)) = (argsV V0).a18 := rfl
theorem val0_main_arg19 (V0 : Valuation τ sig (Elt Ideal)) : val0 V0 (no_index (Proc.devRef .tc main_arg19)) = (argsV V0).a19 := rfl
theorem val0_main_arg20 (V0 : Valuation τ sig (Elt Ideal)) : val0 V0 (no_index (Proc.devRef .tc main_arg20)) = (argsV V0).a20 := rfl
theorem val0_main_arg21 (V0 : Valuation τ sig (Elt Ideal)) : val0 V0 (no_index (Proc.devRef .tc main_arg21)) = (argsV V0).a21 := rfl
theorem val0_main_arg22 (V0 : Valuation τ sig (Elt Ideal)) : val0 V0 (no_index (Proc.devRef .tc main_arg22)) = (argsV V0).a22 := rfl
theorem val0_main_arg23 (V0 : Valuation τ sig (Elt Ideal)) : val0 V0 (no_index (Proc.devRef .tc main_arg23)) = (argsV V0).a23 := rfl

/-- The device's buffer contents after the first 1 stretch. -/
def val1 (V0 : Valuation τ sig (Elt Ideal)) : Valuation τ sig (Elt Ideal) := after (w0 (F := Ideal)) (val0 V0)
/-- A buffer that stretch 0 does not write keeps its contents through it. -/
theorem val1_keep (V0 : Valuation τ sig (Elt Ideal)) (r : Ref sig .tc) (h : r ∉ w0_W) :
    val1 V0 (Proc.devRef .tc r) = val0 V0 (Proc.devRef .tc r) :=
  after_of_writes_sub (w0 (F := Ideal)) _ w0_writes h
theorem val1_main_arg0 (V0 : Valuation τ sig (Elt Ideal)) : val1 V0 (no_index (Proc.devRef .tc main_arg0)) = (argsV V0).a0 :=
  (val1_keep V0 main_arg0 (by decide)).trans (val0_main_arg0 V0)
theorem val1_main_arg1 (V0 : Valuation τ sig (Elt Ideal)) : val1 V0 (no_index (Proc.devRef .tc main_arg1)) = (argsV V0).a1 :=
  (val1_keep V0 main_arg1 (by decide)).trans (val0_main_arg1 V0)
theorem val1_main_arg2 (V0 : Valuation τ sig (Elt Ideal)) : val1 V0 (no_index (Proc.devRef .tc main_arg2)) = (argsV V0).a2 :=
  (val1_keep V0 main_arg2 (by decide)).trans (val0_main_arg2 V0)
theorem val1_main_arg3 (V0 : Valuation τ sig (Elt Ideal)) : val1 V0 (no_index (Proc.devRef .tc main_arg3)) = (argsV V0).a3 :=
  (val1_keep V0 main_arg3 (by decide)).trans (val0_main_arg3 V0)
theorem val1_main_arg4 (V0 : Valuation τ sig (Elt Ideal)) : val1 V0 (no_index (Proc.devRef .tc main_arg4)) = (argsV V0).a4 :=
  (val1_keep V0 main_arg4 (by decide)).trans (val0_main_arg4 V0)
theorem val1_main_arg5 (V0 : Valuation τ sig (Elt Ideal)) : val1 V0 (no_index (Proc.devRef .tc main_arg5)) = (argsV V0).a5 :=
  (val1_keep V0 main_arg5 (by decide)).trans (val0_main_arg5 V0)
theorem val1_main_arg6 (V0 : Valuation τ sig (Elt Ideal)) : val1 V0 (no_index (Proc.devRef .tc main_arg6)) = (argsV V0).a6 :=
  (val1_keep V0 main_arg6 (by decide)).trans (val0_main_arg6 V0)
theorem val1_main_arg7 (V0 : Valuation τ sig (Elt Ideal)) : val1 V0 (no_index (Proc.devRef .tc main_arg7)) = (argsV V0).a7 :=
  (val1_keep V0 main_arg7 (by decide)).trans (val0_main_arg7 V0)
theorem val1_main_arg8 (V0 : Valuation τ sig (Elt Ideal)) : val1 V0 (no_index (Proc.devRef .tc main_arg8)) = (argsV V0).a8 :=
  (val1_keep V0 main_arg8 (by decide)).trans (val0_main_arg8 V0)
theorem val1_main_arg9 (V0 : Valuation τ sig (Elt Ideal)) : val1 V0 (no_index (Proc.devRef .tc main_arg9)) = (argsV V0).a9 :=
  (val1_keep V0 main_arg9 (by decide)).trans (val0_main_arg9 V0)
theorem val1_main_arg10 (V0 : Valuation τ sig (Elt Ideal)) : val1 V0 (no_index (Proc.devRef .tc main_arg10)) = (argsV V0).a10 :=
  (val1_keep V0 main_arg10 (by decide)).trans (val0_main_arg10 V0)
theorem val1_main_arg11 (V0 : Valuation τ sig (Elt Ideal)) : val1 V0 (no_index (Proc.devRef .tc main_arg11)) = (argsV V0).a11 :=
  (val1_keep V0 main_arg11 (by decide)).trans (val0_main_arg11 V0)
theorem val1_main_arg12 (V0 : Valuation τ sig (Elt Ideal)) : val1 V0 (no_index (Proc.devRef .tc main_arg12)) = (argsV V0).a12 :=
  (val1_keep V0 main_arg12 (by decide)).trans (val0_main_arg12 V0)
theorem val1_main_arg13 (V0 : Valuation τ sig (Elt Ideal)) : val1 V0 (no_index (Proc.devRef .tc main_arg13)) = (argsV V0).a13 :=
  (val1_keep V0 main_arg13 (by decide)).trans (val0_main_arg13 V0)
theorem val1_main_arg14 (V0 : Valuation τ sig (Elt Ideal)) : val1 V0 (no_index (Proc.devRef .tc main_arg14)) = (argsV V0).a14 :=
  (val1_keep V0 main_arg14 (by decide)).trans (val0_main_arg14 V0)
theorem val1_main_arg15 (V0 : Valuation τ sig (Elt Ideal)) : val1 V0 (no_index (Proc.devRef .tc main_arg15)) = (argsV V0).a15 :=
  (val1_keep V0 main_arg15 (by decide)).trans (val0_main_arg15 V0)
theorem val1_main_arg16 (V0 : Valuation τ sig (Elt Ideal)) : val1 V0 (no_index (Proc.devRef .tc main_arg16)) = (argsV V0).a16 :=
  (val1_keep V0 main_arg16 (by decide)).trans (val0_main_arg16 V0)
theorem val1_main_arg17 (V0 : Valuation τ sig (Elt Ideal)) : val1 V0 (no_index (Proc.devRef .tc main_arg17)) = (argsV V0).a17 :=
  (val1_keep V0 main_arg17 (by decide)).trans (val0_main_arg17 V0)
theorem val1_main_arg18 (V0 : Valuation τ sig (Elt Ideal)) : val1 V0 (no_index (Proc.devRef .tc main_arg18)) = (argsV V0).a18 :=
  (val1_keep V0 main_arg18 (by decide)).trans (val0_main_arg18 V0)
theorem val1_main_arg19 (V0 : Valuation τ sig (Elt Ideal)) : val1 V0 (no_index (Proc.devRef .tc main_arg19)) = (argsV V0).a19 :=
  (val1_keep V0 main_arg19 (by decide)).trans (val0_main_arg19 V0)
theorem val1_main_arg20 (V0 : Valuation τ sig (Elt Ideal)) : val1 V0 (no_index (Proc.devRef .tc main_arg20)) = (argsV V0).a20 :=
  (val1_keep V0 main_arg20 (by decide)).trans (val0_main_arg20 V0)
theorem val1_main_arg21 (V0 : Valuation τ sig (Elt Ideal)) : val1 V0 (no_index (Proc.devRef .tc main_arg21)) = (argsV V0).a21 :=
  (val1_keep V0 main_arg21 (by decide)).trans (val0_main_arg21 V0)
theorem val1_main_arg22 (V0 : Valuation τ sig (Elt Ideal)) : val1 V0 (no_index (Proc.devRef .tc main_arg22)) = (argsV V0).a22 :=
  (val1_keep V0 main_arg22 (by decide)).trans (val0_main_arg22 V0)
theorem val1_main_arg23 (V0 : Valuation τ sig (Elt Ideal)) : val1 V0 (no_index (Proc.devRef .tc main_arg23)) = (argsV V0).a23 :=
  (val1_keep V0 main_arg23 (by decide)).trans (val0_main_arg23 V0)
set_option maxRecDepth 8192 in
set_option maxHeartbeats 4000000 in
theorem val1_main_v42 (V0 : Valuation τ sig (Elt Ideal)) : val1 V0 (no_index (Proc.devRef .tc main_v42)) = r_v42 (argsV V0) := by
  unfold val1
  simp only [w0]
  after_results_simp
  simp only [val0_main_arg3, val0_main_arg2, val0_main_arg1, val0_main_arg0] <;> rfl

/-- The device's buffer contents after the first 2 stretches. -/
def val2 (V0 : Valuation τ sig (Elt Ideal)) : Valuation τ sig (Elt Ideal) := after (w1 (F := Ideal)) (val1 V0)
/-- A buffer that stretch 1 does not write keeps its contents through it. -/
theorem val2_keep (V0 : Valuation τ sig (Elt Ideal)) (r : Ref sig .tc) (h : r ∉ w1_W) :
    val2 V0 (Proc.devRef .tc r) = val1 V0 (Proc.devRef .tc r) :=
  after_of_writes_sub (w1 (F := Ideal)) _ w1_writes h
theorem val2_main_arg0 (V0 : Valuation τ sig (Elt Ideal)) : val2 V0 (no_index (Proc.devRef .tc main_arg0)) = (argsV V0).a0 :=
  (val2_keep V0 main_arg0 (by decide)).trans (val1_main_arg0 V0)
theorem val2_main_arg1 (V0 : Valuation τ sig (Elt Ideal)) : val2 V0 (no_index (Proc.devRef .tc main_arg1)) = (argsV V0).a1 :=
  (val2_keep V0 main_arg1 (by decide)).trans (val1_main_arg1 V0)
theorem val2_main_arg2 (V0 : Valuation τ sig (Elt Ideal)) : val2 V0 (no_index (Proc.devRef .tc main_arg2)) = (argsV V0).a2 :=
  (val2_keep V0 main_arg2 (by decide)).trans (val1_main_arg2 V0)
theorem val2_main_arg3 (V0 : Valuation τ sig (Elt Ideal)) : val2 V0 (no_index (Proc.devRef .tc main_arg3)) = (argsV V0).a3 :=
  (val2_keep V0 main_arg3 (by decide)).trans (val1_main_arg3 V0)
theorem val2_main_arg4 (V0 : Valuation τ sig (Elt Ideal)) : val2 V0 (no_index (Proc.devRef .tc main_arg4)) = (argsV V0).a4 :=
  (val2_keep V0 main_arg4 (by decide)).trans (val1_main_arg4 V0)
theorem val2_main_arg5 (V0 : Valuation τ sig (Elt Ideal)) : val2 V0 (no_index (Proc.devRef .tc main_arg5)) = (argsV V0).a5 :=
  (val2_keep V0 main_arg5 (by decide)).trans (val1_main_arg5 V0)
theorem val2_main_arg6 (V0 : Valuation τ sig (Elt Ideal)) : val2 V0 (no_index (Proc.devRef .tc main_arg6)) = (argsV V0).a6 :=
  (val2_keep V0 main_arg6 (by decide)).trans (val1_main_arg6 V0)
theorem val2_main_arg7 (V0 : Valuation τ sig (Elt Ideal)) : val2 V0 (no_index (Proc.devRef .tc main_arg7)) = (argsV V0).a7 :=
  (val2_keep V0 main_arg7 (by decide)).trans (val1_main_arg7 V0)
theorem val2_main_arg8 (V0 : Valuation τ sig (Elt Ideal)) : val2 V0 (no_index (Proc.devRef .tc main_arg8)) = (argsV V0).a8 :=
  (val2_keep V0 main_arg8 (by decide)).trans (val1_main_arg8 V0)
theorem val2_main_arg9 (V0 : Valuation τ sig (Elt Ideal)) : val2 V0 (no_index (Proc.devRef .tc main_arg9)) = (argsV V0).a9 :=
  (val2_keep V0 main_arg9 (by decide)).trans (val1_main_arg9 V0)
theorem val2_main_arg10 (V0 : Valuation τ sig (Elt Ideal)) : val2 V0 (no_index (Proc.devRef .tc main_arg10)) = (argsV V0).a10 :=
  (val2_keep V0 main_arg10 (by decide)).trans (val1_main_arg10 V0)
theorem val2_main_arg11 (V0 : Valuation τ sig (Elt Ideal)) : val2 V0 (no_index (Proc.devRef .tc main_arg11)) = (argsV V0).a11 :=
  (val2_keep V0 main_arg11 (by decide)).trans (val1_main_arg11 V0)
theorem val2_main_arg12 (V0 : Valuation τ sig (Elt Ideal)) : val2 V0 (no_index (Proc.devRef .tc main_arg12)) = (argsV V0).a12 :=
  (val2_keep V0 main_arg12 (by decide)).trans (val1_main_arg12 V0)
theorem val2_main_arg13 (V0 : Valuation τ sig (Elt Ideal)) : val2 V0 (no_index (Proc.devRef .tc main_arg13)) = (argsV V0).a13 :=
  (val2_keep V0 main_arg13 (by decide)).trans (val1_main_arg13 V0)
theorem val2_main_arg14 (V0 : Valuation τ sig (Elt Ideal)) : val2 V0 (no_index (Proc.devRef .tc main_arg14)) = (argsV V0).a14 :=
  (val2_keep V0 main_arg14 (by decide)).trans (val1_main_arg14 V0)
theorem val2_main_arg15 (V0 : Valuation τ sig (Elt Ideal)) : val2 V0 (no_index (Proc.devRef .tc main_arg15)) = (argsV V0).a15 :=
  (val2_keep V0 main_arg15 (by decide)).trans (val1_main_arg15 V0)
theorem val2_main_arg16 (V0 : Valuation τ sig (Elt Ideal)) : val2 V0 (no_index (Proc.devRef .tc main_arg16)) = (argsV V0).a16 :=
  (val2_keep V0 main_arg16 (by decide)).trans (val1_main_arg16 V0)
theorem val2_main_arg17 (V0 : Valuation τ sig (Elt Ideal)) : val2 V0 (no_index (Proc.devRef .tc main_arg17)) = (argsV V0).a17 :=
  (val2_keep V0 main_arg17 (by decide)).trans (val1_main_arg17 V0)
theorem val2_main_arg18 (V0 : Valuation τ sig (Elt Ideal)) : val2 V0 (no_index (Proc.devRef .tc main_arg18)) = (argsV V0).a18 :=
  (val2_keep V0 main_arg18 (by decide)).trans (val1_main_arg18 V0)
theorem val2_main_arg19 (V0 : Valuation τ sig (Elt Ideal)) : val2 V0 (no_index (Proc.devRef .tc main_arg19)) = (argsV V0).a19 :=
  (val2_keep V0 main_arg19 (by decide)).trans (val1_main_arg19 V0)
theorem val2_main_arg20 (V0 : Valuation τ sig (Elt Ideal)) : val2 V0 (no_index (Proc.devRef .tc main_arg20)) = (argsV V0).a20 :=
  (val2_keep V0 main_arg20 (by decide)).trans (val1_main_arg20 V0)
theorem val2_main_arg21 (V0 : Valuation τ sig (Elt Ideal)) : val2 V0 (no_index (Proc.devRef .tc main_arg21)) = (argsV V0).a21 :=
  (val2_keep V0 main_arg21 (by decide)).trans (val1_main_arg21 V0)
theorem val2_main_arg22 (V0 : Valuation τ sig (Elt Ideal)) : val2 V0 (no_index (Proc.devRef .tc main_arg22)) = (argsV V0).a22 :=
  (val2_keep V0 main_arg22 (by decide)).trans (val1_main_arg22 V0)
theorem val2_main_arg23 (V0 : Valuation τ sig (Elt Ideal)) : val2 V0 (no_index (Proc.devRef .tc main_arg23)) = (argsV V0).a23 :=
  (val2_keep V0 main_arg23 (by decide)).trans (val1_main_arg23 V0)
set_option maxRecDepth 8192 in
set_option maxHeartbeats 3500000 in
theorem val2_main_v49 (V0 : Valuation τ sig (Elt Ideal)) : val2 V0 (no_index (Proc.devRef .tc main_v49)) = r_v49 (argsV V0) := by
  unfold val2
  simp only [w1]
  after_results_simp
  simp only [val1_main_v42] <;> rfl
set_option maxRecDepth 8192 in
set_option maxHeartbeats 3500000 in
theorem val2_main_v51 (V0 : Valuation τ sig (Elt Ideal)) : val2 V0 (no_index (Proc.devRef .tc main_v51)) = r_v51 (argsV V0) := by
  unfold val2
  simp only [w1]
  after_results_simp
  simp only [val1_main_v42] <;> rfl

/-- The device's buffer contents after the first 3 stretches. -/
def val3 (V0 : Valuation τ sig (Elt Ideal)) : Valuation τ sig (Elt Ideal) := after (w2 (F := Ideal)) (val2 V0)
/-- A buffer that stretch 2 does not write keeps its contents through it. -/
theorem val3_keep (V0 : Valuation τ sig (Elt Ideal)) (r : Ref sig .tc) (h : r ∉ w2_W) :
    val3 V0 (Proc.devRef .tc r) = val2 V0 (Proc.devRef .tc r) :=
  after_of_writes_sub (w2 (F := Ideal)) _ w2_writes h
theorem val3_main_arg0 (V0 : Valuation τ sig (Elt Ideal)) : val3 V0 (no_index (Proc.devRef .tc main_arg0)) = (argsV V0).a0 :=
  (val3_keep V0 main_arg0 (by decide)).trans (val2_main_arg0 V0)
theorem val3_main_arg1 (V0 : Valuation τ sig (Elt Ideal)) : val3 V0 (no_index (Proc.devRef .tc main_arg1)) = (argsV V0).a1 :=
  (val3_keep V0 main_arg1 (by decide)).trans (val2_main_arg1 V0)
theorem val3_main_arg2 (V0 : Valuation τ sig (Elt Ideal)) : val3 V0 (no_index (Proc.devRef .tc main_arg2)) = (argsV V0).a2 :=
  (val3_keep V0 main_arg2 (by decide)).trans (val2_main_arg2 V0)
theorem val3_main_arg3 (V0 : Valuation τ sig (Elt Ideal)) : val3 V0 (no_index (Proc.devRef .tc main_arg3)) = (argsV V0).a3 :=
  (val3_keep V0 main_arg3 (by decide)).trans (val2_main_arg3 V0)
theorem val3_main_arg4 (V0 : Valuation τ sig (Elt Ideal)) : val3 V0 (no_index (Proc.devRef .tc main_arg4)) = (argsV V0).a4 :=
  (val3_keep V0 main_arg4 (by decide)).trans (val2_main_arg4 V0)
theorem val3_main_arg5 (V0 : Valuation τ sig (Elt Ideal)) : val3 V0 (no_index (Proc.devRef .tc main_arg5)) = (argsV V0).a5 :=
  (val3_keep V0 main_arg5 (by decide)).trans (val2_main_arg5 V0)
theorem val3_main_arg6 (V0 : Valuation τ sig (Elt Ideal)) : val3 V0 (no_index (Proc.devRef .tc main_arg6)) = (argsV V0).a6 :=
  (val3_keep V0 main_arg6 (by decide)).trans (val2_main_arg6 V0)
theorem val3_main_arg7 (V0 : Valuation τ sig (Elt Ideal)) : val3 V0 (no_index (Proc.devRef .tc main_arg7)) = (argsV V0).a7 :=
  (val3_keep V0 main_arg7 (by decide)).trans (val2_main_arg7 V0)
theorem val3_main_arg8 (V0 : Valuation τ sig (Elt Ideal)) : val3 V0 (no_index (Proc.devRef .tc main_arg8)) = (argsV V0).a8 :=
  (val3_keep V0 main_arg8 (by decide)).trans (val2_main_arg8 V0)
theorem val3_main_arg9 (V0 : Valuation τ sig (Elt Ideal)) : val3 V0 (no_index (Proc.devRef .tc main_arg9)) = (argsV V0).a9 :=
  (val3_keep V0 main_arg9 (by decide)).trans (val2_main_arg9 V0)
theorem val3_main_arg10 (V0 : Valuation τ sig (Elt Ideal)) : val3 V0 (no_index (Proc.devRef .tc main_arg10)) = (argsV V0).a10 :=
  (val3_keep V0 main_arg10 (by decide)).trans (val2_main_arg10 V0)
theorem val3_main_arg11 (V0 : Valuation τ sig (Elt Ideal)) : val3 V0 (no_index (Proc.devRef .tc main_arg11)) = (argsV V0).a11 :=
  (val3_keep V0 main_arg11 (by decide)).trans (val2_main_arg11 V0)
theorem val3_main_arg12 (V0 : Valuation τ sig (Elt Ideal)) : val3 V0 (no_index (Proc.devRef .tc main_arg12)) = (argsV V0).a12 :=
  (val3_keep V0 main_arg12 (by decide)).trans (val2_main_arg12 V0)
theorem val3_main_arg13 (V0 : Valuation τ sig (Elt Ideal)) : val3 V0 (no_index (Proc.devRef .tc main_arg13)) = (argsV V0).a13 :=
  (val3_keep V0 main_arg13 (by decide)).trans (val2_main_arg13 V0)
theorem val3_main_arg14 (V0 : Valuation τ sig (Elt Ideal)) : val3 V0 (no_index (Proc.devRef .tc main_arg14)) = (argsV V0).a14 :=
  (val3_keep V0 main_arg14 (by decide)).trans (val2_main_arg14 V0)
theorem val3_main_arg15 (V0 : Valuation τ sig (Elt Ideal)) : val3 V0 (no_index (Proc.devRef .tc main_arg15)) = (argsV V0).a15 :=
  (val3_keep V0 main_arg15 (by decide)).trans (val2_main_arg15 V0)
theorem val3_main_arg16 (V0 : Valuation τ sig (Elt Ideal)) : val3 V0 (no_index (Proc.devRef .tc main_arg16)) = (argsV V0).a16 :=
  (val3_keep V0 main_arg16 (by decide)).trans (val2_main_arg16 V0)
theorem val3_main_arg17 (V0 : Valuation τ sig (Elt Ideal)) : val3 V0 (no_index (Proc.devRef .tc main_arg17)) = (argsV V0).a17 :=
  (val3_keep V0 main_arg17 (by decide)).trans (val2_main_arg17 V0)
theorem val3_main_arg18 (V0 : Valuation τ sig (Elt Ideal)) : val3 V0 (no_index (Proc.devRef .tc main_arg18)) = (argsV V0).a18 :=
  (val3_keep V0 main_arg18 (by decide)).trans (val2_main_arg18 V0)
theorem val3_main_arg19 (V0 : Valuation τ sig (Elt Ideal)) : val3 V0 (no_index (Proc.devRef .tc main_arg19)) = (argsV V0).a19 :=
  (val3_keep V0 main_arg19 (by decide)).trans (val2_main_arg19 V0)
theorem val3_main_arg20 (V0 : Valuation τ sig (Elt Ideal)) : val3 V0 (no_index (Proc.devRef .tc main_arg20)) = (argsV V0).a20 :=
  (val3_keep V0 main_arg20 (by decide)).trans (val2_main_arg20 V0)
theorem val3_main_arg21 (V0 : Valuation τ sig (Elt Ideal)) : val3 V0 (no_index (Proc.devRef .tc main_arg21)) = (argsV V0).a21 :=
  (val3_keep V0 main_arg21 (by decide)).trans (val2_main_arg21 V0)
theorem val3_main_arg22 (V0 : Valuation τ sig (Elt Ideal)) : val3 V0 (no_index (Proc.devRef .tc main_arg22)) = (argsV V0).a22 :=
  (val3_keep V0 main_arg22 (by decide)).trans (val2_main_arg22 V0)
theorem val3_main_arg23 (V0 : Valuation τ sig (Elt Ideal)) : val3 V0 (no_index (Proc.devRef .tc main_arg23)) = (argsV V0).a23 :=
  (val3_keep V0 main_arg23 (by decide)).trans (val2_main_arg23 V0)
set_option maxRecDepth 8192 in
set_option maxHeartbeats 1200000 in
theorem val3_main_v61 (V0 : Valuation τ sig (Elt Ideal)) : val3 V0 (no_index (Proc.devRef .tc main_v61)) = r_v61 (argsV V0) := by
  unfold val3
  simp only [w2]
  after_results_simp
  simp only [val2_main_arg9, val2_main_arg8, val2_main_v51, val2_main_v49] <;> rfl

/-- The device's buffer contents after the first 4 stretches. -/
def val4 (V0 : Valuation τ sig (Elt Ideal)) : Valuation τ sig (Elt Ideal) := after (w3 (F := Ideal)) (val3 V0)
/-- A buffer that stretch 3 does not write keeps its contents through it. -/
theorem val4_keep (V0 : Valuation τ sig (Elt Ideal)) (r : Ref sig .tc) (h : r ∉ w3_W) :
    val4 V0 (Proc.devRef .tc r) = val3 V0 (Proc.devRef .tc r) :=
  after_of_writes_sub (w3 (F := Ideal)) _ w3_writes h
theorem val4_main_arg0 (V0 : Valuation τ sig (Elt Ideal)) : val4 V0 (no_index (Proc.devRef .tc main_arg0)) = (argsV V0).a0 :=
  (val4_keep V0 main_arg0 (by decide)).trans (val3_main_arg0 V0)
theorem val4_main_arg1 (V0 : Valuation τ sig (Elt Ideal)) : val4 V0 (no_index (Proc.devRef .tc main_arg1)) = (argsV V0).a1 :=
  (val4_keep V0 main_arg1 (by decide)).trans (val3_main_arg1 V0)
theorem val4_main_arg2 (V0 : Valuation τ sig (Elt Ideal)) : val4 V0 (no_index (Proc.devRef .tc main_arg2)) = (argsV V0).a2 :=
  (val4_keep V0 main_arg2 (by decide)).trans (val3_main_arg2 V0)
theorem val4_main_arg3 (V0 : Valuation τ sig (Elt Ideal)) : val4 V0 (no_index (Proc.devRef .tc main_arg3)) = (argsV V0).a3 :=
  (val4_keep V0 main_arg3 (by decide)).trans (val3_main_arg3 V0)
theorem val4_main_arg4 (V0 : Valuation τ sig (Elt Ideal)) : val4 V0 (no_index (Proc.devRef .tc main_arg4)) = (argsV V0).a4 :=
  (val4_keep V0 main_arg4 (by decide)).trans (val3_main_arg4 V0)
theorem val4_main_arg5 (V0 : Valuation τ sig (Elt Ideal)) : val4 V0 (no_index (Proc.devRef .tc main_arg5)) = (argsV V0).a5 :=
  (val4_keep V0 main_arg5 (by decide)).trans (val3_main_arg5 V0)
theorem val4_main_arg6 (V0 : Valuation τ sig (Elt Ideal)) : val4 V0 (no_index (Proc.devRef .tc main_arg6)) = (argsV V0).a6 :=
  (val4_keep V0 main_arg6 (by decide)).trans (val3_main_arg6 V0)
theorem val4_main_arg7 (V0 : Valuation τ sig (Elt Ideal)) : val4 V0 (no_index (Proc.devRef .tc main_arg7)) = (argsV V0).a7 :=
  (val4_keep V0 main_arg7 (by decide)).trans (val3_main_arg7 V0)
theorem val4_main_arg8 (V0 : Valuation τ sig (Elt Ideal)) : val4 V0 (no_index (Proc.devRef .tc main_arg8)) = (argsV V0).a8 :=
  (val4_keep V0 main_arg8 (by decide)).trans (val3_main_arg8 V0)
theorem val4_main_arg9 (V0 : Valuation τ sig (Elt Ideal)) : val4 V0 (no_index (Proc.devRef .tc main_arg9)) = (argsV V0).a9 :=
  (val4_keep V0 main_arg9 (by decide)).trans (val3_main_arg9 V0)
theorem val4_main_arg10 (V0 : Valuation τ sig (Elt Ideal)) : val4 V0 (no_index (Proc.devRef .tc main_arg10)) = (argsV V0).a10 :=
  (val4_keep V0 main_arg10 (by decide)).trans (val3_main_arg10 V0)
theorem val4_main_arg11 (V0 : Valuation τ sig (Elt Ideal)) : val4 V0 (no_index (Proc.devRef .tc main_arg11)) = (argsV V0).a11 :=
  (val4_keep V0 main_arg11 (by decide)).trans (val3_main_arg11 V0)
theorem val4_main_arg12 (V0 : Valuation τ sig (Elt Ideal)) : val4 V0 (no_index (Proc.devRef .tc main_arg12)) = (argsV V0).a12 :=
  (val4_keep V0 main_arg12 (by decide)).trans (val3_main_arg12 V0)
theorem val4_main_arg13 (V0 : Valuation τ sig (Elt Ideal)) : val4 V0 (no_index (Proc.devRef .tc main_arg13)) = (argsV V0).a13 :=
  (val4_keep V0 main_arg13 (by decide)).trans (val3_main_arg13 V0)
theorem val4_main_arg14 (V0 : Valuation τ sig (Elt Ideal)) : val4 V0 (no_index (Proc.devRef .tc main_arg14)) = (argsV V0).a14 :=
  (val4_keep V0 main_arg14 (by decide)).trans (val3_main_arg14 V0)
theorem val4_main_arg15 (V0 : Valuation τ sig (Elt Ideal)) : val4 V0 (no_index (Proc.devRef .tc main_arg15)) = (argsV V0).a15 :=
  (val4_keep V0 main_arg15 (by decide)).trans (val3_main_arg15 V0)
theorem val4_main_arg16 (V0 : Valuation τ sig (Elt Ideal)) : val4 V0 (no_index (Proc.devRef .tc main_arg16)) = (argsV V0).a16 :=
  (val4_keep V0 main_arg16 (by decide)).trans (val3_main_arg16 V0)
theorem val4_main_arg17 (V0 : Valuation τ sig (Elt Ideal)) : val4 V0 (no_index (Proc.devRef .tc main_arg17)) = (argsV V0).a17 :=
  (val4_keep V0 main_arg17 (by decide)).trans (val3_main_arg17 V0)
theorem val4_main_arg18 (V0 : Valuation τ sig (Elt Ideal)) : val4 V0 (no_index (Proc.devRef .tc main_arg18)) = (argsV V0).a18 :=
  (val4_keep V0 main_arg18 (by decide)).trans (val3_main_arg18 V0)
theorem val4_main_arg19 (V0 : Valuation τ sig (Elt Ideal)) : val4 V0 (no_index (Proc.devRef .tc main_arg19)) = (argsV V0).a19 :=
  (val4_keep V0 main_arg19 (by decide)).trans (val3_main_arg19 V0)
theorem val4_main_arg20 (V0 : Valuation τ sig (Elt Ideal)) : val4 V0 (no_index (Proc.devRef .tc main_arg20)) = (argsV V0).a20 :=
  (val4_keep V0 main_arg20 (by decide)).trans (val3_main_arg20 V0)
theorem val4_main_arg21 (V0 : Valuation τ sig (Elt Ideal)) : val4 V0 (no_index (Proc.devRef .tc main_arg21)) = (argsV V0).a21 :=
  (val4_keep V0 main_arg21 (by decide)).trans (val3_main_arg21 V0)
theorem val4_main_arg22 (V0 : Valuation τ sig (Elt Ideal)) : val4 V0 (no_index (Proc.devRef .tc main_arg22)) = (argsV V0).a22 :=
  (val4_keep V0 main_arg22 (by decide)).trans (val3_main_arg22 V0)
theorem val4_main_arg23 (V0 : Valuation τ sig (Elt Ideal)) : val4 V0 (no_index (Proc.devRef .tc main_arg23)) = (argsV V0).a23 :=
  (val4_keep V0 main_arg23 (by decide)).trans (val3_main_arg23 V0)
set_option maxRecDepth 8192 in
set_option maxHeartbeats 4000000 in
theorem val4_main_v68 (V0 : Valuation τ sig (Elt Ideal)) : val4 V0 (no_index (Proc.devRef .tc main_v68)) = r_v68 (argsV V0) := by
  unfold val4
  simp only [w3]
  after_results_simp
  simp only [val3_main_v61] <;> rfl
set_option maxRecDepth 8192 in
set_option maxHeartbeats 4000000 in
theorem val4_main_v100 (V0 : Valuation τ sig (Elt Ideal)) : val4 V0 (no_index (Proc.devRef .tc main_v100)) = r_v100 (argsV V0) := by
  unfold val4
  simp only [w3]
  after_results_simp
  simp only [val3_main_arg4, val3_main_v61, val3_main_arg0] <;> rfl
set_option maxRecDepth 8192 in
set_option maxHeartbeats 4000000 in
theorem val4_main_v104 (V0 : Valuation τ sig (Elt Ideal)) : val4 V0 (no_index (Proc.devRef .tc main_v104)) = r_v104 (argsV V0) := by
  unfold val4
  simp only [w3]
  after_results_simp
  simp only [val3_main_v61, val3_main_arg0] <;> rfl

end Cert.ReferenceIdeal.RefRun

end
-- ==== Proof.RefRunB.lean ====
/- The reference's run read stretch by stretch from any contents of the device's buffers: after each stretch,
   every buffer still needed holds its stage's value as a function of the argument arrays. -/
import proofs.«115478_j10110353015360_2_alg».proof.Proof.RefRunA

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The device's buffer contents after the first 5 stretches. -/
def val5 (V0 : Valuation τ sig (Elt Ideal)) : Valuation τ sig (Elt Ideal) := after (w4 (F := Ideal)) (val4 V0)
/-- A buffer that stretch 4 does not write keeps its contents through it. -/
theorem val5_keep (V0 : Valuation τ sig (Elt Ideal)) (r : Ref sig .tc) (h : r ∉ w4_W) :
    val5 V0 (Proc.devRef .tc r) = val4 V0 (Proc.devRef .tc r) :=
  after_of_writes_sub (w4 (F := Ideal)) _ w4_writes h
theorem val5_main_arg0 (V0 : Valuation τ sig (Elt Ideal)) : val5 V0 (no_index (Proc.devRef .tc main_arg0)) = (argsV V0).a0 :=
  (val5_keep V0 main_arg0 (by decide)).trans (val4_main_arg0 V0)
theorem val5_main_arg1 (V0 : Valuation τ sig (Elt Ideal)) : val5 V0 (no_index (Proc.devRef .tc main_arg1)) = (argsV V0).a1 :=
  (val5_keep V0 main_arg1 (by decide)).trans (val4_main_arg1 V0)
theorem val5_main_arg2 (V0 : Valuation τ sig (Elt Ideal)) : val5 V0 (no_index (Proc.devRef .tc main_arg2)) = (argsV V0).a2 :=
  (val5_keep V0 main_arg2 (by decide)).trans (val4_main_arg2 V0)
theorem val5_main_arg3 (V0 : Valuation τ sig (Elt Ideal)) : val5 V0 (no_index (Proc.devRef .tc main_arg3)) = (argsV V0).a3 :=
  (val5_keep V0 main_arg3 (by decide)).trans (val4_main_arg3 V0)
theorem val5_main_arg4 (V0 : Valuation τ sig (Elt Ideal)) : val5 V0 (no_index (Proc.devRef .tc main_arg4)) = (argsV V0).a4 :=
  (val5_keep V0 main_arg4 (by decide)).trans (val4_main_arg4 V0)
theorem val5_main_arg5 (V0 : Valuation τ sig (Elt Ideal)) : val5 V0 (no_index (Proc.devRef .tc main_arg5)) = (argsV V0).a5 :=
  (val5_keep V0 main_arg5 (by decide)).trans (val4_main_arg5 V0)
theorem val5_main_arg6 (V0 : Valuation τ sig (Elt Ideal)) : val5 V0 (no_index (Proc.devRef .tc main_arg6)) = (argsV V0).a6 :=
  (val5_keep V0 main_arg6 (by decide)).trans (val4_main_arg6 V0)
theorem val5_main_arg7 (V0 : Valuation τ sig (Elt Ideal)) : val5 V0 (no_index (Proc.devRef .tc main_arg7)) = (argsV V0).a7 :=
  (val5_keep V0 main_arg7 (by decide)).trans (val4_main_arg7 V0)
theorem val5_main_arg8 (V0 : Valuation τ sig (Elt Ideal)) : val5 V0 (no_index (Proc.devRef .tc main_arg8)) = (argsV V0).a8 :=
  (val5_keep V0 main_arg8 (by decide)).trans (val4_main_arg8 V0)
theorem val5_main_arg9 (V0 : Valuation τ sig (Elt Ideal)) : val5 V0 (no_index (Proc.devRef .tc main_arg9)) = (argsV V0).a9 :=
  (val5_keep V0 main_arg9 (by decide)).trans (val4_main_arg9 V0)
theorem val5_main_arg10 (V0 : Valuation τ sig (Elt Ideal)) : val5 V0 (no_index (Proc.devRef .tc main_arg10)) = (argsV V0).a10 :=
  (val5_keep V0 main_arg10 (by decide)).trans (val4_main_arg10 V0)
theorem val5_main_arg11 (V0 : Valuation τ sig (Elt Ideal)) : val5 V0 (no_index (Proc.devRef .tc main_arg11)) = (argsV V0).a11 :=
  (val5_keep V0 main_arg11 (by decide)).trans (val4_main_arg11 V0)
theorem val5_main_arg12 (V0 : Valuation τ sig (Elt Ideal)) : val5 V0 (no_index (Proc.devRef .tc main_arg12)) = (argsV V0).a12 :=
  (val5_keep V0 main_arg12 (by decide)).trans (val4_main_arg12 V0)
theorem val5_main_arg13 (V0 : Valuation τ sig (Elt Ideal)) : val5 V0 (no_index (Proc.devRef .tc main_arg13)) = (argsV V0).a13 :=
  (val5_keep V0 main_arg13 (by decide)).trans (val4_main_arg13 V0)
theorem val5_main_arg14 (V0 : Valuation τ sig (Elt Ideal)) : val5 V0 (no_index (Proc.devRef .tc main_arg14)) = (argsV V0).a14 :=
  (val5_keep V0 main_arg14 (by decide)).trans (val4_main_arg14 V0)
theorem val5_main_arg15 (V0 : Valuation τ sig (Elt Ideal)) : val5 V0 (no_index (Proc.devRef .tc main_arg15)) = (argsV V0).a15 :=
  (val5_keep V0 main_arg15 (by decide)).trans (val4_main_arg15 V0)
theorem val5_main_arg16 (V0 : Valuation τ sig (Elt Ideal)) : val5 V0 (no_index (Proc.devRef .tc main_arg16)) = (argsV V0).a16 :=
  (val5_keep V0 main_arg16 (by decide)).trans (val4_main_arg16 V0)
theorem val5_main_arg17 (V0 : Valuation τ sig (Elt Ideal)) : val5 V0 (no_index (Proc.devRef .tc main_arg17)) = (argsV V0).a17 :=
  (val5_keep V0 main_arg17 (by decide)).trans (val4_main_arg17 V0)
theorem val5_main_arg18 (V0 : Valuation τ sig (Elt Ideal)) : val5 V0 (no_index (Proc.devRef .tc main_arg18)) = (argsV V0).a18 :=
  (val5_keep V0 main_arg18 (by decide)).trans (val4_main_arg18 V0)
theorem val5_main_arg19 (V0 : Valuation τ sig (Elt Ideal)) : val5 V0 (no_index (Proc.devRef .tc main_arg19)) = (argsV V0).a19 :=
  (val5_keep V0 main_arg19 (by decide)).trans (val4_main_arg19 V0)
theorem val5_main_arg20 (V0 : Valuation τ sig (Elt Ideal)) : val5 V0 (no_index (Proc.devRef .tc main_arg20)) = (argsV V0).a20 :=
  (val5_keep V0 main_arg20 (by decide)).trans (val4_main_arg20 V0)
theorem val5_main_arg21 (V0 : Valuation τ sig (Elt Ideal)) : val5 V0 (no_index (Proc.devRef .tc main_arg21)) = (argsV V0).a21 :=
  (val5_keep V0 main_arg21 (by decide)).trans (val4_main_arg21 V0)
theorem val5_main_arg22 (V0 : Valuation τ sig (Elt Ideal)) : val5 V0 (no_index (Proc.devRef .tc main_arg22)) = (argsV V0).a22 :=
  (val5_keep V0 main_arg22 (by decide)).trans (val4_main_arg22 V0)
theorem val5_main_arg23 (V0 : Valuation τ sig (Elt Ideal)) : val5 V0 (no_index (Proc.devRef .tc main_arg23)) = (argsV V0).a23 :=
  (val5_keep V0 main_arg23 (by decide)).trans (val4_main_arg23 V0)
theorem val5_main_v68 (V0 : Valuation τ sig (Elt Ideal)) : val5 V0 (no_index (Proc.devRef .tc main_v68)) = r_v68 (argsV V0) :=
  (val5_keep V0 main_v68 (by decide)).trans (val4_main_v68 V0)
set_option maxRecDepth 8192 in
set_option maxHeartbeats 700000 in
theorem val5_main_v111 (V0 : Valuation τ sig (Elt Ideal)) : val5 V0 (no_index (Proc.devRef .tc main_v111)) = r_v111 (argsV V0) := by
  unfold val5
  simp only [w4]
  after_results_simp
  simp only [val4_main_arg5, val4_main_arg4, val4_main_v104, val4_main_v100] <;> rfl

/-- The device's buffer contents after the first 6 stretches. -/
def val6 (V0 : Valuation τ sig (Elt Ideal)) : Valuation τ sig (Elt Ideal) := after (w5 (F := Ideal)) (val5 V0)
/-- A buffer that stretch 5 does not write keeps its contents through it. -/
theorem val6_keep (V0 : Valuation τ sig (Elt Ideal)) (r : Ref sig .tc) (h : r ∉ w5_W) :
    val6 V0 (Proc.devRef .tc r) = val5 V0 (Proc.devRef .tc r) :=
  after_of_writes_sub (w5 (F := Ideal)) _ w5_writes h
theorem val6_main_arg0 (V0 : Valuation τ sig (Elt Ideal)) : val6 V0 (no_index (Proc.devRef .tc main_arg0)) = (argsV V0).a0 :=
  (val6_keep V0 main_arg0 (by decide)).trans (val5_main_arg0 V0)
theorem val6_main_arg1 (V0 : Valuation τ sig (Elt Ideal)) : val6 V0 (no_index (Proc.devRef .tc main_arg1)) = (argsV V0).a1 :=
  (val6_keep V0 main_arg1 (by decide)).trans (val5_main_arg1 V0)
theorem val6_main_arg2 (V0 : Valuation τ sig (Elt Ideal)) : val6 V0 (no_index (Proc.devRef .tc main_arg2)) = (argsV V0).a2 :=
  (val6_keep V0 main_arg2 (by decide)).trans (val5_main_arg2 V0)
theorem val6_main_arg3 (V0 : Valuation τ sig (Elt Ideal)) : val6 V0 (no_index (Proc.devRef .tc main_arg3)) = (argsV V0).a3 :=
  (val6_keep V0 main_arg3 (by decide)).trans (val5_main_arg3 V0)
theorem val6_main_arg4 (V0 : Valuation τ sig (Elt Ideal)) : val6 V0 (no_index (Proc.devRef .tc main_arg4)) = (argsV V0).a4 :=
  (val6_keep V0 main_arg4 (by decide)).trans (val5_main_arg4 V0)
theorem val6_main_arg5 (V0 : Valuation τ sig (Elt Ideal)) : val6 V0 (no_index (Proc.devRef .tc main_arg5)) = (argsV V0).a5 :=
  (val6_keep V0 main_arg5 (by decide)).trans (val5_main_arg5 V0)
theorem val6_main_arg6 (V0 : Valuation τ sig (Elt Ideal)) : val6 V0 (no_index (Proc.devRef .tc main_arg6)) = (argsV V0).a6 :=
  (val6_keep V0 main_arg6 (by decide)).trans (val5_main_arg6 V0)
theorem val6_main_arg7 (V0 : Valuation τ sig (Elt Ideal)) : val6 V0 (no_index (Proc.devRef .tc main_arg7)) = (argsV V0).a7 :=
  (val6_keep V0 main_arg7 (by decide)).trans (val5_main_arg7 V0)
theorem val6_main_arg8 (V0 : Valuation τ sig (Elt Ideal)) : val6 V0 (no_index (Proc.devRef .tc main_arg8)) = (argsV V0).a8 :=
  (val6_keep V0 main_arg8 (by decide)).trans (val5_main_arg8 V0)
theorem val6_main_arg9 (V0 : Valuation τ sig (Elt Ideal)) : val6 V0 (no_index (Proc.devRef .tc main_arg9)) = (argsV V0).a9 :=
  (val6_keep V0 main_arg9 (by decide)).trans (val5_main_arg9 V0)
theorem val6_main_arg10 (V0 : Valuation τ sig (Elt Ideal)) : val6 V0 (no_index (Proc.devRef .tc main_arg10)) = (argsV V0).a10 :=
  (val6_keep V0 main_arg10 (by decide)).trans (val5_main_arg10 V0)
theorem val6_main_arg11 (V0 : Valuation τ sig (Elt Ideal)) : val6 V0 (no_index (Proc.devRef .tc main_arg11)) = (argsV V0).a11 :=
  (val6_keep V0 main_arg11 (by decide)).trans (val5_main_arg11 V0)
theorem val6_main_arg12 (V0 : Valuation τ sig (Elt Ideal)) : val6 V0 (no_index (Proc.devRef .tc main_arg12)) = (argsV V0).a12 :=
  (val6_keep V0 main_arg12 (by decide)).trans (val5_main_arg12 V0)
theorem val6_main_arg13 (V0 : Valuation τ sig (Elt Ideal)) : val6 V0 (no_index (Proc.devRef .tc main_arg13)) = (argsV V0).a13 :=
  (val6_keep V0 main_arg13 (by decide)).trans (val5_main_arg13 V0)
theorem val6_main_arg14 (V0 : Valuation τ sig (Elt Ideal)) : val6 V0 (no_index (Proc.devRef .tc main_arg14)) = (argsV V0).a14 :=
  (val6_keep V0 main_arg14 (by decide)).trans (val5_main_arg14 V0)
theorem val6_main_arg15 (V0 : Valuation τ sig (Elt Ideal)) : val6 V0 (no_index (Proc.devRef .tc main_arg15)) = (argsV V0).a15 :=
  (val6_keep V0 main_arg15 (by decide)).trans (val5_main_arg15 V0)
theorem val6_main_arg16 (V0 : Valuation τ sig (Elt Ideal)) : val6 V0 (no_index (Proc.devRef .tc main_arg16)) = (argsV V0).a16 :=
  (val6_keep V0 main_arg16 (by decide)).trans (val5_main_arg16 V0)
theorem val6_main_arg17 (V0 : Valuation τ sig (Elt Ideal)) : val6 V0 (no_index (Proc.devRef .tc main_arg17)) = (argsV V0).a17 :=
  (val6_keep V0 main_arg17 (by decide)).trans (val5_main_arg17 V0)
theorem val6_main_arg18 (V0 : Valuation τ sig (Elt Ideal)) : val6 V0 (no_index (Proc.devRef .tc main_arg18)) = (argsV V0).a18 :=
  (val6_keep V0 main_arg18 (by decide)).trans (val5_main_arg18 V0)
theorem val6_main_arg19 (V0 : Valuation τ sig (Elt Ideal)) : val6 V0 (no_index (Proc.devRef .tc main_arg19)) = (argsV V0).a19 :=
  (val6_keep V0 main_arg19 (by decide)).trans (val5_main_arg19 V0)
theorem val6_main_arg20 (V0 : Valuation τ sig (Elt Ideal)) : val6 V0 (no_index (Proc.devRef .tc main_arg20)) = (argsV V0).a20 :=
  (val6_keep V0 main_arg20 (by decide)).trans (val5_main_arg20 V0)
theorem val6_main_arg21 (V0 : Valuation τ sig (Elt Ideal)) : val6 V0 (no_index (Proc.devRef .tc main_arg21)) = (argsV V0).a21 :=
  (val6_keep V0 main_arg21 (by decide)).trans (val5_main_arg21 V0)
theorem val6_main_arg22 (V0 : Valuation τ sig (Elt Ideal)) : val6 V0 (no_index (Proc.devRef .tc main_arg22)) = (argsV V0).a22 :=
  (val6_keep V0 main_arg22 (by decide)).trans (val5_main_arg22 V0)
theorem val6_main_arg23 (V0 : Valuation τ sig (Elt Ideal)) : val6 V0 (no_index (Proc.devRef .tc main_arg23)) = (argsV V0).a23 :=
  (val6_keep V0 main_arg23 (by decide)).trans (val5_main_arg23 V0)
theorem val6_main_v68 (V0 : Valuation τ sig (Elt Ideal)) : val6 V0 (no_index (Proc.devRef .tc main_v68)) = r_v68 (argsV V0) :=
  (val6_keep V0 main_v68 (by decide)).trans (val5_main_v68 V0)
set_option maxRecDepth 8192 in
set_option maxHeartbeats 4000000 in
theorem val6_main_v130 (V0 : Valuation τ sig (Elt Ideal)) : val6 V0 (no_index (Proc.devRef .tc main_v130)) = r_v130 (argsV V0) := by
  unfold val6
  simp only [w5]
  after_results_simp
  simp only [val5_main_arg11, val5_main_arg10, val5_main_v111] <;> rfl

/-- The device's buffer contents after the first 7 stretches. -/
def val7 (V0 : Valuation τ sig (Elt Ideal)) : Valuation τ sig (Elt Ideal) := after (w6 (F := Ideal)) (val6 V0)
/-- A buffer that stretch 6 does not write keeps its contents through it. -/
theorem val7_keep (V0 : Valuation τ sig (Elt Ideal)) (r : Ref sig .tc) (h : r ∉ w6_W) :
    val7 V0 (Proc.devRef .tc r) = val6 V0 (Proc.devRef .tc r) :=
  after_of_writes_sub (w6 (F := Ideal)) _ w6_writes h
theorem val7_main_arg0 (V0 : Valuation τ sig (Elt Ideal)) : val7 V0 (no_index (Proc.devRef .tc main_arg0)) = (argsV V0).a0 :=
  (val7_keep V0 main_arg0 (by decide)).trans (val6_main_arg0 V0)
theorem val7_main_arg1 (V0 : Valuation τ sig (Elt Ideal)) : val7 V0 (no_index (Proc.devRef .tc main_arg1)) = (argsV V0).a1 :=
  (val7_keep V0 main_arg1 (by decide)).trans (val6_main_arg1 V0)
theorem val7_main_arg2 (V0 : Valuation τ sig (Elt Ideal)) : val7 V0 (no_index (Proc.devRef .tc main_arg2)) = (argsV V0).a2 :=
  (val7_keep V0 main_arg2 (by decide)).trans (val6_main_arg2 V0)
theorem val7_main_arg3 (V0 : Valuation τ sig (Elt Ideal)) : val7 V0 (no_index (Proc.devRef .tc main_arg3)) = (argsV V0).a3 :=
  (val7_keep V0 main_arg3 (by decide)).trans (val6_main_arg3 V0)
theorem val7_main_arg4 (V0 : Valuation τ sig (Elt Ideal)) : val7 V0 (no_index (Proc.devRef .tc main_arg4)) = (argsV V0).a4 :=
  (val7_keep V0 main_arg4 (by decide)).trans (val6_main_arg4 V0)
theorem val7_main_arg5 (V0 : Valuation τ sig (Elt Ideal)) : val7 V0 (no_index (Proc.devRef .tc main_arg5)) = (argsV V0).a5 :=
  (val7_keep V0 main_arg5 (by decide)).trans (val6_main_arg5 V0)
theorem val7_main_arg6 (V0 : Valuation τ sig (Elt Ideal)) : val7 V0 (no_index (Proc.devRef .tc main_arg6)) = (argsV V0).a6 :=
  (val7_keep V0 main_arg6 (by decide)).trans (val6_main_arg6 V0)
theorem val7_main_arg7 (V0 : Valuation τ sig (Elt Ideal)) : val7 V0 (no_index (Proc.devRef .tc main_arg7)) = (argsV V0).a7 :=
  (val7_keep V0 main_arg7 (by decide)).trans (val6_main_arg7 V0)
theorem val7_main_arg8 (V0 : Valuation τ sig (Elt Ideal)) : val7 V0 (no_index (Proc.devRef .tc main_arg8)) = (argsV V0).a8 :=
  (val7_keep V0 main_arg8 (by decide)).trans (val6_main_arg8 V0)
theorem val7_main_arg9 (V0 : Valuation τ sig (Elt Ideal)) : val7 V0 (no_index (Proc.devRef .tc main_arg9)) = (argsV V0).a9 :=
  (val7_keep V0 main_arg9 (by decide)).trans (val6_main_arg9 V0)
theorem val7_main_arg10 (V0 : Valuation τ sig (Elt Ideal)) : val7 V0 (no_index (Proc.devRef .tc main_arg10)) = (argsV V0).a10 :=
  (val7_keep V0 main_arg10 (by decide)).trans (val6_main_arg10 V0)
theorem val7_main_arg11 (V0 : Valuation τ sig (Elt Ideal)) : val7 V0 (no_index (Proc.devRef .tc main_arg11)) = (argsV V0).a11 :=
  (val7_keep V0 main_arg11 (by decide)).trans (val6_main_arg11 V0)
theorem val7_main_arg12 (V0 : Valuation τ sig (Elt Ideal)) : val7 V0 (no_index (Proc.devRef .tc main_arg12)) = (argsV V0).a12 :=
  (val7_keep V0 main_arg12 (by decide)).trans (val6_main_arg12 V0)
theorem val7_main_arg13 (V0 : Valuation τ sig (Elt Ideal)) : val7 V0 (no_index (Proc.devRef .tc main_arg13)) = (argsV V0).a13 :=
  (val7_keep V0 main_arg13 (by decide)).trans (val6_main_arg13 V0)
theorem val7_main_arg14 (V0 : Valuation τ sig (Elt Ideal)) : val7 V0 (no_index (Proc.devRef .tc main_arg14)) = (argsV V0).a14 :=
  (val7_keep V0 main_arg14 (by decide)).trans (val6_main_arg14 V0)
theorem val7_main_arg15 (V0 : Valuation τ sig (Elt Ideal)) : val7 V0 (no_index (Proc.devRef .tc main_arg15)) = (argsV V0).a15 :=
  (val7_keep V0 main_arg15 (by decide)).trans (val6_main_arg15 V0)
theorem val7_main_arg16 (V0 : Valuation τ sig (Elt Ideal)) : val7 V0 (no_index (Proc.devRef .tc main_arg16)) = (argsV V0).a16 :=
  (val7_keep V0 main_arg16 (by decide)).trans (val6_main_arg16 V0)
theorem val7_main_arg17 (V0 : Valuation τ sig (Elt Ideal)) : val7 V0 (no_index (Proc.devRef .tc main_arg17)) = (argsV V0).a17 :=
  (val7_keep V0 main_arg17 (by decide)).trans (val6_main_arg17 V0)
theorem val7_main_arg18 (V0 : Valuation τ sig (Elt Ideal)) : val7 V0 (no_index (Proc.devRef .tc main_arg18)) = (argsV V0).a18 :=
  (val7_keep V0 main_arg18 (by decide)).trans (val6_main_arg18 V0)
theorem val7_main_arg19 (V0 : Valuation τ sig (Elt Ideal)) : val7 V0 (no_index (Proc.devRef .tc main_arg19)) = (argsV V0).a19 :=
  (val7_keep V0 main_arg19 (by decide)).trans (val6_main_arg19 V0)
theorem val7_main_arg20 (V0 : Valuation τ sig (Elt Ideal)) : val7 V0 (no_index (Proc.devRef .tc main_arg20)) = (argsV V0).a20 :=
  (val7_keep V0 main_arg20 (by decide)).trans (val6_main_arg20 V0)
theorem val7_main_arg21 (V0 : Valuation τ sig (Elt Ideal)) : val7 V0 (no_index (Proc.devRef .tc main_arg21)) = (argsV V0).a21 :=
  (val7_keep V0 main_arg21 (by decide)).trans (val6_main_arg21 V0)
theorem val7_main_arg22 (V0 : Valuation τ sig (Elt Ideal)) : val7 V0 (no_index (Proc.devRef .tc main_arg22)) = (argsV V0).a22 :=
  (val7_keep V0 main_arg22 (by decide)).trans (val6_main_arg22 V0)
theorem val7_main_arg23 (V0 : Valuation τ sig (Elt Ideal)) : val7 V0 (no_index (Proc.devRef .tc main_arg23)) = (argsV V0).a23 :=
  (val7_keep V0 main_arg23 (by decide)).trans (val6_main_arg23 V0)
theorem val7_main_v68 (V0 : Valuation τ sig (Elt Ideal)) : val7 V0 (no_index (Proc.devRef .tc main_v68)) = r_v68 (argsV V0) :=
  (val7_keep V0 main_v68 (by decide)).trans (val6_main_v68 V0)
theorem val7_main_v130 (V0 : Valuation τ sig (Elt Ideal)) : val7 V0 (no_index (Proc.devRef .tc main_v130)) = r_v130 (argsV V0) :=
  (val7_keep V0 main_v130 (by decide)).trans (val6_main_v130 V0)
set_option maxRecDepth 8192 in
set_option maxHeartbeats 900000 in
theorem val7_main_v134 (V0 : Valuation τ sig (Elt Ideal)) : val7 V0 (no_index (Proc.devRef .tc main_v134)) = r_v134 (argsV V0) := by
  unfold val7
  simp only [w6]
  after_results_simp
  simp only [val6_main_v130] <;> rfl
set_option maxRecDepth 8192 in
set_option maxHeartbeats 900000 in
theorem val7_main_v136 (V0 : Valuation τ sig (Elt Ideal)) : val7 V0 (no_index (Proc.devRef .tc main_v136)) = r_v136 (argsV V0) := by
  unfold val7
  simp only [w6]
  after_results_simp
  simp only [val6_main_v130] <;> rfl

/-- The device's buffer contents after the first 8 stretches. -/
def val8 (V0 : Valuation τ sig (Elt Ideal)) : Valuation τ sig (Elt Ideal) := after (w7 (F := Ideal)) (val7 V0)
/-- A buffer that stretch 7 does not write keeps its contents through it. -/
theorem val8_keep (V0 : Valuation τ sig (Elt Ideal)) (r : Ref sig .tc) (h : r ∉ w7_W) :
    val8 V0 (Proc.devRef .tc r) = val7 V0 (Proc.devRef .tc r) :=
  after_of_writes_sub (w7 (F := Ideal)) _ w7_writes h
theorem val8_main_arg0 (V0 : Valuation τ sig (Elt Ideal)) : val8 V0 (no_index (Proc.devRef .tc main_arg0)) = (argsV V0).a0 :=
  (val8_keep V0 main_arg0 (by decide)).trans (val7_main_arg0 V0)
theorem val8_main_arg1 (V0 : Valuation τ sig (Elt Ideal)) : val8 V0 (no_index (Proc.devRef .tc main_arg1)) = (argsV V0).a1 :=
  (val8_keep V0 main_arg1 (by decide)).trans (val7_main_arg1 V0)
theorem val8_main_arg2 (V0 : Valuation τ sig (Elt Ideal)) : val8 V0 (no_index (Proc.devRef .tc main_arg2)) = (argsV V0).a2 :=
  (val8_keep V0 main_arg2 (by decide)).trans (val7_main_arg2 V0)
theorem val8_main_arg3 (V0 : Valuation τ sig (Elt Ideal)) : val8 V0 (no_index (Proc.devRef .tc main_arg3)) = (argsV V0).a3 :=
  (val8_keep V0 main_arg3 (by decide)).trans (val7_main_arg3 V0)
theorem val8_main_arg4 (V0 : Valuation τ sig (Elt Ideal)) : val8 V0 (no_index (Proc.devRef .tc main_arg4)) = (argsV V0).a4 :=
  (val8_keep V0 main_arg4 (by decide)).trans (val7_main_arg4 V0)
theorem val8_main_arg5 (V0 : Valuation τ sig (Elt Ideal)) : val8 V0 (no_index (Proc.devRef .tc main_arg5)) = (argsV V0).a5 :=
  (val8_keep V0 main_arg5 (by decide)).trans (val7_main_arg5 V0)
theorem val8_main_arg6 (V0 : Valuation τ sig (Elt Ideal)) : val8 V0 (no_index (Proc.devRef .tc main_arg6)) = (argsV V0).a6 :=
  (val8_keep V0 main_arg6 (by decide)).trans (val7_main_arg6 V0)
theorem val8_main_arg7 (V0 : Valuation τ sig (Elt Ideal)) : val8 V0 (no_index (Proc.devRef .tc main_arg7)) = (argsV V0).a7 :=
  (val8_keep V0 main_arg7 (by decide)).trans (val7_main_arg7 V0)
theorem val8_main_arg8 (V0 : Valuation τ sig (Elt Ideal)) : val8 V0 (no_index (Proc.devRef .tc main_arg8)) = (argsV V0).a8 :=
  (val8_keep V0 main_arg8 (by decide)).trans (val7_main_arg8 V0)
theorem val8_main_arg9 (V0 : Valuation τ sig (Elt Ideal)) : val8 V0 (no_index (Proc.devRef .tc main_arg9)) = (argsV V0).a9 :=
  (val8_keep V0 main_arg9 (by decide)).trans (val7_main_arg9 V0)
theorem val8_main_arg10 (V0 : Valuation τ sig (Elt Ideal)) : val8 V0 (no_index (Proc.devRef .tc main_arg10)) = (argsV V0).a10 :=
  (val8_keep V0 main_arg10 (by decide)).trans (val7_main_arg10 V0)
theorem val8_main_arg11 (V0 : Valuation τ sig (Elt Ideal)) : val8 V0 (no_index (Proc.devRef .tc main_arg11)) = (argsV V0).a11 :=
  (val8_keep V0 main_arg11 (by decide)).trans (val7_main_arg11 V0)
theorem val8_main_arg12 (V0 : Valuation τ sig (Elt Ideal)) : val8 V0 (no_index (Proc.devRef .tc main_arg12)) = (argsV V0).a12 :=
  (val8_keep V0 main_arg12 (by decide)).trans (val7_main_arg12 V0)
theorem val8_main_arg13 (V0 : Valuation τ sig (Elt Ideal)) : val8 V0 (no_index (Proc.devRef .tc main_arg13)) = (argsV V0).a13 :=
  (val8_keep V0 main_arg13 (by decide)).trans (val7_main_arg13 V0)
theorem val8_main_arg14 (V0 : Valuation τ sig (Elt Ideal)) : val8 V0 (no_index (Proc.devRef .tc main_arg14)) = (argsV V0).a14 :=
  (val8_keep V0 main_arg14 (by decide)).trans (val7_main_arg14 V0)
theorem val8_main_arg15 (V0 : Valuation τ sig (Elt Ideal)) : val8 V0 (no_index (Proc.devRef .tc main_arg15)) = (argsV V0).a15 :=
  (val8_keep V0 main_arg15 (by decide)).trans (val7_main_arg15 V0)
theorem val8_main_arg16 (V0 : Valuation τ sig (Elt Ideal)) : val8 V0 (no_index (Proc.devRef .tc main_arg16)) = (argsV V0).a16 :=
  (val8_keep V0 main_arg16 (by decide)).trans (val7_main_arg16 V0)
theorem val8_main_arg17 (V0 : Valuation τ sig (Elt Ideal)) : val8 V0 (no_index (Proc.devRef .tc main_arg17)) = (argsV V0).a17 :=
  (val8_keep V0 main_arg17 (by decide)).trans (val7_main_arg17 V0)
theorem val8_main_arg18 (V0 : Valuation τ sig (Elt Ideal)) : val8 V0 (no_index (Proc.devRef .tc main_arg18)) = (argsV V0).a18 :=
  (val8_keep V0 main_arg18 (by decide)).trans (val7_main_arg18 V0)
theorem val8_main_arg19 (V0 : Valuation τ sig (Elt Ideal)) : val8 V0 (no_index (Proc.devRef .tc main_arg19)) = (argsV V0).a19 :=
  (val8_keep V0 main_arg19 (by decide)).trans (val7_main_arg19 V0)
theorem val8_main_arg20 (V0 : Valuation τ sig (Elt Ideal)) : val8 V0 (no_index (Proc.devRef .tc main_arg20)) = (argsV V0).a20 :=
  (val8_keep V0 main_arg20 (by decide)).trans (val7_main_arg20 V0)
theorem val8_main_arg21 (V0 : Valuation τ sig (Elt Ideal)) : val8 V0 (no_index (Proc.devRef .tc main_arg21)) = (argsV V0).a21 :=
  (val8_keep V0 main_arg21 (by decide)).trans (val7_main_arg21 V0)
theorem val8_main_arg22 (V0 : Valuation τ sig (Elt Ideal)) : val8 V0 (no_index (Proc.devRef .tc main_arg22)) = (argsV V0).a22 :=
  (val8_keep V0 main_arg22 (by decide)).trans (val7_main_arg22 V0)
theorem val8_main_arg23 (V0 : Valuation τ sig (Elt Ideal)) : val8 V0 (no_index (Proc.devRef .tc main_arg23)) = (argsV V0).a23 :=
  (val8_keep V0 main_arg23 (by decide)).trans (val7_main_arg23 V0)
set_option maxRecDepth 8192 in
set_option maxHeartbeats 2100000 in
theorem val8_main_v137 (V0 : Valuation τ sig (Elt Ideal)) : val8 V0 (no_index (Proc.devRef .tc main_v137)) = r_v137 (argsV V0) := by
  unfold val8
  simp only [w7]
  after_results_simp
  try dsimp only [Matrix.cons_val]
  try after_results_simp
  simp only [val7_main_v136, val7_main_v134, val7_main_v68] <;> rfl
set_option maxRecDepth 8192 in
set_option maxHeartbeats 2100000 in
theorem val8_main_v138 (V0 : Valuation τ sig (Elt Ideal)) : val8 V0 (no_index (Proc.devRef .tc main_v138)) = r_v138 (argsV V0) := by
  unfold val8
  simp only [w7]
  after_results_simp
  try dsimp only [Matrix.cons_val]
  try after_results_simp
  simp only [val7_main_v130, val7_main_arg0] <;> rfl
set_option maxRecDepth 8192 in
set_option maxHeartbeats 2100000 in
theorem val8_main_v149 (V0 : Valuation τ sig (Elt Ideal)) : val8 V0 (no_index (Proc.devRef .tc main_v149)) = r_v149 (argsV V0) := by
  unfold val8
  simp only [w7]
  after_results_simp
  try dsimp only [Matrix.cons_val]
  try after_results_simp
  simp only [val7_main_v130, val7_main_arg0] <;> rfl
set_option maxRecDepth 8192 in
set_option maxHeartbeats 2100000 in
theorem val8_main_v153 (V0 : Valuation τ sig (Elt Ideal)) : val8 V0 (no_index (Proc.devRef .tc main_v153)) = r_v153 (argsV V0) := by
  unfold val8
  simp only [w7]
  after_results_simp
  try dsimp only [Matrix.cons_val]
  try after_results_simp
  simp only [val7_main_arg6, val7_main_v130, val7_main_arg0] <;> rfl
set_option maxRecDepth 8192 in
set_option maxHeartbeats 2100000 in
theorem val8_main_v154 (V0 : Valuation τ sig (Elt Ideal)) : val8 V0 (no_index (Proc.devRef .tc main_v154)) = r_v154 (argsV V0) := by
  unfold val8
  simp only [w7]
  after_results_simp
  try dsimp only [Matrix.cons_val]
  try after_results_simp
  simp only [val7_main_v130, val7_main_arg0] <;> rfl
set_option maxRecDepth 8192 in
set_option maxHeartbeats 2100000 in
theorem val8_main_v155 (V0 : Valuation τ sig (Elt Ideal)) : val8 V0 (no_index (Proc.devRef .tc main_v155)) = r_v155 (argsV V0) := by
  unfold val8
  simp only [w7]
  after_results_simp
  try dsimp only [Matrix.cons_val]
  try after_results_simp
  all_goals rfl

end Cert.ReferenceIdeal.RefRun

end
-- ==== Proof.RefRunC.lean ====
/- The reference's run read stretch by stretch from any contents of the device's buffers: after each stretch,
   every buffer still needed holds its stage's value as a function of the argument arrays. -/
import proofs.«115478_j10110353015360_2_alg».proof.Proof.RefRunB

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The device's buffer contents after the first 9 stretches. -/
def val9 (V0 : Valuation τ sig (Elt Ideal)) : Valuation τ sig (Elt Ideal) := after (w8 (F := Ideal)) (val8 V0)
/-- A buffer that stretch 8 does not write keeps its contents through it. -/
theorem val9_keep (V0 : Valuation τ sig (Elt Ideal)) (r : Ref sig .tc) (h : r ∉ w8_W) :
    val9 V0 (Proc.devRef .tc r) = val8 V0 (Proc.devRef .tc r) :=
  after_of_writes_sub (w8 (F := Ideal)) _ w8_writes h
theorem val9_main_arg0 (V0 : Valuation τ sig (Elt Ideal)) : val9 V0 (no_index (Proc.devRef .tc main_arg0)) = (argsV V0).a0 :=
  (val9_keep V0 main_arg0 (by decide)).trans (val8_main_arg0 V0)
theorem val9_main_arg1 (V0 : Valuation τ sig (Elt Ideal)) : val9 V0 (no_index (Proc.devRef .tc main_arg1)) = (argsV V0).a1 :=
  (val9_keep V0 main_arg1 (by decide)).trans (val8_main_arg1 V0)
theorem val9_main_arg2 (V0 : Valuation τ sig (Elt Ideal)) : val9 V0 (no_index (Proc.devRef .tc main_arg2)) = (argsV V0).a2 :=
  (val9_keep V0 main_arg2 (by decide)).trans (val8_main_arg2 V0)
theorem val9_main_arg3 (V0 : Valuation τ sig (Elt Ideal)) : val9 V0 (no_index (Proc.devRef .tc main_arg3)) = (argsV V0).a3 :=
  (val9_keep V0 main_arg3 (by decide)).trans (val8_main_arg3 V0)
theorem val9_main_arg4 (V0 : Valuation τ sig (Elt Ideal)) : val9 V0 (no_index (Proc.devRef .tc main_arg4)) = (argsV V0).a4 :=
  (val9_keep V0 main_arg4 (by decide)).trans (val8_main_arg4 V0)
theorem val9_main_arg5 (V0 : Valuation τ sig (Elt Ideal)) : val9 V0 (no_index (Proc.devRef .tc main_arg5)) = (argsV V0).a5 :=
  (val9_keep V0 main_arg5 (by decide)).trans (val8_main_arg5 V0)
theorem val9_main_arg6 (V0 : Valuation τ sig (Elt Ideal)) : val9 V0 (no_index (Proc.devRef .tc main_arg6)) = (argsV V0).a6 :=
  (val9_keep V0 main_arg6 (by decide)).trans (val8_main_arg6 V0)
theorem val9_main_arg7 (V0 : Valuation τ sig (Elt Ideal)) : val9 V0 (no_index (Proc.devRef .tc main_arg7)) = (argsV V0).a7 :=
  (val9_keep V0 main_arg7 (by decide)).trans (val8_main_arg7 V0)
theorem val9_main_arg8 (V0 : Valuation τ sig (Elt Ideal)) : val9 V0 (no_index (Proc.devRef .tc main_arg8)) = (argsV V0).a8 :=
  (val9_keep V0 main_arg8 (by decide)).trans (val8_main_arg8 V0)
theorem val9_main_arg9 (V0 : Valuation τ sig (Elt Ideal)) : val9 V0 (no_index (Proc.devRef .tc main_arg9)) = (argsV V0).a9 :=
  (val9_keep V0 main_arg9 (by decide)).trans (val8_main_arg9 V0)
theorem val9_main_arg10 (V0 : Valuation τ sig (Elt Ideal)) : val9 V0 (no_index (Proc.devRef .tc main_arg10)) = (argsV V0).a10 :=
  (val9_keep V0 main_arg10 (by decide)).trans (val8_main_arg10 V0)
theorem val9_main_arg11 (V0 : Valuation τ sig (Elt Ideal)) : val9 V0 (no_index (Proc.devRef .tc main_arg11)) = (argsV V0).a11 :=
  (val9_keep V0 main_arg11 (by decide)).trans (val8_main_arg11 V0)
theorem val9_main_arg12 (V0 : Valuation τ sig (Elt Ideal)) : val9 V0 (no_index (Proc.devRef .tc main_arg12)) = (argsV V0).a12 :=
  (val9_keep V0 main_arg12 (by decide)).trans (val8_main_arg12 V0)
theorem val9_main_arg13 (V0 : Valuation τ sig (Elt Ideal)) : val9 V0 (no_index (Proc.devRef .tc main_arg13)) = (argsV V0).a13 :=
  (val9_keep V0 main_arg13 (by decide)).trans (val8_main_arg13 V0)
theorem val9_main_arg14 (V0 : Valuation τ sig (Elt Ideal)) : val9 V0 (no_index (Proc.devRef .tc main_arg14)) = (argsV V0).a14 :=
  (val9_keep V0 main_arg14 (by decide)).trans (val8_main_arg14 V0)
theorem val9_main_arg15 (V0 : Valuation τ sig (Elt Ideal)) : val9 V0 (no_index (Proc.devRef .tc main_arg15)) = (argsV V0).a15 :=
  (val9_keep V0 main_arg15 (by decide)).trans (val8_main_arg15 V0)
theorem val9_main_arg16 (V0 : Valuation τ sig (Elt Ideal)) : val9 V0 (no_index (Proc.devRef .tc main_arg16)) = (argsV V0).a16 :=
  (val9_keep V0 main_arg16 (by decide)).trans (val8_main_arg16 V0)
theorem val9_main_arg17 (V0 : Valuation τ sig (Elt Ideal)) : val9 V0 (no_index (Proc.devRef .tc main_arg17)) = (argsV V0).a17 :=
  (val9_keep V0 main_arg17 (by decide)).trans (val8_main_arg17 V0)
theorem val9_main_arg18 (V0 : Valuation τ sig (Elt Ideal)) : val9 V0 (no_index (Proc.devRef .tc main_arg18)) = (argsV V0).a18 :=
  (val9_keep V0 main_arg18 (by decide)).trans (val8_main_arg18 V0)
theorem val9_main_arg19 (V0 : Valuation τ sig (Elt Ideal)) : val9 V0 (no_index (Proc.devRef .tc main_arg19)) = (argsV V0).a19 :=
  (val9_keep V0 main_arg19 (by decide)).trans (val8_main_arg19 V0)
theorem val9_main_arg20 (V0 : Valuation τ sig (Elt Ideal)) : val9 V0 (no_index (Proc.devRef .tc main_arg20)) = (argsV V0).a20 :=
  (val9_keep V0 main_arg20 (by decide)).trans (val8_main_arg20 V0)
theorem val9_main_arg21 (V0 : Valuation τ sig (Elt Ideal)) : val9 V0 (no_index (Proc.devRef .tc main_arg21)) = (argsV V0).a21 :=
  (val9_keep V0 main_arg21 (by decide)).trans (val8_main_arg21 V0)
theorem val9_main_arg22 (V0 : Valuation τ sig (Elt Ideal)) : val9 V0 (no_index (Proc.devRef .tc main_arg22)) = (argsV V0).a22 :=
  (val9_keep V0 main_arg22 (by decide)).trans (val8_main_arg22 V0)
theorem val9_main_arg23 (V0 : Valuation τ sig (Elt Ideal)) : val9 V0 (no_index (Proc.devRef .tc main_arg23)) = (argsV V0).a23 :=
  (val9_keep V0 main_arg23 (by decide)).trans (val8_main_arg23 V0)
theorem val9_main_v137 (V0 : Valuation τ sig (Elt Ideal)) : val9 V0 (no_index (Proc.devRef .tc main_v137)) = r_v137 (argsV V0) :=
  (val9_keep V0 main_v137 (by decide)).trans (val8_main_v137 V0)
set_option maxRecDepth 8192 in
set_option maxHeartbeats 2700000 in
theorem val9_main_v180 (V0 : Valuation τ sig (Elt Ideal)) : val9 V0 (no_index (Proc.devRef .tc main_v180)) = r_v180 (argsV V0) := by
  unfold val9
  simp only [w8]
  after_results_simp
  simp only [val8_main_arg7, val8_main_arg6, val8_main_v138, val8_main_v154, val8_main_v155, val8_main_v149, val8_main_arg0, val8_main_v153] <;> rfl

/-- The device's buffer contents after the first 10 stretches. -/
def val10 (V0 : Valuation τ sig (Elt Ideal)) : Valuation τ sig (Elt Ideal) := after (w9 (F := Ideal)) (val9 V0)
/-- A buffer that stretch 9 does not write keeps its contents through it. -/
theorem val10_keep (V0 : Valuation τ sig (Elt Ideal)) (r : Ref sig .tc) (h : r ∉ w9_W) :
    val10 V0 (Proc.devRef .tc r) = val9 V0 (Proc.devRef .tc r) :=
  after_of_writes_sub (w9 (F := Ideal)) _ w9_writes h
theorem val10_main_arg0 (V0 : Valuation τ sig (Elt Ideal)) : val10 V0 (no_index (Proc.devRef .tc main_arg0)) = (argsV V0).a0 :=
  (val10_keep V0 main_arg0 (by decide)).trans (val9_main_arg0 V0)
theorem val10_main_arg1 (V0 : Valuation τ sig (Elt Ideal)) : val10 V0 (no_index (Proc.devRef .tc main_arg1)) = (argsV V0).a1 :=
  (val10_keep V0 main_arg1 (by decide)).trans (val9_main_arg1 V0)
theorem val10_main_arg2 (V0 : Valuation τ sig (Elt Ideal)) : val10 V0 (no_index (Proc.devRef .tc main_arg2)) = (argsV V0).a2 :=
  (val10_keep V0 main_arg2 (by decide)).trans (val9_main_arg2 V0)
theorem val10_main_arg3 (V0 : Valuation τ sig (Elt Ideal)) : val10 V0 (no_index (Proc.devRef .tc main_arg3)) = (argsV V0).a3 :=
  (val10_keep V0 main_arg3 (by decide)).trans (val9_main_arg3 V0)
theorem val10_main_arg4 (V0 : Valuation τ sig (Elt Ideal)) : val10 V0 (no_index (Proc.devRef .tc main_arg4)) = (argsV V0).a4 :=
  (val10_keep V0 main_arg4 (by decide)).trans (val9_main_arg4 V0)
theorem val10_main_arg5 (V0 : Valuation τ sig (Elt Ideal)) : val10 V0 (no_index (Proc.devRef .tc main_arg5)) = (argsV V0).a5 :=
  (val10_keep V0 main_arg5 (by decide)).trans (val9_main_arg5 V0)
theorem val10_main_arg6 (V0 : Valuation τ sig (Elt Ideal)) : val10 V0 (no_index (Proc.devRef .tc main_arg6)) = (argsV V0).a6 :=
  (val10_keep V0 main_arg6 (by decide)).trans (val9_main_arg6 V0)
theorem val10_main_arg7 (V0 : Valuation τ sig (Elt Ideal)) : val10 V0 (no_index (Proc.devRef .tc main_arg7)) = (argsV V0).a7 :=
  (val10_keep V0 main_arg7 (by decide)).trans (val9_main_arg7 V0)
theorem val10_main_arg8 (V0 : Valuation τ sig (Elt Ideal)) : val10 V0 (no_index (Proc.devRef .tc main_arg8)) = (argsV V0).a8 :=
  (val10_keep V0 main_arg8 (by decide)).trans (val9_main_arg8 V0)
theorem val10_main_arg9 (V0 : Valuation τ sig (Elt Ideal)) : val10 V0 (no_index (Proc.devRef .tc main_arg9)) = (argsV V0).a9 :=
  (val10_keep V0 main_arg9 (by decide)).trans (val9_main_arg9 V0)
theorem val10_main_arg10 (V0 : Valuation τ sig (Elt Ideal)) : val10 V0 (no_index (Proc.devRef .tc main_arg10)) = (argsV V0).a10 :=
  (val10_keep V0 main_arg10 (by decide)).trans (val9_main_arg10 V0)
theorem val10_main_arg11 (V0 : Valuation τ sig (Elt Ideal)) : val10 V0 (no_index (Proc.devRef .tc main_arg11)) = (argsV V0).a11 :=
  (val10_keep V0 main_arg11 (by decide)).trans (val9_main_arg11 V0)
theorem val10_main_arg12 (V0 : Valuation τ sig (Elt Ideal)) : val10 V0 (no_index (Proc.devRef .tc main_arg12)) = (argsV V0).a12 :=
  (val10_keep V0 main_arg12 (by decide)).trans (val9_main_arg12 V0)
theorem val10_main_arg13 (V0 : Valuation τ sig (Elt Ideal)) : val10 V0 (no_index (Proc.devRef .tc main_arg13)) = (argsV V0).a13 :=
  (val10_keep V0 main_arg13 (by decide)).trans (val9_main_arg13 V0)
theorem val10_main_arg14 (V0 : Valuation τ sig (Elt Ideal)) : val10 V0 (no_index (Proc.devRef .tc main_arg14)) = (argsV V0).a14 :=
  (val10_keep V0 main_arg14 (by decide)).trans (val9_main_arg14 V0)
theorem val10_main_arg15 (V0 : Valuation τ sig (Elt Ideal)) : val10 V0 (no_index (Proc.devRef .tc main_arg15)) = (argsV V0).a15 :=
  (val10_keep V0 main_arg15 (by decide)).trans (val9_main_arg15 V0)
theorem val10_main_arg16 (V0 : Valuation τ sig (Elt Ideal)) : val10 V0 (no_index (Proc.devRef .tc main_arg16)) = (argsV V0).a16 :=
  (val10_keep V0 main_arg16 (by decide)).trans (val9_main_arg16 V0)
theorem val10_main_arg17 (V0 : Valuation τ sig (Elt Ideal)) : val10 V0 (no_index (Proc.devRef .tc main_arg17)) = (argsV V0).a17 :=
  (val10_keep V0 main_arg17 (by decide)).trans (val9_main_arg17 V0)
theorem val10_main_arg18 (V0 : Valuation τ sig (Elt Ideal)) : val10 V0 (no_index (Proc.devRef .tc main_arg18)) = (argsV V0).a18 :=
  (val10_keep V0 main_arg18 (by decide)).trans (val9_main_arg18 V0)
theorem val10_main_arg19 (V0 : Valuation τ sig (Elt Ideal)) : val10 V0 (no_index (Proc.devRef .tc main_arg19)) = (argsV V0).a19 :=
  (val10_keep V0 main_arg19 (by decide)).trans (val9_main_arg19 V0)
theorem val10_main_arg20 (V0 : Valuation τ sig (Elt Ideal)) : val10 V0 (no_index (Proc.devRef .tc main_arg20)) = (argsV V0).a20 :=
  (val10_keep V0 main_arg20 (by decide)).trans (val9_main_arg20 V0)
theorem val10_main_arg21 (V0 : Valuation τ sig (Elt Ideal)) : val10 V0 (no_index (Proc.devRef .tc main_arg21)) = (argsV V0).a21 :=
  (val10_keep V0 main_arg21 (by decide)).trans (val9_main_arg21 V0)
theorem val10_main_arg22 (V0 : Valuation τ sig (Elt Ideal)) : val10 V0 (no_index (Proc.devRef .tc main_arg22)) = (argsV V0).a22 :=
  (val10_keep V0 main_arg22 (by decide)).trans (val9_main_arg22 V0)
theorem val10_main_arg23 (V0 : Valuation τ sig (Elt Ideal)) : val10 V0 (no_index (Proc.devRef .tc main_arg23)) = (argsV V0).a23 :=
  (val10_keep V0 main_arg23 (by decide)).trans (val9_main_arg23 V0)
theorem val10_main_v137 (V0 : Valuation τ sig (Elt Ideal)) : val10 V0 (no_index (Proc.devRef .tc main_v137)) = r_v137 (argsV V0) :=
  (val10_keep V0 main_v137 (by decide)).trans (val9_main_v137 V0)
set_option maxRecDepth 8192 in
set_option maxHeartbeats 2200000 in
theorem val10_main_v197 (V0 : Valuation τ sig (Elt Ideal)) : val10 V0 (no_index (Proc.devRef .tc main_v197)) = r_v197 (argsV V0) := by
  unfold val10
  simp only [w9]
  after_results_simp
  simp only [val9_main_v180] <;> rfl

/-- The device's buffer contents after the first 11 stretches. -/
def val11 (V0 : Valuation τ sig (Elt Ideal)) : Valuation τ sig (Elt Ideal) := after (w10 (F := Ideal)) (val10 V0)
/-- A buffer that stretch 10 does not write keeps its contents through it. -/
theorem val11_keep (V0 : Valuation τ sig (Elt Ideal)) (r : Ref sig .tc) (h : r ∉ w10_W) :
    val11 V0 (Proc.devRef .tc r) = val10 V0 (Proc.devRef .tc r) :=
  after_of_writes_sub (w10 (F := Ideal)) _ w10_writes h
theorem val11_main_arg0 (V0 : Valuation τ sig (Elt Ideal)) : val11 V0 (no_index (Proc.devRef .tc main_arg0)) = (argsV V0).a0 :=
  (val11_keep V0 main_arg0 (by decide)).trans (val10_main_arg0 V0)
theorem val11_main_arg1 (V0 : Valuation τ sig (Elt Ideal)) : val11 V0 (no_index (Proc.devRef .tc main_arg1)) = (argsV V0).a1 :=
  (val11_keep V0 main_arg1 (by decide)).trans (val10_main_arg1 V0)
theorem val11_main_arg2 (V0 : Valuation τ sig (Elt Ideal)) : val11 V0 (no_index (Proc.devRef .tc main_arg2)) = (argsV V0).a2 :=
  (val11_keep V0 main_arg2 (by decide)).trans (val10_main_arg2 V0)
theorem val11_main_arg3 (V0 : Valuation τ sig (Elt Ideal)) : val11 V0 (no_index (Proc.devRef .tc main_arg3)) = (argsV V0).a3 :=
  (val11_keep V0 main_arg3 (by decide)).trans (val10_main_arg3 V0)
theorem val11_main_arg4 (V0 : Valuation τ sig (Elt Ideal)) : val11 V0 (no_index (Proc.devRef .tc main_arg4)) = (argsV V0).a4 :=
  (val11_keep V0 main_arg4 (by decide)).trans (val10_main_arg4 V0)
theorem val11_main_arg5 (V0 : Valuation τ sig (Elt Ideal)) : val11 V0 (no_index (Proc.devRef .tc main_arg5)) = (argsV V0).a5 :=
  (val11_keep V0 main_arg5 (by decide)).trans (val10_main_arg5 V0)
theorem val11_main_arg6 (V0 : Valuation τ sig (Elt Ideal)) : val11 V0 (no_index (Proc.devRef .tc main_arg6)) = (argsV V0).a6 :=
  (val11_keep V0 main_arg6 (by decide)).trans (val10_main_arg6 V0)
theorem val11_main_arg7 (V0 : Valuation τ sig (Elt Ideal)) : val11 V0 (no_index (Proc.devRef .tc main_arg7)) = (argsV V0).a7 :=
  (val11_keep V0 main_arg7 (by decide)).trans (val10_main_arg7 V0)
theorem val11_main_arg8 (V0 : Valuation τ sig (Elt Ideal)) : val11 V0 (no_index (Proc.devRef .tc main_arg8)) = (argsV V0).a8 :=
  (val11_keep V0 main_arg8 (by decide)).trans (val10_main_arg8 V0)
theorem val11_main_arg9 (V0 : Valuation τ sig (Elt Ideal)) : val11 V0 (no_index (Proc.devRef .tc main_arg9)) = (argsV V0).a9 :=
  (val11_keep V0 main_arg9 (by decide)).trans (val10_main_arg9 V0)
theorem val11_main_arg10 (V0 : Valuation τ sig (Elt Ideal)) : val11 V0 (no_index (Proc.devRef .tc main_arg10)) = (argsV V0).a10 :=
  (val11_keep V0 main_arg10 (by decide)).trans (val10_main_arg10 V0)
theorem val11_main_arg11 (V0 : Valuation τ sig (Elt Ideal)) : val11 V0 (no_index (Proc.devRef .tc main_arg11)) = (argsV V0).a11 :=
  (val11_keep V0 main_arg11 (by decide)).trans (val10_main_arg11 V0)
theorem val11_main_arg12 (V0 : Valuation τ sig (Elt Ideal)) : val11 V0 (no_index (Proc.devRef .tc main_arg12)) = (argsV V0).a12 :=
  (val11_keep V0 main_arg12 (by decide)).trans (val10_main_arg12 V0)
theorem val11_main_arg13 (V0 : Valuation τ sig (Elt Ideal)) : val11 V0 (no_index (Proc.devRef .tc main_arg13)) = (argsV V0).a13 :=
  (val11_keep V0 main_arg13 (by decide)).trans (val10_main_arg13 V0)
theorem val11_main_arg14 (V0 : Valuation τ sig (Elt Ideal)) : val11 V0 (no_index (Proc.devRef .tc main_arg14)) = (argsV V0).a14 :=
  (val11_keep V0 main_arg14 (by decide)).trans (val10_main_arg14 V0)
theorem val11_main_arg15 (V0 : Valuation τ sig (Elt Ideal)) : val11 V0 (no_index (Proc.devRef .tc main_arg15)) = (argsV V0).a15 :=
  (val11_keep V0 main_arg15 (by decide)).trans (val10_main_arg15 V0)
theorem val11_main_arg16 (V0 : Valuation τ sig (Elt Ideal)) : val11 V0 (no_index (Proc.devRef .tc main_arg16)) = (argsV V0).a16 :=
  (val11_keep V0 main_arg16 (by decide)).trans (val10_main_arg16 V0)
theorem val11_main_arg17 (V0 : Valuation τ sig (Elt Ideal)) : val11 V0 (no_index (Proc.devRef .tc main_arg17)) = (argsV V0).a17 :=
  (val11_keep V0 main_arg17 (by decide)).trans (val10_main_arg17 V0)
theorem val11_main_arg18 (V0 : Valuation τ sig (Elt Ideal)) : val11 V0 (no_index (Proc.devRef .tc main_arg18)) = (argsV V0).a18 :=
  (val11_keep V0 main_arg18 (by decide)).trans (val10_main_arg18 V0)
theorem val11_main_arg19 (V0 : Valuation τ sig (Elt Ideal)) : val11 V0 (no_index (Proc.devRef .tc main_arg19)) = (argsV V0).a19 :=
  (val11_keep V0 main_arg19 (by decide)).trans (val10_main_arg19 V0)
theorem val11_main_arg20 (V0 : Valuation τ sig (Elt Ideal)) : val11 V0 (no_index (Proc.devRef .tc main_arg20)) = (argsV V0).a20 :=
  (val11_keep V0 main_arg20 (by decide)).trans (val10_main_arg20 V0)
theorem val11_main_arg21 (V0 : Valuation τ sig (Elt Ideal)) : val11 V0 (no_index (Proc.devRef .tc main_arg21)) = (argsV V0).a21 :=
  (val11_keep V0 main_arg21 (by decide)).trans (val10_main_arg21 V0)
theorem val11_main_arg22 (V0 : Valuation τ sig (Elt Ideal)) : val11 V0 (no_index (Proc.devRef .tc main_arg22)) = (argsV V0).a22 :=
  (val11_keep V0 main_arg22 (by decide)).trans (val10_main_arg22 V0)
theorem val11_main_arg23 (V0 : Valuation τ sig (Elt Ideal)) : val11 V0 (no_index (Proc.devRef .tc main_arg23)) = (argsV V0).a23 :=
  (val11_keep V0 main_arg23 (by decide)).trans (val10_main_arg23 V0)
theorem val11_main_v197 (V0 : Valuation τ sig (Elt Ideal)) : val11 V0 (no_index (Proc.devRef .tc main_v197)) = r_v197 (argsV V0) :=
  (val11_keep V0 main_v197 (by decide)).trans (val10_main_v197 V0)
set_option maxRecDepth 8192 in
set_option maxHeartbeats 1300000 in
theorem val11_main_v198 (V0 : Valuation τ sig (Elt Ideal)) : val11 V0 (no_index (Proc.devRef .tc main_v198)) = r_v198 (argsV V0) := by
  unfold val11
  simp only [w10]
  after_results_simp
  simp only [val10_main_v137] <;> rfl
set_option maxRecDepth 8192 in
set_option maxHeartbeats 1300000 in
theorem val11_main_v208 (V0 : Valuation τ sig (Elt Ideal)) : val11 V0 (no_index (Proc.devRef .tc main_v208)) = r_v208 (argsV V0) := by
  unfold val11
  simp only [w10]
  after_results_simp
  simp only [val10_main_arg14, val10_main_arg13, val10_main_arg12, val10_main_v137] <;> rfl

/-- The device's buffer contents after the first 12 stretches. -/
def val12 (V0 : Valuation τ sig (Elt Ideal)) : Valuation τ sig (Elt Ideal) := after (w11 (F := Ideal)) (val11 V0)
/-- A buffer that stretch 11 does not write keeps its contents through it. -/
theorem val12_keep (V0 : Valuation τ sig (Elt Ideal)) (r : Ref sig .tc) (h : r ∉ w11_W) :
    val12 V0 (Proc.devRef .tc r) = val11 V0 (Proc.devRef .tc r) :=
  after_of_writes_sub (w11 (F := Ideal)) _ w11_writes h
theorem val12_main_arg0 (V0 : Valuation τ sig (Elt Ideal)) : val12 V0 (no_index (Proc.devRef .tc main_arg0)) = (argsV V0).a0 :=
  (val12_keep V0 main_arg0 (by decide)).trans (val11_main_arg0 V0)
theorem val12_main_arg1 (V0 : Valuation τ sig (Elt Ideal)) : val12 V0 (no_index (Proc.devRef .tc main_arg1)) = (argsV V0).a1 :=
  (val12_keep V0 main_arg1 (by decide)).trans (val11_main_arg1 V0)
theorem val12_main_arg2 (V0 : Valuation τ sig (Elt Ideal)) : val12 V0 (no_index (Proc.devRef .tc main_arg2)) = (argsV V0).a2 :=
  (val12_keep V0 main_arg2 (by decide)).trans (val11_main_arg2 V0)
theorem val12_main_arg3 (V0 : Valuation τ sig (Elt Ideal)) : val12 V0 (no_index (Proc.devRef .tc main_arg3)) = (argsV V0).a3 :=
  (val12_keep V0 main_arg3 (by decide)).trans (val11_main_arg3 V0)
theorem val12_main_arg4 (V0 : Valuation τ sig (Elt Ideal)) : val12 V0 (no_index (Proc.devRef .tc main_arg4)) = (argsV V0).a4 :=
  (val12_keep V0 main_arg4 (by decide)).trans (val11_main_arg4 V0)
theorem val12_main_arg5 (V0 : Valuation τ sig (Elt Ideal)) : val12 V0 (no_index (Proc.devRef .tc main_arg5)) = (argsV V0).a5 :=
  (val12_keep V0 main_arg5 (by decide)).trans (val11_main_arg5 V0)
theorem val12_main_arg6 (V0 : Valuation τ sig (Elt Ideal)) : val12 V0 (no_index (Proc.devRef .tc main_arg6)) = (argsV V0).a6 :=
  (val12_keep V0 main_arg6 (by decide)).trans (val11_main_arg6 V0)
theorem val12_main_arg7 (V0 : Valuation τ sig (Elt Ideal)) : val12 V0 (no_index (Proc.devRef .tc main_arg7)) = (argsV V0).a7 :=
  (val12_keep V0 main_arg7 (by decide)).trans (val11_main_arg7 V0)
theorem val12_main_arg8 (V0 : Valuation τ sig (Elt Ideal)) : val12 V0 (no_index (Proc.devRef .tc main_arg8)) = (argsV V0).a8 :=
  (val12_keep V0 main_arg8 (by decide)).trans (val11_main_arg8 V0)
theorem val12_main_arg9 (V0 : Valuation τ sig (Elt Ideal)) : val12 V0 (no_index (Proc.devRef .tc main_arg9)) = (argsV V0).a9 :=
  (val12_keep V0 main_arg9 (by decide)).trans (val11_main_arg9 V0)
theorem val12_main_arg10 (V0 : Valuation τ sig (Elt Ideal)) : val12 V0 (no_index (Proc.devRef .tc main_arg10)) = (argsV V0).a10 :=
  (val12_keep V0 main_arg10 (by decide)).trans (val11_main_arg10 V0)
theorem val12_main_arg11 (V0 : Valuation τ sig (Elt Ideal)) : val12 V0 (no_index (Proc.devRef .tc main_arg11)) = (argsV V0).a11 :=
  (val12_keep V0 main_arg11 (by decide)).trans (val11_main_arg11 V0)
theorem val12_main_arg12 (V0 : Valuation τ sig (Elt Ideal)) : val12 V0 (no_index (Proc.devRef .tc main_arg12)) = (argsV V0).a12 :=
  (val12_keep V0 main_arg12 (by decide)).trans (val11_main_arg12 V0)
theorem val12_main_arg13 (V0 : Valuation τ sig (Elt Ideal)) : val12 V0 (no_index (Proc.devRef .tc main_arg13)) = (argsV V0).a13 :=
  (val12_keep V0 main_arg13 (by decide)).trans (val11_main_arg13 V0)
theorem val12_main_arg14 (V0 : Valuation τ sig (Elt Ideal)) : val12 V0 (no_index (Proc.devRef .tc main_arg14)) = (argsV V0).a14 :=
  (val12_keep V0 main_arg14 (by decide)).trans (val11_main_arg14 V0)
theorem val12_main_arg15 (V0 : Valuation τ sig (Elt Ideal)) : val12 V0 (no_index (Proc.devRef .tc main_arg15)) = (argsV V0).a15 :=
  (val12_keep V0 main_arg15 (by decide)).trans (val11_main_arg15 V0)
theorem val12_main_arg16 (V0 : Valuation τ sig (Elt Ideal)) : val12 V0 (no_index (Proc.devRef .tc main_arg16)) = (argsV V0).a16 :=
  (val12_keep V0 main_arg16 (by decide)).trans (val11_main_arg16 V0)
theorem val12_main_arg17 (V0 : Valuation τ sig (Elt Ideal)) : val12 V0 (no_index (Proc.devRef .tc main_arg17)) = (argsV V0).a17 :=
  (val12_keep V0 main_arg17 (by decide)).trans (val11_main_arg17 V0)
theorem val12_main_arg18 (V0 : Valuation τ sig (Elt Ideal)) : val12 V0 (no_index (Proc.devRef .tc main_arg18)) = (argsV V0).a18 :=
  (val12_keep V0 main_arg18 (by decide)).trans (val11_main_arg18 V0)
theorem val12_main_arg19 (V0 : Valuation τ sig (Elt Ideal)) : val12 V0 (no_index (Proc.devRef .tc main_arg19)) = (argsV V0).a19 :=
  (val12_keep V0 main_arg19 (by decide)).trans (val11_main_arg19 V0)
theorem val12_main_arg20 (V0 : Valuation τ sig (Elt Ideal)) : val12 V0 (no_index (Proc.devRef .tc main_arg20)) = (argsV V0).a20 :=
  (val12_keep V0 main_arg20 (by decide)).trans (val11_main_arg20 V0)
theorem val12_main_arg21 (V0 : Valuation τ sig (Elt Ideal)) : val12 V0 (no_index (Proc.devRef .tc main_arg21)) = (argsV V0).a21 :=
  (val12_keep V0 main_arg21 (by decide)).trans (val11_main_arg21 V0)
theorem val12_main_arg22 (V0 : Valuation τ sig (Elt Ideal)) : val12 V0 (no_index (Proc.devRef .tc main_arg22)) = (argsV V0).a22 :=
  (val12_keep V0 main_arg22 (by decide)).trans (val11_main_arg22 V0)
theorem val12_main_arg23 (V0 : Valuation τ sig (Elt Ideal)) : val12 V0 (no_index (Proc.devRef .tc main_arg23)) = (argsV V0).a23 :=
  (val12_keep V0 main_arg23 (by decide)).trans (val11_main_arg23 V0)
theorem val12_main_v197 (V0 : Valuation τ sig (Elt Ideal)) : val12 V0 (no_index (Proc.devRef .tc main_v197)) = r_v197 (argsV V0) :=
  (val12_keep V0 main_v197 (by decide)).trans (val11_main_v197 V0)
theorem val12_main_v198 (V0 : Valuation τ sig (Elt Ideal)) : val12 V0 (no_index (Proc.devRef .tc main_v198)) = r_v198 (argsV V0) :=
  (val12_keep V0 main_v198 (by decide)).trans (val11_main_v198 V0)
set_option maxRecDepth 8192 in
set_option maxHeartbeats 2200000 in
theorem val12_main_v226 (V0 : Valuation τ sig (Elt Ideal)) : val12 V0 (no_index (Proc.devRef .tc main_v226)) = r_v226 (argsV V0) := by
  unfold val12
  simp only [w11]
  after_results_simp
  simp only [val11_main_arg17, val11_main_arg16, val11_main_arg15, val11_main_v208] <;> rfl

/-- The device's buffer contents after the first 13 stretches. -/
def val13 (V0 : Valuation τ sig (Elt Ideal)) : Valuation τ sig (Elt Ideal) := after (w12 (F := Ideal)) (val12 V0)
/-- A buffer that stretch 12 does not write keeps its contents through it. -/
theorem val13_keep (V0 : Valuation τ sig (Elt Ideal)) (r : Ref sig .tc) (h : r ∉ w12_W) :
    val13 V0 (Proc.devRef .tc r) = val12 V0 (Proc.devRef .tc r) :=
  after_of_writes_sub (w12 (F := Ideal)) _ w12_writes h
theorem val13_main_arg0 (V0 : Valuation τ sig (Elt Ideal)) : val13 V0 (no_index (Proc.devRef .tc main_arg0)) = (argsV V0).a0 :=
  (val13_keep V0 main_arg0 (by decide)).trans (val12_main_arg0 V0)
theorem val13_main_arg1 (V0 : Valuation τ sig (Elt Ideal)) : val13 V0 (no_index (Proc.devRef .tc main_arg1)) = (argsV V0).a1 :=
  (val13_keep V0 main_arg1 (by decide)).trans (val12_main_arg1 V0)
theorem val13_main_arg2 (V0 : Valuation τ sig (Elt Ideal)) : val13 V0 (no_index (Proc.devRef .tc main_arg2)) = (argsV V0).a2 :=
  (val13_keep V0 main_arg2 (by decide)).trans (val12_main_arg2 V0)
theorem val13_main_arg3 (V0 : Valuation τ sig (Elt Ideal)) : val13 V0 (no_index (Proc.devRef .tc main_arg3)) = (argsV V0).a3 :=
  (val13_keep V0 main_arg3 (by decide)).trans (val12_main_arg3 V0)
theorem val13_main_arg4 (V0 : Valuation τ sig (Elt Ideal)) : val13 V0 (no_index (Proc.devRef .tc main_arg4)) = (argsV V0).a4 :=
  (val13_keep V0 main_arg4 (by decide)).trans (val12_main_arg4 V0)
theorem val13_main_arg5 (V0 : Valuation τ sig (Elt Ideal)) : val13 V0 (no_index (Proc.devRef .tc main_arg5)) = (argsV V0).a5 :=
  (val13_keep V0 main_arg5 (by decide)).trans (val12_main_arg5 V0)
theorem val13_main_arg6 (V0 : Valuation τ sig (Elt Ideal)) : val13 V0 (no_index (Proc.devRef .tc main_arg6)) = (argsV V0).a6 :=
  (val13_keep V0 main_arg6 (by decide)).trans (val12_main_arg6 V0)
theorem val13_main_arg7 (V0 : Valuation τ sig (Elt Ideal)) : val13 V0 (no_index (Proc.devRef .tc main_arg7)) = (argsV V0).a7 :=
  (val13_keep V0 main_arg7 (by decide)).trans (val12_main_arg7 V0)
theorem val13_main_arg8 (V0 : Valuation τ sig (Elt Ideal)) : val13 V0 (no_index (Proc.devRef .tc main_arg8)) = (argsV V0).a8 :=
  (val13_keep V0 main_arg8 (by decide)).trans (val12_main_arg8 V0)
theorem val13_main_arg9 (V0 : Valuation τ sig (Elt Ideal)) : val13 V0 (no_index (Proc.devRef .tc main_arg9)) = (argsV V0).a9 :=
  (val13_keep V0 main_arg9 (by decide)).trans (val12_main_arg9 V0)
theorem val13_main_arg10 (V0 : Valuation τ sig (Elt Ideal)) : val13 V0 (no_index (Proc.devRef .tc main_arg10)) = (argsV V0).a10 :=
  (val13_keep V0 main_arg10 (by decide)).trans (val12_main_arg10 V0)
theorem val13_main_arg11 (V0 : Valuation τ sig (Elt Ideal)) : val13 V0 (no_index (Proc.devRef .tc main_arg11)) = (argsV V0).a11 :=
  (val13_keep V0 main_arg11 (by decide)).trans (val12_main_arg11 V0)
theorem val13_main_arg12 (V0 : Valuation τ sig (Elt Ideal)) : val13 V0 (no_index (Proc.devRef .tc main_arg12)) = (argsV V0).a12 :=
  (val13_keep V0 main_arg12 (by decide)).trans (val12_main_arg12 V0)
theorem val13_main_arg13 (V0 : Valuation τ sig (Elt Ideal)) : val13 V0 (no_index (Proc.devRef .tc main_arg13)) = (argsV V0).a13 :=
  (val13_keep V0 main_arg13 (by decide)).trans (val12_main_arg13 V0)
theorem val13_main_arg14 (V0 : Valuation τ sig (Elt Ideal)) : val13 V0 (no_index (Proc.devRef .tc main_arg14)) = (argsV V0).a14 :=
  (val13_keep V0 main_arg14 (by decide)).trans (val12_main_arg14 V0)
theorem val13_main_arg15 (V0 : Valuation τ sig (Elt Ideal)) : val13 V0 (no_index (Proc.devRef .tc main_arg15)) = (argsV V0).a15 :=
  (val13_keep V0 main_arg15 (by decide)).trans (val12_main_arg15 V0)
theorem val13_main_arg16 (V0 : Valuation τ sig (Elt Ideal)) : val13 V0 (no_index (Proc.devRef .tc main_arg16)) = (argsV V0).a16 :=
  (val13_keep V0 main_arg16 (by decide)).trans (val12_main_arg16 V0)
theorem val13_main_arg17 (V0 : Valuation τ sig (Elt Ideal)) : val13 V0 (no_index (Proc.devRef .tc main_arg17)) = (argsV V0).a17 :=
  (val13_keep V0 main_arg17 (by decide)).trans (val12_main_arg17 V0)
theorem val13_main_arg18 (V0 : Valuation τ sig (Elt Ideal)) : val13 V0 (no_index (Proc.devRef .tc main_arg18)) = (argsV V0).a18 :=
  (val13_keep V0 main_arg18 (by decide)).trans (val12_main_arg18 V0)
theorem val13_main_arg19 (V0 : Valuation τ sig (Elt Ideal)) : val13 V0 (no_index (Proc.devRef .tc main_arg19)) = (argsV V0).a19 :=
  (val13_keep V0 main_arg19 (by decide)).trans (val12_main_arg19 V0)
theorem val13_main_arg20 (V0 : Valuation τ sig (Elt Ideal)) : val13 V0 (no_index (Proc.devRef .tc main_arg20)) = (argsV V0).a20 :=
  (val13_keep V0 main_arg20 (by decide)).trans (val12_main_arg20 V0)
theorem val13_main_arg21 (V0 : Valuation τ sig (Elt Ideal)) : val13 V0 (no_index (Proc.devRef .tc main_arg21)) = (argsV V0).a21 :=
  (val13_keep V0 main_arg21 (by decide)).trans (val12_main_arg21 V0)
theorem val13_main_arg22 (V0 : Valuation τ sig (Elt Ideal)) : val13 V0 (no_index (Proc.devRef .tc main_arg22)) = (argsV V0).a22 :=
  (val13_keep V0 main_arg22 (by decide)).trans (val12_main_arg22 V0)
theorem val13_main_arg23 (V0 : Valuation τ sig (Elt Ideal)) : val13 V0 (no_index (Proc.devRef .tc main_arg23)) = (argsV V0).a23 :=
  (val13_keep V0 main_arg23 (by decide)).trans (val12_main_arg23 V0)
theorem val13_main_v197 (V0 : Valuation τ sig (Elt Ideal)) : val13 V0 (no_index (Proc.devRef .tc main_v197)) = r_v197 (argsV V0) :=
  (val13_keep V0 main_v197 (by decide)).trans (val12_main_v197 V0)
theorem val13_main_v226 (V0 : Valuation τ sig (Elt Ideal)) : val13 V0 (no_index (Proc.devRef .tc main_v226)) = r_v226 (argsV V0) :=
  (val13_keep V0 main_v226 (by decide)).trans (val12_main_v226 V0)
set_option maxRecDepth 8192 in
set_option maxHeartbeats 4000000 in
theorem val13_main_v249 (V0 : Valuation τ sig (Elt Ideal)) : val13 V0 (no_index (Proc.devRef .tc main_v249)) = r_v249 (argsV V0) := by
  unfold val13
  simp only [w12]
  after_results_simp
  simp only [val12_main_arg23, val12_main_arg22, val12_main_arg21, val12_main_arg20, val12_main_arg19, val12_main_arg18, val12_main_v198] <;> rfl

end Cert.ReferenceIdeal.RefRun

end
-- ==== Proof.RefRun.lean ====
/- The reference's run and frame: every weakly fair execution of @main terminates without a fault, its three results
   at the stages' values of the argument arrays and the argument arrays unchanged. -/
import proofs.«115478_j10110353015360_2_alg».proof.Proof.RefRunC
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

/-- The buffer contents after all of @main's operations are those after its thirteen stretches in turn. -/
theorem after_ops (V0 : Valuation τ sig (Elt Ideal)) : after (ops (F := Ideal)) V0 = val13 V0 := by
  simp only [ops, after_append]
  rfl

set_option maxRecDepth 8192 in
/-- On every device, from any memory with zero counters: every weakly fair execution of @main terminates with the
    reconstructed adjacency, the class head's and the scan head's outputs at their stages' values of the argument
    arrays, and the 24 argument arrays unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      (r.2.mem ((c.tc : Thread nD τ).loc main_v197) = refAE (args m c)
        ∧ r.2.mem ((c.tc : Thread nD τ).loc main_v226) = Cert.Heads.headCls (refZ (args m c)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
        ∧ r.2.mem ((c.tc : Thread nD τ).loc main_v249) = Cert.Heads.headScan (refZ (args m c)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))) :=
  (θ_run defs _ _).mono (fun _ h c => ⟨⟨(h c main_v197).trans (by simp only [after_ops]; exact val13_main_v197 (launchContents m c)),
      (h c main_v226).trans (by simp only [after_ops]; exact val13_main_v226 (launchContents m c)),
      (h c main_v249).trans (by simp only [after_ops]; exact val13_main_v249 (launchContents m c))⟩,
      (h c main_arg0).trans (by simp only [after_ops]; exact val13_main_arg0 (launchContents m c)),
      (h c main_arg1).trans (by simp only [after_ops]; exact val13_main_arg1 (launchContents m c)),
      (h c main_arg2).trans (by simp only [after_ops]; exact val13_main_arg2 (launchContents m c)),
      (h c main_arg3).trans (by simp only [after_ops]; exact val13_main_arg3 (launchContents m c)),
      (h c main_arg4).trans (by simp only [after_ops]; exact val13_main_arg4 (launchContents m c)),
      (h c main_arg5).trans (by simp only [after_ops]; exact val13_main_arg5 (launchContents m c)),
      (h c main_arg6).trans (by simp only [after_ops]; exact val13_main_arg6 (launchContents m c)),
      (h c main_arg7).trans (by simp only [after_ops]; exact val13_main_arg7 (launchContents m c)),
      (h c main_arg8).trans (by simp only [after_ops]; exact val13_main_arg8 (launchContents m c)),
      (h c main_arg9).trans (by simp only [after_ops]; exact val13_main_arg9 (launchContents m c)),
      (h c main_arg10).trans (by simp only [after_ops]; exact val13_main_arg10 (launchContents m c)),
      (h c main_arg11).trans (by simp only [after_ops]; exact val13_main_arg11 (launchContents m c)),
      (h c main_arg12).trans (by simp only [after_ops]; exact val13_main_arg12 (launchContents m c)),
      (h c main_arg13).trans (by simp only [after_ops]; exact val13_main_arg13 (launchContents m c)),
      (h c main_arg14).trans (by simp only [after_ops]; exact val13_main_arg14 (launchContents m c)),
      (h c main_arg15).trans (by simp only [after_ops]; exact val13_main_arg15 (launchContents m c)),
      (h c main_arg16).trans (by simp only [after_ops]; exact val13_main_arg16 (launchContents m c)),
      (h c main_arg17).trans (by simp only [after_ops]; exact val13_main_arg17 (launchContents m c)),
      (h c main_arg18).trans (by simp only [after_ops]; exact val13_main_arg18 (launchContents m c)),
      (h c main_arg19).trans (by simp only [after_ops]; exact val13_main_arg19 (launchContents m c)),
      (h c main_arg20).trans (by simp only [after_ops]; exact val13_main_arg20 (launchContents m c)),
      (h c main_arg21).trans (by simp only [after_ops]; exact val13_main_arg21 (launchContents m c)),
      (h c main_arg22).trans (by simp only [after_ops]; exact val13_main_arg22 (launchContents m c)),
      (h c main_arg23).trans (by simp only [after_ops]; exact val13_main_arg23 (launchContents m c))⟩)
    (run_seq scopedRefs_eq scopedSems_eq defs main (fun _ => ops) main_eq (fun _ => ops_sub) m ρ (fun _ => ops_fresh))

/-- The reference's frame: it runs to the end, faults nowhere, and leaves its argument arrays unchanged. -/
theorem frame (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)) :=
  (θ_run defs _ _).mono (fun _ h c => (h c).2) (run m ρ)

end Cert.ReferenceIdeal.RefRun

end
-- ==== Proof.KIValueBlocks.lean ====
/- The kernel program's two output arrays after the run, read element by element: the block of batch member `b` of each
   is what the body leaves for that member's blocks of the two batched inputs and the whole parameter arrays. -/
import proofs.«115478_j10110353015360_2_alg».proof.Proof.KIFrameRun
import Idealize.ShloMosaic.Lib.Pipeline.Value
import Idealize.ShloMosaic.Lib.ValueIdx
import Idealize.ShloMosaic.PureOps.Ideal

set_option maxRecDepth 16384

noncomputable section

namespace Cert.KernelIdeal.HValue

open Cert.KernelIdeal Cert.KernelIdeal.Gen Cert.KernelIdeal.HFrame
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-! ## The printed index maps over the grid -/

/-- The grid's point of batch member `b`. -/
def pt (b : Fin 64) : Fin cfg0.N := ⟨b.val, by rw [show cfg0.N = 64 from N_0]; exact b.isLt⟩

theorem pt_val (b : Fin 64) : (pt b).val = b.val := rfl

/-- The printed index maps, decided over the sixty-four points: the two batched inputs and the two outputs move along
    the batch axis with the point, every parameter array is staged whole. -/
theorem idx_facts : ∀ t : Fin cfg0.N,
    win0_0.index t (0 : Fin 3) = t.val
    ∧ win0_0.index t (1 : Fin 3) = 0
    ∧ win0_0.index t (2 : Fin 3) = 0
    ∧ win0_1.index t (0 : Fin 3) = t.val
    ∧ win0_1.index t (1 : Fin 3) = 0
    ∧ win0_1.index t (2 : Fin 3) = 0
    ∧ win0_12.index t (0 : Fin 3) = t.val
    ∧ win0_12.index t (1 : Fin 3) = 0
    ∧ win0_12.index t (2 : Fin 3) = 0
    ∧ win0_13.index t (0 : Fin 3) = t.val
    ∧ win0_13.index t (1 : Fin 3) = 0
    ∧ win0_13.index t (2 : Fin 3) = 0
    ∧ win0_2.index t (0 : Fin 3) = 0
    ∧ win0_2.index t (1 : Fin 3) = 0
    ∧ win0_2.index t (2 : Fin 3) = 0
    ∧ win0_3.index t (0 : Fin 1) = 0
    ∧ win0_4.index t (0 : Fin 3) = 0
    ∧ win0_4.index t (1 : Fin 3) = 0
    ∧ win0_4.index t (2 : Fin 3) = 0
    ∧ win0_5.index t (0 : Fin 1) = 0
    ∧ win0_6.index t (0 : Fin 3) = 0
    ∧ win0_6.index t (1 : Fin 3) = 0
    ∧ win0_6.index t (2 : Fin 3) = 0
    ∧ win0_7.index t (0 : Fin 1) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = 0
    ∧ win0_11.index t (1 : Fin 2) = 0 :=
  (by decide +kernel : ∀ t : Fin grid0.N, _)

/-- The output windows' index maps send distinct points to distinct blocks. -/
theorem idx_inj12 : ∀ t t' : Fin cfg0.N, win0_12.index t = win0_12.index t' → t = t' :=
  (by decide +kernel : ∀ t t' : Fin grid0.N, win0_12.index t = win0_12.index t' → t = t')
theorem idx_inj13 : ∀ t t' : Fin cfg0.N, win0_13.index t = win0_13.index t' → t = t' :=
  (by decide +kernel : ∀ t t' : Fin grid0.N, win0_13.index t = win0_13.index t' → t = t')

/-- So two points' blocks of an output share no index. -/
theorem disjoint12 : ∀ t t' : Fin cfg0.N, (cfg0.win 12).flush t = true → (cfg0.win 12).flush t' = true → t ≠ t' →
    Disjoint ((cfg0.win 12).blk t).view.set ((cfg0.win 12).blk t').view.set :=
  fun t t' _ _ hne => (cfg0.win 12).disjoint_blk fun h => hne (idx_inj12 t t' h)
theorem disjoint13 : ∀ t t' : Fin cfg0.N, (cfg0.win 13).flush t = true → (cfg0.win 13).flush t' = true → t ≠ t' →
    Disjoint ((cfg0.win 13).blk t).view.set ((cfg0.win 13).blk t').view.set :=
  fun t t' _ _ hne => (cfg0.win 13).disjoint_blk fun h => hne (idx_inj13 t t' h)

/-! ## The arrays and the blocks -/

/-- The first output array after the run. -/
def aeArr (c : Dev nD) : FVec Ideal S64x512x512 .f32 := (dats m 0 c).arrAt 12 cfg0.N
/-- The second output array after the run. -/
def zArr (c : Dev nD) : FVec Ideal S64x1x256 .f32 := (dats m 0 c).arrAt 13 cfg0.N

/-- Batch member `b`'s [1,512,512] block of the first batched input: coordinate 0 of the block is the member's one
    row, coordinates 1 and 2 are the array's. -/
def X0 (c : Dev nD) (b : Fin 64) : Vec Ideal S1x512x512 .f32 :=
  fun y => (m ((c.tc : Thread nD τ).loc main_arg0) : S64x512x512.Idx → Elt Ideal .f32) (ix3 b (y 1 : Fin 512) (y 2 : Fin 512))
/-- The same block of the second batched input. -/
def X1 (c : Dev nD) (b : Fin 64) : Vec Ideal S1x512x512 .f32 :=
  fun y => (m ((c.tc : Thread nD τ).loc main_arg1) : S64x512x512.Idx → Elt Ideal .f32) (ix3 b (y 1 : Fin 512) (y 2 : Fin 512))

/-- The batched input windows' blocks at a point are the member's blocks. -/
theorem iblk0_eq (c : Dev nD) (b : Fin 64) : (iblk m c 0 (pt b) : Vec Ideal S1x512x512 .f32) = X0 m c b := by
  obtain ⟨e0, e1, e2, e3, e4, e5, e6, e7, e8, e9, e10, e11, e12, e13, e14, e15, e16, e17, e18, e19, e20, e21, e22, e23, e24, e25, e26, e27, e28, e29, e30, e31⟩ := idx_facts (pt b)
  funext x
  unfold iblk X0
  rw [View.read_apply]
  show m ((c.tc : Thread nD τ).loc main_arg0) _ = m ((c.tc : Thread nD τ).loc main_arg0) _
  congr 1
  funext a
  apply Fin.ext
  have hx0 : (x 0).val < 1 := (x 0).isLt
  match a with
  | ⟨0, _⟩ => show win0_0.index (pt b) (0 : Fin 3) * 1 + 1 * (x 0).val = b.val; rw [e0, pt_val]; omega
  | ⟨1, _⟩ => show win0_0.index (pt b) (1 : Fin 3) * 512 + 1 * (x 1).val = (x 1).val; rw [e1]; omega
  | ⟨2, _⟩ => show win0_0.index (pt b) (2 : Fin 3) * 512 + 1 * (x 2).val = (x 2).val; rw [e2]; omega
theorem iblk1_eq (c : Dev nD) (b : Fin 64) : (iblk m c 1 (pt b) : Vec Ideal S1x512x512 .f32) = X1 m c b := by
  obtain ⟨e0, e1, e2, e3, e4, e5, e6, e7, e8, e9, e10, e11, e12, e13, e14, e15, e16, e17, e18, e19, e20, e21, e22, e23, e24, e25, e26, e27, e28, e29, e30, e31⟩ := idx_facts (pt b)
  funext x
  unfold iblk X1
  rw [View.read_apply]
  show m ((c.tc : Thread nD τ).loc main_arg1) _ = m ((c.tc : Thread nD τ).loc main_arg1) _
  congr 1
  funext a
  apply Fin.ext
  have hx0 : (x 0).val < 1 := (x 0).isLt
  match a with
  | ⟨0, _⟩ => show win0_1.index (pt b) (0 : Fin 3) * 1 + 1 * (x 0).val = b.val; rw [e3, pt_val]; omega
  | ⟨1, _⟩ => show win0_1.index (pt b) (1 : Fin 3) * 512 + 1 * (x 1).val = (x 1).val; rw [e4]; omega
  | ⟨2, _⟩ => show win0_1.index (pt b) (2 : Fin 3) * 512 + 1 * (x 2).val = (x 2).val; rw [e5]; omega

/-! Every parameter window's block, at any point, is its whole array as launched. -/
theorem iblk2_eq (c : Dev nD) (t : Fin cfg0.N) : (iblk m c 2 t : Vec Ideal S6x512x64 .f32) = m ((c.tc : Thread nD τ).loc main_arg2) := by
  obtain ⟨e0, e1, e2, e3, e4, e5, e6, e7, e8, e9, e10, e11, e12, e13, e14, e15, e16, e17, e18, e19, e20, e21, e22, e23, e24, e25, e26, e27, e28, e29, e30, e31⟩ := idx_facts t
  funext x
  unfold iblk
  rw [View.read_apply]
  show m ((c.tc : Thread nD τ).loc main_arg2) _ = m ((c.tc : Thread nD τ).loc main_arg2) _
  congr 1
  funext a
  apply Fin.ext
  match a with
  | ⟨0, _⟩ => show win0_2.index t (0 : Fin 3) * 6 + 1 * (x 0).val = (x 0).val; rw [e12]; omega
  | ⟨1, _⟩ => show win0_2.index t (1 : Fin 3) * 512 + 1 * (x 1).val = (x 1).val; rw [e13]; omega
  | ⟨2, _⟩ => show win0_2.index t (2 : Fin 3) * 64 + 1 * (x 2).val = (x 2).val; rw [e14]; omega
theorem iblk3_eq (c : Dev nD) (t : Fin cfg0.N) : (iblk m c 3 t : Vec Ideal S64 .f32) = m ((c.tc : Thread nD τ).loc main_arg3) := by
  obtain ⟨e0, e1, e2, e3, e4, e5, e6, e7, e8, e9, e10, e11, e12, e13, e14, e15, e16, e17, e18, e19, e20, e21, e22, e23, e24, e25, e26, e27, e28, e29, e30, e31⟩ := idx_facts t
  funext x
  unfold iblk
  rw [View.read_apply]
  show m ((c.tc : Thread nD τ).loc main_arg3) _ = m ((c.tc : Thread nD τ).loc main_arg3) _
  congr 1
  funext a
  apply Fin.ext
  match a with
  | ⟨0, _⟩ => show win0_3.index t (0 : Fin 1) * 64 + 1 * (x 0).val = (x 0).val; rw [e15]; omega
theorem iblk4_eq (c : Dev nD) (t : Fin cfg0.N) : (iblk m c 4 t : Vec Ideal S6x64x64 .f32) = m ((c.tc : Thread nD τ).loc main_arg4) := by
  obtain ⟨e0, e1, e2, e3, e4, e5, e6, e7, e8, e9, e10, e11, e12, e13, e14, e15, e16, e17, e18, e19, e20, e21, e22, e23, e24, e25, e26, e27, e28, e29, e30, e31⟩ := idx_facts t
  funext x
  unfold iblk
  rw [View.read_apply]
  show m ((c.tc : Thread nD τ).loc main_arg4) _ = m ((c.tc : Thread nD τ).loc main_arg4) _
  congr 1
  funext a
  apply Fin.ext
  match a with
  | ⟨0, _⟩ => show win0_4.index t (0 : Fin 3) * 6 + 1 * (x 0).val = (x 0).val; rw [e16]; omega
  | ⟨1, _⟩ => show win0_4.index t (1 : Fin 3) * 64 + 1 * (x 1).val = (x 1).val; rw [e17]; omega
  | ⟨2, _⟩ => show win0_4.index t (2 : Fin 3) * 64 + 1 * (x 2).val = (x 2).val; rw [e18]; omega
theorem iblk5_eq (c : Dev nD) (t : Fin cfg0.N) : (iblk m c 5 t : Vec Ideal S64 .f32) = m ((c.tc : Thread nD τ).loc main_arg5) := by
  obtain ⟨e0, e1, e2, e3, e4, e5, e6, e7, e8, e9, e10, e11, e12, e13, e14, e15, e16, e17, e18, e19, e20, e21, e22, e23, e24, e25, e26, e27, e28, e29, e30, e31⟩ := idx_facts t
  funext x
  unfold iblk
  rw [View.read_apply]
  show m ((c.tc : Thread nD τ).loc main_arg5) _ = m ((c.tc : Thread nD τ).loc main_arg5) _
  congr 1
  funext a
  apply Fin.ext
  match a with
  | ⟨0, _⟩ => show win0_5.index t (0 : Fin 1) * 64 + 1 * (x 0).val = (x 0).val; rw [e19]; omega
theorem iblk6_eq (c : Dev nD) (t : Fin cfg0.N) : (iblk m c 6 t : Vec Ideal S6x64x64 .f32) = m ((c.tc : Thread nD τ).loc main_arg6) := by
  obtain ⟨e0, e1, e2, e3, e4, e5, e6, e7, e8, e9, e10, e11, e12, e13, e14, e15, e16, e17, e18, e19, e20, e21, e22, e23, e24, e25, e26, e27, e28, e29, e30, e31⟩ := idx_facts t
  funext x
  unfold iblk
  rw [View.read_apply]
  show m ((c.tc : Thread nD τ).loc main_arg6) _ = m ((c.tc : Thread nD τ).loc main_arg6) _
  congr 1
  funext a
  apply Fin.ext
  match a with
  | ⟨0, _⟩ => show win0_6.index t (0 : Fin 3) * 6 + 1 * (x 0).val = (x 0).val; rw [e20]; omega
  | ⟨1, _⟩ => show win0_6.index t (1 : Fin 3) * 64 + 1 * (x 1).val = (x 1).val; rw [e21]; omega
  | ⟨2, _⟩ => show win0_6.index t (2 : Fin 3) * 64 + 1 * (x 2).val = (x 2).val; rw [e22]; omega
theorem iblk7_eq (c : Dev nD) (t : Fin cfg0.N) : (iblk m c 7 t : Vec Ideal S64 .f32) = m ((c.tc : Thread nD τ).loc main_arg7) := by
  obtain ⟨e0, e1, e2, e3, e4, e5, e6, e7, e8, e9, e10, e11, e12, e13, e14, e15, e16, e17, e18, e19, e20, e21, e22, e23, e24, e25, e26, e27, e28, e29, e30, e31⟩ := idx_facts t
  funext x
  unfold iblk
  rw [View.read_apply]
  show m ((c.tc : Thread nD τ).loc main_arg7) _ = m ((c.tc : Thread nD τ).loc main_arg7) _
  congr 1
  funext a
  apply Fin.ext
  match a with
  | ⟨0, _⟩ => show win0_7.index t (0 : Fin 1) * 64 + 1 * (x 0).val = (x 0).val; rw [e23]; omega
theorem iblk8_eq (c : Dev nD) (t : Fin cfg0.N) : (iblk m c 8 t : Vec Ideal S512x64 .f32) = m ((c.tc : Thread nD τ).loc main_arg8) := by
  obtain ⟨e0, e1, e2, e3, e4, e5, e6, e7, e8, e9, e10, e11, e12, e13, e14, e15, e16, e17, e18, e19, e20, e21, e22, e23, e24, e25, e26, e27, e28, e29, e30, e31⟩ := idx_facts t
  funext x
  unfold iblk
  rw [View.read_apply]
  show m ((c.tc : Thread nD τ).loc main_arg8) _ = m ((c.tc : Thread nD τ).loc main_arg8) _
  congr 1
  funext a
  apply Fin.ext
  match a with
  | ⟨0, _⟩ => show win0_8.index t (0 : Fin 2) * 512 + 1 * (x 0).val = (x 0).val; rw [e24]; omega
  | ⟨1, _⟩ => show win0_8.index t (1 : Fin 2) * 64 + 1 * (x 1).val = (x 1).val; rw [e25]; omega
theorem iblk9_eq (c : Dev nD) (t : Fin cfg0.N) : (iblk m c 9 t : Vec Ideal S512x64 .f32) = m ((c.tc : Thread nD τ).loc main_arg9) := by
  obtain ⟨e0, e1, e2, e3, e4, e5, e6, e7, e8, e9, e10, e11, e12, e13, e14, e15, e16, e17, e18, e19, e20, e21, e22, e23, e24, e25, e26, e27, e28, e29, e30, e31⟩ := idx_facts t
  funext x
  unfold iblk
  rw [View.read_apply]
  show m ((c.tc : Thread nD τ).loc main_arg9) _ = m ((c.tc : Thread nD τ).loc main_arg9) _
  congr 1
  funext a
  apply Fin.ext
  match a with
  | ⟨0, _⟩ => show win0_9.index t (0 : Fin 2) * 512 + 1 * (x 0).val = (x 0).val; rw [e26]; omega
  | ⟨1, _⟩ => show win0_9.index t (1 : Fin 2) * 64 + 1 * (x 1).val = (x 1).val; rw [e27]; omega
theorem iblk10_eq (c : Dev nD) (t : Fin cfg0.N) : (iblk m c 10 t : Vec Ideal S512x64 .f32) = m ((c.tc : Thread nD τ).loc main_arg10) := by
  obtain ⟨e0, e1, e2, e3, e4, e5, e6, e7, e8, e9, e10, e11, e12, e13, e14, e15, e16, e17, e18, e19, e20, e21, e22, e23, e24, e25, e26, e27, e28, e29, e30, e31⟩ := idx_facts t
  funext x
  unfold iblk
  rw [View.read_apply]
  show m ((c.tc : Thread nD τ).loc main_arg10) _ = m ((c.tc : Thread nD τ).loc main_arg10) _
  congr 1
  funext a
  apply Fin.ext
  match a with
  | ⟨0, _⟩ => show win0_10.index t (0 : Fin 2) * 512 + 1 * (x 0).val = (x 0).val; rw [e28]; omega
  | ⟨1, _⟩ => show win0_10.index t (1 : Fin 2) * 64 + 1 * (x 1).val = (x 1).val; rw [e29]; omega
theorem iblk11_eq (c : Dev nD) (t : Fin cfg0.N) : (iblk m c 11 t : Vec Ideal S512x64 .f32) = m ((c.tc : Thread nD τ).loc main_arg11) := by
  obtain ⟨e0, e1, e2, e3, e4, e5, e6, e7, e8, e9, e10, e11, e12, e13, e14, e15, e16, e17, e18, e19, e20, e21, e22, e23, e24, e25, e26, e27, e28, e29, e30, e31⟩ := idx_facts t
  funext x
  unfold iblk
  rw [View.read_apply]
  show m ((c.tc : Thread nD τ).loc main_arg11) _ = m ((c.tc : Thread nD τ).loc main_arg11) _
  congr 1
  funext a
  apply Fin.ext
  match a with
  | ⟨0, _⟩ => show win0_11.index t (0 : Fin 2) * 512 + 1 * (x 0).val = (x 0).val; rw [e30]; omega
  | ⟨1, _⟩ => show win0_11.index t (1 : Fin 2) * 64 + 1 * (x 1).val = (x 1).val; rw [e31]; omega

/-! ## The output arrays, element by element -/

/-- An element of batch member `b`'s block of the first output sits in the array at row `b`. -/
theorem emb12 (b : Fin 64) (i j : Fin 512) :
    ((cfg0.win 12).blk (pt b)).view.emb (ix3 (0 : Fin 1) i j) = (ix3 b i j : S64x512x512.Idx) := by
  obtain ⟨e0, e1, e2, e3, e4, e5, e6, e7, e8, e9, e10, e11, e12, e13, e14, e15, e16, e17, e18, e19, e20, e21, e22, e23, e24, e25, e26, e27, e28, e29, e30, e31⟩ := idx_facts (pt b)
  funext a
  apply Fin.ext
  match a with
  | ⟨0, _⟩ => show win0_12.index (pt b) (0 : Fin 3) * 1 + 1 * 0 = b.val; rw [e6, pt_val]; omega
  | ⟨1, _⟩ => show win0_12.index (pt b) (1 : Fin 3) * 512 + 1 * i.val = i.val; rw [e7]; omega
  | ⟨2, _⟩ => show win0_12.index (pt b) (2 : Fin 3) * 512 + 1 * j.val = j.val; rw [e8]; omega
theorem emb13 (b : Fin 64) (q : Fin 256) :
    ((cfg0.win 13).blk (pt b)).view.emb (ix3 (0 : Fin 1) (0 : Fin 1) q) = (ix3 b (0 : Fin 1) q : S64x1x256.Idx) := by
  obtain ⟨e0, e1, e2, e3, e4, e5, e6, e7, e8, e9, e10, e11, e12, e13, e14, e15, e16, e17, e18, e19, e20, e21, e22, e23, e24, e25, e26, e27, e28, e29, e30, e31⟩ := idx_facts (pt b)
  funext a
  apply Fin.ext
  match a with
  | ⟨0, _⟩ => show win0_13.index (pt b) (0 : Fin 3) * 1 + 1 * 0 = b.val; rw [e9, pt_val]; omega
  | ⟨1, _⟩ => show win0_13.index (pt b) (1 : Fin 3) * 1 + 1 * 0 = 0; rw [e10]
  | ⟨2, _⟩ => show win0_13.index (pt b) (2 : Fin 3) * 256 + 1 * q.val = q.val; rw [e11]; omega

/-- What point `pt b` writes back to the first output is the body's result for member `b`'s blocks. -/
theorem flushed12_eq (c : Dev nD) (b : Fin 64) :
    (dats m 0 c).flushed 12 (pt b) = out0_12 (X0 m c b) (X1 m c b) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show (cfg0.win 12).cut (grid0.coords (pt b)) ((dats m 0 c).after 12 (pt b)) = _
  rw [after0_12, iblk0_eq, iblk1_eq, iblk2_eq, iblk3_eq, iblk4_eq, iblk5_eq, iblk6_eq, iblk7_eq, iblk8_eq, iblk9_eq, iblk10_eq, iblk11_eq]
  rfl
theorem flushed13_eq (c : Dev nD) (b : Fin 64) :
    (dats m 0 c).flushed 13 (pt b) = out0_13 (X0 m c b) (X1 m c b) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  show (cfg0.win 13).cut (grid0.coords (pt b)) ((dats m 0 c).after 13 (pt b)) = _
  rw [after0_13, iblk0_eq, iblk1_eq, iblk2_eq, iblk3_eq, iblk4_eq, iblk5_eq, iblk6_eq, iblk7_eq, iblk8_eq, iblk9_eq, iblk10_eq, iblk11_eq]
  rfl

/-- THE FIRST OUTPUT ARRAY, element by element. -/
theorem aeArr_apply (c : Dev nD) (b : Fin 64) (i j : Fin 512) :
    aeArr m c (ix3 b i j) = out0_12 (X0 m c b) (X1 m c b) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix3 (0 : Fin 1) i j) := by
  unfold aeArr
  rw [← emb12 b i j]
  refine ((dats m 0 c).arrAt_emb_eq_flushed 12 disjoint12 (pt b) (flush0_12 (pt b)) (ix3 (0 : Fin 1) i j)).trans ?_
  show (dats m 0 c).flushed 12 (pt b) (ix3 (0 : Fin 1) i j) = _
  rw [flushed12_eq]

/-- THE SECOND OUTPUT ARRAY, element by element. -/
theorem zArr_apply (c : Dev nD) (b : Fin 64) (q : Fin 256) :
    zArr m c (ix3 b (0 : Fin 1) q) = out0_13 (X0 m c b) (X1 m c b) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (ix3 (0 : Fin 1) (0 : Fin 1) q) := by
  unfold zArr
  rw [← emb13 b q]
  refine ((dats m 0 c).arrAt_emb_eq_flushed 13 disjoint13 (pt b) (flush0_13 (pt b)) (ix3 (0 : Fin 1) (0 : Fin 1) q)).trans ?_
  show (dats m 0 c).flushed 13 (pt b) (ix3 (0 : Fin 1) (0 : Fin 1) q) = _
  rw [flushed13_eq]

end Cert.KernelIdeal.HValue

end
-- ==== Proof.KIValueRun.lean ====
/- The kernel program's run at the ideal instance with its three results named: the first output array, and the two
   read-out heads of the second output array flattened to 64 x 256, the argument arrays unchanged. -/
import proofs.«115478_j10110353015360_2_alg».proof.Proof.KIValueBlocks
import proofs.«115478_j10110353015360_2_alg».proof.Proof.Heads
import Idealize.ShloMosaic.Lib.StableHlo.Run

set_option maxRecDepth 16384

noncomputable section

namespace Cert.KernelIdeal.HValue

open Cert.KernelIdeal Cert.KernelIdeal.Gen Cert.KernelIdeal.HFrame
open Idealize.ShloMosaic Idealize.ShloMosaic.TcCoe Idealize.SL.Sem
open Idealize.ShloMosaic.Pipeline (Dat)
open Idealize.ShloMosaic.ValueIdx

variable (m : (ℓ : Loc nD τ sig) → Buf (Elt Ideal) ℓ) (ρ : Dev nD → PrngReg)

/-- The second output array as a 64 x 256 matrix: the first operation after the region. -/
def zFlat (c : Dev nD) : FVec Ideal S64x256 .f32 := shapeCast S64x256 (zArr m c) shapeCasts_S64x1x256_S64x256

set_option maxHeartbeats 4000000 in
/-- The class head's result after the operations that follow the region. -/
theorem tail_cls (c : Dev nD) :
    Pipeline.afterTail₀ cfgs (dats m) 0 (V0 m) [hostOps1, hostOps1_1, hostOps1_2, hostOps1_3, hostOps1_4, hostOps1_5, hostOps1_6, hostOps1_7, hostOps1_8, hostOps1_9] c main_v29
      = Cert.Heads.headCls (zFlat m c) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) := by
  unfold Pipeline.afterTail₀
  simp only [hostOps1, hostOps1_1, hostOps1_2, hostOps1_3, hostOps1_4, hostOps1_5, hostOps1_6, hostOps1_7, hostOps1_8, hostOps1_9, List.flatten_cons, List.flatten_nil, List.append_nil, List.cons_append, List.nil_append]
  after_results_simp
  have hz : Pipeline.withArrays spec0 c (V0 m c) (fun w => (dats m 0 c).arrAt w cfg0.N) (Proc.devRef .tc main_v0_1) = zArr m c :=
    Pipeline.withArrays_arr spec0 launch0.win.arr_inj c (V0 m c) (fun w => (dats m 0 c).arrAt w cfg0.N) 13
  have h12 : Pipeline.withArrays spec0 c (V0 m c) (fun w => (dats m 0 c).arrAt w cfg0.N) (Proc.devRef .tc main_arg12) = m ((c.tc : Thread nD τ).loc main_arg12) :=
    Pipeline.withArrays_of_ne spec0 c (V0 m c) _ main_arg12 (by exact (by decide : ∀ w, Pipeline.arrRef spec0 w ≠ main_arg12))
  have h13 : Pipeline.withArrays spec0 c (V0 m c) (fun w => (dats m 0 c).arrAt w cfg0.N) (Proc.devRef .tc main_arg13) = m ((c.tc : Thread nD τ).loc main_arg13) :=
    Pipeline.withArrays_of_ne spec0 c (V0 m c) _ main_arg13 (by exact (by decide : ∀ w, Pipeline.arrRef spec0 w ≠ main_arg13))
  have h14 : Pipeline.withArrays spec0 c (V0 m c) (fun w => (dats m 0 c).arrAt w cfg0.N) (Proc.devRef .tc main_arg14) = m ((c.tc : Thread nD τ).loc main_arg14) :=
    Pipeline.withArrays_of_ne spec0 c (V0 m c) _ main_arg14 (by exact (by decide : ∀ w, Pipeline.arrRef spec0 w ≠ main_arg14))
  have h15 : Pipeline.withArrays spec0 c (V0 m c) (fun w => (dats m 0 c).arrAt w cfg0.N) (Proc.devRef .tc main_arg15) = m ((c.tc : Thread nD τ).loc main_arg15) :=
    Pipeline.withArrays_of_ne spec0 c (V0 m c) _ main_arg15 (by exact (by decide : ∀ w, Pipeline.arrRef spec0 w ≠ main_arg15))
  have h16 : Pipeline.withArrays spec0 c (V0 m c) (fun w => (dats m 0 c).arrAt w cfg0.N) (Proc.devRef .tc main_arg16) = m ((c.tc : Thread nD τ).loc main_arg16) :=
    Pipeline.withArrays_of_ne spec0 c (V0 m c) _ main_arg16 (by exact (by decide : ∀ w, Pipeline.arrRef spec0 w ≠ main_arg16))
  have h17 : Pipeline.withArrays spec0 c (V0 m c) (fun w => (dats m 0 c).arrAt w cfg0.N) (Proc.devRef .tc main_arg17) = m ((c.tc : Thread nD τ).loc main_arg17) :=
    Pipeline.withArrays_of_ne spec0 c (V0 m c) _ main_arg17 (by exact (by decide : ∀ w, Pipeline.arrRef spec0 w ≠ main_arg17))
  rw [hz, h12, h13, h14, h15, h16, h17]
  rfl

set_option maxHeartbeats 4000000 in
/-- The scan head's result after the operations that follow the region. -/
theorem tail_scan (c : Dev nD) :
    Pipeline.afterTail₀ cfgs (dats m) 0 (V0 m) [hostOps1, hostOps1_1, hostOps1_2, hostOps1_3, hostOps1_4, hostOps1_5, hostOps1_6, hostOps1_7, hostOps1_8, hostOps1_9] c main_v52
      = Cert.Heads.headScan (zFlat m c) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)) := by
  unfold Pipeline.afterTail₀
  simp only [hostOps1, hostOps1_1, hostOps1_2, hostOps1_3, hostOps1_4, hostOps1_5, hostOps1_6, hostOps1_7, hostOps1_8, hostOps1_9, List.flatten_cons, List.flatten_nil, List.append_nil, List.cons_append, List.nil_append]
  after_results_simp
  have hz : Pipeline.withArrays spec0 c (V0 m c) (fun w => (dats m 0 c).arrAt w cfg0.N) (Proc.devRef .tc main_v0_1) = zArr m c :=
    Pipeline.withArrays_arr spec0 launch0.win.arr_inj c (V0 m c) (fun w => (dats m 0 c).arrAt w cfg0.N) 13
  have h18 : Pipeline.withArrays spec0 c (V0 m c) (fun w => (dats m 0 c).arrAt w cfg0.N) (Proc.devRef .tc main_arg18) = m ((c.tc : Thread nD τ).loc main_arg18) :=
    Pipeline.withArrays_of_ne spec0 c (V0 m c) _ main_arg18 (by exact (by decide : ∀ w, Pipeline.arrRef spec0 w ≠ main_arg18))
  have h19 : Pipeline.withArrays spec0 c (V0 m c) (fun w => (dats m 0 c).arrAt w cfg0.N) (Proc.devRef .tc main_arg19) = m ((c.tc : Thread nD τ).loc main_arg19) :=
    Pipeline.withArrays_of_ne spec0 c (V0 m c) _ main_arg19 (by exact (by decide : ∀ w, Pipeline.arrRef spec0 w ≠ main_arg19))
  have h20 : Pipeline.withArrays spec0 c (V0 m c) (fun w => (dats m 0 c).arrAt w cfg0.N) (Proc.devRef .tc main_arg20) = m ((c.tc : Thread nD τ).loc main_arg20) :=
    Pipeline.withArrays_of_ne spec0 c (V0 m c) _ main_arg20 (by exact (by decide : ∀ w, Pipeline.arrRef spec0 w ≠ main_arg20))
  have h21 : Pipeline.withArrays spec0 c (V0 m c) (fun w => (dats m 0 c).arrAt w cfg0.N) (Proc.devRef .tc main_arg21) = m ((c.tc : Thread nD τ).loc main_arg21) :=
    Pipeline.withArrays_of_ne spec0 c (V0 m c) _ main_arg21 (by exact (by decide : ∀ w, Pipeline.arrRef spec0 w ≠ main_arg21))
  have h22 : Pipeline.withArrays spec0 c (V0 m c) (fun w => (dats m 0 c).arrAt w cfg0.N) (Proc.devRef .tc main_arg22) = m ((c.tc : Thread nD τ).loc main_arg22) :=
    Pipeline.withArrays_of_ne spec0 c (V0 m c) _ main_arg22 (by exact (by decide : ∀ w, Pipeline.arrRef spec0 w ≠ main_arg22))
  have h23 : Pipeline.withArrays spec0 c (V0 m c) (fun w => (dats m 0 c).arrAt w cfg0.N) (Proc.devRef .tc main_arg23) = m ((c.tc : Thread nD τ).loc main_arg23) :=
    Pipeline.withArrays_of_ne spec0 c (V0 m c) _ main_arg23 (by exact (by decide : ∀ w, Pipeline.arrRef spec0 w ≠ main_arg23))
  rw [hz, h18, h19, h20, h21, h22, h23]
  rfl

set_option maxHeartbeats 2000000 in
/-- THE RUN, read: every weakly fair execution terminates with the first output array at `aeArr`, the two heads at
    their functions of the flattened second output and the layer parameters, and the arguments unchanged. -/
theorem krun : θ_run (defs (F := Ideal)) (onTc (τ := τ) (main (F := Ideal))) ⟨m, fun _ => 0, ρ⟩ (fun r => ∀ c : Dev nD,
      (r.2.mem ((c.tc : Thread nD τ).loc main_v0_0) = aeArr m c
        ∧ r.2.mem ((c.tc : Thread nD τ).loc main_v29) = Cert.Heads.headCls (zFlat m c) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17))
        ∧ r.2.mem ((c.tc : Thread nD τ).loc main_v52) = Cert.Heads.headScan (zFlat m c) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22)) (m ((c.tc : Thread nD τ).loc main_arg23)))
      ∧ (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23))) :=
  (θ_run defs _ _).mono (fun r h c => ⟨⟨(h c).1 12,
      ((h c).2 main_v29 (Pipeline.mem_restRefs_of main_v29 (by decide) (by decide))).trans (tail_cls m c),
      ((h c).2 main_v52 (Pipeline.mem_restRefs_of main_v52 (by decide) (by decide))).trans (tail_scan m c)⟩,
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      ((h c).1 5).trans (((dats m 0 c).arrAt_in 5 rfl _).trans ((A_eq m c 5).trans (V_main_arg5 m c))),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c))),
      ((h c).1 8).trans (((dats m 0 c).arrAt_in 8 rfl _).trans ((A_eq m c 8).trans (V_main_arg8 m c))),
      ((h c).1 9).trans (((dats m 0 c).arrAt_in 9 rfl _).trans ((A_eq m c 9).trans (V_main_arg9 m c))),
      ((h c).1 10).trans (((dats m 0 c).arrAt_in 10 rfl _).trans ((A_eq m c 10).trans (V_main_arg10 m c))),
      ((h c).1 11).trans (((dats m 0 c).arrAt_in 11 rfl _).trans ((A_eq m c 11).trans (V_main_arg11 m c))),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c)),
      (((h c).2 main_arg14 (Pipeline.mem_restRefs_of main_arg14 (by decide) (by decide))).trans (W_main_arg14 m (dats m) c)),
      (((h c).2 main_arg15 (Pipeline.mem_restRefs_of main_arg15 (by decide) (by decide))).trans (W_main_arg15 m (dats m) c)),
      (((h c).2 main_arg16 (Pipeline.mem_restRefs_of main_arg16 (by decide) (by decide))).trans (W_main_arg16 m (dats m) c)),
      (((h c).2 main_arg17 (Pipeline.mem_restRefs_of main_arg17 (by decide) (by decide))).trans (W_main_arg17 m (dats m) c)),
      (((h c).2 main_arg18 (Pipeline.mem_restRefs_of main_arg18 (by decide) (by decide))).trans (W_main_arg18 m (dats m) c)),
      (((h c).2 main_arg19 (Pipeline.mem_restRefs_of main_arg19 (by decide) (by decide))).trans (W_main_arg19 m (dats m) c)),
      (((h c).2 main_arg20 (Pipeline.mem_restRefs_of main_arg20 (by decide) (by decide))).trans (W_main_arg20 m (dats m) c)),
      (((h c).2 main_arg21 (Pipeline.mem_restRefs_of main_arg21 (by decide) (by decide))).trans (W_main_arg21 m (dats m) c)),
      (((h c).2 main_arg22 (Pipeline.mem_restRefs_of main_arg22 (by decide) (by decide))).trans (W_main_arg22 m (dats m) c)),
      (((h c).2 main_arg23 (Pipeline.mem_restRefs_of main_arg23 (by decide) (by decide))).trans (W_main_arg23 m (dats m) c))⟩) (run_main m ρ)

end Cert.KernelIdeal.HValue

end
-- ==== Proof.Spec.lean ====
/-
  The vocabulary both programs are read in: matrices of extended reals as functions of a row and a column,
  the matrix product as the sum over the shared axis, one step of the Chebyshev recurrence
  `t_k = 2 · (A t_{k-1}) - t_{k-2}`, and a Chebyshev graph convolution of order five:
  `x W₀ + (A x) W₁ + t₂ W₂ + t₃ W₃ + t₄ W₄ + t₅ W₅ + b`, the six products added from the left and the bias last,
  which is the order in which both programs add them.  The float constants are kept as the binary32 words both
  programs print, so the same word on both sides is never evaluated.
-/
import Idealize.ShloMosaic.PureOps.Ideal

noncomputable section

namespace Cert.Spec

open Idealize.ShloMosaic
open scoped BigOperators

/-- An `a × b` matrix of extended reals. -/
abbrev Mat (a b : ℕ) := Fin a → Fin b → EReal

/-- The words of 2, 0, 1, 1/2, the entry count 32768 = 512 · 64, the row count 512, the variance floor, and -∞. -/
def c2 : EReal := Ideal.ofBits .f32 0x40000000#32
def c0 : EReal := Ideal.ofBits .f32 0x00000000#32
def c1 : EReal := Ideal.ofBits .f32 0x3F800000#32
def cHalf : EReal := Ideal.ofBits .f32 0x3F000000#32
def cCount : EReal := Ideal.ofBits .f32 0x47000000#32
def cRows : EReal := Ideal.ofBits .f32 0x44000000#32
def cEps : EReal := Ideal.ofBits .f32 0x3727C5AC#32
def cNegInf : EReal := Ideal.ofBits .f32 0xFF800000#32

/-- The matrix product: entry `(i, j)` is the sum over `l` of `x i l · y l j`. -/
def mm {a k b : ℕ} (x : Mat a k) (y : Mat k b) : Mat a b := fun i j => ∑ l : Fin k, x i l * y l j

/-- One step of the Chebyshev recurrence: `2 · (A tp) - tpp`. -/
def cstep {n f : ℕ} (A : Mat n n) (tp tpp : Mat n f) : Mat n f := fun i j => c2 * mm A tp i j - tpp i j

/-- The Chebyshev polynomials of the operator `A` applied to `x`, orders one to five. -/
def t1 {n f : ℕ} (A : Mat n n) (x : Mat n f) : Mat n f := mm A x
def t2 {n f : ℕ} (A : Mat n n) (x : Mat n f) : Mat n f := cstep A (t1 A x) x
def t3 {n f : ℕ} (A : Mat n n) (x : Mat n f) : Mat n f := cstep A (t2 A x) (t1 A x)
def t4 {n f : ℕ} (A : Mat n n) (x : Mat n f) : Mat n f := cstep A (t3 A x) (t2 A x)
def t5 {n f : ℕ} (A : Mat n n) (x : Mat n f) : Mat n f := cstep A (t4 A x) (t3 A x)

/-- The Chebyshev graph convolution of order five with weights `W 0 … W 5` and bias `b`. -/
def cheb {n f o : ℕ} (A : Mat n n) (x : Mat n f) (W : Fin 6 → Mat f o) (b : Fin o → EReal) : Mat n o := fun i j =>
  mm x (W 0) i j + mm (t1 A x) (W 1) i j + mm (t2 A x) (W 2) i j + mm (t3 A x) (W 3) i j + mm (t4 A x) (W 4) i j
    + mm (t5 A x) (W 5) i j + b j

end Cert.Spec

end
-- ==== Proof.RefStages.lean ====
/-
  The reference's stages as functions of the earlier values.  Every operation between a stage's operands and its
  result is one definition, named after the value it prints (the stage's prefix, then the program's own name), whose
  body is that operation's term applied to the definitions of its operands, with the program's shape names, dimension
  records and side-condition names; a stage is the definition of its last value.  Unfolding the definitions gives the
  operations' composed term.  The stages: three Chebyshev graph convolutions (the first from the raw features, the
  other two from a normalized layer; the two later ones print the same operations), the layer normalization over the
  last two axes followed by the maximum with zero (both print the same operations, the outlined variance, selection
  and maximum written in place), the pooled summary of the two normalized layers, and the symmetrized outer product
  with its diagonal removed.
-/
import proofs.«115478_j10110353015360_2_alg».proof.ReferenceIdeal
import proofs.«115478_j10110353015360_2_alg».proof.Proof.Spec

noncomputable section

namespace Cert.ReferenceIdeal.Stages

open Idealize.ShloMosaic
open Cert.ReferenceIdeal

variable [Facts₀]
open Facts₀

/-! ## The first graph convolution: `%42` from the operator `A` (`%arg0`), the features `X` (`%arg1`), the six weight matrices `W` (`%arg2`) and the bias `b` (`%arg3`) -/

def c1_v1 (W : FVec Ideal S6x512x64 .f32) : FVec Ideal S1x512x64 .f32 := extractStridedSlice S1x512x64 ![0, 0, 0] W slices_S6x512x64_S1x512x64_0_0_0
def c1_v2 (W : FVec Ideal S6x512x64 .f32) : FVec Ideal S512x64 .f32 := shapeCast S512x64 (c1_v1 W) shapeCasts_S1x512x64_S512x64
def c1_v3 (X : FVec Ideal S64x512x512 .f32) (W : FVec Ideal S6x512x64 .f32) : FVec Ideal S64x512x64 .f32 := Host.dotGeneral dot_S64x512x512_S512x64_S64x512x64_2_0_01_1_n_n none X (c1_v2 W)
def c1_v0 (A : FVec Ideal S64x512x512 .f32) (X : FVec Ideal S64x512x512 .f32) : FVec Ideal S64x512x512 .f32 := Host.dotGeneral dot_S64x512x512_S64x512x512_S64x512x512_2_1_1_2_0_0 none A X
def c1_v4 (W : FVec Ideal S6x512x64 .f32) : FVec Ideal S1x512x64 .f32 := extractStridedSlice S1x512x64 ![1, 0, 0] W slices_S6x512x64_S1x512x64_1_0_0
def c1_v5 (W : FVec Ideal S6x512x64 .f32) : FVec Ideal S512x64 .f32 := shapeCast S512x64 (c1_v4 W) shapeCasts_S1x512x64_S512x64
def c1_v6 (A : FVec Ideal S64x512x512 .f32) (X : FVec Ideal S64x512x512 .f32) (W : FVec Ideal S6x512x64 .f32) : FVec Ideal S64x512x64 .f32 := Host.dotGeneral dot_S64x512x512_S512x64_S64x512x64_2_0_01_1_n_n none (c1_v0 A X) (c1_v5 W)
def c1_v7 (A : FVec Ideal S64x512x512 .f32) (X : FVec Ideal S64x512x512 .f32) (W : FVec Ideal S6x512x64 .f32) : FVec Ideal S64x512x64 .f32 := addf (c1_v3 X W) (c1_v6 A X W)
def c1_cst : FVec Ideal S_ .f32 := constant (F := Ideal) S_ .f32 0x40000000#32
def c1_v9 : FVec Ideal S64x512x512 .f32 := broadcastInDim S64x512x512 ![] bcast_S_S64x512x512 c1_cst
def c1_v8 (A : FVec Ideal S64x512x512 .f32) (X : FVec Ideal S64x512x512 .f32) : FVec Ideal S64x512x512 .f32 := Host.dotGeneral dot_S64x512x512_S64x512x512_S64x512x512_2_1_1_2_0_0 none A (c1_v0 A X)
def c1_v10 (A : FVec Ideal S64x512x512 .f32) (X : FVec Ideal S64x512x512 .f32) : FVec Ideal S64x512x512 .f32 := mulf c1_v9 (c1_v8 A X)
def c1_v11 (A : FVec Ideal S64x512x512 .f32) (X : FVec Ideal S64x512x512 .f32) : FVec Ideal S64x512x512 .f32 := subf (c1_v10 A X) X
def c1_v12 (W : FVec Ideal S6x512x64 .f32) : FVec Ideal S1x512x64 .f32 := extractStridedSlice S1x512x64 ![2, 0, 0] W slices_S6x512x64_S1x512x64_2_0_0
def c1_v13 (W : FVec Ideal S6x512x64 .f32) : FVec Ideal S512x64 .f32 := shapeCast S512x64 (c1_v12 W) shapeCasts_S1x512x64_S512x64
def c1_v14 (A : FVec Ideal S64x512x512 .f32) (X : FVec Ideal S64x512x512 .f32) (W : FVec Ideal S6x512x64 .f32) : FVec Ideal S64x512x64 .f32 := Host.dotGeneral dot_S64x512x512_S512x64_S64x512x64_2_0_01_1_n_n none (c1_v11 A X) (c1_v13 W)
def c1_v15 (A : FVec Ideal S64x512x512 .f32) (X : FVec Ideal S64x512x512 .f32) (W : FVec Ideal S6x512x64 .f32) : FVec Ideal S64x512x64 .f32 := addf (c1_v7 A X W) (c1_v14 A X W)
def c1_cst_0 : FVec Ideal S_ .f32 := constant (F := Ideal) S_ .f32 0x40000000#32
def c1_v17 : FVec Ideal S64x512x512 .f32 := broadcastInDim S64x512x512 ![] bcast_S_S64x512x512 c1_cst_0
def c1_v16 (A : FVec Ideal S64x512x512 .f32) (X : FVec Ideal S64x512x512 .f32) : FVec Ideal S64x512x512 .f32 := Host.dotGeneral dot_S64x512x512_S64x512x512_S64x512x512_2_1_1_2_0_0 none A (c1_v11 A X)
def c1_v18 (A : FVec Ideal S64x512x512 .f32) (X : FVec Ideal S64x512x512 .f32) : FVec Ideal S64x512x512 .f32 := mulf c1_v17 (c1_v16 A X)
def c1_v19 (A : FVec Ideal S64x512x512 .f32) (X : FVec Ideal S64x512x512 .f32) : FVec Ideal S64x512x512 .f32 := subf (c1_v18 A X) (c1_v0 A X)
def c1_v20 (W : FVec Ideal S6x512x64 .f32) : FVec Ideal S1x512x64 .f32 := extractStridedSlice S1x512x64 ![3, 0, 0] W slices_S6x512x64_S1x512x64_3_0_0
def c1_v21 (W : FVec Ideal S6x512x64 .f32) : FVec Ideal S512x64 .f32 := shapeCast S512x64 (c1_v20 W) shapeCasts_S1x512x64_S512x64
def c1_v22 (A : FVec Ideal S64x512x512 .f32) (X : FVec Ideal S64x512x512 .f32) (W : FVec Ideal S6x512x64 .f32) : FVec Ideal S64x512x64 .f32 := Host.dotGeneral dot_S64x512x512_S512x64_S64x512x64_2_0_01_1_n_n none (c1_v19 A X) (c1_v21 W)
def c1_v23 (A : FVec Ideal S64x512x512 .f32) (X : FVec Ideal S64x512x512 .f32) (W : FVec Ideal S6x512x64 .f32) : FVec Ideal S64x512x64 .f32 := addf (c1_v15 A X W) (c1_v22 A X W)
def c1_cst_1 : FVec Ideal S_ .f32 := constant (F := Ideal) S_ .f32 0x40000000#32
def c1_v25 : FVec Ideal S64x512x512 .f32 := broadcastInDim S64x512x512 ![] bcast_S_S64x512x512 c1_cst_1
def c1_v24 (A : FVec Ideal S64x512x512 .f32) (X : FVec Ideal S64x512x512 .f32) : FVec Ideal S64x512x512 .f32 := Host.dotGeneral dot_S64x512x512_S64x512x512_S64x512x512_2_1_1_2_0_0 none A (c1_v19 A X)
def c1_v26 (A : FVec Ideal S64x512x512 .f32) (X : FVec Ideal S64x512x512 .f32) : FVec Ideal S64x512x512 .f32 := mulf c1_v25 (c1_v24 A X)
def c1_v27 (A : FVec Ideal S64x512x512 .f32) (X : FVec Ideal S64x512x512 .f32) : FVec Ideal S64x512x512 .f32 := subf (c1_v26 A X) (c1_v11 A X)
def c1_v28 (W : FVec Ideal S6x512x64 .f32) : FVec Ideal S1x512x64 .f32 := extractStridedSlice S1x512x64 ![4, 0, 0] W slices_S6x512x64_S1x512x64_4_0_0
def c1_v29 (W : FVec Ideal S6x512x64 .f32) : FVec Ideal S512x64 .f32 := shapeCast S512x64 (c1_v28 W) shapeCasts_S1x512x64_S512x64
def c1_v30 (A : FVec Ideal S64x512x512 .f32) (X : FVec Ideal S64x512x512 .f32) (W : FVec Ideal S6x512x64 .f32) : FVec Ideal S64x512x64 .f32 := Host.dotGeneral dot_S64x512x512_S512x64_S64x512x64_2_0_01_1_n_n none (c1_v27 A X) (c1_v29 W)
def c1_v31 (A : FVec Ideal S64x512x512 .f32) (X : FVec Ideal S64x512x512 .f32) (W : FVec Ideal S6x512x64 .f32) : FVec Ideal S64x512x64 .f32 := addf (c1_v23 A X W) (c1_v30 A X W)
def c1_cst_2 : FVec Ideal S_ .f32 := constant (F := Ideal) S_ .f32 0x40000000#32
def c1_v33 : FVec Ideal S64x512x512 .f32 := broadcastInDim S64x512x512 ![] bcast_S_S64x512x512 c1_cst_2
def c1_v32 (A : FVec Ideal S64x512x512 .f32) (X : FVec Ideal S64x512x512 .f32) : FVec Ideal S64x512x512 .f32 := Host.dotGeneral dot_S64x512x512_S64x512x512_S64x512x512_2_1_1_2_0_0 none A (c1_v27 A X)
def c1_v34 (A : FVec Ideal S64x512x512 .f32) (X : FVec Ideal S64x512x512 .f32) : FVec Ideal S64x512x512 .f32 := mulf c1_v33 (c1_v32 A X)
def c1_v35 (A : FVec Ideal S64x512x512 .f32) (X : FVec Ideal S64x512x512 .f32) : FVec Ideal S64x512x512 .f32 := subf (c1_v34 A X) (c1_v19 A X)
def c1_v36 (W : FVec Ideal S6x512x64 .f32) : FVec Ideal S1x512x64 .f32 := extractStridedSlice S1x512x64 ![5, 0, 0] W slices_S6x512x64_S1x512x64_5_0_0
def c1_v37 (W : FVec Ideal S6x512x64 .f32) : FVec Ideal S512x64 .f32 := shapeCast S512x64 (c1_v36 W) shapeCasts_S1x512x64_S512x64
def c1_v38 (A : FVec Ideal S64x512x512 .f32) (X : FVec Ideal S64x512x512 .f32) (W : FVec Ideal S6x512x64 .f32) : FVec Ideal S64x512x64 .f32 := Host.dotGeneral dot_S64x512x512_S512x64_S64x512x64_2_0_01_1_n_n none (c1_v35 A X) (c1_v37 W)
def c1_v39 (A : FVec Ideal S64x512x512 .f32) (X : FVec Ideal S64x512x512 .f32) (W : FVec Ideal S6x512x64 .f32) : FVec Ideal S64x512x64 .f32 := addf (c1_v31 A X W) (c1_v38 A X W)
def c1_v40 (b : FVec Ideal S64 .f32) : FVec Ideal S1x1x64 .f32 := broadcastInDim S1x1x64 ![2] bcast_S64_S1x1x64_2 b
def c1_v41 (b : FVec Ideal S64 .f32) : FVec Ideal S64x512x64 .f32 := broadcastInDim S64x512x64 ![0, 1, 2] bcast_S1x1x64_S64x512x64_0_1_2 (c1_v40 b)
def c1_v42 (A : FVec Ideal S64x512x512 .f32) (X : FVec Ideal S64x512x512 .f32) (W : FVec Ideal S6x512x64 .f32) (b : FVec Ideal S64 .f32) : FVec Ideal S64x512x64 .f32 := addf (c1_v39 A X W) (c1_v41 b)

/-- The first graph convolution, `%42`. -/
def chebL1 (A : FVec Ideal S64x512x512 .f32) (X : FVec Ideal S64x512x512 .f32) (W : FVec Ideal S6x512x64 .f32) (b : FVec Ideal S64 .f32) : FVec Ideal S64x512x64 .f32 := c1_v42 A X W b

/-! ## A later graph convolution: `%111` from `%61`, `%arg4`, `%arg5`, and `%180` from `%130`, `%arg6`, `%arg7` (the same operations; the names are the first one's) -/

def cL_v70 (W : FVec Ideal S6x64x64 .f32) : FVec Ideal S1x64x64 .f32 := extractStridedSlice S1x64x64 ![0, 0, 0] W slices_S6x64x64_S1x64x64_0_0_0
def cL_v71 (W : FVec Ideal S6x64x64 .f32) : FVec Ideal S64x64 .f32 := shapeCast S64x64 (cL_v70 W) shapeCasts_S1x64x64_S64x64
def cL_v72 (h : FVec Ideal S64x512x64 .f32) (W : FVec Ideal S6x64x64 .f32) : FVec Ideal S64x512x64 .f32 := Host.dotGeneral dot_S64x512x64_S64x64_S64x512x64_2_0_01_1_n_n none h (cL_v71 W)
def cL_v69 (A : FVec Ideal S64x512x512 .f32) (h : FVec Ideal S64x512x64 .f32) : FVec Ideal S64x512x64 .f32 := Host.dotGeneral dot_S64x512x512_S64x512x64_S64x512x64_2_1_1_2_0_0 none A h
def cL_v73 (W : FVec Ideal S6x64x64 .f32) : FVec Ideal S1x64x64 .f32 := extractStridedSlice S1x64x64 ![1, 0, 0] W slices_S6x64x64_S1x64x64_1_0_0
def cL_v74 (W : FVec Ideal S6x64x64 .f32) : FVec Ideal S64x64 .f32 := shapeCast S64x64 (cL_v73 W) shapeCasts_S1x64x64_S64x64
def cL_v75 (A : FVec Ideal S64x512x512 .f32) (h : FVec Ideal S64x512x64 .f32) (W : FVec Ideal S6x64x64 .f32) : FVec Ideal S64x512x64 .f32 := Host.dotGeneral dot_S64x512x64_S64x64_S64x512x64_2_0_01_1_n_n none (cL_v69 A h) (cL_v74 W)
def cL_v76 (A : FVec Ideal S64x512x512 .f32) (h : FVec Ideal S64x512x64 .f32) (W : FVec Ideal S6x64x64 .f32) : FVec Ideal S64x512x64 .f32 := addf (cL_v72 h W) (cL_v75 A h W)
def cL_cst_9 : FVec Ideal S_ .f32 := constant (F := Ideal) S_ .f32 0x40000000#32
def cL_v78 : FVec Ideal S64x512x64 .f32 := broadcastInDim S64x512x64 ![] bcast_S_S64x512x64 cL_cst_9
def cL_v77 (A : FVec Ideal S64x512x512 .f32) (h : FVec Ideal S64x512x64 .f32) : FVec Ideal S64x512x64 .f32 := Host.dotGeneral dot_S64x512x512_S64x512x64_S64x512x64_2_1_1_2_0_0 none A (cL_v69 A h)
def cL_v79 (A : FVec Ideal S64x512x512 .f32) (h : FVec Ideal S64x512x64 .f32) : FVec Ideal S64x512x64 .f32 := mulf cL_v78 (cL_v77 A h)
def cL_v80 (A : FVec Ideal S64x512x512 .f32) (h : FVec Ideal S64x512x64 .f32) : FVec Ideal S64x512x64 .f32 := subf (cL_v79 A h) h
def cL_v81 (W : FVec Ideal S6x64x64 .f32) : FVec Ideal S1x64x64 .f32 := extractStridedSlice S1x64x64 ![2, 0, 0] W slices_S6x64x64_S1x64x64_2_0_0
def cL_v82 (W : FVec Ideal S6x64x64 .f32) : FVec Ideal S64x64 .f32 := shapeCast S64x64 (cL_v81 W) shapeCasts_S1x64x64_S64x64
def cL_v83 (A : FVec Ideal S64x512x512 .f32) (h : FVec Ideal S64x512x64 .f32) (W : FVec Ideal S6x64x64 .f32) : FVec Ideal S64x512x64 .f32 := Host.dotGeneral dot_S64x512x64_S64x64_S64x512x64_2_0_01_1_n_n none (cL_v80 A h) (cL_v82 W)
def cL_v84 (A : FVec Ideal S64x512x512 .f32) (h : FVec Ideal S64x512x64 .f32) (W : FVec Ideal S6x64x64 .f32) : FVec Ideal S64x512x64 .f32 := addf (cL_v76 A h W) (cL_v83 A h W)
def cL_cst_10 : FVec Ideal S_ .f32 := constant (F := Ideal) S_ .f32 0x40000000#32
def cL_v86 : FVec Ideal S64x512x64 .f32 := broadcastInDim S64x512x64 ![] bcast_S_S64x512x64 cL_cst_10
def cL_v85 (A : FVec Ideal S64x512x512 .f32) (h : FVec Ideal S64x512x64 .f32) : FVec Ideal S64x512x64 .f32 := Host.dotGeneral dot_S64x512x512_S64x512x64_S64x512x64_2_1_1_2_0_0 none A (cL_v80 A h)
def cL_v87 (A : FVec Ideal S64x512x512 .f32) (h : FVec Ideal S64x512x64 .f32) : FVec Ideal S64x512x64 .f32 := mulf cL_v86 (cL_v85 A h)
def cL_v88 (A : FVec Ideal S64x512x512 .f32) (h : FVec Ideal S64x512x64 .f32) : FVec Ideal S64x512x64 .f32 := subf (cL_v87 A h) (cL_v69 A h)
def cL_v89 (W : FVec Ideal S6x64x64 .f32) : FVec Ideal S1x64x64 .f32 := extractStridedSlice S1x64x64 ![3, 0, 0] W slices_S6x64x64_S1x64x64_3_0_0
def cL_v90 (W : FVec Ideal S6x64x64 .f32) : FVec Ideal S64x64 .f32 := shapeCast S64x64 (cL_v89 W) shapeCasts_S1x64x64_S64x64
def cL_v91 (A : FVec Ideal S64x512x512 .f32) (h : FVec Ideal S64x512x64 .f32) (W : FVec Ideal S6x64x64 .f32) : FVec Ideal S64x512x64 .f32 := Host.dotGeneral dot_S64x512x64_S64x64_S64x512x64_2_0_01_1_n_n none (cL_v88 A h) (cL_v90 W)
def cL_v92 (A : FVec Ideal S64x512x512 .f32) (h : FVec Ideal S64x512x64 .f32) (W : FVec Ideal S6x64x64 .f32) : FVec Ideal S64x512x64 .f32 := addf (cL_v84 A h W) (cL_v91 A h W)
def cL_cst_11 : FVec Ideal S_ .f32 := constant (F := Ideal) S_ .f32 0x40000000#32
def cL_v94 : FVec Ideal S64x512x64 .f32 := broadcastInDim S64x512x64 ![] bcast_S_S64x512x64 cL_cst_11
def cL_v93 (A : FVec Ideal S64x512x512 .f32) (h : FVec Ideal S64x512x64 .f32) : FVec Ideal S64x512x64 .f32 := Host.dotGeneral dot_S64x512x512_S64x512x64_S64x512x64_2_1_1_2_0_0 none A (cL_v88 A h)
def cL_v95 (A : FVec Ideal S64x512x512 .f32) (h : FVec Ideal S64x512x64 .f32) : FVec Ideal S64x512x64 .f32 := mulf cL_v94 (cL_v93 A h)
def cL_v96 (A : FVec Ideal S64x512x512 .f32) (h : FVec Ideal S64x512x64 .f32) : FVec Ideal S64x512x64 .f32 := subf (cL_v95 A h) (cL_v80 A h)
def cL_v97 (W : FVec Ideal S6x64x64 .f32) : FVec Ideal S1x64x64 .f32 := extractStridedSlice S1x64x64 ![4, 0, 0] W slices_S6x64x64_S1x64x64_4_0_0
def cL_v98 (W : FVec Ideal S6x64x64 .f32) : FVec Ideal S64x64 .f32 := shapeCast S64x64 (cL_v97 W) shapeCasts_S1x64x64_S64x64
def cL_v99 (A : FVec Ideal S64x512x512 .f32) (h : FVec Ideal S64x512x64 .f32) (W : FVec Ideal S6x64x64 .f32) : FVec Ideal S64x512x64 .f32 := Host.dotGeneral dot_S64x512x64_S64x64_S64x512x64_2_0_01_1_n_n none (cL_v96 A h) (cL_v98 W)
def cL_v100 (A : FVec Ideal S64x512x512 .f32) (h : FVec Ideal S64x512x64 .f32) (W : FVec Ideal S6x64x64 .f32) : FVec Ideal S64x512x64 .f32 := addf (cL_v92 A h W) (cL_v99 A h W)
def cL_cst_12 : FVec Ideal S_ .f32 := constant (F := Ideal) S_ .f32 0x40000000#32
def cL_v102 : FVec Ideal S64x512x64 .f32 := broadcastInDim S64x512x64 ![] bcast_S_S64x512x64 cL_cst_12
def cL_v101 (A : FVec Ideal S64x512x512 .f32) (h : FVec Ideal S64x512x64 .f32) : FVec Ideal S64x512x64 .f32 := Host.dotGeneral dot_S64x512x512_S64x512x64_S64x512x64_2_1_1_2_0_0 none A (cL_v96 A h)
def cL_v103 (A : FVec Ideal S64x512x512 .f32) (h : FVec Ideal S64x512x64 .f32) : FVec Ideal S64x512x64 .f32 := mulf cL_v102 (cL_v101 A h)
def cL_v104 (A : FVec Ideal S64x512x512 .f32) (h : FVec Ideal S64x512x64 .f32) : FVec Ideal S64x512x64 .f32 := subf (cL_v103 A h) (cL_v88 A h)
def cL_v105 (W : FVec Ideal S6x64x64 .f32) : FVec Ideal S1x64x64 .f32 := extractStridedSlice S1x64x64 ![5, 0, 0] W slices_S6x64x64_S1x64x64_5_0_0
def cL_v106 (W : FVec Ideal S6x64x64 .f32) : FVec Ideal S64x64 .f32 := shapeCast S64x64 (cL_v105 W) shapeCasts_S1x64x64_S64x64
def cL_v107 (A : FVec Ideal S64x512x512 .f32) (h : FVec Ideal S64x512x64 .f32) (W : FVec Ideal S6x64x64 .f32) : FVec Ideal S64x512x64 .f32 := Host.dotGeneral dot_S64x512x64_S64x64_S64x512x64_2_0_01_1_n_n none (cL_v104 A h) (cL_v106 W)
def cL_v108 (A : FVec Ideal S64x512x512 .f32) (h : FVec Ideal S64x512x64 .f32) (W : FVec Ideal S6x64x64 .f32) : FVec Ideal S64x512x64 .f32 := addf (cL_v100 A h W) (cL_v107 A h W)
def cL_v109 (b : FVec Ideal S64 .f32) : FVec Ideal S1x1x64 .f32 := broadcastInDim S1x1x64 ![2] bcast_S64_S1x1x64_2 b
def cL_v110 (b : FVec Ideal S64 .f32) : FVec Ideal S64x512x64 .f32 := broadcastInDim S64x512x64 ![0, 1, 2] bcast_S1x1x64_S64x512x64_0_1_2 (cL_v109 b)
def cL_v111 (A : FVec Ideal S64x512x512 .f32) (h : FVec Ideal S64x512x64 .f32) (W : FVec Ideal S6x64x64 .f32) (b : FVec Ideal S64 .f32) : FVec Ideal S64x512x64 .f32 := addf (cL_v108 A h W) (cL_v110 b)

/-- A later graph convolution, `%111` and `%180`. -/
def chebL (A : FVec Ideal S64x512x512 .f32) (h : FVec Ideal S64x512x64 .f32) (W : FVec Ideal S6x64x64 .f32) (b : FVec Ideal S64 .f32) : FVec Ideal S64x512x64 .f32 := cL_v111 A h W b

/-! ## The layer normalization, scaled, shifted and floored at zero: `%61` from `%42`, `%arg8`, `%arg9`, and `%130` from `%111`, `%arg10`, `%arg11` (the same operations; the names are the first one's) -/

def ln_cst_3 : FVec Ideal S_ .f32 := constant (F := Ideal) S_ .f32 0x00000000#32
def ln_v43 (x : FVec Ideal S64x512x64 .f32) : FVec Ideal S64 .f32 := Host.reduceAdd x ln_cst_3 reducesTo_S64x512x64_S64_d1_2 h_S_
def ln_v44 (x : FVec Ideal S64x512x64 .f32) : FVec Ideal S64x1x1 .f32 := broadcastInDim S64x1x1 ![0] bcast_S64_S64x1x1_0 (ln_v43 x)
def ln_cst_4 : FVec Ideal S_ .f32 := constant (F := Ideal) S_ .f32 0x47000000#32
def ln_v45 : FVec Ideal S64x1x1 .f32 := broadcastInDim S64x1x1 ![] bcast_S_S64x1x1 ln_cst_4
def ln_v46 (x : FVec Ideal S64x512x64 .f32) : FVec Ideal S64x1x1 .f32 := Host.divf (ln_v44 x) ln_v45
def ln_v48 (x : FVec Ideal S64x512x64 .f32) : FVec Ideal S64x512x64 .f32 := broadcastInDim S64x512x64 ![0, 1, 2] bcast_S64x1x1_S64x512x64_0_1_2 (ln_v46 x)
def ln_v49 (x : FVec Ideal S64x512x64 .f32) : FVec Ideal S64x512x64 .f32 := subf x (ln_v48 x)
def ln_call0_cst_1 : FVec Ideal S_ .f32 := constant (F := Ideal) S_ .f32 0x47000000#32
def ln_c : IVec S_ 32 := constantI S_ 32 0#32
def ln_call0_v7 : FVec Ideal S_ .f32 := sitofp .f32 ln_c
def ln_call0_v8 : FVec Ideal S_ .f32 := subf ln_call0_cst_1 ln_call0_v7
def ln_call0_cst_3 : FVec Ideal S_ .f32 := constant (F := Ideal) S_ .f32 0x00000000#32
def ln_call0_v13 : IVec S_ 1 := cmpf .ogt ln_call0_v8 ln_call0_cst_3
def ln_call0_cst : FVec Ideal S_ .f32 := constant (F := Ideal) S_ .f32 0x00000000#32
def ln_call0_v0 (x : FVec Ideal S64x512x64 .f32) : FVec Ideal S64 .f32 := Host.reduceAdd x ln_call0_cst reducesTo_S64x512x64_S64_d1_2 h_S_
def ln_call0_v1 (x : FVec Ideal S64x512x64 .f32) : FVec Ideal S64x1x1 .f32 := broadcastInDim S64x1x1 ![0] bcast_S64_S64x1x1_0 (ln_call0_v0 x)
def ln_call0_cst_0 : FVec Ideal S_ .f32 := constant (F := Ideal) S_ .f32 0x47000000#32
def ln_call0_v2 : FVec Ideal S64x1x1 .f32 := broadcastInDim S64x1x1 ![] bcast_S_S64x1x1 ln_call0_cst_0
def ln_call0_v3 (x : FVec Ideal S64x512x64 .f32) : FVec Ideal S64x1x1 .f32 := Host.divf (ln_call0_v1 x) ln_call0_v2
def ln_call0_v4 (x : FVec Ideal S64x512x64 .f32) : FVec Ideal S64x512x64 .f32 := broadcastInDim S64x512x64 ![0, 1, 2] bcast_S64x1x1_S64x512x64_0_1_2 (ln_call0_v3 x)
def ln_call0_v5 (x : FVec Ideal S64x512x64 .f32) : FVec Ideal S64x512x64 .f32 := subf x (ln_call0_v4 x)
def ln_call0_v6 (x : FVec Ideal S64x512x64 .f32) : FVec Ideal S64x512x64 .f32 := mulf (ln_call0_v5 x) (ln_call0_v5 x)
def ln_call0_cst_2 : FVec Ideal S_ .f32 := constant (F := Ideal) S_ .f32 0x00000000#32
def ln_call0_v9 (x : FVec Ideal S64x512x64 .f32) : FVec Ideal S64 .f32 := Host.reduceAdd (ln_call0_v6 x) ln_call0_cst_2 reducesTo_S64x512x64_S64_d1_2 h_S_
def ln_call0_v10 (x : FVec Ideal S64x512x64 .f32) : FVec Ideal S64x1x1 .f32 := broadcastInDim S64x1x1 ![0] bcast_S64_S64x1x1_0 (ln_call0_v9 x)
def ln_call0_v11 : FVec Ideal S64x1x1 .f32 := broadcastInDim S64x1x1 ![] bcast_S_S64x1x1 ln_call0_v8
def ln_call0_v12 (x : FVec Ideal S64x512x64 .f32) : FVec Ideal S64x1x1 .f32 := Host.divf (ln_call0_v10 x) ln_call0_v11
def ln_call0_cst_4 : FVec Ideal S_ .f32 := constant (F := Ideal) S_ .f32 0x7FC00000#32
def ln_call0_call0_v0 : FVec Ideal S_ .f32 := id ln_call0_cst_4
def ln_call0_call0_v1 : FVec Ideal S64x1x1 .f32 := broadcastInDim S64x1x1 ![] bcast_S_S64x1x1 ln_call0_call0_v0
def ln_v47 (x : FVec Ideal S64x512x64 .f32) : FVec Ideal S64x1x1 .f32 := select (broadcastInDim S64x1x1 ![] bcast_S_S64x1x1 ln_call0_v13) (ln_call0_v12 x) ln_call0_call0_v1
def ln_cst_5 : FVec Ideal S_ .f32 := constant (F := Ideal) S_ .f32 0x3727C5AC#32
def ln_v50 : FVec Ideal S64x1x1 .f32 := broadcastInDim S64x1x1 ![] bcast_S_S64x1x1 ln_cst_5
def ln_v51 (x : FVec Ideal S64x512x64 .f32) : FVec Ideal S64x1x1 .f32 := addf (ln_v47 x) ln_v50
def ln_v52 (x : FVec Ideal S64x512x64 .f32) : FVec Ideal S64x1x1 .f32 := Host.sqrt (ln_v51 x)
def ln_v53 (x : FVec Ideal S64x512x64 .f32) : FVec Ideal S64x512x64 .f32 := broadcastInDim S64x512x64 ![0, 1, 2] bcast_S64x1x1_S64x512x64_0_1_2 (ln_v52 x)
def ln_v54 (x : FVec Ideal S64x512x64 .f32) : FVec Ideal S64x512x64 .f32 := Host.divf (ln_v49 x) (ln_v53 x)
def ln_v55 (g : FVec Ideal S512x64 .f32) : FVec Ideal S1x512x64 .f32 := broadcastInDim S1x512x64 ![1, 2] bcast_S512x64_S1x512x64_1_2 g
def ln_v56 (g : FVec Ideal S512x64 .f32) : FVec Ideal S64x512x64 .f32 := broadcastInDim S64x512x64 ![0, 1, 2] bcast_S1x512x64_S64x512x64_0_1_2 (ln_v55 g)
def ln_v57 (x : FVec Ideal S64x512x64 .f32) (g : FVec Ideal S512x64 .f32) : FVec Ideal S64x512x64 .f32 := mulf (ln_v54 x) (ln_v56 g)
def ln_v58 (bt : FVec Ideal S512x64 .f32) : FVec Ideal S1x512x64 .f32 := broadcastInDim S1x512x64 ![1, 2] bcast_S512x64_S1x512x64_1_2 bt
def ln_v59 (bt : FVec Ideal S512x64 .f32) : FVec Ideal S64x512x64 .f32 := broadcastInDim S64x512x64 ![0, 1, 2] bcast_S1x512x64_S64x512x64_0_1_2 (ln_v58 bt)
def ln_v60 (x : FVec Ideal S64x512x64 .f32) (g : FVec Ideal S512x64 .f32) (bt : FVec Ideal S512x64 .f32) : FVec Ideal S64x512x64 .f32 := addf (ln_v57 x g) (ln_v59 bt)
def ln_call1_cst : FVec Ideal S_ .f32 := constant (F := Ideal) S_ .f32 0x00000000#32
def ln_call1_v0 : FVec Ideal S64x512x64 .f32 := broadcastInDim S64x512x64 ![] bcast_S_S64x512x64 ln_call1_cst
def ln_v61 (x : FVec Ideal S64x512x64 .f32) (g : FVec Ideal S512x64 .f32) (bt : FVec Ideal S512x64 .f32) : FVec Ideal S64x512x64 .f32 := maximumf (ln_v60 x g bt) ln_call1_v0

/-- The normalized layer, `%61` and `%130`. -/
def lnRelu (x : FVec Ideal S64x512x64 .f32) (g : FVec Ideal S512x64 .f32) (bt : FVec Ideal S512x64 .f32) : FVec Ideal S64x512x64 .f32 := ln_v61 x g bt

/-! ## The pooled summary `%198` of `%61` and `%130` -/

def z_cst_6 : FVec Ideal S_ .f32 := constant (F := Ideal) S_ .f32 0x00000000#32
def z_v62 (h1 : FVec Ideal S64x512x64 .f32) : FVec Ideal S64x64 .f32 := Host.reduceAdd h1 z_cst_6 reducesTo_S64x512x64_S64x64_d1 h_S_
def z_v63 (h1 : FVec Ideal S64x512x64 .f32) : FVec Ideal S64x1x64 .f32 := broadcastInDim S64x1x64 ![0, 2] bcast_S64x64_S64x1x64_0_2 (z_v62 h1)
def z_cst_7 : FVec Ideal S_ .f32 := constant (F := Ideal) S_ .f32 0x44000000#32
def z_v64 : FVec Ideal S64x1x64 .f32 := broadcastInDim S64x1x64 ![] bcast_S_S64x1x64 z_cst_7
def z_v65 (h1 : FVec Ideal S64x512x64 .f32) : FVec Ideal S64x1x64 .f32 := Host.divf (z_v63 h1) z_v64
def z_cst_8 : FVec Ideal S_ .f32 := constant (F := Ideal) S_ .f32 0xFF800000#32
def z_v66 (h1 : FVec Ideal S64x512x64 .f32) : FVec Ideal S64x64 .f32 := Host.reduce FloatOps.maximumf h1 z_cst_8 reducesTo_S64x512x64_S64x64_d1 h_S_
def z_v67 (h1 : FVec Ideal S64x512x64 .f32) : FVec Ideal S64x1x64 .f32 := broadcastInDim S64x1x64 ![0, 2] bcast_S64x64_S64x1x64_0_2 (z_v66 h1)
def z_v68 (h1 : FVec Ideal S64x512x64 .f32) : FVec Ideal S64x1x128 .f32 := concatenate S64x1x128 2 [⟨S64x1x64, (z_v65 h1)⟩, ⟨S64x1x64, (z_v67 h1)⟩] concatenates_S64x1x64_S64x1x64_S64x1x128_d2
def z_cst_17 : FVec Ideal S_ .f32 := constant (F := Ideal) S_ .f32 0x00000000#32
def z_v131 (h2 : FVec Ideal S64x512x64 .f32) : FVec Ideal S64x64 .f32 := Host.reduceAdd h2 z_cst_17 reducesTo_S64x512x64_S64x64_d1 h_S_
def z_v132 (h2 : FVec Ideal S64x512x64 .f32) : FVec Ideal S64x1x64 .f32 := broadcastInDim S64x1x64 ![0, 2] bcast_S64x64_S64x1x64_0_2 (z_v131 h2)
def z_cst_18 : FVec Ideal S_ .f32 := constant (F := Ideal) S_ .f32 0x44000000#32
def z_v133 : FVec Ideal S64x1x64 .f32 := broadcastInDim S64x1x64 ![] bcast_S_S64x1x64 z_cst_18
def z_v134 (h2 : FVec Ideal S64x512x64 .f32) : FVec Ideal S64x1x64 .f32 := Host.divf (z_v132 h2) z_v133
def z_cst_19 : FVec Ideal S_ .f32 := constant (F := Ideal) S_ .f32 0xFF800000#32
def z_v135 (h2 : FVec Ideal S64x512x64 .f32) : FVec Ideal S64x64 .f32 := Host.reduce FloatOps.maximumf h2 z_cst_19 reducesTo_S64x512x64_S64x64_d1 h_S_
def z_v136 (h2 : FVec Ideal S64x512x64 .f32) : FVec Ideal S64x1x64 .f32 := broadcastInDim S64x1x64 ![0, 2] bcast_S64x64_S64x1x64_0_2 (z_v135 h2)
def z_v137 (h1 : FVec Ideal S64x512x64 .f32) (h2 : FVec Ideal S64x512x64 .f32) : FVec Ideal S64x1x256 .f32 := concatenate S64x1x256 2 [⟨S64x1x128, (z_v68 h1)⟩, ⟨S64x1x64, (z_v134 h2)⟩, ⟨S64x1x64, (z_v136 h2)⟩] concatenates_S64x1x128_S64x1x64_S64x1x64_S64x1x256_d2
def z_v198 (h1 : FVec Ideal S64x512x64 .f32) (h2 : FVec Ideal S64x512x64 .f32) : FVec Ideal S64x256 .f32 := shapeCast S64x256 (z_v137 h1 h2) shapeCasts_S64x1x256_S64x256

/-- The pooled summary, `%198`. -/
def zOf (h1 : FVec Ideal S64x512x64 .f32) (h2 : FVec Ideal S64x512x64 .f32) : FVec Ideal S64x256 .f32 := z_v198 h1 h2

/-! ## The symmetrized outer product `%197` of `%180` -/

def ae_cst_26 : FVec Ideal S_ .f32 := constant (F := Ideal) S_ .f32 0x3F000000#32
def ae_v196 : FVec Ideal S64x512x512 .f32 := broadcastInDim S64x512x512 ![] bcast_S_S64x512x512 ae_cst_26
def ae_v181 (x0 : FVec Ideal S64x512x64 .f32) : FVec Ideal S64x512x512 .f32 := Host.dotGeneral dot_S64x512x64_S64x512x64_S64x512x512_2_2_1_1_0_0 none x0 x0
def ae_call4_cst : FVec Ideal S_ .f32 := constant (F := Ideal) S_ .f32 0x00000000#32
def ae_call4_v0 : FVec Ideal S64x512x512 .f32 := broadcastInDim S64x512x512 ![] bcast_S_S64x512x512 ae_call4_cst
def ae_v182 (x0 : FVec Ideal S64x512x64 .f32) : FVec Ideal S64x512x512 .f32 := maximumf (ae_v181 x0) ae_call4_v0
def ae_cst_25 : FVec Ideal S_ .f32 := constant (F := Ideal) S_ .f32 0x3F800000#32
def ae_v189 : FVec Ideal S512x512 .f32 := broadcastInDim S512x512 ![] bcast_S_S512x512 ae_cst_25
def ae_v183 : IVec S512x512 32 := iotaInDim S512x512 32 0
def ae_c_24 : IVec S_ 32 := constantI S_ 32 0#32
def ae_v185 : IVec S512x512 32 := broadcastInDim S512x512 ![] bcast_S_S512x512 ae_c_24
def ae_v186 : IVec S512x512 32 := addi ae_v183 ae_v185
def ae_v184 : IVec S512x512 32 := iotaInDim S512x512 32 1
def ae_v187 : IVec S512x512 1 := cmpi .eq ae_v186 ae_v184
def ae_v188 : FVec Ideal S512x512 .f32 := uitofp .f32 ae_v187
def ae_v190 : FVec Ideal S512x512 .f32 := subf ae_v189 ae_v188
def ae_v191 : FVec Ideal S1x512x512 .f32 := broadcastInDim S1x512x512 ![1, 2] bcast_S512x512_S1x512x512_1_2 ae_v190
def ae_v192 : FVec Ideal S64x512x512 .f32 := broadcastInDim S64x512x512 ![0, 1, 2] bcast_S1x512x512_S64x512x512_0_1_2 ae_v191
def ae_v193 (x0 : FVec Ideal S64x512x64 .f32) : FVec Ideal S64x512x512 .f32 := mulf (ae_v182 x0) ae_v192
def ae_v194 (x0 : FVec Ideal S64x512x64 .f32) : FVec Ideal S64x512x512 .f32 := transpose S64x512x512 [0, 2, 1] (ae_v193 x0) transposes_S64x512x512_S64x512x512_0_2_1
def ae_v195 (x0 : FVec Ideal S64x512x64 .f32) : FVec Ideal S64x512x512 .f32 := addf (ae_v193 x0) (ae_v194 x0)
def ae_v197 (x0 : FVec Ideal S64x512x64 .f32) : FVec Ideal S64x512x512 .f32 := mulf ae_v196 (ae_v195 x0)

/-- The symmetrized outer product, `%197`. -/
def aeOf (x0 : FVec Ideal S64x512x64 .f32) : FVec Ideal S64x512x512 .f32 := ae_v197 x0

end Cert.ReferenceIdeal.Stages

end
-- ==== Proof.RefGlue.lean ====
/- The run's named intermediates are the stage functions of the earlier intermediates: one Chebyshev layer, one
   layer normalization with max(., 0), the pooled feature matrix and the masked symmetrized product at a time. -/
import proofs.«115478_j10110353015360_2_alg».proof.Proof.RefRunDefs
import proofs.«115478_j10110353015360_2_alg».proof.Proof.RefStages

noncomputable section

namespace Cert.ReferenceIdeal.RefRun

open Cert.ReferenceIdeal Cert.ReferenceIdeal.Gen Idealize.ShloMosaic

/-- Layer 1's output is the first-layer Chebyshev stage of A, X, W1, b1. -/
theorem r_v42_eq (a : Args) : r_v42 a = Stages.chebL1 a.a0 a.a1 a.a2 a.a3 := rfl

/-- H1 is the normalization stage of layer 1's output with g1, bt1. -/
theorem r_v61_eq (a : Args) : r_v61 a = Stages.lnRelu (r_v42 a) a.a8 a.a9 := rfl

/-- Layer 2's output is the Chebyshev stage of A, H1, W2, b2. -/
theorem r_v111_eq (a : Args) : r_v111 a = Stages.chebL a.a0 (r_v61 a) a.a4 a.a5 := rfl

/-- H2 is the normalization stage of layer 2's output with g2, bt2. -/
theorem r_v130_eq (a : Args) : r_v130 a = Stages.lnRelu (r_v111 a) a.a10 a.a11 := rfl

/-- Layer 3's output E is the Chebyshev stage of A, H2, W3, b3. -/
theorem r_v180_eq (a : Args) : r_v180 a = Stages.chebL a.a0 (r_v130 a) a.a6 a.a7 := rfl

/-- The reconstructed adjacency is the masked symmetrized product stage of E. -/
theorem refAE_eq (a : Args) : refAE a = Stages.aeOf (r_v180 a) := rfl

/-- Z is the pooling stage of H1 and H2. -/
theorem refZ_eq (a : Args) : refZ a = Stages.zOf (r_v61 a) (r_v130 a) := rfl

end Cert.ReferenceIdeal.RefRun

end
-- ==== Proof.RefOps.lean ====
/-
  The reference's operations read at an index, at the program's own shapes and dimension records: the five
  contractions (the operator times a stack of matrices, a stack times one weight matrix, and the rows' products), each
  the sum over the one contracted coordinate of the products; a weight matrix cut out of the stack of six; a bias
  vector and a per-member scalar repeated over a layer; the sum over the last two axes of a layer as a double sum; the
  sum and the maximum over the rows; the identity mask from two iotas; the pooled row's four pieces.
-/
import proofs.«115478_j10110353015360_2_alg».proof.ReferenceIdeal
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.RefOps

open Idealize.ShloMosaic Idealize.ShloMosaic.ValueIdx
open Cert.ReferenceIdeal
open scoped BigOperators

variable [Facts₀]
open Facts₀

/-! ## The contractions -/

/-- The operator times a stack of square matrices, member by member. -/
theorem dot_AX_apply (l : FVec Ideal S64x512x512 .f32) (r : FVec Ideal S64x512x512 .f32) (bb : Fin 64) (i : Fin 512) (j : Fin 512) :
    Host.dotGeneral dot_S64x512x512_S64x512x512_S64x512x512_2_1_1_2_0_0 none l r (ix3 bb i j) = ∑ k : Fin 512, l (ix3 bb i k) * r (ix3 bb k j) := by
  refine (Ideal.dotGeneral_apply dot_S64x512x512_S64x512x512_S64x512x512_2_1_1_2_0_0 none _ l r (ix3 bb i j)).trans ?_
  rw [← Equiv.sum_comp (contrEquiv1 dot_S64x512x512_S64x512x512_S64x512x512_2_1_1_2_0_0 512 rfl rfl).symm]
  refine Finset.sum_congr rfl fun k _ => ?_
  have hk := contrEquiv1_symm_val dot_S64x512x512_S64x512x512_S64x512x512_2_1_1_2_0_0 512 rfl rfl k
  have el : (dot_S64x512x512_S64x512x512_S64x512x512_2_1_1_2_0_0).lhsIdx (ix3 bb i j) ((contrEquiv1 dot_S64x512x512_S64x512x512_S64x512x512_2_1_1_2_0_0 512 rfl rfl).symm k) = ix3 bb i k :=
    funext fun a => Fin.ext (by
      match a with
      | ⟨0, _⟩ => rfl
      | ⟨1, _⟩ => rfl
      | ⟨2, _⟩ => exact ((dot_S64x512x512_S64x512x512_S64x512x512_2_1_1_2_0_0).lhsIdx_val_of_single rfl _ _).trans hk)
  have er : (dot_S64x512x512_S64x512x512_S64x512x512_2_1_1_2_0_0).rhsIdx (ix3 bb i j) ((contrEquiv1 dot_S64x512x512_S64x512x512_S64x512x512_2_1_1_2_0_0 512 rfl rfl).symm k) = ix3 bb k j :=
    funext fun a => Fin.ext (by
      match a with
      | ⟨0, _⟩ => rfl
      | ⟨1, _⟩ => exact ((dot_S64x512x512_S64x512x512_S64x512x512_2_1_1_2_0_0).rhsIdx_val_of_single rfl _ _).trans hk
      | ⟨2, _⟩ => rfl)
  rw [el, er]

/-- A stack of square matrices times one weight matrix. -/
theorem dot_XW_apply (l : FVec Ideal S64x512x512 .f32) (r : FVec Ideal S512x64 .f32) (bb : Fin 64) (i : Fin 512) (j : Fin 64) :
    Host.dotGeneral dot_S64x512x512_S512x64_S64x512x64_2_0_01_1_n_n none l r (ix3 bb i j) = ∑ k : Fin 512, l (ix3 bb i k) * r (ix2 k j) := by
  refine (Ideal.dotGeneral_apply dot_S64x512x512_S512x64_S64x512x64_2_0_01_1_n_n none _ l r (ix3 bb i j)).trans ?_
  rw [← Equiv.sum_comp (contrEquiv1 dot_S64x512x512_S512x64_S64x512x64_2_0_01_1_n_n 512 rfl rfl).symm]
  refine Finset.sum_congr rfl fun k _ => ?_
  have hk := contrEquiv1_symm_val dot_S64x512x512_S512x64_S64x512x64_2_0_01_1_n_n 512 rfl rfl k
  have el : (dot_S64x512x512_S512x64_S64x512x64_2_0_01_1_n_n).lhsIdx (ix3 bb i j) ((contrEquiv1 dot_S64x512x512_S512x64_S64x512x64_2_0_01_1_n_n 512 rfl rfl).symm k) = ix3 bb i k :=
    funext fun a => Fin.ext (by
      match a with
      | ⟨0, _⟩ => rfl
      | ⟨1, _⟩ => rfl
      | ⟨2, _⟩ => exact ((dot_S64x512x512_S512x64_S64x512x64_2_0_01_1_n_n).lhsIdx_val_of_single rfl _ _).trans hk)
  have er : (dot_S64x512x512_S512x64_S64x512x64_2_0_01_1_n_n).rhsIdx (ix3 bb i j) ((contrEquiv1 dot_S64x512x512_S512x64_S64x512x64_2_0_01_1_n_n 512 rfl rfl).symm k) = ix2 k j :=
    funext fun a => Fin.ext (by
      match a with
      | ⟨0, _⟩ => exact ((dot_S64x512x512_S512x64_S64x512x64_2_0_01_1_n_n).rhsIdx_val_of_single rfl _ _).trans hk
      | ⟨1, _⟩ => rfl)
  rw [el, er]

/-- The operator times a stack of layers, member by member. -/
theorem dot_AH_apply (l : FVec Ideal S64x512x512 .f32) (r : FVec Ideal S64x512x64 .f32) (bb : Fin 64) (i : Fin 512) (j : Fin 64) :
    Host.dotGeneral dot_S64x512x512_S64x512x64_S64x512x64_2_1_1_2_0_0 none l r (ix3 bb i j) = ∑ k : Fin 512, l (ix3 bb i k) * r (ix3 bb k j) := by
  refine (Ideal.dotGeneral_apply dot_S64x512x512_S64x512x64_S64x512x64_2_1_1_2_0_0 none _ l r (ix3 bb i j)).trans ?_
  rw [← Equiv.sum_comp (contrEquiv1 dot_S64x512x512_S64x512x64_S64x512x64_2_1_1_2_0_0 512 rfl rfl).symm]
  refine Finset.sum_congr rfl fun k _ => ?_
  have hk := contrEquiv1_symm_val dot_S64x512x512_S64x512x64_S64x512x64_2_1_1_2_0_0 512 rfl rfl k
  have el : (dot_S64x512x512_S64x512x64_S64x512x64_2_1_1_2_0_0).lhsIdx (ix3 bb i j) ((contrEquiv1 dot_S64x512x512_S64x512x64_S64x512x64_2_1_1_2_0_0 512 rfl rfl).symm k) = ix3 bb i k :=
    funext fun a => Fin.ext (by
      match a with
      | ⟨0, _⟩ => rfl
      | ⟨1, _⟩ => rfl
      | ⟨2, _⟩ => exact ((dot_S64x512x512_S64x512x64_S64x512x64_2_1_1_2_0_0).lhsIdx_val_of_single rfl _ _).trans hk)
  have er : (dot_S64x512x512_S64x512x64_S64x512x64_2_1_1_2_0_0).rhsIdx (ix3 bb i j) ((contrEquiv1 dot_S64x512x512_S64x512x64_S64x512x64_2_1_1_2_0_0 512 rfl rfl).symm k) = ix3 bb k j :=
    funext fun a => Fin.ext (by
      match a with
      | ⟨0, _⟩ => rfl
      | ⟨1, _⟩ => exact ((dot_S64x512x512_S64x512x64_S64x512x64_2_1_1_2_0_0).rhsIdx_val_of_single rfl _ _).trans hk
      | ⟨2, _⟩ => rfl)
  rw [el, er]

/-- A stack of layers times one weight matrix. -/
theorem dot_HW_apply (l : FVec Ideal S64x512x64 .f32) (r : FVec Ideal S64x64 .f32) (bb : Fin 64) (i : Fin 512) (j : Fin 64) :
    Host.dotGeneral dot_S64x512x64_S64x64_S64x512x64_2_0_01_1_n_n none l r (ix3 bb i j) = ∑ k : Fin 64, l (ix3 bb i k) * r (ix2 k j) := by
  refine (Ideal.dotGeneral_apply dot_S64x512x64_S64x64_S64x512x64_2_0_01_1_n_n none _ l r (ix3 bb i j)).trans ?_
  rw [← Equiv.sum_comp (contrEquiv1 dot_S64x512x64_S64x64_S64x512x64_2_0_01_1_n_n 64 rfl rfl).symm]
  refine Finset.sum_congr rfl fun k _ => ?_
  have hk := contrEquiv1_symm_val dot_S64x512x64_S64x64_S64x512x64_2_0_01_1_n_n 64 rfl rfl k
  have el : (dot_S64x512x64_S64x64_S64x512x64_2_0_01_1_n_n).lhsIdx (ix3 bb i j) ((contrEquiv1 dot_S64x512x64_S64x64_S64x512x64_2_0_01_1_n_n 64 rfl rfl).symm k) = ix3 bb i k :=
    funext fun a => Fin.ext (by
      match a with
      | ⟨0, _⟩ => rfl
      | ⟨1, _⟩ => rfl
      | ⟨2, _⟩ => exact ((dot_S64x512x64_S64x64_S64x512x64_2_0_01_1_n_n).lhsIdx_val_of_single rfl _ _).trans hk)
  have er : (dot_S64x512x64_S64x64_S64x512x64_2_0_01_1_n_n).rhsIdx (ix3 bb i j) ((contrEquiv1 dot_S64x512x64_S64x64_S64x512x64_2_0_01_1_n_n 64 rfl rfl).symm k) = ix2 k j :=
    funext fun a => Fin.ext (by
      match a with
      | ⟨0, _⟩ => exact ((dot_S64x512x64_S64x64_S64x512x64_2_0_01_1_n_n).rhsIdx_val_of_single rfl _ _).trans hk
      | ⟨1, _⟩ => rfl)
  rw [el, er]

/-- The products of the rows of a layer with one another, member by member. -/
theorem dot_HH_apply (l : FVec Ideal S64x512x64 .f32) (r : FVec Ideal S64x512x64 .f32) (bb : Fin 64) (i : Fin 512) (j : Fin 512) :
    Host.dotGeneral dot_S64x512x64_S64x512x64_S64x512x512_2_2_1_1_0_0 none l r (ix3 bb i j) = ∑ k : Fin 64, l (ix3 bb i k) * r (ix3 bb j k) := by
  refine (Ideal.dotGeneral_apply dot_S64x512x64_S64x512x64_S64x512x512_2_2_1_1_0_0 none _ l r (ix3 bb i j)).trans ?_
  rw [← Equiv.sum_comp (contrEquiv1 dot_S64x512x64_S64x512x64_S64x512x512_2_2_1_1_0_0 64 rfl rfl).symm]
  refine Finset.sum_congr rfl fun k _ => ?_
  have hk := contrEquiv1_symm_val dot_S64x512x64_S64x512x64_S64x512x512_2_2_1_1_0_0 64 rfl rfl k
  have el : (dot_S64x512x64_S64x512x64_S64x512x512_2_2_1_1_0_0).lhsIdx (ix3 bb i j) ((contrEquiv1 dot_S64x512x64_S64x512x64_S64x512x512_2_2_1_1_0_0 64 rfl rfl).symm k) = ix3 bb i k :=
    funext fun a => Fin.ext (by
      match a with
      | ⟨0, _⟩ => rfl
      | ⟨1, _⟩ => rfl
      | ⟨2, _⟩ => exact ((dot_S64x512x64_S64x512x64_S64x512x512_2_2_1_1_0_0).lhsIdx_val_of_single rfl _ _).trans hk)
  have er : (dot_S64x512x64_S64x512x64_S64x512x512_2_2_1_1_0_0).rhsIdx (ix3 bb i j) ((contrEquiv1 dot_S64x512x64_S64x512x64_S64x512x512_2_2_1_1_0_0 64 rfl rfl).symm k) = ix3 bb j k :=
    funext fun a => Fin.ext (by
      match a with
      | ⟨0, _⟩ => rfl
      | ⟨1, _⟩ => rfl
      | ⟨2, _⟩ => exact ((dot_S64x512x64_S64x512x64_S64x512x512_2_2_1_1_0_0).rhsIdx_val_of_single rfl _ _).trans hk)
  rw [el, er]

/-! ## A weight matrix cut out of the stack of six -/

/-- Matrix w of a stack of six 512 by 64 matrices: the slice of one member, its unit axis dropped. -/
theorem wslice512_apply (W : FVec Ideal S6x512x64 .f32) (w : Fin 6) (off : Fin 3 → ℕ) (h0 : off 0 = w.val) (h1 : off 1 = 0)
    (h2 : off 2 = 0) (h : S6x512x64.Slices off S1x512x64) (p : Fin 512) (q : Fin 64) :
    shapeCast S512x64 (extractStridedSlice S1x512x64 off W h) shapeCasts_S1x512x64_S512x64 (ix2 p q) = W (ix3 w p q) := by
  refine (shapeCast_1ab_ab_apply _ shapeCasts_S1x512x64_S512x64 p q).trans ?_
  refine extractStridedSlice_apply off W h (ix3 (0 : Fin 1) p q) (ix3 w p q) fun a => ?_
  match a with
  | ⟨0, _⟩ => show w.val = off 0 + (0 : ℕ); rw [h0, Nat.add_zero]
  | ⟨1, _⟩ => show p.val = off 1 + p.val; rw [h1, Nat.zero_add]
  | ⟨2, _⟩ => show q.val = off 2 + q.val; rw [h2, Nat.zero_add]

/-- Matrix w of a stack of six 64 by 64 matrices. -/
theorem wslice64_apply (W : FVec Ideal S6x64x64 .f32) (w : Fin 6) (off : Fin 3 → ℕ) (h0 : off 0 = w.val) (h1 : off 1 = 0)
    (h2 : off 2 = 0) (h : S6x64x64.Slices off S1x64x64) (p : Fin 64) (q : Fin 64) :
    shapeCast S64x64 (extractStridedSlice S1x64x64 off W h) shapeCasts_S1x64x64_S64x64 (ix2 p q) = W (ix3 w p q) := by
  refine (shapeCast_1ab_ab_apply _ shapeCasts_S1x64x64_S64x64 p q).trans ?_
  refine extractStridedSlice_apply off W h (ix3 (0 : Fin 1) p q) (ix3 w p q) fun a => ?_
  match a with
  | ⟨0, _⟩ => show w.val = off 0 + (0 : ℕ); rw [h0, Nat.add_zero]
  | ⟨1, _⟩ => show p.val = off 1 + p.val; rw [h1, Nat.zero_add]
  | ⟨2, _⟩ => show q.val = off 2 + q.val; rw [h2, Nat.zero_add]

/-! ## Scalars, vectors and matrices repeated over a larger array -/

/-- A constant repeated over any shape reads the constant's value. -/
theorem splat_apply {T : Shape} (h : S_.BroadcastsInDim T ![]) (w : BitVec 32) (j : T.Idx) :
    broadcastInDim T ![] h (constant (F := Ideal) S_ .f32 w) j = Ideal.ofBits .f32 w :=
  broadcastInDim_scalar_apply h _ j

/-- A bias vector laid along the last axis and repeated over members and rows reads the column's entry. -/
theorem bias_apply (b : FVec Ideal S64 .f32) (bb : Fin 64) (i : Fin 512) (j : Fin 64) :
    broadcastInDim S64x512x64 ![0, 1, 2] bcast_S1x1x64_S64x512x64_0_1_2 (broadcastInDim S1x1x64 ![2] bcast_S64_S1x1x64_2 b) (ix3 bb i j)
      = b (ix1 j) := by
  refine (broadcastInDim_apply ![0, 1, 2] bcast_S1x1x64_S64x512x64_0_1_2 _ (ix3 bb i j) (ix3 (0 : Fin 1) (0 : Fin 1) j) fun a => ?_).trans ?_
  · match a with
    | ⟨0, _⟩ => rfl
    | ⟨1, _⟩ => rfl
    | ⟨2, _⟩ => rfl
  · exact broadcastInDim_apply ![2] bcast_S64_S1x1x64_2 b (ix3 (0 : Fin 1) (0 : Fin 1) j) (ix1 j) fun a => by
      match a with
      | ⟨0, _⟩ => rfl

/-- One value per member, kept as a 64 by 1 by 1 array, reads the member's value. -/
theorem keep_apply (v : FVec Ideal S64 .f32) (bb : Fin 64) (u u' : Fin 1) :
    broadcastInDim S64x1x1 ![0] bcast_S64_S64x1x1_0 v (ix3 bb u u') = v (ix1 bb) :=
  broadcastInDim_apply ![0] bcast_S64_S64x1x1_0 v (ix3 bb u u') (ix1 bb) fun a => by
    match a with
    | ⟨0, _⟩ => rfl

/-- One value per member repeated over the member's layer reads the member's value. -/
theorem member_apply (v : FVec Ideal S64x1x1 .f32) (bb : Fin 64) (i : Fin 512) (j : Fin 64) :
    broadcastInDim S64x512x64 ![0, 1, 2] bcast_S64x1x1_S64x512x64_0_1_2 v (ix3 bb i j) = v (ix3 bb (0 : Fin 1) (0 : Fin 1)) :=
  broadcastInDim_apply ![0, 1, 2] bcast_S64x1x1_S64x512x64_0_1_2 v (ix3 bb i j) (ix3 bb (0 : Fin 1) (0 : Fin 1)) fun a => by
    match a with
    | ⟨0, _⟩ => rfl
    | ⟨1, _⟩ => rfl
    | ⟨2, _⟩ => rfl

/-- A 512 by 64 matrix repeated over the members reads its own entry. -/
theorem layer_apply (g : FVec Ideal S512x64 .f32) (bb : Fin 64) (i : Fin 512) (j : Fin 64) :
    broadcastInDim S64x512x64 ![0, 1, 2] bcast_S1x512x64_S64x512x64_0_1_2 (broadcastInDim S1x512x64 ![1, 2] bcast_S512x64_S1x512x64_1_2 g) (ix3 bb i j)
      = g (ix2 i j) := by
  refine (broadcastInDim_apply ![0, 1, 2] bcast_S1x512x64_S64x512x64_0_1_2 _ (ix3 bb i j) (ix3 (0 : Fin 1) i j) fun a => ?_).trans ?_
  · match a with
    | ⟨0, _⟩ => rfl
    | ⟨1, _⟩ => rfl
    | ⟨2, _⟩ => rfl
  · exact broadcastInDim_apply ![1, 2] bcast_S512x64_S1x512x64_1_2 g (ix3 (0 : Fin 1) i j) (ix2 i j) fun a => by
      match a with
      | ⟨0, _⟩ => rfl
      | ⟨1, _⟩ => rfl

/-- A 512 by 512 matrix repeated over the members reads its own entry. -/
theorem square_apply (g : FVec Ideal S512x512 .f32) (bb : Fin 64) (i : Fin 512) (j : Fin 512) :
    broadcastInDim S64x512x512 ![0, 1, 2] bcast_S1x512x512_S64x512x512_0_1_2 (broadcastInDim S1x512x512 ![1, 2] bcast_S512x512_S1x512x512_1_2 g) (ix3 bb i j)
      = g (ix2 i j) := by
  refine (broadcastInDim_apply ![0, 1, 2] bcast_S1x512x512_S64x512x512_0_1_2 _ (ix3 bb i j) (ix3 (0 : Fin 1) i j) fun a => ?_).trans ?_
  · match a with
    | ⟨0, _⟩ => rfl
    | ⟨1, _⟩ => rfl
    | ⟨2, _⟩ => rfl
  · exact broadcastInDim_apply ![1, 2] bcast_S512x512_S1x512x512_1_2 g (ix3 (0 : Fin 1) i j) (ix2 i j) fun a => by
      match a with
      | ⟨0, _⟩ => rfl
      | ⟨1, _⟩ => rfl

/-- One value per member and column, kept as a 64 by 1 by 64 array, reads that value. -/
theorem keepRow_apply (v : FVec Ideal S64x64 .f32) (bb : Fin 64) (u : Fin 1) (q : Fin 64) :
    broadcastInDim S64x1x64 ![0, 2] bcast_S64x64_S64x1x64_0_2 v (ix3 bb u q) = v (ix2 bb q) :=
  broadcastInDim_apply ![0, 2] bcast_S64x64_S64x1x64_0_2 v (ix3 bb u q) (ix2 bb q) fun a => by
    match a with
    | ⟨0, _⟩ => rfl
    | ⟨1, _⟩ => rfl

/-! ## The sums and the maximum of a layer -/

/-- The sum of a layer over its last two axes, member by member: the initial value plus the double sum of the member's
    entries. -/
theorem sumAll_apply (x : FVec Ideal S64x512x64 .f32) (init : FVec Ideal S_ .f32) (bb : Fin 64) :
    Host.reduceAdd x init reducesTo_S64x512x64_S64_d1_2 h_S_ (ix1 bb)
      = init ix0 + ∑ p : Fin 512, ∑ q : Fin 64, x (ix3 bb p q) := by
  rw [hostReduceAdd_apply]
  unfold Ideal.hostReduceAdd
  have hl : ∀ i : S64x512x64.Idx, reducesTo_S64x512x64_S64_d1_2.drop i = ix1 bb → ix3 bb (i 1 : Fin 512) (i 2 : Fin 64) = i :=
    fun i hi => funext fun a => by
      match a with
      | ⟨0, _⟩ => exact (congrFun hi (0 : Fin 1)).symm
      | ⟨1, _⟩ => rfl
      | ⟨2, _⟩ => rfl
  refine congrArg₂ (· + ·) (congrArg init (eq_ix0 _)) ?_
  refine Eq.trans ?_ (Finset.sum_product' Finset.univ Finset.univ (fun (p : Fin 512) (q : Fin 64) => x (ix3 bb p q)))
  refine Finset.sum_bij' (fun i _ => ((i 1 : Fin 512), (i 2 : Fin 64))) (fun pq _ => ix3 bb pq.1 pq.2) ?_ ?_ ?_ ?_ ?_
  · intro i _; exact Finset.mem_product.mpr ⟨Finset.mem_univ _, Finset.mem_univ _⟩
  · intro pq _
    refine Finset.mem_filter.mpr ⟨Finset.mem_univ _, funext fun a => ?_⟩
    match a with
    | ⟨0, _⟩ => rfl
  · intro i hi; exact hl i (Finset.mem_filter.mp hi).2
  · intro pq _; rfl
  · intro i hi; exact congrArg x (hl i (Finset.mem_filter.mp hi).2).symm

/-- The sum of a layer over its rows: the initial value plus the sum of the column's entries. -/
theorem sumRows_apply (x : FVec Ideal S64x512x64 .f32) (init : FVec Ideal S_ .f32) (bb : Fin 64) (q : Fin 64) :
    Host.reduceAdd x init reducesTo_S64x512x64_S64x64_d1 h_S_ (ix2 bb q) = init ix0 + ∑ p : Fin 512, x (ix3 bb p q) := by
  rw [hostReduceAdd_apply]
  have hR : S64x512x64.Reduces [1] S64x64 := by decide
  refine (Ideal.hostReduceAdd_single reducesTo_S64x512x64_S64x64_d1 hR x _ (ix2 bb q)).trans ?_
  refine congrArg₂ (· + ·) (congrArg init (eq_ix0 _)) (Finset.sum_congr rfl fun p _ => congrArg x (funext fun a => ?_))
  match a with
  | ⟨0, _⟩ => rfl
  | ⟨1, _⟩ => rfl
  | ⟨2, _⟩ => rfl

/-- The maximum of a layer over its rows: the fold of the maximum over the column's entries from the initial value. -/
theorem maxRows_apply (x : FVec Ideal S64x512x64 .f32) (init : FVec Ideal S_ .f32) (bb : Fin 64) (q : Fin 64) :
    Host.reduce FloatOps.maximumf x init reducesTo_S64x512x64_S64x64_d1 h_S_ (ix2 bb q)
      = (Finset.univ : Finset (Fin 512)).fold max (init ix0) (fun p => x (ix3 bb p q)) := by
  have hR : S64x512x64.Reduces [1] S64x64 := by decide
  refine (Host.reduce_eq_fold_single FloatOps.maximumf x init reducesTo_S64x512x64_S64x64_d1 hR h_S_ (ix2 bb q)).trans ?_
  have e0 : init (Shape.Idx.first h_S_) = init ix0 := congrArg init (eq_ix0 _)
  have e1 : (x ∘ hR.lift (ix2 bb q) : Fin 512 → EReal) = fun p => x (ix3 bb p q) := funext fun p => congrArg x (funext fun a => by
    match a with
    | ⟨0, _⟩ => rfl
    | ⟨1, _⟩ => rfl
    | ⟨2, _⟩ => rfl)
  show (Finset.univ : Finset (Fin 512)).fold max (init (Shape.Idx.first h_S_)) (x ∘ hR.lift (ix2 bb q)) = _
  rw [e0]
  exact congrArg (fun f : Fin 512 → EReal => (Finset.univ : Finset (Fin 512)).fold max (init ix0) f) e1

end Cert.RefOps

end
-- ==== Proof.RefReadCheb.lean ====
/-
  The reference's three graph convolutions read at an entry of one batch member: each is the order-five Chebyshev
  convolution of the specification, of the member's operator and features with the six weight matrices and the bias.
  The chain follows the program: the operator applied once, the four recurrence steps, the six weight matrices cut
  out of their stack, the six products, and their sum with the bias.
-/
import proofs.«115478_j10110353015360_2_alg».proof.Proof.RefStages
import proofs.«115478_j10110353015360_2_alg».proof.Proof.RefOps

noncomputable section

namespace Cert.RefRead

open Idealize.ShloMosaic Idealize.ShloMosaic.ValueIdx
open Cert.ReferenceIdeal Cert.ReferenceIdeal.Stages Cert.RefOps
open scoped BigOperators

variable [Facts₀]
open Facts₀

/-! ## The first convolution -/

/-- The operator applied once: the first Chebyshev term. -/
theorem c1_t1 (A : FVec Ideal S64x512x512 .f32) (X : FVec Ideal S64x512x512 .f32) (bb : Fin 64) (i : Fin 512) (j : Fin 512) :
    c1_v0 A X (ix3 bb i j) = Spec.t1 (fun p q => A (ix3 bb p q)) (fun p q => X (ix3 bb p q)) i j :=
  dot_AX_apply A X bb i j

theorem c1_a1 (A : FVec Ideal S64x512x512 .f32) (X : FVec Ideal S64x512x512 .f32) (bb : Fin 64) (i : Fin 512) (j : Fin 512) :
    c1_v8 A X (ix3 bb i j) = Spec.mm (fun p q => A (ix3 bb p q)) (Spec.t1 (fun p q => A (ix3 bb p q)) (fun p q => X (ix3 bb p q))) i j :=
  (dot_AX_apply A (c1_v0 A X) bb i j).trans (Finset.sum_congr rfl fun k _ => congrArg (A (ix3 bb i k) * ·) (c1_t1 A X bb k j))

/-- Chebyshev term 2: twice the operator applied to the term before, less the term before that. -/
theorem c1_t2 (A : FVec Ideal S64x512x512 .f32) (X : FVec Ideal S64x512x512 .f32) (bb : Fin 64) (i : Fin 512) (j : Fin 512) :
    c1_v11 A X (ix3 bb i j) = Spec.t2 (fun p q => A (ix3 bb p q)) (fun p q => X (ix3 bb p q)) i j :=
  congrArg₂ (· - ·) (congrArg₂ (· * ·) (splat_apply bcast_S_S64x512x512 0x40000000#32 (ix3 bb i j)) (c1_a1 A X bb i j)) rfl

theorem c1_a2 (A : FVec Ideal S64x512x512 .f32) (X : FVec Ideal S64x512x512 .f32) (bb : Fin 64) (i : Fin 512) (j : Fin 512) :
    c1_v16 A X (ix3 bb i j) = Spec.mm (fun p q => A (ix3 bb p q)) (Spec.t2 (fun p q => A (ix3 bb p q)) (fun p q => X (ix3 bb p q))) i j :=
  (dot_AX_apply A (c1_v11 A X) bb i j).trans (Finset.sum_congr rfl fun k _ => congrArg (A (ix3 bb i k) * ·) (c1_t2 A X bb k j))

/-- Chebyshev term 3: twice the operator applied to the term before, less the term before that. -/
theorem c1_t3 (A : FVec Ideal S64x512x512 .f32) (X : FVec Ideal S64x512x512 .f32) (bb : Fin 64) (i : Fin 512) (j : Fin 512) :
    c1_v19 A X (ix3 bb i j) = Spec.t3 (fun p q => A (ix3 bb p q)) (fun p q => X (ix3 bb p q)) i j :=
  congrArg₂ (· - ·) (congrArg₂ (· * ·) (splat_apply bcast_S_S64x512x512 0x40000000#32 (ix3 bb i j)) (c1_a2 A X bb i j)) (c1_t1 A X bb i j)

theorem c1_a3 (A : FVec Ideal S64x512x512 .f32) (X : FVec Ideal S64x512x512 .f32) (bb : Fin 64) (i : Fin 512) (j : Fin 512) :
    c1_v24 A X (ix3 bb i j) = Spec.mm (fun p q => A (ix3 bb p q)) (Spec.t3 (fun p q => A (ix3 bb p q)) (fun p q => X (ix3 bb p q))) i j :=
  (dot_AX_apply A (c1_v19 A X) bb i j).trans (Finset.sum_congr rfl fun k _ => congrArg (A (ix3 bb i k) * ·) (c1_t3 A X bb k j))

/-- Chebyshev term 4: twice the operator applied to the term before, less the term before that. -/
theorem c1_t4 (A : FVec Ideal S64x512x512 .f32) (X : FVec Ideal S64x512x512 .f32) (bb : Fin 64) (i : Fin 512) (j : Fin 512) :
    c1_v27 A X (ix3 bb i j) = Spec.t4 (fun p q => A (ix3 bb p q)) (fun p q => X (ix3 bb p q)) i j :=
  congrArg₂ (· - ·) (congrArg₂ (· * ·) (splat_apply bcast_S_S64x512x512 0x40000000#32 (ix3 bb i j)) (c1_a3 A X bb i j)) (c1_t2 A X bb i j)

theorem c1_a4 (A : FVec Ideal S64x512x512 .f32) (X : FVec Ideal S64x512x512 .f32) (bb : Fin 64) (i : Fin 512) (j : Fin 512) :
    c1_v32 A X (ix3 bb i j) = Spec.mm (fun p q => A (ix3 bb p q)) (Spec.t4 (fun p q => A (ix3 bb p q)) (fun p q => X (ix3 bb p q))) i j :=
  (dot_AX_apply A (c1_v27 A X) bb i j).trans (Finset.sum_congr rfl fun k _ => congrArg (A (ix3 bb i k) * ·) (c1_t4 A X bb k j))

/-- Chebyshev term 5: twice the operator applied to the term before, less the term before that. -/
theorem c1_t5 (A : FVec Ideal S64x512x512 .f32) (X : FVec Ideal S64x512x512 .f32) (bb : Fin 64) (i : Fin 512) (j : Fin 512) :
    c1_v35 A X (ix3 bb i j) = Spec.t5 (fun p q => A (ix3 bb p q)) (fun p q => X (ix3 bb p q)) i j :=
  congrArg₂ (· - ·) (congrArg₂ (· * ·) (splat_apply bcast_S_S64x512x512 0x40000000#32 (ix3 bb i j)) (c1_a4 A X bb i j)) (c1_t3 A X bb i j)

theorem c1_w0 (W : FVec Ideal S6x512x64 .f32) (p : Fin 512) (q : Fin 64) : c1_v2 W (ix2 p q) = W (ix3 (0 : Fin 6) p q) :=
  wslice512_apply W 0 ![0, 0, 0] rfl rfl rfl slices_S6x512x64_S1x512x64_0_0_0 p q

theorem c1_w1 (W : FVec Ideal S6x512x64 .f32) (p : Fin 512) (q : Fin 64) : c1_v5 W (ix2 p q) = W (ix3 (1 : Fin 6) p q) :=
  wslice512_apply W 1 ![1, 0, 0] rfl rfl rfl slices_S6x512x64_S1x512x64_1_0_0 p q

theorem c1_w2 (W : FVec Ideal S6x512x64 .f32) (p : Fin 512) (q : Fin 64) : c1_v13 W (ix2 p q) = W (ix3 (2 : Fin 6) p q) :=
  wslice512_apply W 2 ![2, 0, 0] rfl rfl rfl slices_S6x512x64_S1x512x64_2_0_0 p q

theorem c1_w3 (W : FVec Ideal S6x512x64 .f32) (p : Fin 512) (q : Fin 64) : c1_v21 W (ix2 p q) = W (ix3 (3 : Fin 6) p q) :=
  wslice512_apply W 3 ![3, 0, 0] rfl rfl rfl slices_S6x512x64_S1x512x64_3_0_0 p q

theorem c1_w4 (W : FVec Ideal S6x512x64 .f32) (p : Fin 512) (q : Fin 64) : c1_v29 W (ix2 p q) = W (ix3 (4 : Fin 6) p q) :=
  wslice512_apply W 4 ![4, 0, 0] rfl rfl rfl slices_S6x512x64_S1x512x64_4_0_0 p q

theorem c1_w5 (W : FVec Ideal S6x512x64 .f32) (p : Fin 512) (q : Fin 64) : c1_v37 W (ix2 p q) = W (ix3 (5 : Fin 6) p q) :=
  wslice512_apply W 5 ![5, 0, 0] rfl rfl rfl slices_S6x512x64_S1x512x64_5_0_0 p q

theorem c1_p0 (X : FVec Ideal S64x512x512 .f32) (W : FVec Ideal S6x512x64 .f32) (bb : Fin 64) (i : Fin 512) (j : Fin 64) :
    c1_v3 X W (ix3 bb i j) = Spec.mm (fun p q => X (ix3 bb p q)) ((fun w p q => W (ix3 w p q)) 0) i j :=
  (dot_XW_apply X (c1_v2 W) bb i j).trans (Finset.sum_congr rfl fun k _ => congrArg (X (ix3 bb i k) * ·) (c1_w0 W k j))

theorem c1_p1 (A : FVec Ideal S64x512x512 .f32) (X : FVec Ideal S64x512x512 .f32) (W : FVec Ideal S6x512x64 .f32) (bb : Fin 64) (i : Fin 512) (j : Fin 64) :
    c1_v6 A X W (ix3 bb i j) = Spec.mm (Spec.t1 (fun p q => A (ix3 bb p q)) (fun p q => X (ix3 bb p q))) ((fun w p q => W (ix3 w p q)) 1) i j :=
  (dot_XW_apply (c1_v0 A X) (c1_v5 W) bb i j).trans (Finset.sum_congr rfl fun k _ => congrArg₂ (· * ·) (c1_t1 A X bb i k) (c1_w1 W k j))

theorem c1_p2 (A : FVec Ideal S64x512x512 .f32) (X : FVec Ideal S64x512x512 .f32) (W : FVec Ideal S6x512x64 .f32) (bb : Fin 64) (i : Fin 512) (j : Fin 64) :
    c1_v14 A X W (ix3 bb i j) = Spec.mm (Spec.t2 (fun p q => A (ix3 bb p q)) (fun p q => X (ix3 bb p q))) ((fun w p q => W (ix3 w p q)) 2) i j :=
  (dot_XW_apply (c1_v11 A X) (c1_v13 W) bb i j).trans (Finset.sum_congr rfl fun k _ => congrArg₂ (· * ·) (c1_t2 A X bb i k) (c1_w2 W k j))

theorem c1_p3 (A : FVec Ideal S64x512x512 .f32) (X : FVec Ideal S64x512x512 .f32) (W : FVec Ideal S6x512x64 .f32) (bb : Fin 64) (i : Fin 512) (j : Fin 64) :
    c1_v22 A X W (ix3 bb i j) = Spec.mm (Spec.t3 (fun p q => A (ix3 bb p q)) (fun p q => X (ix3 bb p q))) ((fun w p q => W (ix3 w p q)) 3) i j :=
  (dot_XW_apply (c1_v19 A X) (c1_v21 W) bb i j).trans (Finset.sum_congr rfl fun k _ => congrArg₂ (· * ·) (c1_t3 A X bb i k) (c1_w3 W k j))

theorem c1_p4 (A : FVec Ideal S64x512x512 .f32) (X : FVec Ideal S64x512x512 .f32) (W : FVec Ideal S6x512x64 .f32) (bb : Fin 64) (i : Fin 512) (j : Fin 64) :
    c1_v30 A X W (ix3 bb i j) = Spec.mm (Spec.t4 (fun p q => A (ix3 bb p q)) (fun p q => X (ix3 bb p q))) ((fun w p q => W (ix3 w p q)) 4) i j :=
  (dot_XW_apply (c1_v27 A X) (c1_v29 W) bb i j).trans (Finset.sum_congr rfl fun k _ => congrArg₂ (· * ·) (c1_t4 A X bb i k) (c1_w4 W k j))

theorem c1_p5 (A : FVec Ideal S64x512x512 .f32) (X : FVec Ideal S64x512x512 .f32) (W : FVec Ideal S6x512x64 .f32) (bb : Fin 64) (i : Fin 512) (j : Fin 64) :
    c1_v38 A X W (ix3 bb i j) = Spec.mm (Spec.t5 (fun p q => A (ix3 bb p q)) (fun p q => X (ix3 bb p q))) ((fun w p q => W (ix3 w p q)) 5) i j :=
  (dot_XW_apply (c1_v35 A X) (c1_v37 W) bb i j).trans (Finset.sum_congr rfl fun k _ => congrArg₂ (· * ·) (c1_t5 A X bb i k) (c1_w5 W k j))

/-- The graph convolution read at an entry of batch member bb: the order-five Chebyshev convolution of the member's operator
    and features with the six weight matrices and the bias. -/
theorem chebL1_apply (A : FVec Ideal S64x512x512 .f32) (X : FVec Ideal S64x512x512 .f32) (W : FVec Ideal S6x512x64 .f32) (b : FVec Ideal S64 .f32) (bb : Fin 64) (i : Fin 512) (j : Fin 64) :
    chebL1 A X W b (ix3 bb i j) = Spec.cheb (fun p q => A (ix3 bb p q)) (fun p q => X (ix3 bb p q)) (fun w p q => W (ix3 w p q)) (fun q => b (ix1 q)) i j :=
  congrArg₂ (· + ·) (congrArg₂ (· + ·) (congrArg₂ (· + ·) (congrArg₂ (· + ·) (congrArg₂ (· + ·) (congrArg₂ (· + ·) (c1_p0 X W bb i j) (c1_p1 A X W bb i j)) (c1_p2 A X W bb i j)) (c1_p3 A X W bb i j)) (c1_p4 A X W bb i j)) (c1_p5 A X W bb i j)) (bias_apply b bb i j)

/-! ## The later convolutions -/

/-- The operator applied once: the first Chebyshev term. -/
theorem cL_t1 (A : FVec Ideal S64x512x512 .f32) (h : FVec Ideal S64x512x64 .f32) (bb : Fin 64) (i : Fin 512) (j : Fin 64) :
    cL_v69 A h (ix3 bb i j) = Spec.t1 (fun p q => A (ix3 bb p q)) (fun p q => h (ix3 bb p q)) i j :=
  dot_AH_apply A h bb i j

theorem cL_a1 (A : FVec Ideal S64x512x512 .f32) (h : FVec Ideal S64x512x64 .f32) (bb : Fin 64) (i : Fin 512) (j : Fin 64) :
    cL_v77 A h (ix3 bb i j) = Spec.mm (fun p q => A (ix3 bb p q)) (Spec.t1 (fun p q => A (ix3 bb p q)) (fun p q => h (ix3 bb p q))) i j :=
  (dot_AH_apply A (cL_v69 A h) bb i j).trans (Finset.sum_congr rfl fun k _ => congrArg (A (ix3 bb i k) * ·) (cL_t1 A h bb k j))

/-- Chebyshev term 2: twice the operator applied to the term before, less the term before that. -/
theorem cL_t2 (A : FVec Ideal S64x512x512 .f32) (h : FVec Ideal S64x512x64 .f32) (bb : Fin 64) (i : Fin 512) (j : Fin 64) :
    cL_v80 A h (ix3 bb i j) = Spec.t2 (fun p q => A (ix3 bb p q)) (fun p q => h (ix3 bb p q)) i j :=
  congrArg₂ (· - ·) (congrArg₂ (· * ·) (splat_apply bcast_S_S64x512x64 0x40000000#32 (ix3 bb i j)) (cL_a1 A h bb i j)) rfl

theorem cL_a2 (A : FVec Ideal S64x512x512 .f32) (h : FVec Ideal S64x512x64 .f32) (bb : Fin 64) (i : Fin 512) (j : Fin 64) :
    cL_v85 A h (ix3 bb i j) = Spec.mm (fun p q => A (ix3 bb p q)) (Spec.t2 (fun p q => A (ix3 bb p q)) (fun p q => h (ix3 bb p q))) i j :=
  (dot_AH_apply A (cL_v80 A h) bb i j).trans (Finset.sum_congr rfl fun k _ => congrArg (A (ix3 bb i k) * ·) (cL_t2 A h bb k j))

/-- Chebyshev term 3: twice the operator applied to the term before, less the term before that. -/
theorem cL_t3 (A : FVec Ideal S64x512x512 .f32) (h : FVec Ideal S64x512x64 .f32) (bb : Fin 64) (i : Fin 512) (j : Fin 64) :
    cL_v88 A h (ix3 bb i j) = Spec.t3 (fun p q => A (ix3 bb p q)) (fun p q => h (ix3 bb p q)) i j :=
  congrArg₂ (· - ·) (congrArg₂ (· * ·) (splat_apply bcast_S_S64x512x64 0x40000000#32 (ix3 bb i j)) (cL_a2 A h bb i j)) (cL_t1 A h bb i j)

theorem cL_a3 (A : FVec Ideal S64x512x512 .f32) (h : FVec Ideal S64x512x64 .f32) (bb : Fin 64) (i : Fin 512) (j : Fin 64) :
    cL_v93 A h (ix3 bb i j) = Spec.mm (fun p q => A (ix3 bb p q)) (Spec.t3 (fun p q => A (ix3 bb p q)) (fun p q => h (ix3 bb p q))) i j :=
  (dot_AH_apply A (cL_v88 A h) bb i j).trans (Finset.sum_congr rfl fun k _ => congrArg (A (ix3 bb i k) * ·) (cL_t3 A h bb k j))

/-- Chebyshev term 4: twice the operator applied to the term before, less the term before that. -/
theorem cL_t4 (A : FVec Ideal S64x512x512 .f32) (h : FVec Ideal S64x512x64 .f32) (bb : Fin 64) (i : Fin 512) (j : Fin 64) :
    cL_v96 A h (ix3 bb i j) = Spec.t4 (fun p q => A (ix3 bb p q)) (fun p q => h (ix3 bb p q)) i j :=
  congrArg₂ (· - ·) (congrArg₂ (· * ·) (splat_apply bcast_S_S64x512x64 0x40000000#32 (ix3 bb i j)) (cL_a3 A h bb i j)) (cL_t2 A h bb i j)

theorem cL_a4 (A : FVec Ideal S64x512x512 .f32) (h : FVec Ideal S64x512x64 .f32) (bb : Fin 64) (i : Fin 512) (j : Fin 64) :
    cL_v101 A h (ix3 bb i j) = Spec.mm (fun p q => A (ix3 bb p q)) (Spec.t4 (fun p q => A (ix3 bb p q)) (fun p q => h (ix3 bb p q))) i j :=
  (dot_AH_apply A (cL_v96 A h) bb i j).trans (Finset.sum_congr rfl fun k _ => congrArg (A (ix3 bb i k) * ·) (cL_t4 A h bb k j))

/-- Chebyshev term 5: twice the operator applied to the term before, less the term before that. -/
theorem cL_t5 (A : FVec Ideal S64x512x512 .f32) (h : FVec Ideal S64x512x64 .f32) (bb : Fin 64) (i : Fin 512) (j : Fin 64) :
    cL_v104 A h (ix3 bb i j) = Spec.t5 (fun p q => A (ix3 bb p q)) (fun p q => h (ix3 bb p q)) i j :=
  congrArg₂ (· - ·) (congrArg₂ (· * ·) (splat_apply bcast_S_S64x512x64 0x40000000#32 (ix3 bb i j)) (cL_a4 A h bb i j)) (cL_t3 A h bb i j)

theorem cL_w0 (W : FVec Ideal S6x64x64 .f32) (p : Fin 64) (q : Fin 64) : cL_v71 W (ix2 p q) = W (ix3 (0 : Fin 6) p q) :=
  wslice64_apply W 0 ![0, 0, 0] rfl rfl rfl slices_S6x64x64_S1x64x64_0_0_0 p q

theorem cL_w1 (W : FVec Ideal S6x64x64 .f32) (p : Fin 64) (q : Fin 64) : cL_v74 W (ix2 p q) = W (ix3 (1 : Fin 6) p q) :=
  wslice64_apply W 1 ![1, 0, 0] rfl rfl rfl slices_S6x64x64_S1x64x64_1_0_0 p q

theorem cL_w2 (W : FVec Ideal S6x64x64 .f32) (p : Fin 64) (q : Fin 64) : cL_v82 W (ix2 p q) = W (ix3 (2 : Fin 6) p q) :=
  wslice64_apply W 2 ![2, 0, 0] rfl rfl rfl slices_S6x64x64_S1x64x64_2_0_0 p q

theorem cL_w3 (W : FVec Ideal S6x64x64 .f32) (p : Fin 64) (q : Fin 64) : cL_v90 W (ix2 p q) = W (ix3 (3 : Fin 6) p q) :=
  wslice64_apply W 3 ![3, 0, 0] rfl rfl rfl slices_S6x64x64_S1x64x64_3_0_0 p q

theorem cL_w4 (W : FVec Ideal S6x64x64 .f32) (p : Fin 64) (q : Fin 64) : cL_v98 W (ix2 p q) = W (ix3 (4 : Fin 6) p q) :=
  wslice64_apply W 4 ![4, 0, 0] rfl rfl rfl slices_S6x64x64_S1x64x64_4_0_0 p q

theorem cL_w5 (W : FVec Ideal S6x64x64 .f32) (p : Fin 64) (q : Fin 64) : cL_v106 W (ix2 p q) = W (ix3 (5 : Fin 6) p q) :=
  wslice64_apply W 5 ![5, 0, 0] rfl rfl rfl slices_S6x64x64_S1x64x64_5_0_0 p q

theorem cL_p0 (h : FVec Ideal S64x512x64 .f32) (W : FVec Ideal S6x64x64 .f32) (bb : Fin 64) (i : Fin 512) (j : Fin 64) :
    cL_v72 h W (ix3 bb i j) = Spec.mm (fun p q => h (ix3 bb p q)) ((fun w p q => W (ix3 w p q)) 0) i j :=
  (dot_HW_apply h (cL_v71 W) bb i j).trans (Finset.sum_congr rfl fun k _ => congrArg (h (ix3 bb i k) * ·) (cL_w0 W k j))

theorem cL_p1 (A : FVec Ideal S64x512x512 .f32) (h : FVec Ideal S64x512x64 .f32) (W : FVec Ideal S6x64x64 .f32) (bb : Fin 64) (i : Fin 512) (j : Fin 64) :
    cL_v75 A h W (ix3 bb i j) = Spec.mm (Spec.t1 (fun p q => A (ix3 bb p q)) (fun p q => h (ix3 bb p q))) ((fun w p q => W (ix3 w p q)) 1) i j :=
  (dot_HW_apply (cL_v69 A h) (cL_v74 W) bb i j).trans (Finset.sum_congr rfl fun k _ => congrArg₂ (· * ·) (cL_t1 A h bb i k) (cL_w1 W k j))

theorem cL_p2 (A : FVec Ideal S64x512x512 .f32) (h : FVec Ideal S64x512x64 .f32) (W : FVec Ideal S6x64x64 .f32) (bb : Fin 64) (i : Fin 512) (j : Fin 64) :
    cL_v83 A h W (ix3 bb i j) = Spec.mm (Spec.t2 (fun p q => A (ix3 bb p q)) (fun p q => h (ix3 bb p q))) ((fun w p q => W (ix3 w p q)) 2) i j :=
  (dot_HW_apply (cL_v80 A h) (cL_v82 W) bb i j).trans (Finset.sum_congr rfl fun k _ => congrArg₂ (· * ·) (cL_t2 A h bb i k) (cL_w2 W k j))

theorem cL_p3 (A : FVec Ideal S64x512x512 .f32) (h : FVec Ideal S64x512x64 .f32) (W : FVec Ideal S6x64x64 .f32) (bb : Fin 64) (i : Fin 512) (j : Fin 64) :
    cL_v91 A h W (ix3 bb i j) = Spec.mm (Spec.t3 (fun p q => A (ix3 bb p q)) (fun p q => h (ix3 bb p q))) ((fun w p q => W (ix3 w p q)) 3) i j :=
  (dot_HW_apply (cL_v88 A h) (cL_v90 W) bb i j).trans (Finset.sum_congr rfl fun k _ => congrArg₂ (· * ·) (cL_t3 A h bb i k) (cL_w3 W k j))

theorem cL_p4 (A : FVec Ideal S64x512x512 .f32) (h : FVec Ideal S64x512x64 .f32) (W : FVec Ideal S6x64x64 .f32) (bb : Fin 64) (i : Fin 512) (j : Fin 64) :
    cL_v99 A h W (ix3 bb i j) = Spec.mm (Spec.t4 (fun p q => A (ix3 bb p q)) (fun p q => h (ix3 bb p q))) ((fun w p q => W (ix3 w p q)) 4) i j :=
  (dot_HW_apply (cL_v96 A h) (cL_v98 W) bb i j).trans (Finset.sum_congr rfl fun k _ => congrArg₂ (· * ·) (cL_t4 A h bb i k) (cL_w4 W k j))

theorem cL_p5 (A : FVec Ideal S64x512x512 .f32) (h : FVec Ideal S64x512x64 .f32) (W : FVec Ideal S6x64x64 .f32) (bb : Fin 64) (i : Fin 512) (j : Fin 64) :
    cL_v107 A h W (ix3 bb i j) = Spec.mm (Spec.t5 (fun p q => A (ix3 bb p q)) (fun p q => h (ix3 bb p q))) ((fun w p q => W (ix3 w p q)) 5) i j :=
  (dot_HW_apply (cL_v104 A h) (cL_v106 W) bb i j).trans (Finset.sum_congr rfl fun k _ => congrArg₂ (· * ·) (cL_t5 A h bb i k) (cL_w5 W k j))

/-- The graph convolution read at an entry of batch member bb: the order-five Chebyshev convolution of the member's operator
    and features with the six weight matrices and the bias. -/
theorem chebL_apply (A : FVec Ideal S64x512x512 .f32) (h : FVec Ideal S64x512x64 .f32) (W : FVec Ideal S6x64x64 .f32) (b : FVec Ideal S64 .f32) (bb : Fin 64) (i : Fin 512) (j : Fin 64) :
    chebL A h W b (ix3 bb i j) = Spec.cheb (fun p q => A (ix3 bb p q)) (fun p q => h (ix3 bb p q)) (fun w p q => W (ix3 w p q)) (fun q => b (ix1 q)) i j :=
  congrArg₂ (· + ·) (congrArg₂ (· + ·) (congrArg₂ (· + ·) (congrArg₂ (· + ·) (congrArg₂ (· + ·) (congrArg₂ (· + ·) (cL_p0 h W bb i j) (cL_p1 A h W bb i j)) (cL_p2 A h W bb i j)) (cL_p3 A h W bb i j)) (cL_p4 A h W bb i j)) (cL_p5 A h W bb i j)) (bias_apply b bb i j)

end Cert.RefRead

end
-- ==== Proof.RefSpec.lean ====
/-
  The reference's arrangement of the stages that the two programs arrange differently, over matrices of extended
  reals, one definition per stage and each mirroring the reference's operations in their order:

  * the layer normalization of one batch member over all its entries: the mean is the zero word plus the double sum
    of the entries, divided by the entry count; the variance is the zero word plus the double sum of the squared
    deviations, divided by the entry count less the integer word zero read as a float, kept only if that divisor is
    positive (else the not-a-number word's value); an entry is its deviation divided by the square root of the
    variance plus the floor word, times the scale, plus the shift, and then floored at zero;
  * the pooled mean and maximum of a column over the rows: the zero word plus the sum, divided by the row count; the
    fold of the maximum from the word of minus infinity;
  * the symmetrized outer product: the product of two rows floored at zero, times one minus the identity's entry;
    that plus its transpose; times one half.
  The float constants are the words of the shared vocabulary, never evaluated.
-/
import proofs.«115478_j10110353015360_2_alg».proof.Proof.Spec

noncomputable section

namespace Cert.RefSpec

open Idealize.ShloMosaic
open Cert.Spec
open scoped BigOperators

/-- The value of the quiet not-a-number word (at the extended reals a documented stand-in value). -/
def cNaN : EReal := Ideal.ofBits .f32 0x7FC00000#32

/-- The variance's divisor: the entry count less the integer word zero read signed as a float (no correction of the
    degrees of freedom). -/
def cDen : EReal := cCount - (FloatOps.sitofp .f32 (0#32 : BitVec 32) : Ideal .f32)

/-- The mean of all entries of a matrix, as the reference takes it: the zero word plus the sum over rows of the sums
    over columns, divided by the entry count word. -/
def meanR {n d : ℕ} (h : Mat n d) : EReal := Ideal.div (c0 + ∑ p : Fin n, ∑ q : Fin d, h p q) cCount

/-- The variance of all entries, as the reference takes it: the zero word plus the sum of the squared deviations from
    the mean, divided by the divisor above, selected when the divisor is greater than the zero word and replaced by
    the not-a-number word's value otherwise. -/
def varR {n d : ℕ} (h : Mat n d) : EReal :=
  Scalar.select (Ideal.cmp .ogt cDen c0)
    (Ideal.div (c0 + ∑ p : Fin n, ∑ q : Fin d, (h p q - meanR h) * (h p q - meanR h)) cDen) cNaN

/-- The normalized, scaled, shifted and floored layer: the deviation over the square root of the variance plus the
    floor word, times the scale, plus the shift, then the maximum with the zero word. -/
def lnR {n d : ℕ} (h g bt : Mat n d) : Mat n d := fun i j =>
  max (Ideal.div (h i j - meanR h) (Ideal.sqrt (varR h + cEps)) * g i j + bt i j) c0

/-- The mean of column q over the rows: the zero word plus the sum, divided by the row count word. -/
def poolMeanR {n d : ℕ} (h : Mat n d) (q : Fin d) : EReal := Ideal.div (c0 + ∑ p : Fin n, h p q) cRows

/-- The maximum of column q over the rows: the fold of the maximum over the rows from the word of minus infinity. -/
def poolMaxR {n d : ℕ} (h : Mat n d) (q : Fin d) : EReal :=
  (Finset.univ : Finset (Fin n)).fold max cNegInf (fun p => h p q)

/-- The identity matrix's entry: one on the diagonal, zero off it. -/
def eyeR {n : ℕ} (i j : Fin n) : EReal := if i = j then 1 else 0

/-- The floored product of rows i and j with the diagonal removed: the maximum of the rows' product with the zero word,
    times the one word less the identity's entry. -/
def maskedR {n d : ℕ} (x0 : Mat n d) : Mat n n := fun i j =>
  max (∑ k : Fin d, x0 i k * x0 j k) c0 * (c1 - eyeR i j)

/-- The symmetrized result: the half word times the masked product plus its transpose. -/
def aeR {n d : ℕ} (x0 : Mat n d) : Mat n n := fun i j => cHalf * (maskedR x0 i j + maskedR x0 j i)

/-- The pooled summary of two layers at lane q of 4 d lanes: the column means of the first layer, its column maxima,
    then those of the second, laid side by side. -/
def zR {n d : ℕ} (h1 h2 : Mat n d) (q : Fin (4 * d)) : EReal :=
  if h : q.val < d then poolMeanR h1 ⟨q.val, h⟩
  else if h' : q.val < 2 * d then poolMaxR h1 ⟨q.val - d, by omega⟩
  else if h'' : q.val < 3 * d then poolMeanR h2 ⟨q.val - 2 * d, by omega⟩
  else poolMaxR h2 ⟨q.val - 3 * d, by have := q.isLt; omega⟩

end Cert.RefSpec

end
-- ==== Proof.RefReadLn.lean ====
/-
  The reference's layer normalization, scaled, shifted and floored at zero, read at an entry of one batch member: the
  member's mean (taken twice by the program, once for the deviation and once inside the variance), the deviation, the
  sum of its squares, the variance's divisor and selection, the standard deviation, and the entry.
-/
import proofs.«115478_j10110353015360_2_alg».proof.Proof.RefStages
import proofs.«115478_j10110353015360_2_alg».proof.Proof.RefSpec
import proofs.«115478_j10110353015360_2_alg».proof.Proof.RefOps

noncomputable section

namespace Cert.RefRead

open Idealize.ShloMosaic Idealize.ShloMosaic.ValueIdx
open Cert.ReferenceIdeal Cert.ReferenceIdeal.Stages Cert.RefOps
open scoped BigOperators

variable [Facts₀]
open Facts₀

/-- The member's mean, as the program takes it for the deviation. -/
theorem ln_mean (x : FVec Ideal S64x512x64 .f32) (bb : Fin 64) (u u' : Fin 1) :
    ln_v46 x (ix3 bb u u') = RefSpec.meanR (fun p q => x (ix3 bb p q)) :=
  congrArg₂ Ideal.div ((keep_apply (ln_v43 x) bb u u').trans (sumAll_apply x ln_cst_3 bb))
    (splat_apply bcast_S_S64x1x1 0x47000000#32 (ix3 bb u u'))

/-- The member's mean, as the program takes it again inside the variance. -/
theorem ln_mean' (x : FVec Ideal S64x512x64 .f32) (bb : Fin 64) (u u' : Fin 1) :
    ln_call0_v3 x (ix3 bb u u') = RefSpec.meanR (fun p q => x (ix3 bb p q)) :=
  congrArg₂ Ideal.div ((keep_apply (ln_call0_v0 x) bb u u').trans (sumAll_apply x ln_call0_cst bb))
    (splat_apply bcast_S_S64x1x1 0x47000000#32 (ix3 bb u u'))

/-- The deviation of an entry from the member's mean. -/
theorem ln_dev (x : FVec Ideal S64x512x64 .f32) (bb : Fin 64) (i : Fin 512) (j : Fin 64) :
    ln_v49 x (ix3 bb i j) = x (ix3 bb i j) - RefSpec.meanR (fun p q => x (ix3 bb p q)) :=
  congrArg (x (ix3 bb i j) - ·) ((member_apply (ln_v46 x) bb i j).trans (ln_mean x bb 0 0))

/-- The same deviation inside the variance. -/
theorem ln_dev' (x : FVec Ideal S64x512x64 .f32) (bb : Fin 64) (i : Fin 512) (j : Fin 64) :
    ln_call0_v5 x (ix3 bb i j) = x (ix3 bb i j) - RefSpec.meanR (fun p q => x (ix3 bb p q)) :=
  congrArg (x (ix3 bb i j) - ·) ((member_apply (ln_call0_v3 x) bb i j).trans (ln_mean' x bb 0 0))

/-- The zero word plus the sum of the squared deviations of the member's entries. -/
theorem ln_sq (x : FVec Ideal S64x512x64 .f32) (bb : Fin 64) :
    ln_call0_v9 x (ix1 bb) = Spec.c0 + ∑ p : Fin 512, ∑ q : Fin 64,
      (x (ix3 bb p q) - RefSpec.meanR (fun p q => x (ix3 bb p q))) * (x (ix3 bb p q) - RefSpec.meanR (fun p q => x (ix3 bb p q))) :=
  (sumAll_apply (ln_call0_v6 x) ln_call0_cst_2 bb).trans (congrArg (Spec.c0 + ·)
    (Finset.sum_congr rfl fun p _ => Finset.sum_congr rfl fun q _ => congrArg₂ (· * ·) (ln_dev' x bb p q) (ln_dev' x bb p q)))

/-- The variance's divisor. -/
theorem ln_den (bb : Fin 64) (u u' : Fin 1) : ln_call0_v11 (ix3 bb u u') = RefSpec.cDen :=
  broadcastInDim_scalar_apply bcast_S_S64x1x1 ln_call0_v8 (ix3 bb u u')

/-- The member's variance: the quotient where the divisor is positive, the not-a-number word's value otherwise. -/
theorem ln_var (x : FVec Ideal S64x512x64 .f32) (bb : Fin 64) (u u' : Fin 1) :
    ln_v47 x (ix3 bb u u') = RefSpec.varR (fun p q => x (ix3 bb p q)) := by
  have hc : broadcastInDim S64x1x1 ![] bcast_S_S64x1x1 ln_call0_v13 (ix3 bb u u') = Ideal.cmp .ogt RefSpec.cDen Spec.c0 :=
    broadcastInDim_scalar_apply bcast_S_S64x1x1 ln_call0_v13 (ix3 bb u u')
  have hq : ln_call0_v12 x (ix3 bb u u') = Ideal.div (Spec.c0 + ∑ p : Fin 512, ∑ q : Fin 64,
      (x (ix3 bb p q) - RefSpec.meanR (fun p q => x (ix3 bb p q))) * (x (ix3 bb p q) - RefSpec.meanR (fun p q => x (ix3 bb p q)))) RefSpec.cDen :=
    congrArg₂ Ideal.div ((keep_apply (ln_call0_v9 x) bb u u').trans (ln_sq x bb)) (ln_den bb u u')
  have hn : ln_call0_call0_v1 (ix3 bb u u') = RefSpec.cNaN :=
    broadcastInDim_scalar_apply bcast_S_S64x1x1 ln_call0_call0_v0 (ix3 bb u u')
  show Scalar.select (broadcastInDim S64x1x1 ![] bcast_S_S64x1x1 ln_call0_v13 (ix3 bb u u')) (ln_call0_v12 x (ix3 bb u u'))
    (ln_call0_call0_v1 (ix3 bb u u')) = _
  rw [hc, hq, hn]
  rfl

/-- The member's standard deviation, repeated over the layer: the square root of the variance plus the floor word. -/
theorem ln_std (x : FVec Ideal S64x512x64 .f32) (bb : Fin 64) (i : Fin 512) (j : Fin 64) :
    ln_v53 x (ix3 bb i j) = Ideal.sqrt (RefSpec.varR (fun p q => x (ix3 bb p q)) + Spec.cEps) :=
  (member_apply (ln_v52 x) bb i j).trans (congrArg Ideal.sqrt (congrArg₂ (· + ·) (ln_var x bb 0 0)
    (splat_apply bcast_S_S64x1x1 0x3727C5AC#32 (ix3 bb (0 : Fin 1) (0 : Fin 1)))))

/-- The normalized layer read at an entry of batch member bb. -/
theorem lnRelu_apply (x : FVec Ideal S64x512x64 .f32) (g bt : FVec Ideal S512x64 .f32) (bb : Fin 64) (i : Fin 512) (j : Fin 64) :
    lnRelu x g bt (ix3 bb i j)
      = RefSpec.lnR (fun p q => x (ix3 bb p q)) (fun p q => g (ix2 p q)) (fun p q => bt (ix2 p q)) i j :=
  congrArg₂ max (congrArg₂ (· + ·) (congrArg₂ (· * ·) (congrArg₂ Ideal.div (ln_dev x bb i j) (ln_std x bb i j)) (layer_apply g bb i j))
    (layer_apply bt bb i j)) (splat_apply bcast_S_S64x512x64 0x00000000#32 (ix3 bb i j))

end Cert.RefRead

end
-- ==== Proof.RefOpsZ.lean ====
/-
  More of the reference's operations read at an index: the identity mask built from two iotas, the transposed stack, and
  the pooled row (its unit axis dropped, and the pieces laid side by side along the lanes).
-/
import proofs.«115478_j10110353015360_2_alg».proof.ReferenceIdeal
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

noncomputable section

namespace Cert.RefOps

open Idealize.ShloMosaic Idealize.ShloMosaic.ValueIdx
open Cert.ReferenceIdeal
open scoped BigOperators

variable [Facts₀]
open Facts₀

/-! ## The identity mask, and the transposed stack -/

/-- The comparison of the row iota (plus a zero splat) with the column iota, read as a float: one on the diagonal, zero
    off it. -/
theorem eye_apply (i j : Fin 512) :
    (uitofp .f32 (cmpi .eq (addi (iotaInDim S512x512 32 0) (broadcastInDim S512x512 ![] bcast_S_S512x512 (constantI S_ 32 0#32)))
      (iotaInDim S512x512 32 1)) : FVec Ideal S512x512 .f32) (ix2 i j) = if i = j then 1 else 0 := by
  have hb : broadcastInDim S512x512 ![] bcast_S_S512x512 (constantI S_ 32 0#32) (ix2 i j) = 0#32 :=
    broadcastInDim_scalar_apply bcast_S_S512x512 _ _
  show (((IntOp.cmpi .eq (IntOp.addi (BitVec.ofNat 32 i.val) (broadcastInDim S512x512 ![] bcast_S_S512x512 (constantI S_ 32 0#32) (ix2 i j)))
    (BitVec.ofNat 32 j.val)).toNat : ℝ) : EReal) = _
  rw [hb]
  by_cases hij : i = j
  · subst hij
    simp [IntOp.cmpi, IntOp.addi]
  · have hne : ¬ (BitVec.ofNat 32 i.val = BitVec.ofNat 32 j.val) := by
      intro e
      apply hij
      apply Fin.ext
      have := congrArg BitVec.toNat e
      simp [BitVec.toNat_ofNat] at this
      omega
    simp [IntOp.cmpi, IntOp.addi, hne, hij]

/-- A stack of square matrices, each transposed, reads the operand at the swapped entry. -/
theorem swap_apply (x : FVec Ideal S64x512x512 .f32) (bb : Fin 64) (i j : Fin 512) :
    transpose S64x512x512 [0, 2, 1] x transposes_S64x512x512_S64x512x512_0_2_1 (ix3 bb i j) = x (ix3 bb j i) :=
  transpose_ix3_021_apply x transposes_S64x512x512_S64x512x512_0_2_1 bb i j

/-! ## The pooled row: its unit axis dropped, and its pieces -/

/-- A 64 by 1 by 256 array cast to 64 by 256 reads the operand at the same member and lane. -/
theorem squeeze_apply (x : FVec Ideal S64x1x256 .f32) (bb : Fin 64) (q : Fin 256) :
    shapeCast S64x256 x shapeCasts_S64x1x256_S64x256 (ix2 bb q) = x (ix3 bb (0 : Fin 1) q) :=
  shapeCast_apply x shapeCasts_S64x1x256_S64x256 _ _ (by
    rw [Shape.rowMajor_val_three, Shape.rowMajor_val_two]
    show (bb.val * 1 + 0) * 256 + q.val = bb.val * 256 + q.val
    omega)

/-- The first 64 lanes of the two-piece row are the first piece. -/
theorem cat2_left (a b : FVec Ideal S64x1x64 .f32) (bb : Fin 64) (u : Fin 1) (c : Fin 64) :
    concatenate S64x1x128 2 [⟨S64x1x64, a⟩, ⟨S64x1x64, b⟩] concatenates_S64x1x64_S64x1x64_S64x1x128_d2
      (ix3 bb u (⟨c.val, by omega⟩ : Fin 128)) = a (ix3 bb u c) :=
  concatenate_pair_apply_left 2 a b concatenates_S64x1x64_S64x1x64_S64x1x128_d2 _ rfl (ix3 bb u c) fun ax => by
    match ax with
    | ⟨0, _⟩ => rfl
    | ⟨1, _⟩ => rfl
    | ⟨2, _⟩ => rfl

/-- The last 64 lanes of the two-piece row are the second piece. -/
theorem cat2_right (a b : FVec Ideal S64x1x64 .f32) (bb : Fin 64) (u : Fin 1) (c : Fin 64) :
    concatenate S64x1x128 2 [⟨S64x1x64, a⟩, ⟨S64x1x64, b⟩] concatenates_S64x1x64_S64x1x64_S64x1x128_d2
      (ix3 bb u (⟨64 + c.val, by omega⟩ : Fin 128)) = b (ix3 bb u c) :=
  concatenate_pair_apply_right 2 a b concatenates_S64x1x64_S64x1x64_S64x1x128_d2 _ rfl rfl (ix3 bb u c) (fun ax => by
    match ax with
    | ⟨0, _⟩ => exact fun _ => rfl
    | ⟨1, _⟩ => exact fun _ => rfl
    | ⟨2, _⟩ => exact fun hne => absurd rfl hne) (by show c.val + 64 = 64 + c.val; omega)

/-- The first 128 lanes of the three-piece row are the first piece. -/
theorem cat3_first (a : FVec Ideal S64x1x128 .f32) (b c : FVec Ideal S64x1x64 .f32) (bb : Fin 64) (u : Fin 1) (q : Fin 128) :
    concatenate S64x1x256 2 [⟨S64x1x128, a⟩, ⟨S64x1x64, b⟩, ⟨S64x1x64, c⟩] concatenates_S64x1x128_S64x1x64_S64x1x64_S64x1x256_d2
      (ix3 bb u (⟨q.val, by omega⟩ : Fin 256)) = a (ix3 bb u q) :=
  concatenate_apply_piece (t := S64x1x256) 2 [⟨S64x1x128, a⟩, ⟨S64x1x64, b⟩, ⟨S64x1x64, c⟩] concatenates_S64x1x128_S64x1x64_S64x1x64_S64x1x256_d2 _ 0 (by show (0 : ℕ) < 3; decide) S64x1x128 a rfl rfl 0 rfl
    (ix3 bb u q) (fun ax => by
      match ax with
      | ⟨0, _⟩ => exact fun _ => rfl
      | ⟨1, _⟩ => exact fun _ => rfl
      | ⟨2, _⟩ => exact fun hne => absurd rfl hne) (by show 0 + q.val = q.val; omega)

/-- Lanes 128 to 191 of the three-piece row are the second piece. -/
theorem cat3_second (a : FVec Ideal S64x1x128 .f32) (b c : FVec Ideal S64x1x64 .f32) (bb : Fin 64) (u : Fin 1) (q : Fin 64) :
    concatenate S64x1x256 2 [⟨S64x1x128, a⟩, ⟨S64x1x64, b⟩, ⟨S64x1x64, c⟩] concatenates_S64x1x128_S64x1x64_S64x1x64_S64x1x256_d2
      (ix3 bb u (⟨128 + q.val, by omega⟩ : Fin 256)) = b (ix3 bb u q) :=
  concatenate_apply_piece (t := S64x1x256) 2 [⟨S64x1x128, a⟩, ⟨S64x1x64, b⟩, ⟨S64x1x64, c⟩] concatenates_S64x1x128_S64x1x64_S64x1x64_S64x1x256_d2 _ 1 (by show (1 : ℕ) < 3; decide) S64x1x64 b rfl rfl 128 rfl
    (ix3 bb u q) (fun ax => by
      match ax with
      | ⟨0, _⟩ => exact fun _ => rfl
      | ⟨1, _⟩ => exact fun _ => rfl
      | ⟨2, _⟩ => exact fun hne => absurd rfl hne) rfl

/-- Lanes 192 to 255 of the three-piece row are the third piece. -/
theorem cat3_third (a : FVec Ideal S64x1x128 .f32) (b c : FVec Ideal S64x1x64 .f32) (bb : Fin 64) (u : Fin 1) (q : Fin 64) :
    concatenate S64x1x256 2 [⟨S64x1x128, a⟩, ⟨S64x1x64, b⟩, ⟨S64x1x64, c⟩] concatenates_S64x1x128_S64x1x64_S64x1x64_S64x1x256_d2
      (ix3 bb u (⟨192 + q.val, by omega⟩ : Fin 256)) = c (ix3 bb u q) :=
  concatenate_apply_piece (t := S64x1x256) 2 [⟨S64x1x128, a⟩, ⟨S64x1x64, b⟩, ⟨S64x1x64, c⟩] concatenates_S64x1x128_S64x1x64_S64x1x64_S64x1x256_d2 _ 2 (by show (2 : ℕ) < 3; decide) S64x1x64 c rfl rfl 192 rfl
    (ix3 bb u q) (fun ax => by
      match ax with
      | ⟨0, _⟩ => exact fun _ => rfl
      | ⟨1, _⟩ => exact fun _ => rfl
      | ⟨2, _⟩ => exact fun hne => absurd rfl hne) rfl

end Cert.RefOps

end
-- ==== Proof.RefReadAe.lean ====
/-
  The reference's symmetrized outer product read at an entry of one batch member: the mask (one less the identity), the
  floored products of the rows times the mask, and one half of that plus its transpose.
-/
import proofs.«115478_j10110353015360_2_alg».proof.Proof.RefStages
import proofs.«115478_j10110353015360_2_alg».proof.Proof.RefSpec
import proofs.«115478_j10110353015360_2_alg».proof.Proof.RefOps
import proofs.«115478_j10110353015360_2_alg».proof.Proof.RefOpsZ

noncomputable section

namespace Cert.RefRead

open Idealize.ShloMosaic Idealize.ShloMosaic.ValueIdx
open Cert.ReferenceIdeal Cert.ReferenceIdeal.Stages Cert.RefOps
open scoped BigOperators

variable [Facts₀]
open Facts₀

/-- The mask repeated over the members: the one word less the identity's entry. -/
theorem ae_mask (bb : Fin 64) (i j : Fin 512) : ae_v192 (ix3 bb i j) = Spec.c1 - RefSpec.eyeR i j :=
  (square_apply ae_v190 bb i j).trans (congrArg₂ (· - ·) (splat_apply bcast_S_S512x512 0x3F800000#32 (ix2 i j)) (eye_apply i j))

/-- The floored product of rows i and j of the member, times the mask. -/
theorem ae_masked (x0 : FVec Ideal S64x512x64 .f32) (bb : Fin 64) (i j : Fin 512) :
    ae_v193 x0 (ix3 bb i j) = RefSpec.maskedR (fun p q => x0 (ix3 bb p q)) i j :=
  congrArg₂ (· * ·) (congrArg₂ max (dot_HH_apply x0 x0 bb i j) (splat_apply bcast_S_S64x512x512 0x00000000#32 (ix3 bb i j)))
    (ae_mask bb i j)

/-- The symmetrized outer product read at an entry of batch member bb. -/
theorem aeOf_apply (x0 : FVec Ideal S64x512x64 .f32) (bb : Fin 64) (i j : Fin 512) :
    aeOf x0 (ix3 bb i j) = RefSpec.aeR (fun p q => x0 (ix3 bb p q)) i j :=
  congrArg₂ (· * ·) (splat_apply bcast_S_S64x512x512 0x3F000000#32 (ix3 bb i j))
    (congrArg₂ (· + ·) (ae_masked x0 bb i j) ((swap_apply (ae_v193 x0) bb i j).trans (ae_masked x0 bb j i)))

end Cert.RefRead

end
-- ==== Proof.RefReadZ.lean ====
/-
  The reference's pooled summary read at a lane of one batch member: lanes 0 to 63 are the column means of the first
  normalized layer, lanes 64 to 127 its column maxima, lanes 128 to 191 and 192 to 255 those of the second layer.
-/
import proofs.«115478_j10110353015360_2_alg».proof.Proof.RefStages
import proofs.«115478_j10110353015360_2_alg».proof.Proof.RefSpec
import proofs.«115478_j10110353015360_2_alg».proof.Proof.RefOps
import proofs.«115478_j10110353015360_2_alg».proof.Proof.RefOpsZ

noncomputable section

namespace Cert.RefRead

open Idealize.ShloMosaic Idealize.ShloMosaic.ValueIdx
open Cert.ReferenceIdeal Cert.ReferenceIdeal.Stages Cert.RefOps
open scoped BigOperators

variable [Facts₀]
open Facts₀

/-- The first layer's column mean, kept as a row. -/
theorem z_mean1 (h1 : FVec Ideal S64x512x64 .f32) (bb : Fin 64) (u : Fin 1) (c : Fin 64) :
    z_v65 h1 (ix3 bb u c) = RefSpec.poolMeanR (fun p q => h1 (ix3 bb p q)) c :=
  congrArg₂ Ideal.div ((keepRow_apply (z_v62 h1) bb u c).trans (sumRows_apply h1 z_cst_6 bb c))
    (splat_apply bcast_S_S64x1x64 0x44000000#32 (ix3 bb u c))

/-- The first layer's column maximum, kept as a row. -/
theorem z_max1 (h1 : FVec Ideal S64x512x64 .f32) (bb : Fin 64) (u : Fin 1) (c : Fin 64) :
    z_v67 h1 (ix3 bb u c) = RefSpec.poolMaxR (fun p q => h1 (ix3 bb p q)) c :=
  (keepRow_apply (z_v66 h1) bb u c).trans (maxRows_apply h1 z_cst_8 bb c)

/-- The second layer's column mean, kept as a row. -/
theorem z_mean2 (h2 : FVec Ideal S64x512x64 .f32) (bb : Fin 64) (u : Fin 1) (c : Fin 64) :
    z_v134 h2 (ix3 bb u c) = RefSpec.poolMeanR (fun p q => h2 (ix3 bb p q)) c :=
  congrArg₂ Ideal.div ((keepRow_apply (z_v131 h2) bb u c).trans (sumRows_apply h2 z_cst_17 bb c))
    (splat_apply bcast_S_S64x1x64 0x44000000#32 (ix3 bb u c))

/-- The second layer's column maximum, kept as a row. -/
theorem z_max2 (h2 : FVec Ideal S64x512x64 .f32) (bb : Fin 64) (u : Fin 1) (c : Fin 64) :
    z_v136 h2 (ix3 bb u c) = RefSpec.poolMaxR (fun p q => h2 (ix3 bb p q)) c :=
  (keepRow_apply (z_v135 h2) bb u c).trans (maxRows_apply h2 z_cst_19 bb c)

/-- Lanes 0 to 63: the first layer's column means. -/
theorem zOf_lane0 (h1 h2 : FVec Ideal S64x512x64 .f32) (bb : Fin 64) (c : Fin 64) :
    zOf h1 h2 (ix2 bb (⟨c.val, by omega⟩ : Fin 256)) = RefSpec.poolMeanR (fun p q => h1 (ix3 bb p q)) c :=
  (squeeze_apply (z_v137 h1 h2) bb ⟨c.val, by omega⟩).trans
    ((cat3_first (z_v68 h1) (z_v134 h2) (z_v136 h2) bb 0 ⟨c.val, by omega⟩).trans
      ((cat2_left (z_v65 h1) (z_v67 h1) bb 0 c).trans (z_mean1 h1 bb 0 c)))

/-- Lanes 64 to 127: the first layer's column maxima. -/
theorem zOf_lane1 (h1 h2 : FVec Ideal S64x512x64 .f32) (bb : Fin 64) (c : Fin 64) :
    zOf h1 h2 (ix2 bb (⟨64 + c.val, by omega⟩ : Fin 256)) = RefSpec.poolMaxR (fun p q => h1 (ix3 bb p q)) c :=
  (squeeze_apply (z_v137 h1 h2) bb ⟨64 + c.val, by omega⟩).trans
    ((cat3_first (z_v68 h1) (z_v134 h2) (z_v136 h2) bb 0 ⟨64 + c.val, by omega⟩).trans
      ((cat2_right (z_v65 h1) (z_v67 h1) bb 0 c).trans (z_max1 h1 bb 0 c)))

/-- Lanes 128 to 191: the second layer's column means. -/
theorem zOf_lane2 (h1 h2 : FVec Ideal S64x512x64 .f32) (bb : Fin 64) (c : Fin 64) :
    zOf h1 h2 (ix2 bb (⟨128 + c.val, by omega⟩ : Fin 256)) = RefSpec.poolMeanR (fun p q => h2 (ix3 bb p q)) c :=
  (squeeze_apply (z_v137 h1 h2) bb ⟨128 + c.val, by omega⟩).trans
    ((cat3_second (z_v68 h1) (z_v134 h2) (z_v136 h2) bb 0 c).trans (z_mean2 h2 bb 0 c))

/-- Lanes 192 to 255: the second layer's column maxima. -/
theorem zOf_lane3 (h1 h2 : FVec Ideal S64x512x64 .f32) (bb : Fin 64) (c : Fin 64) :
    zOf h1 h2 (ix2 bb (⟨192 + c.val, by omega⟩ : Fin 256)) = RefSpec.poolMaxR (fun p q => h2 (ix3 bb p q)) c :=
  (squeeze_apply (z_v137 h1 h2) bb ⟨192 + c.val, by omega⟩).trans
    ((cat3_third (z_v68 h1) (z_v134 h2) (z_v136 h2) bb 0 c).trans (z_max2 h2 bb 0 c))

/-- The pooled summary read at any lane of batch member bb. -/
theorem zOf_apply (h1 h2 : FVec Ideal S64x512x64 .f32) (bb : Fin 64) (q : Fin 256) :
    zOf h1 h2 (ix2 bb q) = RefSpec.zR (n := 512) (d := 64) (fun p q => h1 (ix3 bb p q)) (fun p q => h2 (ix3 bb p q)) q := by
  unfold RefSpec.zR
  by_cases h : q.val < 64
  · rw [dif_pos h]
    exact zOf_lane0 h1 h2 bb ⟨q.val, h⟩
  · rw [dif_neg h]
    by_cases h' : q.val < 2 * 64
    · rw [dif_pos h']
      have e : (⟨64 + (q.val - 64), by omega⟩ : Fin 256) = q := Fin.ext (by show 64 + (q.val - 64) = q.val; omega)
      have := zOf_lane1 h1 h2 bb ⟨q.val - 64, by omega⟩
      rw [e] at this
      exact this
    · rw [dif_neg h']
      by_cases h'' : q.val < 3 * 64
      · rw [dif_pos h'']
        have e : (⟨128 + (q.val - 2 * 64), by omega⟩ : Fin 256) = q := Fin.ext (by show 128 + (q.val - 2 * 64) = q.val; omega)
        have := zOf_lane2 h1 h2 bb ⟨q.val - 2 * 64, by omega⟩
        rw [e] at this
        exact this
      · rw [dif_neg h'']
        have hq := q.isLt
        have e : (⟨192 + (q.val - 3 * 64), by omega⟩ : Fin 256) = q := Fin.ext (by show 192 + (q.val - 3 * 64) = q.val; omega)
        have := zOf_lane3 h1 h2 bb ⟨q.val - 3 * 64, by omega⟩
        rw [e] at this
        exact this

end Cert.RefRead

end
-- ==== Proof.RefValue.lean ====
/- The reference's results at an index, over matrices of extended reals: one graph's slice of each stage is the
   stage's specification of the slices of its operands, from the arguments outward: the first Chebyshev convolution,
   its normalization H1, the second convolution on H1, its normalization H2, the third convolution on H2; the
   reconstructed adjacency is the masked symmetrized product of that, and Z the pooled means and maxima of H1, H2. -/
import proofs.«115478_j10110353015360_2_alg».proof.Proof.RefGlue
import proofs.«115478_j10110353015360_2_alg».proof.Proof.RefReadCheb
import proofs.«115478_j10110353015360_2_alg».proof.Proof.RefReadLn
import proofs.«115478_j10110353015360_2_alg».proof.Proof.RefReadAe
import proofs.«115478_j10110353015360_2_alg».proof.Proof.RefReadZ

noncomputable section

namespace Cert.ReferenceIdeal.RefRun

open Cert.ReferenceIdeal Cert.ReferenceIdeal.Gen Idealize.ShloMosaic Idealize.ShloMosaic.ValueIdx Cert.RefOps

/-- Graph bb's first activation: the normalization (scale g1, shift bt1, floored at zero) of its first convolution. -/
def H1R (a : Args) (bb : Fin 64) : Spec.Mat 512 64 :=
  RefSpec.lnR (Spec.cheb (fun p q => a.a0 (ix3 bb p q)) (fun p q => a.a1 (ix3 bb p q)) (fun w p q => a.a2 (ix3 w p q)) (fun q => a.a3 (ix1 q))) (fun p q => a.a8 (ix2 p q)) (fun p q => a.a9 (ix2 p q))

/-- Graph bb's second activation: the normalization (scale g2, shift bt2) of the convolution of the first. -/
def H2R (a : Args) (bb : Fin 64) : Spec.Mat 512 64 :=
  RefSpec.lnR (Spec.cheb (fun p q => a.a0 (ix3 bb p q)) (H1R a bb) (fun w p q => a.a4 (ix3 w p q)) (fun q => a.a5 (ix1 q))) (fun p q => a.a10 (ix2 p q)) (fun p q => a.a11 (ix2 p q))

/-- Graph bb's slice of layer 1's output is the convolution of its slices of A and X. -/
theorem r_v42_slice (a : Args) (bb : Fin 64) : (fun p q => r_v42 a (ix3 bb p q)) = Spec.cheb (fun p q => a.a0 (ix3 bb p q)) (fun p q => a.a1 (ix3 bb p q)) (fun w p q => a.a2 (ix3 w p q)) (fun q => a.a3 (ix1 q)) := by
  funext p q
  rw [r_v42_eq]
  exact RefRead.chebL1_apply a.a0 a.a1 a.a2 a.a3 bb p q

/-- Graph bb's slice of H1. -/
theorem r_v61_slice (a : Args) (bb : Fin 64) : (fun p q => r_v61 a (ix3 bb p q)) = H1R a bb := by
  funext p q
  rw [r_v61_eq, RefRead.lnRelu_apply, r_v42_slice]
  rfl

/-- Graph bb's slice of layer 2's output is the convolution of its slice of A and its first activation. -/
theorem r_v111_slice (a : Args) (bb : Fin 64) : (fun p q => r_v111 a (ix3 bb p q)) = Spec.cheb (fun p q => a.a0 (ix3 bb p q)) (H1R a bb) (fun w p q => a.a4 (ix3 w p q)) (fun q => a.a5 (ix1 q)) := by
  funext p q
  rw [r_v111_eq, RefRead.chebL_apply, r_v61_slice]

/-- Graph bb's slice of H2. -/
theorem r_v130_slice (a : Args) (bb : Fin 64) : (fun p q => r_v130 a (ix3 bb p q)) = H2R a bb := by
  funext p q
  rw [r_v130_eq, RefRead.lnRelu_apply, r_v111_slice]
  rfl

/-- Graph bb's slice of layer 3's output E is the convolution of its slice of A and its second activation. -/
theorem r_v180_slice (a : Args) (bb : Fin 64) : (fun p q => r_v180 a (ix3 bb p q)) = Spec.cheb (fun p q => a.a0 (ix3 bb p q)) (H2R a bb) (fun w p q => a.a6 (ix3 w p q)) (fun q => a.a7 (ix1 q)) := by
  funext p q
  rw [r_v180_eq, RefRead.chebL_apply, r_v130_slice]

/-- The reconstructed adjacency at graph bb, row i, column j. -/
theorem refAE_apply (a : Args) (bb : Fin 64) (i j : Fin 512) :
    refAE a (ix3 bb i j) = RefSpec.aeR (Spec.cheb (fun p q => a.a0 (ix3 bb p q)) (H2R a bb) (fun w p q => a.a6 (ix3 w p q)) (fun q => a.a7 (ix1 q))) i j := by
  rw [refAE_eq, RefRead.aeOf_apply, r_v180_slice]

/-- The pooled feature matrix at graph bb, lane q. -/
theorem refZ_apply (a : Args) (bb : Fin 64) (q : Fin 256) :
    refZ a (ix2 bb q) = RefSpec.zR (n := 512) (d := 64) (H1R a bb) (H2R a bb) q := by
  rw [refZ_eq, RefRead.zOf_apply, r_v61_slice, r_v130_slice]

end Cert.ReferenceIdeal.RefRun

end
-- ==== Proof.LibMlpRows.lean ====
/-
  A two-layer perceptron with a ReLU between the layers, read entry by entry on the extended reals, in the two
  spellings a program can give it, generic in the row count `R` and the widths `I`, `H`, `O`:
  * `plain_dot_sum`, `matmul_zero_plain`, `dotGeneral_plain`: a matrix product with the plain dimension numbers
    (rows × contraction times contraction × columns, no batch axis), as a vector unit's `matmul` into a zero accumulator or
    as the host's `dot_general`, is at entry `(p, c)` the sum over `k` of `l (p, k) · r (k, c)`;
  * `mlpRow`, `mlp2`: the perceptron of one row, and of every row of a matrix;
  * `kernel_mlp_apply`: the vector-unit spelling (operands rounded to bfloat16, which is the identity on the extended reals;
    biases cast to one row and repeated down the rows; ReLU as the maximum with a zero splat) is `mlpRow` of the row;
  * `host_mlp_apply`: the host spelling (`dot_general`s, biases broadcast in two steps, ReLU as the maximum with a
    broadcast zero) is the same `mlpRow`.
  No finiteness is needed anywhere: both spellings are the same sums of the same products, term by term.
-/
import Idealize.ShloMosaic.Lib.ValueIdx
import Idealize.ShloMosaic.Lib.ValueLayout
import Idealize.ShloMosaic.Lib.Pipeline.Value
import Idealize.ShloMosaic.PureOps.Ideal.Laws

noncomputable section

namespace Cert.LibMlp

open Idealize.ShloMosaic Idealize.ShloMosaic.ValueIdx
open scoped BigOperators

theorem plain_rank (M K N : ℕ) : (DotDims.plain M K N).contr.rank = 1 := rfl
theorem plain_size (M K N : ℕ) : (DotDims.plain M K N).contr.size ⟨0, by rw [plain_rank]; exact Nat.one_pos⟩ = K := rfl

theorem plain_lhs0 (M K N : ℕ) (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil), dif_pos (show (0 : Fin 2) ∈ (DotDims.plain M K N).lhsNonContracting from List.mem_singleton.mpr rfl)]
  rfl

theorem plain_rhs1 (M K N : ℕ) (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil), dif_pos (show (1 : Fin 2) ∈ (DotDims.plain M K N).rhsNonContracting from List.mem_singleton.mpr rfl)]
  rfl

theorem plain_lhs1 (M K N : ℕ) (j : (⟨2, ![M, N]⟩ : Shape).Idx) (q : (DotDims.plain M K N).contr.Idx) :
    ((DotDims.plain M K N).lhsIdx j q 1).val = (q ⟨0, by rw [plain_rank]; exact Nat.one_pos⟩).val :=
  (DotDims.plain M K N).lhsIdx_val_of_single rfl j q

theorem plain_rhs0 (M K N : ℕ) (j : (⟨2, ![M, N]⟩ : Shape).Idx) (q : (DotDims.plain M K N).contr.Idx) :
    ((DotDims.plain M K N).rhsIdx j q 0).val = (q ⟨0, by rw [plain_rank]; exact Nat.one_pos⟩).val :=
  (DotDims.plain M K N).rhsIdx_val_of_single rfl j q

/-- The plain matrix product's contraction, re-indexed by the one contracted coordinate. -/
theorem plain_dot_sum (M K N : ℕ) (l : (⟨2, ![M, K]⟩ : Shape).Idx → EReal) (r : (⟨2, ![K, N]⟩ : Shape).Idx → EReal)
    (p : Fin M) (c : Fin N) :
    ∑ q : (DotDims.plain M K N).contr.Idx, l ((DotDims.plain M K N).lhsIdx (ix2 p c) q) * r ((DotDims.plain M K N).rhsIdx (ix2 p c) q)
      = ∑ k : Fin K, l (ix2 p k) * r (ix2 k c) := by
  rw [← Equiv.sum_comp (contrEquiv1 (DotDims.plain M K N) K (plain_rank M K N) (plain_size M K N)).symm]
  refine Finset.sum_congr rfl fun k _ => ?_
  have hk := contrEquiv1_symm_val (DotDims.plain M K N) K (plain_rank M K N) (plain_size M K N) k
  have el : (DotDims.plain M K N).lhsIdx (ix2 p c) ((contrEquiv1 (DotDims.plain M K N) K (plain_rank M K N) (plain_size M K N)).symm k) = ix2 p k :=
    funext fun a => Fin.ext (by
      match a with
      | ⟨0, _⟩ => exact plain_lhs0 M K N _ _
      | ⟨1, _⟩ => exact (plain_lhs1 M K N _ _).trans hk)
  have er : (DotDims.plain M K N).rhsIdx (ix2 p c) ((contrEquiv1 (DotDims.plain M K N) K (plain_rank M K N) (plain_size M K N)).symm k) = ix2 k c :=
    funext fun a => Fin.ext (by
      match a with
      | ⟨0, _⟩ => exact (plain_rhs0 M K N _ _).trans hk
      | ⟨1, _⟩ => exact plain_rhs1 M K N _ _)
  rw [el, er]

/-- A `tpu.matmul` with the plain dimension numbers into the zero splat, at an entry: the row's product with the column. -/
theorem matmul_zero_plain (M K N : ℕ) (prec : Option ContractPrecision) {φ₁ φ₂ : FTy}
    (l : FVec Ideal ⟨2, ![M, K]⟩ φ₁) (r : FVec Ideal ⟨2, ![K, N]⟩ φ₂) (p : Fin M) (c : Fin N) :
    FloatOps.matmul (DotDims.plain M K N) prec l r (constant ⟨2, ![M, N]⟩ .f32 0x00000000#32) (ix2 p c) = ∑ k : Fin K, l (ix2 p k) * r (ix2 k c) :=
  (Ideal.matmul_constant_zero_apply (DotDims.plain M K N) prec l r (ix2 p c)).trans (plain_dot_sum M K N l r p c)

/-- The host's `dot_general` with the plain dimension numbers, at an entry: the same sum. -/
theorem dotGeneral_plain (M K N : ℕ) (prec : Option ContractPrecision) (sched : HostSchedule) {φ₁ φ₂ : FTy}
    (l : FVec Ideal ⟨2, ![M, K]⟩ φ₁) (r : FVec Ideal ⟨2, ![K, N]⟩ φ₂) (p : Fin M) (c : Fin N) :
    FloatOps.dotGeneral (DotDims.plain M K N) prec sched l r (ix2 p c) = ∑ k : Fin K, l (ix2 p k) * r (ix2 k c) :=
  (Ideal.dotGeneral_apply (DotDims.plain M K N) prec sched l r (ix2 p c)).trans (plain_dot_sum M K N l r p c)

/-! ## A two-layer perceptron, row by row -/

/-- One entry of `relu (row · w1 + b1) · w2 + b2` on the extended reals: the hidden unit `k` is the row's product with
    column `k` of `w1` plus `b1 k`, floored at `z`; the entry is the hidden row's product with column `q` of `w2` plus `b2 q`. -/
def mlpRow {I H O : ℕ} (z : EReal) (row : Fin I → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (q : Fin O) : EReal :=
  (∑ k : Fin H, max ((∑ j : Fin I, row j * w1 (ix2 j k)) + b1 (ix1 k)) z * w2 (ix2 k q)) + b2 (ix1 q)

/-- The perceptron applied to every row of `X`: entry `(r, q)` depends on row `r` of `X` only. The floor is the
    binary32 zero word's value. -/
def mlp2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) : (⟨2, ![R, O]⟩ : Shape).Idx → EReal :=
  fun i => mlpRow (Ideal.ofBits .f32 0x00000000#32) (fun j => X (ix2 (i 0) j)) w1 b1 w2 b2 (i 1)

theorem mlp2_ix2 {R I H O : ℕ} (X : (⟨2, ![R, I]⟩ : Shape).Idx → EReal) (w1 : (⟨2, ![I, H]⟩ : Shape).Idx → EReal) (b1 : (⟨1, ![H]⟩ : Shape).Idx → EReal)
    (w2 : (⟨2, ![H, O]⟩ : Shape).Idx → EReal) (b2 : (⟨1, ![O]⟩ : Shape).Idx → EReal) (p : Fin R) (q : Fin O) :
    mlp2 X w1 b1 w2 b2 (ix2 p q) = mlpRow (Ideal.ofBits .f32 0x00000000#32) (fun j => X (ix2 p j)) w1 b1 w2 b2 q := rfl

/-- The kernel body's arithmetic at an entry: both matrix products into a zero accumulator are plain sums, the
    roundings to bfloat16 are the identity on the extended reals, each bias is a vector laid out as one row and
    repeated down the rows, and the ReLU is the maximum with the zero splat. -/
theorem kernel_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hx : (⟨2, ![R, I]⟩ : Shape).ShapeCasts ⟨2, ![R, I]⟩)
    (hb1 : (⟨1, ![H]⟩ : Shape).ShapeCasts ⟨2, ![1, H]⟩) (hB1 : (⟨2, ![1, H]⟩ : Shape).Broadcasts ⟨2, ![R, H]⟩)
    (hb2 : (⟨1, ![O]⟩ : Shape).ShapeCasts ⟨2, ![1, O]⟩) (hB2 : (⟨2, ![1, O]⟩ : Shape).Broadcasts ⟨2, ![R, O]⟩)
    (ht : FTy.bf16.bits < FTy.f32.bits) (p : Fin R) (q : Fin O) :
    addf (matmul d2 none (truncf .bf16 (maximumf (addf (matmul d1 none (truncf .bf16 (shapeCast ⟨2, ![R, I]⟩ x hx) ht) (truncf .bf16 w1 ht) (constant ⟨2, ![R, H]⟩ .f32 0x00000000#32))
        (broadcastTo ⟨2, ![R, H]⟩ (shapeCast ⟨2, ![1, H]⟩ b1 hb1) hB1)) (broadcast ⟨2, ![R, H]⟩ (Scalar.ofBits .f32 0x00000000#32))) ht) (truncf .bf16 w2 ht) (constant ⟨2, ![R, O]⟩ .f32 0x00000000#32))
      (broadcastTo ⟨2, ![R, O]⟩ (shapeCast ⟨2, ![1, O]⟩ b2 hb2) hB2) (ix2 p q)
    = mlpRow (Ideal.ofBits .f32 0x00000000#32) (fun j => x (ix2 p j)) w1 b1 w2 b2 q := by
  subst hd1 hd2
  simp only [mlpRow, matmul, addf_apply, maximumf_apply, truncf_apply, matmul_zero_plain,
    broadcastTo_1b_ab_apply, shapeCast_a_1a_apply, shapeCast_self, broadcast_apply]
  rfl

/-- The same perceptron as the host spells it: `dot_general`s, each bias broadcast to one row and then down the rows,
    the ReLU as the maximum with a broadcast zero. -/
theorem host_mlp_apply {R I H O : ℕ}
    (d1 : DotDims ⟨2, ![R, I]⟩ ⟨2, ![I, H]⟩ ⟨2, ![R, H]⟩) (hd1 : d1 = DotDims.plain R I H)
    (d2 : DotDims ⟨2, ![R, H]⟩ ⟨2, ![H, O]⟩ ⟨2, ![R, O]⟩) (hd2 : d2 = DotDims.plain R H O)
    (x : FVec Ideal ⟨2, ![R, I]⟩ .f32) (w1 : FVec Ideal ⟨2, ![I, H]⟩ .f32) (b1 : FVec Ideal ⟨1, ![H]⟩ .f32)
    (w2 : FVec Ideal ⟨2, ![H, O]⟩ .f32) (b2 : FVec Ideal ⟨1, ![O]⟩ .f32)
    (hb1 : (⟨1, ![H]⟩ : Shape).BroadcastsInDim ⟨2, ![1, H]⟩ ![1]) (hB1 : (⟨2, ![1, H]⟩ : Shape).BroadcastsInDim ⟨2, ![R, H]⟩ ![0, 1])
    (hz : (⟨0, ![]⟩ : Shape).BroadcastsInDim ⟨2, ![R, H]⟩ ![])
    (hb2 : (⟨1, ![O]⟩ : Shape).BroadcastsInDim ⟨2, ![1, O]⟩ ![1]) (hB2 : (⟨2, ![1, O]⟩ : Shape).BroadcastsInDim ⟨2, ![R, O]⟩ ![0, 1])
    (p : Fin R) (q : Fin O) :
    addf (Host.dotGeneral d2 none (maximumf (addf (Host.dotGeneral d1 none x w1)
        (broadcastInDim ⟨2, ![R, H]⟩ ![0, 1] hB1 (broadcastInDim ⟨2, ![1, H]⟩ ![1] hb1 b1)))
        (broadcastInDim ⟨2, ![R, H]⟩ ![] hz (constant (F := Ideal) ⟨0, ![]⟩ .f32 0x00000000#32))) w2)
      (broadcastInDim ⟨2, ![R, O]⟩ ![0, 1] hB2 (broadcastInDim ⟨2, ![1, O]⟩ ![1] hb2 b2)) (ix2 p q)
    = mlpRow (Ideal.ofBits .f32 0x00000000#32) (fun j => x (ix2 p j)) w1 b1 w2 b2 q := by
  subst hd1 hd2
  have bias1 : ∀ (r : Fin R) (k : Fin H), broadcastInDim ⟨2, ![R, H]⟩ ![0, 1] hB1 (broadcastInDim ⟨2, ![1, H]⟩ ![1] hb1 b1) (ix2 r k) = b1 (ix1 k) := fun r k => by
    rw [broadcastInDim_apply ![0, 1] hB1 _ (ix2 r k) (ix2 (0 : Fin 1) k) (fun a => by
      match a with
      | ⟨0, _⟩ => rfl
      | ⟨1, _⟩ => show k.val = if H = 1 then 0 else k.val; split <;> [(have := k.isLt; omega); rfl])]
    exact broadcastInDim_apply ![1] hb1 _ (ix2 (0 : Fin 1) k) (ix1 k) (fun a => by
      match a with
      | ⟨0, _⟩ => show k.val = if H = 1 then 0 else k.val; split <;> [(have := k.isLt; omega); rfl])
  have bias2 : ∀ (r : Fin R) (k : Fin O), broadcastInDim ⟨2, ![R, O]⟩ ![0, 1] hB2 (broadcastInDim ⟨2, ![1, O]⟩ ![1] hb2 b2) (ix2 r k) = b2 (ix1 k) := fun r k => by
    rw [broadcastInDim_apply ![0, 1] hB2 _ (ix2 r k) (ix2 (0 : Fin 1) k) (fun a => by
      match a with
      | ⟨0, _⟩ => rfl
      | ⟨1, _⟩ => show k.val = if O = 1 then 0 else k.val; split <;> [(have := k.isLt; omega); rfl])]
    exact broadcastInDim_apply ![1] hb2 _ (ix2 (0 : Fin 1) k) (ix1 k) (fun a => by
      match a with
      | ⟨0, _⟩ => show k.val = if O = 1 then 0 else k.val; split <;> [(have := k.isLt; omega); rfl])
  have zero : ∀ (r : Fin R) (k : Fin H), broadcastInDim ⟨2, ![R, H]⟩ ![] hz (constant (F := Ideal) ⟨0, ![]⟩ .f32 0x00000000#32) (ix2 r k) = Ideal.ofBits .f32 0x00000000#32 := fun r k => by
    exact broadcastInDim_apply ![] hz _ (ix2 r k) ix0 (fun a => a.elim0)
  simp only [mlpRow, Host.dotGeneral, addf_apply, maximumf_apply, dotGeneral_plain, bias1, bias2, zero]

end Cert.LibMlp

end
-- ==== Proof.KRead.lean ====
/-
  The kernel body's vector operations read as matrix operations on the extended reals.

  A rank-2 vector is read as the matrix of its entries (`toMat`), a `[1, a, b]` block as the matrix of its one
  slab (`m3`), a stack of six weight matrices by its slab index (`wm`), a rank-1 vector by its entries (`vec1`), and a
  `[1, 1]` vector as its one entry (`sc`).  Through these readings: a pointwise operation is the pointwise operation
  of the matrices, a rounding to bfloat16 is the identity, a product into a zero accumulator is the matrix product,
  a slab cut out of a stack and flattened is that slab, a bias laid out as a row and repeated down the rows is the
  bias of the column, and a transpose swaps the indices.
-/
import Idealize.ShloMosaic.Lib.ValueIdx
import Idealize.ShloMosaic.Lib.ValueLayout
import Idealize.ShloMosaic.Lib.Pipeline.Value
import Idealize.ShloMosaic.PureOps.Ideal.Laws
import proofs.«115478_j10110353015360_2_alg».proof.Proof.Spec
import proofs.«115478_j10110353015360_2_alg».proof.Proof.LibMlpRows

noncomputable section

namespace Cert.KRead

open Idealize.ShloMosaic Idealize.ShloMosaic.ValueIdx Cert.Spec
open scoped BigOperators

variable {a b : ℕ} {φ : FTy}

/-- A rank-2 vector as the matrix of its entries. -/
def toMat (v : FVec Ideal ⟨2, ![a, b]⟩ φ) : Mat a b := fun i j => v (ix2 i j)
/-- A `[1, a, b]` block as the matrix of its one slab. -/
def m3 (v : FVec Ideal ⟨3, ![1, a, b]⟩ φ) : Mat a b := fun i j => v (ix3 (0 : Fin 1) i j)
/-- Slab `k` of a stack of `n` matrices. -/
def wm {n : ℕ} (v : FVec Ideal ⟨3, ![n, a, b]⟩ φ) (k : Fin n) : Mat a b := fun i j => v (ix3 k i j)
/-- A rank-1 vector by its entries. -/
def vec1 (v : FVec Ideal ⟨1, ![a]⟩ φ) : Fin a → EReal := fun j => v (ix1 j)
/-- The one entry of a `[1, 1]` vector. -/
def sc (v : FVec Ideal ⟨2, ![1, 1]⟩ φ) : EReal := v (ix2 (0 : Fin 1) (0 : Fin 1))

theorem toMat_addf (u v : FVec Ideal ⟨2, ![a, b]⟩ φ) : toMat (addf u v) = fun i j => toMat u i j + toMat v i j := rfl
theorem toMat_subf (u v : FVec Ideal ⟨2, ![a, b]⟩ φ) : toMat (subf u v) = fun i j => toMat u i j - toMat v i j := rfl
theorem toMat_mulf (u v : FVec Ideal ⟨2, ![a, b]⟩ φ) : toMat (mulf u v) = fun i j => toMat u i j * toMat v i j := rfl
theorem toMat_maximumf (u v : FVec Ideal ⟨2, ![a, b]⟩ φ) : toMat (maximumf u v) = fun i j => max (toMat u i j) (toMat v i j) := rfl
theorem toMat_truncf {ψ : FTy} (v : FVec Ideal ⟨2, ![a, b]⟩ φ) (h : ψ.bits < φ.bits) : toMat (truncf ψ v h) = toMat v := rfl
theorem toMat_broadcast (c : Ideal φ) : toMat (broadcast ⟨2, ![a, b]⟩ c : FVec Ideal ⟨2, ![a, b]⟩ φ) = fun _ _ => c := rfl

/-- A product into the zero splat is the matrix product. -/
theorem toMat_matmul {M K N : ℕ} {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) :
    toMat (matmul d prec l r (constant ⟨2, ![M, N]⟩ .f32 0x00000000#32)) = mm (toMat l) (toMat r) := by
  subst hd
  funext p c
  exact Cert.LibMlp.matmul_zero_plain M K N prec l r p c

/-- A `[1, a, b]` block flattened is its slab. -/
theorem toMat_shapeCast_1ab (x : FVec Ideal ⟨3, ![1, a, b]⟩ φ) (h : (⟨3, ![1, a, b]⟩ : Shape).ShapeCasts ⟨2, ![a, b]⟩) :
    toMat (shapeCast ⟨2, ![a, b]⟩ x h) = m3 x := by
  funext i j
  exact shapeCast_1ab_ab_apply x h i j

/-- A matrix laid out as a `[1, a, b]` block: its one slab is the matrix. -/
theorem m3_shapeCast_ab (x : FVec Ideal ⟨2, ![a, b]⟩ φ) (h : (⟨2, ![a, b]⟩ : Shape).ShapeCasts ⟨3, ![1, a, b]⟩) :
    m3 (shapeCast ⟨3, ![1, a, b]⟩ x h) = toMat x := by
  funext i j
  exact shapeCast_ab_1ab_apply x h 0 i j

/-- Slab `k` cut out of a stack: the slice's one slab is the stack's slab `k`. -/
theorem m3_slice {n : ℕ} (o : ℕ) (ho : o < n) (W : FVec Ideal ⟨3, ![n, a, b]⟩ φ)
    (h : (⟨3, ![n, a, b]⟩ : Shape).Slices ![o, 0, 0] ⟨3, ![1, a, b]⟩) :
    m3 (extractStridedSlice ⟨3, ![1, a, b]⟩ ![o, 0, 0] W h) = wm W ⟨o, ho⟩ := by
  funext i j
  refine extractStridedSlice_apply _ W h _ (ix3 (⟨o, ho⟩ : Fin n) i j) fun ax => ?_
  match ax with
  | ⟨0, _⟩ => rfl
  | ⟨1, _⟩ => show i.val = 0 + i.val; omega
  | ⟨2, _⟩ => show j.val = 0 + j.val; omega

/-- A vector laid out as one row and repeated down the rows reads the vector at the column. -/
theorem toMat_biasRows (v : FVec Ideal ⟨1, ![b]⟩ φ) (hc : (⟨1, ![b]⟩ : Shape).ShapeCasts ⟨2, ![1, b]⟩)
    (hb : (⟨2, ![1, b]⟩ : Shape).Broadcasts ⟨2, ![a, b]⟩) :
    toMat (broadcastTo ⟨2, ![a, b]⟩ (shapeCast ⟨2, ![1, b]⟩ v hc) hb) = fun _ j => vec1 v j := by
  funext i j
  show broadcastTo ⟨2, ![a, b]⟩ (shapeCast ⟨2, ![1, b]⟩ v hc) hb (ix2 i j) = v (ix1 j)
  rw [broadcastTo_1b_ab_apply, shapeCast_a_1a_apply]

/-- A transpose swaps the indices. -/
theorem toMat_transpose (x : FVec Ideal ⟨2, ![a, b]⟩ φ) (h : (⟨2, ![a, b]⟩ : Shape).Transposes [1, 0] ⟨2, ![b, a]⟩) :
    toMat (transpose ⟨2, ![b, a]⟩ [1, 0] x h) = fun j i => toMat x i j := by
  funext j i
  exact transpose_ix2_apply x h j i

/-- A `[1, 1]` vector repeated over a matrix reads its one entry everywhere. -/
theorem toMat_bcast11 (v : FVec Ideal ⟨2, ![1, 1]⟩ φ) (hb : (⟨2, ![1, 1]⟩ : Shape).Broadcasts ⟨2, ![a, b]⟩) :
    toMat (broadcastTo ⟨2, ![a, b]⟩ v hb) = fun _ _ => sc v := by
  funext i j
  refine broadcastTo_apply v hb (ix2 i j) (ix2 (0 : Fin 1) (0 : Fin 1)) fun ax => ?_
  match ax with
  | ⟨0, _⟩ => rfl
  | ⟨1, _⟩ => rfl

end Cert.KRead

end
-- ==== Proof.KCheb1.lean ====
/-
  The first Chebyshev layer of the kernel body, read as matrices: with `A` the adjacency block and `X` the feature
  block of the grid point, the body's values are `A X`, then `t₂, …, t₅` of the recurrence, and the layer's result is
  the graph convolution `cheb A X W b`.
-/
import proofs.«115478_j10110353015360_2_alg».proof.Proof.Gen.KernelIdeal.Skeleton
import proofs.«115478_j10110353015360_2_alg».proof.Proof.KRead

noncomputable section

namespace Cert.KernelIdeal.KVal

open Idealize.ShloMosaic Idealize.ShloMosaic.ValueIdx Cert.Spec Cert.KRead Cert.KernelIdeal.Gen
open scoped BigOperators

theorem pay2_mat (v0 : FVec Ideal S1x512x512 .f32) : toMat (k0_pay2 v0) = m3 v0 := by
  unfold k0_pay2; exact toMat_shapeCast_1ab v0 _

theorem pay3_mat (v2 : FVec Ideal S1x512x512 .f32) : toMat (k0_pay3 v2) = m3 v2 := by
  unfold k0_pay3; exact toMat_shapeCast_1ab v2 _

theorem pay4_mat (v0 : FVec Ideal S1x512x512 .f32) : toMat (k0_pay4 v0) = m3 v0 := by
  unfold k0_pay4; rw [toMat_truncf, pay2_mat]

theorem pay5_mat (v0 v2 : FVec Ideal S1x512x512 .f32) : toMat (k0_pay5 v0 v2) = t1 (m3 v0) (m3 v2) := by
  unfold k0_pay5
  rw [toMat_matmul dot_S512x512_S512x512_S512x512_1_0_0_1_n_n rfl, pay4_mat, toMat_truncf, pay3_mat]
  rfl

theorem pay6_mat (v0 v2 : FVec Ideal S1x512x512 .f32) : toMat (k0_pay6 v0 v2) = t2 (m3 v0) (m3 v2) := by
  unfold k0_pay6
  rw [toMat_subf, toMat_mulf, toMat_matmul dot_S512x512_S512x512_S512x512_1_0_0_1_n_n rfl, pay4_mat, toMat_truncf, pay5_mat, pay3_mat]
  rfl

theorem pay7_mat (v0 v2 : FVec Ideal S1x512x512 .f32) (v4 : FVec Ideal S6x512x64 .f32) :
    toMat (k0_pay7 v0 v2 v4) = fun i j => mm (m3 v2) (wm v4 0) i j + mm (t1 (m3 v0) (m3 v2)) (wm v4 1) i j
      + mm (t2 (m3 v0) (m3 v2)) (wm v4 2) i j := by
  unfold k0_pay7
  simp only [toMat_addf, toMat_matmul dot_S512x512_S512x64_S512x64_1_0_0_1_n_n rfl, toMat_truncf, pay3_mat, pay5_mat, pay6_mat,
    toMat_shapeCast_1ab, m3_slice (n := 6) 0 (by decide), m3_slice (n := 6) 1 (by decide), m3_slice (n := 6) 2 (by decide)]
  rfl

theorem pay8_mat (v0 v2 : FVec Ideal S1x512x512 .f32) : toMat (k0_pay8 v0 v2) = t3 (m3 v0) (m3 v2) := by
  unfold k0_pay8
  rw [toMat_subf, toMat_mulf, toMat_matmul dot_S512x512_S512x512_S512x512_1_0_0_1_n_n rfl, pay4_mat, toMat_truncf, pay6_mat, pay5_mat]
  rfl

theorem pay9_mat (v0 v2 : FVec Ideal S1x512x512 .f32) : toMat (k0_pay9 v0 v2) = t3 (m3 v0) (m3 v2) := by
  unfold k0_pay9; rw [toMat_truncf, pay8_mat]

theorem pay10_mat (v4 : FVec Ideal S6x512x64 .f32) : toMat (k0_pay10 v4) = wm v4 3 := by
  unfold k0_pay10
  rw [toMat_truncf, toMat_shapeCast_1ab, m3_slice (n := 6) 3 (by decide)]
  rfl

/-- The first layer's result is the graph convolution of the point's blocks. -/
theorem layer1_mat (v0 v2 : FVec Ideal S1x512x512 .f32) (v4 : FVec Ideal S6x512x64 .f32) (v5 : FVec Ideal S64 .f32) :
    toMat (k0_pay11 v4 v5 (k0_pay4 v0) (k0_pay6 v0 v2) (k0_pay7 v0 v2 v4) (k0_pay8 v0 v2) (k0_pay9 v0 v2) (k0_pay10 v4)
      (constant S512x64 .f32 0x00000000#32)) = cheb (m3 v0) (m3 v2) (wm v4) (vec1 v5) := by
  unfold k0_pay11
  simp only [toMat_addf, toMat_subf, toMat_mulf, toMat_broadcast, toMat_matmul dot_S512x512_S512x64_S512x64_1_0_0_1_n_n rfl,
    toMat_matmul dot_S512x512_S512x512_S512x512_1_0_0_1_n_n rfl, toMat_truncf, pay4_mat, pay6_mat, pay7_mat, pay8_mat, pay9_mat, pay10_mat,
    toMat_shapeCast_1ab, m3_slice (n := 6) 4 (by decide), m3_slice (n := 6) 5 (by decide), toMat_biasRows]
  rfl

end Cert.KernelIdeal.KVal

end
-- ==== Proof.KCheb2.lean ====
/-
  The second and third Chebyshev layers of the kernel body, read as matrices.  With `A` the adjacency block as a
  matrix and `H` the layer's input activation, the body's values are `A H`, the recurrence's `t₂ … t₅`, and each
  layer's result is the graph convolution `cheb A H W b` with the layer's six weight matrices and bias.
-/
import proofs.«115478_j10110353015360_2_alg».proof.Proof.Gen.KernelIdeal.Skeleton
import proofs.«115478_j10110353015360_2_alg».proof.Proof.KRead

noncomputable section

namespace Cert.KernelIdeal.KVal

open Idealize.ShloMosaic Idealize.ShloMosaic.ValueIdx Cert.Spec Cert.KRead Cert.KernelIdeal.Gen
open scoped BigOperators

/-! ## The second layer: its input is the first hidden activation `k0_pay14 …` -/

theorem pay17_mat (v1 : FVec Ideal S512x512 .f32) : toMat (k0_pay17 v1) = toMat v1 := by
  unfold k0_pay17; rw [toMat_truncf]

theorem pay18_mat (v1 : FVec Ideal S512x512 .f32) (v66 v67 v68 : FVec Ideal S512x64 .f32) (v74 v83 : FVec Ideal S1x1 .f32) :
    toMat (k0_pay18 v1 v66 v67 v68 v74 v83) = t1 (toMat v1) (toMat (k0_pay14 v66 v67 v68 v74 v83)) := by
  unfold k0_pay18
  rw [toMat_matmul dot_S512x512_S512x64_S512x64_1_0_0_1_n_n rfl, pay17_mat, toMat_truncf]
  rfl

theorem pay19_mat (v1 : FVec Ideal S512x512 .f32) (v66 v67 v68 : FVec Ideal S512x64 .f32) (v74 v83 : FVec Ideal S1x1 .f32) :
    toMat (k0_pay19 v1 v66 v67 v68 v74 v83) = t2 (toMat v1) (toMat (k0_pay14 v66 v67 v68 v74 v83)) := by
  unfold k0_pay19
  rw [toMat_subf, toMat_mulf, toMat_matmul dot_S512x512_S512x64_S512x64_1_0_0_1_n_n rfl, pay17_mat, toMat_truncf, pay18_mat]
  rfl

theorem pay21_mat (v1 : FVec Ideal S512x512 .f32) (v66 v67 v68 : FVec Ideal S512x64 .f32) (v74 v83 : FVec Ideal S1x1 .f32) :
    toMat (k0_pay21 v1 v66 v67 v68 v74 v83) = t2 (toMat v1) (toMat (k0_pay14 v66 v67 v68 v74 v83)) := by
  unfold k0_pay21; rw [toMat_truncf, pay19_mat]

theorem pay20_mat (v1 : FVec Ideal S512x512 .f32) (v66 v67 v68 : FVec Ideal S512x64 .f32) (v74 v83 : FVec Ideal S1x1 .f32) (v101 : FVec Ideal S6x64x64 .f32) :
    toMat (k0_pay20 v1 v66 v67 v68 v74 v83 v101) = fun i j => mm (toMat (k0_pay14 v66 v67 v68 v74 v83)) (wm v101 0) i j
      + mm (t1 (toMat v1) (toMat (k0_pay14 v66 v67 v68 v74 v83))) (wm v101 1) i j + mm (t2 (toMat v1) (toMat (k0_pay14 v66 v67 v68 v74 v83))) (wm v101 2) i j := by
  unfold k0_pay20
  simp only [toMat_addf, toMat_matmul dot_S512x64_S64x64_S512x64_1_0_0_1_n_n rfl, toMat_truncf, pay18_mat, pay19_mat,
    toMat_shapeCast_1ab, m3_slice (n := 6) 0 (by decide), m3_slice (n := 6) 1 (by decide), m3_slice (n := 6) 2 (by decide)]
  rfl

/-- The second layer's result is the graph convolution of the adjacency block and the first hidden activation. -/
theorem layer2_mat (v1 : FVec Ideal S512x512 .f32) (v66 v67 v68 : FVec Ideal S512x64 .f32) (v74 v83 : FVec Ideal S1x1 .f32) (v101 : FVec Ideal S6x64x64 .f32) (v102 : FVec Ideal S64 .f32) :
    toMat (k0_pay22 v101 v102 (k0_pay17 v1) (k0_pay18 v1 v66 v67 v68 v74 v83) (k0_pay19 v1 v66 v67 v68 v74 v83) (k0_pay20 v1 v66 v67 v68 v74 v83 v101) (k0_pay21 v1 v66 v67 v68 v74 v83))
      = cheb (toMat v1) (toMat (k0_pay14 v66 v67 v68 v74 v83)) (wm v101) (vec1 v102) := by
  unfold k0_pay22
  simp only [toMat_addf, toMat_subf, toMat_mulf, toMat_broadcast, toMat_matmul dot_S512x512_S512x64_S512x64_1_0_0_1_n_n rfl, toMat_matmul dot_S512x64_S64x64_S512x64_1_0_0_1_n_n rfl,
    toMat_truncf, pay17_mat, pay18_mat, pay19_mat, pay20_mat, pay21_mat,
    toMat_shapeCast_1ab, m3_slice (n := 6) 3 (by decide), m3_slice (n := 6) 4 (by decide), m3_slice (n := 6) 5 (by decide), toMat_biasRows]
  rfl

/-! ## The third layer: its input is the second hidden activation, any matrix `v191` -/

theorem pay30_mat (v1 : FVec Ideal S512x512 .f32) : toMat (k0_pay30 v1) = toMat v1 := by
  unfold k0_pay30; rw [toMat_truncf]

theorem pay31_mat (v1 : FVec Ideal S512x512 .f32) (v191 : FVec Ideal S512x64 .f32) :
    toMat (k0_pay31 v1 v191) = t1 (toMat v1) (toMat v191) := by
  unfold k0_pay31
  rw [toMat_matmul dot_S512x512_S512x64_S512x64_1_0_0_1_n_n rfl, pay30_mat, toMat_truncf]
  rfl

theorem pay32_mat (v1 : FVec Ideal S512x512 .f32) (v191 : FVec Ideal S512x64 .f32) :
    toMat (k0_pay32 v1 v191) = t2 (toMat v1) (toMat v191) := by
  unfold k0_pay32
  rw [toMat_subf, toMat_mulf, toMat_matmul dot_S512x512_S512x64_S512x64_1_0_0_1_n_n rfl, pay30_mat, toMat_truncf, pay31_mat]
  rfl

theorem pay33_mat (v1 : FVec Ideal S512x512 .f32) (v191 : FVec Ideal S512x64 .f32) :
    toMat (k0_pay33 v1 v191) = t3 (toMat v1) (toMat v191) := by
  unfold k0_pay33
  rw [toMat_subf, toMat_mulf, toMat_matmul dot_S512x512_S512x64_S512x64_1_0_0_1_n_n rfl, pay30_mat, toMat_truncf, pay32_mat, pay31_mat]
  rfl

theorem pay35_mat (v1 : FVec Ideal S512x512 .f32) (v191 : FVec Ideal S512x64 .f32) :
    toMat (k0_pay35 v1 v191) = t4 (toMat v1) (toMat v191) := by
  unfold k0_pay35
  rw [toMat_subf, toMat_mulf, toMat_matmul dot_S512x512_S512x64_S512x64_1_0_0_1_n_n rfl, pay30_mat, toMat_truncf, pay33_mat, pay32_mat]
  rfl

theorem pay34_mat (v1 : FVec Ideal S512x512 .f32) (v191 : FVec Ideal S512x64 .f32) (v210 : FVec Ideal S6x64x64 .f32) :
    toMat (k0_pay34 v1 v191 v210) = fun i j => mm (toMat v191) (wm v210 0) i j + mm (t1 (toMat v1) (toMat v191)) (wm v210 1) i j
      + mm (t2 (toMat v1) (toMat v191)) (wm v210 2) i j + mm (t3 (toMat v1) (toMat v191)) (wm v210 3) i j := by
  unfold k0_pay34
  simp only [toMat_addf, toMat_matmul dot_S512x64_S64x64_S512x64_1_0_0_1_n_n rfl, toMat_truncf, pay31_mat, pay32_mat, pay33_mat,
    toMat_shapeCast_1ab, m3_slice (n := 6) 0 (by decide), m3_slice (n := 6) 1 (by decide), m3_slice (n := 6) 2 (by decide),
    m3_slice (n := 6) 3 (by decide)]
  rfl

theorem pay36_m3 (v210 : FVec Ideal S6x64x64 .f32) : m3 (k0_pay36 v210) = wm v210 4 := by
  unfold k0_pay36
  rw [m3_slice (n := 6) 4 (by decide)]
  rfl

end Cert.KernelIdeal.KVal

end
-- ==== Proof.KSpec.lean ====
/-
  The kernel's arrangement of the mathematics that the two programs arrange differently, over matrices of extended reals.

  The layer normalization over all `n · d` entries of a matrix: the mean is the total (rows summed first, then the
  row sums) divided by the entry count; the variance is the mean of the squares minus the square of the mean; an entry
  is centred, multiplied by the reciprocal square root of the variance plus the floor, scaled and shifted entry by
  entry, and rectified.  The pooled features of a matrix are, per column, the column's sum divided by the row count and
  the column's maximum (the fold of `max` from minus infinity).  The last stage forms the Gram matrix of the rows,
  rectifies it, clears the diagonal, and averages it with its transpose.
-/
import proofs.«115478_j10110353015360_2_alg».proof.Proof.Spec

noncomputable section

namespace Cert.KSpec

open Idealize.ShloMosaic Cert.Spec
open scoped BigOperators

variable {n d : ℕ}

/-- The total of all entries, rows first. -/
def total (h : Mat n d) : EReal := ∑ i : Fin n, ∑ j : Fin d, h i j

/-- The mean of all entries. -/
def meanK (h : Mat n d) : EReal := Ideal.div (total h) cCount

/-- The variance as the mean of the squares minus the square of the mean. -/
def varK (h : Mat n d) : EReal := Ideal.div (total fun i j => h i j * h i j) cCount - meanK h * meanK h

/-- Layer normalization over the whole matrix, scaled by `g`, shifted by `bt`, rectified. -/
def lnK (h g bt : Mat n d) : Mat n d := fun i j =>
  max ((h i j - meanK h) * Ideal.rsqrt (varK h + cEps) * g i j + bt i j) c0

/-- The mean of column `j` over the rows. -/
def poolMeanK (h : Mat n d) (j : Fin d) : EReal := Ideal.div (∑ i : Fin n, h i j) cRows

/-- The maximum of column `j` over the rows, folded from minus infinity. -/
def poolMaxK (h : Mat n d) (j : Fin d) : EReal := (Finset.univ : Finset (Fin n)).fold max cNegInf fun i => h i j

/-- One off the diagonal, zero on it. -/
def offDiag (i j : Fin n) : EReal := if i = j then 0 else 1

/-- The rectified Gram matrix of the rows with its diagonal cleared. -/
def gramK (x : Mat n d) : Mat n n := fun i j => max (∑ l : Fin d, x i l * x j l) c0 * offDiag i j

/-- The symmetrized result: half the sum of the cleared Gram matrix and its transpose. -/
def aeK (x : Mat n d) : Mat n n := fun i j => cHalf * (gramK x i j + gramK x j i)

/-- The two hidden activations and the last layer's result of one sample. -/
def h1K (A : Mat n n) (X : Mat n n) (W1 : Fin 6 → Mat n d) (b1 : Fin d → EReal) (g1 bt1 : Mat n d) : Mat n d :=
  lnK (cheb A X W1 b1) g1 bt1
def h2K (A : Mat n n) (h1 : Mat n d) (W2 : Fin 6 → Mat d d) (b2 : Fin d → EReal) (g2 bt2 : Mat n d) : Mat n d :=
  lnK (cheb A h1 W2 b2) g2 bt2

end Cert.KSpec

end
-- ==== Proof.LibColumns.lean ====
/-
  Two layout operations read at an index, for the column forms that a row reduction kept as a column
  (`keepdims`) produces: a vector of `a` entries cast to an `[a, 1]` column, and an `[a, 1]` column broadcast along
  `b` lanes.  Both read the operand at the row's own entry.
-/
import Idealize.ShloMosaic.Lib.Pipeline.Value
import Idealize.ShloMosaic.Lib.ValueIdx

namespace Cert.Columns

open Idealize.ShloMosaic Idealize.ShloMosaic.ValueIdx

variable {α : Type}

/-- An `[a]` array cast to an `[a, 1]` column reads, at `(p, u)`, the operand at `p`, whatever the unit coordinate `u`:
    the two indices have the same row-major position `p`. -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.KReduce.lean ====
/-
  The kernel body's reductions read as sums and maxima of matrix entries, at the extents of this kernel
  (matrices of 512 rows and 64 columns):

  * the sum along the columns of a row, the sum and the maximum along the rows of a column;
  * the total of a matrix as the kernel takes it — row sums first, kept as a column, then the column summed, the
    result laid out as a `[1, 1]` vector — is the double sum, rows outside;
  * a pooled row `[1, 64]` laid out as `[1, 1, 64]` reads its own entries.
-/
import Idealize.ShloMosaic.Lib.ValueIdx
import Idealize.ShloMosaic.Lib.ValueLayout
import Idealize.ShloMosaic.Lib.Pipeline.Value
import Idealize.ShloMosaic.PureOps.Ideal.Laws
import proofs.«115478_j10110353015360_2_alg».proof.Proof.KRead
import proofs.«115478_j10110353015360_2_alg».proof.Proof.KSpec
import proofs.«115478_j10110353015360_2_alg».proof.Proof.LibColumns

noncomputable section

namespace Cert.KReduce

open Idealize.ShloMosaic Idealize.ShloMosaic.ValueIdx Cert.Spec Cert.KSpec Cert.KRead
open scoped BigOperators

/-- The sum along a row of a `512 × 64` matrix. -/
theorem rowSum (u : FVec Ideal ⟨2, ![512, 64]⟩ .f32) (acc : BitVec 32) (h : Shape.Reduces ⟨2, ![512, 64]⟩ [1] ⟨1, ![512]⟩)
    (hφ : FKind.Formats .f32) (hacc : acc = FKind.add.neutral .f32 hφ) (i : Fin 512) :
    multiReduction .add [1] ⟨1, ![512]⟩ u acc h hφ hacc (ix1 i) = ∑ k : Fin 64, u (ix2 i k) :=
  (Ideal.multiReduction_add_single u acc h hφ hacc (ix1 i)).trans
    (Finset.sum_congr rfl fun k _ => congrArg u (funext fun a => Fin.ext (by
      match a with
      | ⟨0, _⟩ => rfl
      | ⟨1, _⟩ => rfl)))

/-- The sum down a column of a `512 × 64` matrix. -/
theorem colSum (u : FVec Ideal ⟨2, ![512, 64]⟩ .f32) (acc : BitVec 32) (h : Shape.Reduces ⟨2, ![512, 64]⟩ [0] ⟨1, ![64]⟩)
    (hφ : FKind.Formats .f32) (hacc : acc = FKind.add.neutral .f32 hφ) (j : Fin 64) :
    multiReduction .add [0] ⟨1, ![64]⟩ u acc h hφ hacc (ix1 j) = ∑ k : Fin 512, u (ix2 k j) :=
  (Ideal.multiReduction_add_single u acc h hφ hacc (ix1 j)).trans
    (Finset.sum_congr rfl fun k _ => congrArg u (funext fun a => Fin.ext (by
      match a with
      | ⟨0, _⟩ => rfl
      | ⟨1, _⟩ => rfl)))

/-- The sum down a column of 512 entries. -/
theorem colSum1 (u : FVec Ideal ⟨2, ![512, 1]⟩ .f32) (acc : BitVec 32) (h : Shape.Reduces ⟨2, ![512, 1]⟩ [0] ⟨1, ![1]⟩)
    (hφ : FKind.Formats .f32) (hacc : acc = FKind.add.neutral .f32 hφ) (j : Fin 1) :
    multiReduction .add [0] ⟨1, ![1]⟩ u acc h hφ hacc (ix1 j) = ∑ k : Fin 512, u (ix2 k j) :=
  (Ideal.multiReduction_add_single u acc h hφ hacc (ix1 j)).trans
    (Finset.sum_congr rfl fun k _ => congrArg u (funext fun a => Fin.ext (by
      match a with
      | ⟨0, _⟩ => rfl
      | ⟨1, _⟩ => rfl)))

/-- The maximum down a column of a `512 × 64` matrix, folded from the accumulator's value. -/
theorem colMax (u : FVec Ideal ⟨2, ![512, 64]⟩ .f32) (acc : BitVec 32) (h : Shape.Reduces ⟨2, ![512, 64]⟩ [0] ⟨1, ![64]⟩)
    (hφ : FKind.Formats .f32) (hacc : acc = FKind.maximumf.neutral .f32 hφ) (j : Fin 64) :
    multiReduction .maximumf [0] ⟨1, ![64]⟩ u acc h hφ hacc (ix1 j)
      = (Finset.univ : Finset (Fin 512)).fold max (Ideal.ofBits .f32 acc) fun k => u (ix2 k j) :=
  (Ideal.multiReduction_maximumf_single u acc h hφ hacc (ix1 j)).trans
    (congrArg (fun f => (Finset.univ : Finset (Fin 512)).fold max (Ideal.ofBits .f32 acc) f) (funext fun k => congrArg u (funext fun a => Fin.ext (by
      match a with
      | ⟨0, _⟩ => rfl
      | ⟨1, _⟩ => rfl))))

/-- The total of a matrix as the kernel takes it: row sums, kept as a column, summed. -/
theorem total_read (u : FVec Ideal ⟨2, ![512, 64]⟩ .f32) (acc acc' : BitVec 32)
    (h1 : Shape.Reduces ⟨2, ![512, 64]⟩ [1] ⟨1, ![512]⟩) (hφ : FKind.Formats .f32) (hacc : acc = FKind.add.neutral .f32 hφ)
    (hc1 : (⟨1, ![512]⟩ : Shape).ShapeCasts ⟨2, ![512, 1]⟩)
    (h0 : Shape.Reduces ⟨2, ![512, 1]⟩ [0] ⟨1, ![1]⟩) (hφ' : FKind.Formats .f32) (hacc' : acc' = FKind.add.neutral .f32 hφ')
    (hc2 : (⟨1, ![1]⟩ : Shape).ShapeCasts ⟨2, ![1, 1]⟩) :
    sc (shapeCast ⟨2, ![1, 1]⟩ (multiReduction .add [0] ⟨1, ![1]⟩
        (shapeCast ⟨2, ![512, 1]⟩ (multiReduction .add [1] ⟨1, ![512]⟩ u acc h1 hφ hacc) hc1) acc' h0 hφ' hacc') hc2)
      = total (toMat u) := by
  unfold sc total toMat
  rw [shapeCast_a_1a_apply, colSum1]
  refine Finset.sum_congr rfl fun i _ => ?_
  rw [Cert.Columns.shapeCast_a_a1_apply, rowSum]

/-- A `[1, 64]` row laid out as `[1, 1, 64]` reads its own entries. -/
theorem row_as_111 (v : FVec Ideal ⟨2, ![1, 64]⟩ .f32) (h : (⟨2, ![1, 64]⟩ : Shape).ShapeCasts ⟨3, ![1, 1, 64]⟩) (q : Fin 64) :
    shapeCast ⟨3, ![1, 1, 64]⟩ v h (ix3 (0 : Fin 1) (0 : Fin 1) q) = v (ix2 (0 : Fin 1) q) :=
  shapeCast_ab_1ab_apply v h 0 0 q

end Cert.KReduce

end
-- ==== Proof.KLn1.lean ====
/-
  The first layer normalization of the kernel body and the pooling after it, read on matrices: the body's mean and
  variance of the layer's result are `meanK` and `varK` of its matrix, the normalized, scaled, shifted and rectified
  activation is `lnK`, and the two pooled rows are the column means and the column maxima.
-/
import proofs.«115478_j10110353015360_2_alg».proof.Proof.Gen.KernelIdeal.Skeleton
import proofs.«115478_j10110353015360_2_alg».proof.Proof.KRead
import proofs.«115478_j10110353015360_2_alg».proof.Proof.KReduce

noncomputable section

namespace Cert.KernelIdeal.KVal

open Idealize.ShloMosaic Idealize.ShloMosaic.ValueIdx Cert.Spec Cert.KSpec Cert.KRead Cert.KReduce Cert.KernelIdeal.Gen
open scoped BigOperators

/-- The mean the body takes of the first layer's result. -/
theorem pay12_sc (v4 : FVec Ideal S6x512x64 .f32) (v5 : FVec Ideal S64 .f32) (v6 : FVec Ideal S512x512 .bf16) (v24 : FVec Ideal S512x512 .f32) (v30 : FVec Ideal S512x64 .f32) (v35 : FVec Ideal S512x512 .f32) (v38 : FVec Ideal S512x512 .bf16) (v39 : FVec Ideal S512x64 .bf16) (cst : FVec Ideal S512x64 .f32) :
    sc (k0_pay12 v4 v5 v6 v24 v30 v35 v38 v39 cst) = meanK (toMat (k0_pay11 v4 v5 v6 v24 v30 v35 v38 v39 cst)) := by
  unfold k0_pay12 meanK
  exact congrArg (fun x => Ideal.div x cCount) (total_read _ _ _ _ _ _ _ _ _ _ _)

/-- The variance the body takes of the first layer's result: mean of squares minus squared mean. -/
theorem pay13_sc (v4 : FVec Ideal S6x512x64 .f32) (v5 : FVec Ideal S64 .f32) (v6 : FVec Ideal S512x512 .bf16) (v24 : FVec Ideal S512x512 .f32) (v30 : FVec Ideal S512x64 .f32) (v35 : FVec Ideal S512x512 .f32) (v38 : FVec Ideal S512x512 .bf16) (v39 : FVec Ideal S512x64 .bf16) (cst : FVec Ideal S512x64 .f32) :
    sc (k0_pay13 v4 v5 v6 v24 v30 v35 v38 v39 cst) = varK (toMat (k0_pay11 v4 v5 v6 v24 v30 v35 v38 v39 cst)) := by
  unfold k0_pay13 varK
  exact congrArg₂ (fun x y => Ideal.div x cCount - y * y) (total_read _ _ _ _ _ _ _ _ _ _ _) (pay12_sc v4 v5 v6 v24 v30 v35 v38 v39 cst)

/-- The normalized, scaled, shifted and rectified activation, from a matrix, its scale and shift, a mean and a variance. -/
theorem pay14_mat (v66 v67 v68 : FVec Ideal S512x64 .f32) (v74 v83 : FVec Ideal S1x1 .f32) :
    toMat (k0_pay14 v66 v67 v68 v74 v83)
      = fun i j => max ((toMat v66 i j - sc v74) * Ideal.rsqrt (sc v83 + cEps) * toMat v67 i j + toMat v68 i j) c0 := by
  unfold k0_pay14
  simp only [toMat_maximumf, toMat_addf, toMat_mulf, toMat_subf, toMat_bcast11, toMat_broadcast]
  rfl

/-- The first hidden activation is the layer normalization of the first layer's result. -/
theorem ln1_mat (v4 : FVec Ideal S6x512x64 .f32) (v5 : FVec Ideal S64 .f32) (v6 : FVec Ideal S512x512 .bf16) (v24 : FVec Ideal S512x512 .f32) (v30 : FVec Ideal S512x64 .f32) (v35 : FVec Ideal S512x512 .f32) (v38 : FVec Ideal S512x512 .bf16) (v39 : FVec Ideal S512x64 .bf16) (cst : FVec Ideal S512x64 .f32) (v67 v68 : FVec Ideal S512x64 .f32) :
    toMat (k0_pay14 (k0_pay11 v4 v5 v6 v24 v30 v35 v38 v39 cst) v67 v68 (k0_pay12 v4 v5 v6 v24 v30 v35 v38 v39 cst) (k0_pay13 v4 v5 v6 v24 v30 v35 v38 v39 cst))
      = lnK (toMat (k0_pay11 v4 v5 v6 v24 v30 v35 v38 v39 cst)) (toMat v67) (toMat v68) := by
  rw [pay14_mat, pay12_sc, pay13_sc]
  rfl

/-- The pooled means of an activation. -/
theorem pay15_read (v66 v67 v68 : FVec Ideal S512x64 .f32) (v74 v83 : FVec Ideal S1x1 .f32) (q : Fin 64) :
    k0_pay15 v66 v67 v68 v74 v83 (ix2 (0 : Fin 1) q) = poolMeanK (toMat (k0_pay14 v66 v67 v68 v74 v83)) q := by
  unfold k0_pay15 poolMeanK
  exact congrArg (fun x => Ideal.div x cRows) ((shapeCast_a_1a_apply _ _ _ _).trans (colSum _ _ _ _ _ q))

/-- The pooled maxima of an activation. -/
theorem pay16_read (v66 v67 v68 : FVec Ideal S512x64 .f32) (v74 v83 : FVec Ideal S1x1 .f32) (q : Fin 64) :
    k0_pay16 v66 v67 v68 v74 v83 (ix2 (0 : Fin 1) q) = poolMaxK (toMat (k0_pay14 v66 v67 v68 v74 v83)) q := by
  unfold k0_pay16 poolMaxK
  exact (shapeCast_a_1a_apply _ _ _ _).trans (colMax _ _ _ _ _ q)

end Cert.KernelIdeal.KVal

end
-- ==== Proof.KLn2.lean ====
/-
  The second layer normalization of the kernel body, the pooling after it, and the four pooled rows as the body lays
  them out.  The body takes the mean of the second layer's result, squares the result entry by entry, and from the
  total of the squares forms the variance as mean of squares minus squared mean: again `lnK`.
-/
import proofs.«115478_j10110353015360_2_alg».proof.Proof.Gen.KernelIdeal.Skeleton
import proofs.«115478_j10110353015360_2_alg».proof.Proof.KRead
import proofs.«115478_j10110353015360_2_alg».proof.Proof.KReduce

noncomputable section

namespace Cert.KernelIdeal.KVal

open Idealize.ShloMosaic Idealize.ShloMosaic.ValueIdx Cert.Spec Cert.KSpec Cert.KRead Cert.KReduce Cert.KernelIdeal.Gen
open scoped BigOperators

/-- Normalization of `x` from a given mean `mu` and a given total of squares `tsq`. -/
def lnFrom {n d : ℕ} (x g bt : Mat n d) (mu tsq : EReal) : Mat n d := fun i j =>
  max ((x i j - mu) * Ideal.rsqrt (Ideal.div tsq cCount - mu * mu + cEps) * g i j + bt i j) c0

theorem pay23_sc (v101 : FVec Ideal S6x64x64 .f32) (v102 : FVec Ideal S64 .f32) (v103 : FVec Ideal S512x512 .bf16) (v105 v121 v127 : FVec Ideal S512x64 .f32) (v128 : FVec Ideal S512x64 .bf16) : sc (k0_pay23 v101 v102 v103 v105 v121 v127 v128) = meanK (toMat (k0_pay22 v101 v102 v103 v105 v121 v127 v128)) := by
  unfold k0_pay23 meanK
  exact congrArg (fun x => Ideal.div x cCount) (total_read _ _ _ _ _ _ _ _ _ _ _)

theorem pay24_mat (v101 : FVec Ideal S6x64x64 .f32) (v102 : FVec Ideal S64 .f32) (v103 : FVec Ideal S512x512 .bf16) (v105 v121 v127 : FVec Ideal S512x64 .f32) (v128 : FVec Ideal S512x64 .bf16) :
    toMat (k0_pay24 v101 v102 v103 v105 v121 v127 v128) = fun i j => toMat (k0_pay22 v101 v102 v103 v105 v121 v127 v128) i j * toMat (k0_pay22 v101 v102 v103 v105 v121 v127 v128) i j := rfl

theorem pay25_mat (v163 v164 v165 : FVec Ideal S512x64 .f32) (v171 : FVec Ideal S1x1 .f32) (v172 : FVec Ideal S512x64 .f32) :
    toMat (k0_pay25 v163 v164 v165 v171 v172) = lnFrom (toMat v163) (toMat v164) (toMat v165) (sc v171) (total (toMat v172)) := by
  unfold k0_pay25
  simp only [toMat_maximumf, toMat_addf, toMat_mulf, toMat_subf, toMat_bcast11, toMat_broadcast]
  exact congrArg (fun T => lnFrom (toMat v163) (toMat v164) (toMat v165) (sc v171) T) (total_read v172 _ _ _ _ _ _ _ _ _ _)

/-- The second hidden activation is the layer normalization of the second layer's result. -/
theorem ln2_mat (v101 : FVec Ideal S6x64x64 .f32) (v102 : FVec Ideal S64 .f32) (v103 : FVec Ideal S512x512 .bf16) (v105 v121 v127 : FVec Ideal S512x64 .f32) (v128 : FVec Ideal S512x64 .bf16) (v164 v165 : FVec Ideal S512x64 .f32) :
    toMat (k0_pay25 (k0_pay22 v101 v102 v103 v105 v121 v127 v128) v164 v165 (k0_pay23 v101 v102 v103 v105 v121 v127 v128) (k0_pay24 v101 v102 v103 v105 v121 v127 v128))
      = lnK (toMat (k0_pay22 v101 v102 v103 v105 v121 v127 v128)) (toMat v164) (toMat v165) := by
  rw [pay25_mat, pay23_sc, pay24_mat]
  rfl

theorem pay26_read (v98 : FVec Ideal S1x64 .f32) (q : Fin 64) :
    k0_pay26 v98 (ix3 (0 : Fin 1) (0 : Fin 1) q) = v98 (ix2 (0 : Fin 1) q) := by
  unfold k0_pay26; exact row_as_111 v98 _ q

theorem pay27_read (v100 : FVec Ideal S1x64 .f32) (q : Fin 64) :
    k0_pay27 v100 (ix3 (0 : Fin 1) (0 : Fin 1) q) = v100 (ix2 (0 : Fin 1) q) := by
  unfold k0_pay27; exact row_as_111 v100 _ q

theorem pay28_read (v163 v164 v165 : FVec Ideal S512x64 .f32) (v171 : FVec Ideal S1x1 .f32) (v172 : FVec Ideal S512x64 .f32) (q : Fin 64) :
    k0_pay28 v163 v164 v165 v171 v172 (ix3 (0 : Fin 1) (0 : Fin 1) q) = poolMeanK (toMat (k0_pay25 v163 v164 v165 v171 v172)) q := by
  unfold k0_pay28 poolMeanK
  exact (row_as_111 _ _ q).trans
    (congrArg (fun x => Ideal.div x cRows) ((shapeCast_a_1a_apply _ _ _ _).trans (colSum _ _ _ _ _ q)))

theorem pay29_read (v163 v164 v165 : FVec Ideal S512x64 .f32) (v171 : FVec Ideal S1x1 .f32) (v172 : FVec Ideal S512x64 .f32) (q : Fin 64) :
    k0_pay29 v163 v164 v165 v171 v172 (ix3 (0 : Fin 1) (0 : Fin 1) q) = poolMaxK (toMat (k0_pay25 v163 v164 v165 v171 v172)) q := by
  unfold k0_pay29 poolMaxK
  exact (row_as_111 _ _ q).trans ((shapeCast_a_1a_apply _ _ _ _).trans (colMax _ _ _ _ _ q))

end Cert.KernelIdeal.KVal

end
-- ==== Proof.KGram.lean ====
/-
  The last stage of the kernel body, read on matrices: the third layer's result `X₀` (its last two Chebyshev terms are
  formed here), the Gram matrix `X₀ X₀ᵀ` rectified, its diagonal cleared by the mask "row index differs from column
  index", and the result averaged with its transpose.
-/
import proofs.«115478_j10110353015360_2_alg».proof.Proof.Gen.KernelIdeal.Skeleton
import proofs.«115478_j10110353015360_2_alg».proof.Proof.KRead
import proofs.«115478_j10110353015360_2_alg».proof.Proof.KSpec
import proofs.«115478_j10110353015360_2_alg».proof.Proof.KCheb2

noncomputable section

namespace Cert.KernelIdeal.KVal

open Idealize.ShloMosaic Idealize.ShloMosaic.ValueIdx Cert.Spec Cert.KSpec Cert.KRead Cert.KernelIdeal.Gen
open scoped BigOperators

/-- The mask "row index ≠ column index" as a float: one off the diagonal, zero on it. -/
theorem toMat_mask (h0 : (⟨2, ![512, 512]⟩ : Shape).Iotas .tc 32 [0]) (h1 : (⟨2, ![512, 512]⟩ : Shape).Iotas .tc 32 [1]) (hw : 1 < 32) :
    toMat (sitofp .f32 (extui 32 (cmpi .ne (iota .tc ⟨2, ![512, 512]⟩ 32 [0] h0) (iota .tc ⟨2, ![512, 512]⟩ 32 [1] h1)) hw)
      : FVec Ideal ⟨2, ![512, 512]⟩ .f32) = offDiag := by
  funext i j
  unfold toMat offDiag
  rw [sitofp_apply, extui_apply]
  show FloatOps.sitofp .f32 ((IntOp.cmpi .ne (iota .tc ⟨2, ![512, 512]⟩ 32 [0] h0 (ix2 i j)) (iota .tc ⟨2, ![512, 512]⟩ 32 [1] h1 (ix2 i j))).setWidth 32) = _
  rw [iota_single_apply, iota_single_apply]
  show (((((BitVec.ofBool (BitVec.ofNat 32 i.val != BitVec.ofNat 32 j.val)).setWidth 32).toInt : ℤ) : ℝ) : EReal) = _
  by_cases hij : i = j
  · subst hij
    simp
  · have hne : (BitVec.ofNat 32 i.val != BitVec.ofNat 32 j.val) = true := by
      rw [bne_iff_ne]
      intro h
      apply hij
      apply Fin.ext
      have := congrArg BitVec.toNat h
      simp only [BitVec.toNat_ofNat] at this
      have hi := i.isLt; have hj := j.isLt
      omega
    rw [hne, if_neg hij]
    simp

/-- The body's last value, as the matrix of its one slab, from the values it is handed. -/
theorem pay1_m3 (v210 : FVec Ideal S6x64x64 .f32) (v211 : FVec Ideal S64 .f32) (v212 : FVec Ideal S512x512 .bf16) (v241 v247 v252 : FVec Ideal S512x64 .f32) (v253 : FVec Ideal S1x64x64 .f32) :
    m3 (k0_pay1 v210 v211 v212 v241 v247 v252 v253) = aeK (fun p q => toMat v247 p q + mm (toMat v252) (m3 v253) p q
      + mm (fun p q => c2 * mm (toMat v212) (toMat v252) p q - toMat v241 p q) (wm v210 5) p q + vec1 v211 q) := by
  unfold k0_pay1
  rw [m3_shapeCast_ab]
  simp only [toMat_mulf, toMat_addf, toMat_subf, toMat_maximumf, toMat_broadcast, toMat_truncf,
    toMat_transpose (a := 512) (b := 64) (φ := .bf16), toMat_transpose (a := 512) (b := 512) (φ := .f32),
    toMat_matmul dot_S512x64_S64x64_S512x64_1_0_0_1_n_n rfl, toMat_matmul dot_S512x512_S512x64_S512x64_1_0_0_1_n_n rfl,
    toMat_matmul dot_S512x64_S64x512_S512x512_1_0_0_1_n_n rfl, toMat_shapeCast_1ab, m3_slice (n := 6) 5 (by decide), toMat_biasRows,
    toMat_mask iota_S512x512_d0_w32 iota_S512x512_d1_w32 natLt_1_32]
  rfl

/-- The result block of the grid point: the symmetrized, diagonal-cleared, rectified Gram matrix of the third layer's result. -/
theorem ae_m3 (v1 : FVec Ideal S512x512 .f32) (v191 : FVec Ideal S512x64 .f32) (v210 : FVec Ideal S6x64x64 .f32) (v211 : FVec Ideal S64 .f32) :
    m3 (k0_pay1 v210 v211 (k0_pay30 v1) (k0_pay33 v1 v191) (k0_pay34 v1 v191 v210) (k0_pay35 v1 v191) (k0_pay36 v210))
      = aeK (cheb (toMat v1) (toMat v191) (wm v210) (vec1 v211)) := by
  rw [pay1_m3, pay30_mat, pay33_mat, pay34_mat, pay35_mat, pay36_m3]
  rfl

end Cert.KernelIdeal.KVal

end
-- ==== Proof.KZSpec.lean ====
/-
  The pooled summary of one sample as the kernel lays it out in 256 lanes: the column means of the first hidden
  activation in lanes 0-63, its column maxima in lanes 64-127, then the same of the second hidden activation in lanes
  128-191 and 192-255.
-/
import proofs.«115478_j10110353015360_2_alg».proof.Proof.KSpec

noncomputable section

namespace Cert.KSpec

open Idealize.ShloMosaic Cert.Spec

variable {n : ℕ}

/-- Lane `q` of the pooled summary. -/
def zK (H1 H2 : Mat n 64) (q : Fin 256) : EReal :=
  if h : q.val < 64 then poolMeanK H1 ⟨q.val, h⟩
  else if h' : q.val < 128 then poolMaxK H1 ⟨q.val - 64, by omega⟩
  else if h'' : q.val < 192 then poolMeanK H2 ⟨q.val - 128, by omega⟩
  else poolMaxK H2 ⟨q.val - 192, by have := q.isLt; omega⟩

theorem zK_lane0 (H1 H2 : Mat n 64) (j : Fin 256) (q : Fin 64) (hj : j.val = q.val) : zK H1 H2 j = poolMeanK H1 q := by
  unfold zK
  rw [dif_pos (by have := q.isLt; omega)]
  exact congrArg (poolMeanK H1) (Fin.ext hj)

theorem zK_lane1 (H1 H2 : Mat n 64) (j : Fin 256) (q : Fin 64) (hj : j.val = 64 + q.val) : zK H1 H2 j = poolMaxK H1 q := by
  unfold zK
  rw [dif_neg (by omega), dif_pos (by have := q.isLt; omega)]
  exact congrArg (poolMaxK H1) (Fin.ext (by show j.val - 64 = q.val; omega))

theorem zK_lane2 (H1 H2 : Mat n 64) (j : Fin 256) (q : Fin 64) (hj : j.val = 128 + q.val) : zK H1 H2 j = poolMeanK H2 q := by
  unfold zK
  rw [dif_neg (by omega), dif_neg (by omega), dif_pos (by have := q.isLt; omega)]
  exact congrArg (poolMeanK H2) (Fin.ext (by show j.val - 128 = q.val; omega))

theorem zK_lane3 (H1 H2 : Mat n 64) (j : Fin 256) (q : Fin 64) (hj : j.val = 192 + q.val) : zK H1 H2 j = poolMaxK H2 q := by
  unfold zK
  rw [dif_neg (by omega), dif_neg (by omega), dif_neg (by omega)]
  exact congrArg (poolMaxK H2) (Fin.ext (by show j.val - 192 = q.val; omega))

end Cert.KSpec

end
-- ==== Proof.KBlock.lean ====
/-
  What the kernel body leaves in its two output blocks at a grid point, as functions of the point's twelve input
  blocks: the adjacency and feature blocks of the sample, the three layers' weights and biases, the two
  normalizations' scales and shifts.  The result block is `aeK` of the third layer's result; lane `q` of the summary
  block is `zK` of the two hidden activations.
-/
import proofs.«115478_j10110353015360_2_alg».proof.Proof.KIFrameData
import proofs.«115478_j10110353015360_2_alg».proof.Proof.KCheb1
import proofs.«115478_j10110353015360_2_alg».proof.Proof.KCheb2
import proofs.«115478_j10110353015360_2_alg».proof.Proof.KLn1
import proofs.«115478_j10110353015360_2_alg».proof.Proof.KLn2
import proofs.«115478_j10110353015360_2_alg».proof.Proof.KGram
import proofs.«115478_j10110353015360_2_alg».proof.Proof.KZSpec

noncomputable section

namespace Cert.KernelIdeal.KVal

open Idealize.ShloMosaic Idealize.ShloMosaic.ValueIdx Cert.Spec Cert.KSpec Cert.KRead Cert.KernelIdeal.Gen Cert.KernelIdeal.HFrame
open scoped BigOperators

theorem hz3 : (![0, 0, 0] : Fin 3 → ℕ) = fun _ => 0 := by funext a; fin_cases a <;> rfl
theorem hz2 : (![0, 0] : Fin 2 → ℕ) = fun _ => 0 := by funext a; fin_cases a <;> rfl
theorem hz1 : (![0] : Fin 1 → ℕ) = fun _ => 0 := by funext a; fin_cases a; rfl

/-- The first hidden activation of the sample whose blocks are given. -/
def h1Of (x0 x1 : FVec Ideal S1x512x512 .f32) (x2 : FVec Ideal S6x512x64 .f32) (x3 : FVec Ideal S64 .f32) (x8 x9 : FVec Ideal S512x64 .f32) : Mat 512 64 :=
  h1K (m3 x0) (m3 x1) (wm x2) (vec1 x3) (toMat x8) (toMat x9)

/-- Its second hidden activation. -/
def h2Of (x0 x1 : FVec Ideal S1x512x512 .f32) (x2 : FVec Ideal S6x512x64 .f32) (x3 : FVec Ideal S64 .f32) (x4 : FVec Ideal S6x64x64 .f32) (x5 : FVec Ideal S64 .f32) (x6 : FVec Ideal S6x64x64 .f32) (x7 : FVec Ideal S64 .f32) (x8 x9 x10 x11 : FVec Ideal S512x64 .f32) : Mat 512 64 :=
  h2K (m3 x0) (h1Of x0 x1 x2 x3 x8 x9) (wm x4) (vec1 x5) (toMat x10) (toMat x11)

/-- The result block: the symmetrized Gram matrix of the third layer's result. -/
theorem out0_12_m3 (x0 x1 : FVec Ideal S1x512x512 .f32) (x2 : FVec Ideal S6x512x64 .f32) (x3 : FVec Ideal S64 .f32) (x4 : FVec Ideal S6x64x64 .f32) (x5 : FVec Ideal S64 .f32) (x6 : FVec Ideal S6x64x64 .f32) (x7 : FVec Ideal S64 .f32) (x8 x9 x10 x11 : FVec Ideal S512x64 .f32) :
    m3 (a := 512) (b := 512) (φ := .f32) (out0_12 (F := Ideal) x0 x1 x2 x3 x4 x5 x6 x7 x8 x9 x10 x11) = aeK (cheb (m3 x0) (h2Of x0 x1 x2 x3 x4 x5 x6 x7 x8 x9 x10 x11) (wm x6) (vec1 x7)) := by
  unfold out0_12
  dsimp only
  rw [View.canon_unit_zero (S := S1x512x512) hz3]
  simp only [View.ld_unit_zero (S := S1x512x512) hz3, View.ld_unit_zero (S := S6x512x64) hz3, View.ld_unit_zero (S := S6x64x64) hz3,
    View.ld_unit_zero (S := S64) hz1, View.ld_unit_zero (S := S512x64) hz2]
  rw [ae_m3, ln2_mat, layer2_mat, ln1_mat, layer1_mat, pay2_mat]
  rfl

/-- An index of a `[1, 1, 64]` piece is determined by its lane. -/
theorem idx_111 (x : (⟨3, ![1, 1, 64]⟩ : Shape).Idx) : x = ix3 (0 : Fin 1) (0 : Fin 1) (x 2) := by
  funext a
  match a with
  | ⟨0, _⟩ => exact Fin.ext (Nat.lt_one_iff.mp (x 0).isLt)
  | ⟨1, _⟩ => exact Fin.ext (Nat.lt_one_iff.mp (x 1).isLt)
  | ⟨2, _⟩ => rfl

/-- The lane of an index of the summary block. -/
def lane (y : S1x1x256.Idx) : Fin 256 := ⟨(y 2).val, (y 2).isLt⟩

/-- Lane by lane, the summary block is the pooled summary of the two hidden activations. -/
theorem out0_13_read (x0 x1 : FVec Ideal S1x512x512 .f32) (x2 : FVec Ideal S6x512x64 .f32) (x3 : FVec Ideal S64 .f32) (x4 : FVec Ideal S6x64x64 .f32) (x5 : FVec Ideal S64 .f32) (x6 : FVec Ideal S6x64x64 .f32) (x7 : FVec Ideal S64 .f32) (x8 x9 x10 x11 : FVec Ideal S512x64 .f32) (y : S1x1x256.Idx) :
    out0_13 (F := Ideal) x0 x1 x2 x3 x4 x5 x6 x7 x8 x9 x10 x11 y = zK (h1Of x0 x1 x2 x3 x8 x9) (h2Of x0 x1 x2 x3 x4 x5 x6 x7 x8 x9 x10 x11) (lane y) := by
  unfold out0_13
  simp only [View.ld_unit_zero (S := S1x512x512) hz3, View.ld_unit_zero (S := S6x512x64) hz3, View.ld_unit_zero (S := S6x64x64) hz3,
    View.ld_unit_zero (S := S64) hz1, View.ld_unit_zero (S := S512x64) hz2]
  refine View.canon_apply_of_pieces (Val := Elt Ideal) (e := .f32)
    (fun y : S1x1x256.Idx => (zK (h1Of x0 x1 x2 x3 x8 x9) (h2Of x0 x1 x2 x3 x4 x5 x6 x7 x8 x9 x10 x11) (lane y) : Elt Ideal .f32)) _ ?_ y
    (cover0_13 _ _ _ _ y)
  intro p hp x
  simp only [List.mem_cons, List.mem_nil_iff, or_false] at hp
  rcases hp with rfl | rfl | rfl | rfl
  · obtain ⟨q, rfl⟩ : ∃ q : Fin 64, x = ix3 (0 : Fin 1) (0 : Fin 1) q :=
      ⟨x 2, idx_111 x⟩
    dsimp only
    rw [pay29_read]
    rw [ln2_mat, layer2_mat, ln1_mat, layer1_mat, pay2_mat]
    exact (zK_lane3 _ _ _ q (by show 192 + 1 * q.val = 192 + q.val; omega)).symm
  · obtain ⟨q, rfl⟩ : ∃ q : Fin 64, x = ix3 (0 : Fin 1) (0 : Fin 1) q :=
      ⟨x 2, idx_111 x⟩
    dsimp only
    rw [pay28_read]
    rw [ln2_mat, layer2_mat, ln1_mat, layer1_mat, pay2_mat]
    exact (zK_lane2 _ _ _ q (by show 128 + 1 * q.val = 128 + q.val; omega)).symm
  · obtain ⟨q, rfl⟩ : ∃ q : Fin 64, x = ix3 (0 : Fin 1) (0 : Fin 1) q :=
      ⟨x 2, idx_111 x⟩
    dsimp only
    rw [pay27_read, pay16_read]
    rw [ln1_mat, layer1_mat]
    exact (zK_lane1 _ _ _ q (by show 64 + 1 * q.val = 64 + q.val; omega)).symm
  · obtain ⟨q, rfl⟩ : ∃ q : Fin 64, x = ix3 (0 : Fin 1) (0 : Fin 1) q :=
      ⟨x 2, idx_111 x⟩
    dsimp only
    rw [pay26_read, pay15_read]
    rw [ln1_mat, layer1_mat]
    exact (zK_lane0 _ _ _ q (by show 0 + 1 * q.val = q.val; omega)).symm

theorem out0_13_lane (x0 x1 : FVec Ideal S1x512x512 .f32) (x2 : FVec Ideal S6x512x64 .f32) (x3 : FVec Ideal S64 .f32) (x4 : FVec Ideal S6x64x64 .f32) (x5 : FVec Ideal S64 .f32) (x6 : FVec Ideal S6x64x64 .f32) (x7 : FVec Ideal S64 .f32) (x8 x9 x10 x11 : FVec Ideal S512x64 .f32) (q : Fin 256) :
    out0_13 (F := Ideal) x0 x1 x2 x3 x4 x5 x6 x7 x8 x9 x10 x11 (ix3 (0 : Fin 1) (0 : Fin 1) q) = zK (h1Of x0 x1 x2 x3 x8 x9) (h2Of x0 x1 x2 x3 x4 x5 x6 x7 x8 x9 x10 x11) q :=
  out0_13_read x0 x1 x2 x3 x4 x5 x6 x7 x8 x9 x10 x11 _

end Cert.KernelIdeal.KVal

end
-- ==== Proof.Consts.lean ====
/-
  The binary32 words the two programs spell, as the extended reals they denote: zero, one, two, one half, the entry
  count 32768, the row count 512, the variance floor (a positive real; its exact value is never needed), minus infinity.
  Stated once, here, so that no other module unfolds the words.
-/
import Idealize.ShloMosaic.PureOps.Ideal
import proofs.«115478_j10110353015360_2_alg».proof.Proof.Spec

noncomputable section

namespace Cert.Consts

open Idealize.ShloMosaic Cert.Spec

theorem c0_eq : c0 = 0 := by
  unfold c0; simp [Ideal.ofBits, Ideal.ieee]

theorem c1_eq : c1 = ((1 : ℝ) : EReal) := by
  unfold c1; simp [Ideal.ofBits, Ideal.ieee, -EReal.coe_mul]; norm_num

theorem c2_eq : c2 = ((2 : ℝ) : EReal) := by
  unfold c2; simp [Ideal.ofBits, Ideal.ieee, -EReal.coe_mul]; norm_num

theorem cHalf_eq : cHalf = ((1 / 2 : ℝ) : EReal) := by
  unfold cHalf; simp [Ideal.ofBits, Ideal.ieee, -EReal.coe_mul]; norm_num

theorem cCount_eq : cCount = ((32768 : ℝ) : EReal) := by
  unfold cCount; simp [Ideal.ofBits, Ideal.ieee, -EReal.coe_mul]; norm_num

theorem cRows_eq : cRows = ((512 : ℝ) : EReal) := by
  unfold cRows; simp [Ideal.ofBits, Ideal.ieee, -EReal.coe_mul]; norm_num

/-- The variance floor is a positive real number. -/
theorem cEps_pos : ∃ e : ℝ, 0 < e ∧ cEps = (e : EReal) := by
  refine ⟨10995116 * (2 : ℝ) ^ (-40 : ℤ), by positivity, ?_⟩
  unfold cEps; simp [Ideal.ofBits, Ideal.ieee, -EReal.coe_mul]; try norm_num

theorem cNegInf_eq : cNegInf = ⊥ := by
  unfold cNegInf; simp [Ideal.ofBits, Ideal.ieee]

end Cert.Consts

end
-- ==== Proof.LibIsReal.lean ====
/-
  A small calculus for "this extended real is a real number".

  At the exact instance a float is an extended real, and laws that cancel or distribute hold only away from the
  infinities.  A program whose inputs are real numbers keeps real numbers through sums, products, finite sums of
  products (a matrix product's entry), maxima (a ReLU, a row maximum) and differences; this file states each closure
  once, so that "every entry is real" can be carried layer by layer instead of being re-derived:

  * `IsReal x`: `x` is the coercion of a real number; `IsReal.ne_top`, `IsReal.ne_bot`;
  * closure: `coe`, `zero`, `add`, `sub`, `neg`, `mul`, `max`, `sum` (any finite sum), `sum_mul` (a finite sum of
    products), `sup` (a nonempty finite supremum);
  * `isReal_of_abs_lt_top`: an extended real whose absolute value `max x (-x)` is below `⊤` is a real number (the
    form in which a "finite input" precondition reads).
-/
import Idealize.ShloMosaic.PureOps.Ideal

namespace Idealize.ShloMosaic

/-- `x` is (the coercion of) a real number. -/
def IsReal (x : EReal) : Prop := ∃ r : ℝ, x = (r : EReal)

namespace IsReal

theorem coe (r : ℝ) : IsReal (r : EReal) := ⟨r, rfl⟩

theorem zero : IsReal (0 : EReal) := ⟨0, rfl⟩

theorem ne_top {x : EReal} (h : IsReal x) : x ≠ ⊤ := by
  obtain ⟨r, rfl⟩ := h; exact EReal.coe_ne_top r

theorem ne_bot {x : EReal} (h : IsReal x) : x ≠ ⊥ := by
  obtain ⟨r, rfl⟩ := h; exact EReal.coe_ne_bot r

theorem of_ne {x : EReal} (ht : x ≠ ⊤) (hb : x ≠ ⊥) : IsReal x := by
  induction x using EReal.rec with
  | bot => exact absurd rfl hb
  | coe r => exact ⟨r, rfl⟩
  | top => exact absurd rfl ht

theorem add {x y : EReal} (hx : IsReal x) (hy : IsReal y) : IsReal (x + y) := by
  obtain ⟨a, rfl⟩ := hx; obtain ⟨b, rfl⟩ := hy; exact ⟨a + b, (EReal.coe_add a b).symm⟩

theorem neg {x : EReal} (hx : IsReal x) : IsReal (-x) := by
  obtain ⟨a, rfl⟩ := hx; exact ⟨-a, (EReal.coe_neg a).symm⟩

theorem sub {x y : EReal} (hx : IsReal x) (hy : IsReal y) : IsReal (x - y) := by
  obtain ⟨a, rfl⟩ := hx; obtain ⟨b, rfl⟩ := hy; exact ⟨a - b, (EReal.coe_sub a b).symm⟩

theorem mul {x y : EReal} (hx : IsReal x) (hy : IsReal y) : IsReal (x * y) := by
  obtain ⟨a, rfl⟩ := hx; obtain ⟨b, rfl⟩ := hy; exact ⟨a * b, (EReal.coe_mul a b).symm⟩

theorem max {x y : EReal} (hx : IsReal x) (hy : IsReal y) : IsReal (Max.max x y) := by
  obtain ⟨a, rfl⟩ := hx; obtain ⟨b, rfl⟩ := hy
  exact ⟨Max.max a b, (EReal.coe_strictMono.monotone.map_max (a := a) (b := b)).symm⟩

/-- A finite sum of real numbers is a real number. -/
theorem sum {ι : Type} (s : Finset ι) {f : ι → EReal} (h : ∀ i ∈ s, IsReal (f i)) : IsReal (∑ i ∈ s, f i) := by
  classical
  induction s using Finset.induction_on with
  | empty => rw [Finset.sum_empty]; exact zero
  | insert a s ha ih =>
    rw [Finset.sum_insert ha]
    exact add (h a (Finset.mem_insert_self a s)) (ih fun i hi => h i (Finset.mem_insert_of_mem hi))

/-- A finite sum of products of real numbers (an entry of a matrix product) is a real number. -/
theorem sum_mul {ι : Type} [Fintype ι] {f g : ι → EReal} (hf : ∀ i, IsReal (f i)) (hg : ∀ i, IsReal (g i)) :
    IsReal (∑ i, f i * g i) :=
  sum Finset.univ fun i _ => mul (hf i) (hg i)

/-- A nonempty finite supremum of real numbers is a real number. -/
theorem sup {ι : Type} {s : Finset ι} (hs : s.Nonempty) {f : ι → EReal} (h : ∀ i ∈ s, IsReal (f i)) : IsReal (s.sup f) := by
  classical
  induction hs using Finset.Nonempty.cons_induction with
  | singleton a => rw [Finset.sup_singleton]; exact h a (Finset.mem_singleton_self a)
  | cons a s ha hs ih =>
    rw [Finset.sup_cons]
    exact max (h a (Finset.mem_cons_self a s)) (ih fun i hi => h i (Finset.mem_cons.mpr (Or.inr hi)))

end IsReal

/-- An extended real whose absolute value is below `⊤` is a real number. -/
theorem isReal_of_abs_lt_top {x : EReal} (h : Max.max x (-x) < ⊤) : IsReal x := by
  induction x using EReal.rec with
  | bot => rw [EReal.neg_bot, max_eq_right bot_le] at h; exact absurd h (lt_irrefl _)
  | coe r => exact ⟨r, rfl⟩
  | top => rw [max_eq_left le_top] at h; exact absurd h (lt_irrefl _)

end Idealize.ShloMosaic
-- ==== Proof.Algebra.lean ====
/-
  The algebra that joins the two arrangements of a layer normalization, on matrices whose entries are real numbers.

  * A finite sum of real numbers, taken in the extended reals, is the real sum; dividing by the entry count 32768 is
    the real division.
  * For an `n × d` matrix with `n · d = 32768` entries, the mean of the squares minus the square of the mean is the mean
    of the squared deviations from the mean (expand the square and use that the deviations sum to zero), hence
    non-negative.
  * For a positive real `w`, multiplying by the reciprocal square root of `w` is dividing by the square root of `w`.
  * Real entries stay real through a matrix product, a step of the Chebyshev recurrence, a graph convolution, and the
    layer normalization (whose variance plus the positive floor is a positive real).
-/
import proofs.«115478_j10110353015360_2_alg».proof.Proof.KSpec
import proofs.«115478_j10110353015360_2_alg».proof.Proof.Consts
import proofs.«115478_j10110353015360_2_alg».proof.Proof.LibIsReal

noncomputable section

namespace Cert.Algebra

open Idealize.ShloMosaic Cert.Spec Cert.KSpec Cert.Consts
open scoped BigOperators

/-- A finite sum of coerced reals is the coerced sum. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

variable {n d : ℕ}

/-- The matrix of extended reals of a real matrix. -/
def ofReal (r : Fin n → Fin d → ℝ) : Mat n d := fun i j => ((r i j : ℝ) : EReal)

/-- Every entry is a real number. -/
def RealMat (h : Mat n d) : Prop := ∀ i j, IsReal (h i j)

theorem RealMat.exists_ofReal {h : Mat n d} (hh : RealMat h) : ∃ r : Fin n → Fin d → ℝ, h = ofReal r := by
  choose r hr using hh
  exact ⟨r, funext fun i => funext fun j => hr i j⟩

theorem realMat_ofReal (r : Fin n → Fin d → ℝ) : RealMat (ofReal r) := fun i j => IsReal.coe (r i j)

theorem total_ofReal (r : Fin n → Fin d → ℝ) : total (ofReal r) = ((∑ i, ∑ j, r i j : ℝ) : EReal) := by
  unfold total ofReal
  simp only [coe_sum]

theorem div_count (x : ℝ) : Ideal.div (x : EReal) cCount = ((x / 32768 : ℝ) : EReal) := by
  rw [cCount_eq, Ideal.div_coe (by norm_num : (32768 : ℝ) ≠ 0), ← EReal.coe_mul]
  congr 1; ring

theorem div_rows (x : ℝ) : Ideal.div (x : EReal) cRows = ((x / 512 : ℝ) : EReal) := by
  rw [cRows_eq, Ideal.div_coe (by norm_num : (512 : ℝ) ≠ 0), ← EReal.coe_mul]
  congr 1; ring

/-- The real mean of a real matrix. -/
def meanR (r : Fin n → Fin d → ℝ) : ℝ := (∑ i, ∑ j, r i j) / 32768

/-- The real variance, as the mean of the squared deviations. -/
def varR (r : Fin n → Fin d → ℝ) : ℝ := (∑ i, ∑ j, (r i j - meanR r) * (r i j - meanR r)) / 32768

theorem meanK_ofReal (r : Fin n → Fin d → ℝ) : meanK (ofReal r) = ((meanR r : ℝ) : EReal) := by
  unfold meanK meanR
  rw [total_ofReal, div_count]

theorem varR_nonneg (r : Fin n → Fin d → ℝ) : 0 ≤ varR r := by
  unfold varR
  exact div_nonneg (Finset.sum_nonneg fun i _ => Finset.sum_nonneg fun j _ => mul_self_nonneg _) (by norm_num)

/-- Mean of squares minus squared mean is the mean squared deviation, when the matrix has 32768 entries. -/
theorem var_identity (hN : (n : ℝ) * (d : ℝ) = 32768) (r : Fin n → Fin d → ℝ) :
    (∑ i, ∑ j, r i j * r i j) / 32768 - meanR r * meanR r = varR r := by
  have e : ∑ i : Fin n, ∑ j : Fin d, (r i j - meanR r) * (r i j - meanR r)
      = (∑ i, ∑ j, r i j * r i j) - 2 * meanR r * (∑ i, ∑ j, r i j) + (n : ℝ) * (d : ℝ) * (meanR r * meanR r) := by
    have e1 : ∀ i j, (r i j - meanR r) * (r i j - meanR r) = r i j * r i j - 2 * meanR r * r i j + meanR r * meanR r := by
      intro i j; ring
    simp only [e1, Finset.sum_add_distrib, Finset.sum_sub_distrib, ← Finset.mul_sum, Finset.sum_const, Finset.card_univ,
      Fintype.card_fin, nsmul_eq_mul]
    ring
  unfold varR
  rw [e, hN]
  have hS : (∑ i, ∑ j, r i j) = 32768 * meanR r := by unfold meanR; ring
  rw [hS]; ring

theorem varK_ofReal (hN : (n : ℝ) * (d : ℝ) = 32768) (r : Fin n → Fin d → ℝ) : varK (ofReal r) = ((varR r : ℝ) : EReal) := by
  unfold varK
  rw [meanK_ofReal]
  have : (total fun i j => ofReal r i j * ofReal r i j) = ((∑ i, ∑ j, r i j * r i j : ℝ) : EReal) := by
    unfold total ofReal
    simp only [← EReal.coe_mul, coe_sum]
  rw [this, div_count, ← EReal.coe_mul, ← EReal.coe_sub, var_identity hN]

/-- Multiplying by the reciprocal square root of a positive real is dividing by its square root. -/
theorem mul_rsqrt_eq_div_sqrt {w : ℝ} (hw : 0 < w) (x : EReal) :
    x * Ideal.rsqrt (w : EReal) = Ideal.div x (Ideal.sqrt (w : EReal)) := by
  have hs : Real.sqrt w ≠ 0 := (Real.sqrt_pos.mpr hw).ne'
  rw [Ideal.rsqrt_coe, Ideal.sqrt_coe, if_neg (not_lt.mpr hw.le), if_neg hw.ne', if_neg (not_lt.mpr hw.le), Ideal.div_coe hs, one_div]

theorem isReal_rsqrt {w : ℝ} (hw : 0 < w) : IsReal (Ideal.rsqrt (w : EReal)) := by
  rw [Ideal.rsqrt_coe, if_neg (not_lt.mpr hw.le), if_neg hw.ne']; exact IsReal.coe _

/-- The variance plus the floor is a positive real. -/
theorem varK_add_eps (hN : (n : ℝ) * (d : ℝ) = 32768) (r : Fin n → Fin d → ℝ) :
    ∃ w : ℝ, 0 < w ∧ varK (ofReal r) + cEps = (w : EReal) := by
  obtain ⟨e, he, hce⟩ := cEps_pos
  exact ⟨varR r + e, add_pos_of_nonneg_of_pos (varR_nonneg r) he, by rw [varK_ofReal hN, hce, EReal.coe_add]⟩

/-! ## Real entries stay real -/

theorem isReal_c2 : IsReal c2 := c2_eq ▸ IsReal.coe 2
theorem isReal_c0 : IsReal c0 := c0_eq ▸ IsReal.zero

theorem realMat_mm {a k b : ℕ} {x : Mat a k} {y : Mat k b} (hx : RealMat x) (hy : RealMat y) : RealMat (mm x y) :=
  fun i j => IsReal.sum_mul (fun l => hx i l) (fun l => hy l j)

theorem realMat_cstep {m f : ℕ} {A : Mat m m} {tp tpp : Mat m f} (hA : RealMat A) (hp : RealMat tp) (hpp : RealMat tpp) :
    RealMat (cstep A tp tpp) :=
  fun i j => (isReal_c2.mul (realMat_mm hA hp i j)).sub (hpp i j)

theorem realMat_cheb {m f o : ℕ} {A : Mat m m} {x : Mat m f} {W : Fin 6 → Mat f o} {b : Fin o → EReal}
    (hA : RealMat A) (hx : RealMat x) (hW : ∀ k, RealMat (W k)) (hb : ∀ j, IsReal (b j)) : RealMat (cheb A x W b) := by
  have h1 : RealMat (t1 A x) := realMat_mm hA hx
  have h2 : RealMat (t2 A x) := realMat_cstep hA h1 hx
  have h3 : RealMat (t3 A x) := realMat_cstep hA h2 h1
  have h4 : RealMat (t4 A x) := realMat_cstep hA h3 h2
  have h5 : RealMat (t5 A x) := realMat_cstep hA h4 h3
  intro i j
  exact ((((((realMat_mm hx (hW 0) i j).add (realMat_mm h1 (hW 1) i j)).add (realMat_mm h2 (hW 2) i j)).add
    (realMat_mm h3 (hW 3) i j)).add (realMat_mm h4 (hW 4) i j)).add (realMat_mm h5 (hW 5) i j)).add (hb j)

theorem realMat_lnK (hN : (n : ℝ) * (d : ℝ) = 32768) {h g bt : Mat n d} (hh : RealMat h) (hg : RealMat g) (hbt : RealMat bt) :
    RealMat (lnK h g bt) := by
  obtain ⟨r, rfl⟩ := hh.exists_ofReal
  obtain ⟨w, hw, hv⟩ := varK_add_eps hN r
  intro i j
  unfold lnK
  rw [hv, meanK_ofReal]
  exact ((((IsReal.coe _).sub (IsReal.coe _)).mul (isReal_rsqrt hw)).mul (hg i j)).add (hbt i j) |>.max isReal_c0

end Cert.Algebra

end
-- ==== Proof.Bridge.lean ====
/-
  The two arrangements agree on matrices of real numbers.

  * Layer normalization: the reference's mean carries a leading zero, which adds nothing; its variance divides the sum
    of squared deviations by the entry count less an integer zero, which is the entry count, and is selected because
    that divisor is positive; by the variance identity it is the kernel's mean of squares minus squared mean; and
    dividing by the square root of a positive real is multiplying by its reciprocal square root.
  * Pooling: the reference's leading zero adds nothing; the two maxima are the same fold.
  * The cleared diagonal: one minus the identity's entry is zero on the diagonal and one off it.
-/
import Idealize.ShloMosaic.Lib.ValueIdx
import proofs.«115478_j10110353015360_2_alg».proof.Proof.Algebra
import proofs.«115478_j10110353015360_2_alg».proof.Proof.RefSpec

noncomputable section

namespace Cert.Bridge

open Idealize.ShloMosaic Cert.Spec Cert.KSpec Cert.RefSpec Cert.Consts Cert.Algebra
open scoped BigOperators

variable {n d : ℕ}

theorem c0_add (x : EReal) : c0 + x = x := by rw [c0_eq, zero_add]

theorem cDen_eq : cDen = cCount := by
  unfold cDen
  show cCount - (((0#32 : BitVec 32).toInt : ℝ) : EReal) = cCount
  simp

theorem cmp_den : Ideal.cmp .ogt cDen c0 = 1#1 := by
  rw [cDen_eq, cCount_eq, c0_eq]
  unfold Ideal.cmp
  have : (0 : EReal) < ((32768 : ℝ) : EReal) := by exact_mod_cast (by norm_num : (0 : ℝ) < 32768)
  simp [this]

theorem meanR_eq_meanK (h : Mat n d) : RefSpec.meanR h = meanK h := by
  unfold RefSpec.meanR meanK total
  rw [c0_add]

theorem varR_ofReal (r : Fin n → Fin d → ℝ) : RefSpec.varR (ofReal r) = ((Algebra.varR r : ℝ) : EReal) := by
  unfold RefSpec.varR
  rw [cmp_den, ValueIdx.select_one, c0_add, cDen_eq, meanR_eq_meanK, meanK_ofReal]
  have : (∑ p : Fin n, ∑ q : Fin d, (ofReal r p q - ((Algebra.meanR r : ℝ) : EReal)) * (ofReal r p q - ((Algebra.meanR r : ℝ) : EReal)))
      = ((∑ p, ∑ q, (r p q - Algebra.meanR r) * (r p q - Algebra.meanR r) : ℝ) : EReal) := by
    unfold ofReal
    simp only [← EReal.coe_sub, ← EReal.coe_mul, coe_sum]
  rw [this, div_count]
  rfl

/-- The two layer normalizations agree on a real matrix of 32768 entries. -/
theorem lnR_eq_lnK (hN : (n : ℝ) * (d : ℝ) = 32768) {h : Mat n d} (hh : RealMat h) (g bt : Mat n d) :
    lnR h g bt = lnK h g bt := by
  obtain ⟨r, rfl⟩ := hh.exists_ofReal
  obtain ⟨e, he, hce⟩ := cEps_pos
  have hw : 0 < Algebra.varR r + e := add_pos_of_nonneg_of_pos (varR_nonneg r) he
  funext i j
  unfold lnR lnK
  rw [meanR_eq_meanK, varR_ofReal, varK_ofReal hN, hce, ← EReal.coe_add, mul_rsqrt_eq_div_sqrt hw]

theorem poolMeanR_eq (h : Mat n d) (q : Fin d) : poolMeanR h q = poolMeanK h q := by
  unfold poolMeanR poolMeanK
  rw [c0_add]

theorem poolMaxR_eq (h : Mat n d) (q : Fin d) : poolMaxR h q = poolMaxK h q := rfl

theorem mask_eq (i j : Fin n) : c1 - eyeR i j = offDiag i j := by
  unfold eyeR offDiag
  rw [c1_eq]
  by_cases hij : i = j
  · rw [if_pos hij, if_pos hij, ← EReal.coe_one, ← EReal.coe_sub, sub_self, EReal.coe_zero]
  · rw [if_neg hij, if_neg hij, sub_zero, EReal.coe_one]

theorem aeR_eq_aeK (x : Mat n d) : aeR x = aeK x := by
  funext i j
  unfold aeR aeK maskedR gramK
  rw [mask_eq, mask_eq]

end Cert.Bridge

end
-- ==== Proof.Sample.lean ====
/-
  One sample, on matrices of real numbers: the reference's two layer normalizations are the kernel's, hence the two
  hidden activations, the pooled summary and the symmetrized Gram matrix of the third layer agree.  The inputs are real
  (the precondition); a graph convolution and a layer normalization keep entries real, so the argument goes layer by layer.
-/
import proofs.«115478_j10110353015360_2_alg».proof.Proof.Bridge
import proofs.«115478_j10110353015360_2_alg».proof.Proof.KZSpec

noncomputable section

namespace Cert.Sample

open Idealize.ShloMosaic Cert.Spec Cert.KSpec Cert.RefSpec Cert.Algebra Cert.Bridge
open scoped BigOperators

theorem hN : ((512 : ℕ) : ℝ) * ((64 : ℕ) : ℝ) = 32768 := by norm_num

variable {A X : Mat 512 512} {W1 : Fin 6 → Mat 512 64} {b1 : Fin 64 → EReal} {g1 bt1 g2 bt2 : Mat 512 64}
  {W2 : Fin 6 → Mat 64 64} {b2 : Fin 64 → EReal}

/-- The first hidden activation: the reference's normalization of the first layer is the kernel's. -/
theorem h1_eq (hA : RealMat A) (hX : RealMat X) (hW1 : ∀ k, RealMat (W1 k)) (hb1 : ∀ j, IsReal (b1 j)) :
    lnR (cheb A X W1 b1) g1 bt1 = h1K A X W1 b1 g1 bt1 :=
  lnR_eq_lnK hN (realMat_cheb hA hX hW1 hb1) g1 bt1

theorem h1_real (hA : RealMat A) (hX : RealMat X) (hW1 : ∀ k, RealMat (W1 k)) (hb1 : ∀ j, IsReal (b1 j))
    (hg1 : RealMat g1) (hbt1 : RealMat bt1) : RealMat (h1K A X W1 b1 g1 bt1) :=
  realMat_lnK hN (realMat_cheb hA hX hW1 hb1) hg1 hbt1

/-- The second hidden activation likewise, its input the first. -/
theorem h2_eq (hA : RealMat A) (hX : RealMat X) (hW1 : ∀ k, RealMat (W1 k)) (hb1 : ∀ j, IsReal (b1 j))
    (hg1 : RealMat g1) (hbt1 : RealMat bt1) (hW2 : ∀ k, RealMat (W2 k)) (hb2 : ∀ j, IsReal (b2 j)) :
    lnR (cheb A (lnR (cheb A X W1 b1) g1 bt1) W2 b2) g2 bt2 = h2K A (h1K A X W1 b1 g1 bt1) W2 b2 g2 bt2 := by
  rw [h1_eq hA hX hW1 hb1]
  exact lnR_eq_lnK hN (realMat_cheb hA (h1_real hA hX hW1 hb1 hg1 hbt1) hW2 hb2) g2 bt2

/-- The pooled summaries agree lane by lane, for any two matrices. -/
theorem z_eq (H1 H2 : Mat 512 64) (q : Fin 256) : zR H1 H2 q = zK H1 H2 q := by
  unfold zR zK
  by_cases h1 : q.val < 64
  · rw [dif_pos h1, dif_pos h1, poolMeanR_eq]
  · rw [dif_neg h1, dif_neg h1]
    by_cases h2 : q.val < 128
    · rw [dif_pos (by omega : q.val < 2 * 64), dif_pos h2, poolMaxR_eq]
    · rw [dif_neg (by omega : ¬q.val < 2 * 64), dif_neg h2]
      by_cases h3 : q.val < 192
      · rw [dif_pos (by omega : q.val < 3 * 64), dif_pos h3, poolMeanR_eq]
      · rw [dif_neg (by omega : ¬q.val < 3 * 64), dif_neg h3, poolMaxR_eq]

end Cert.Sample

end
-- ==== Proof.Core.lean ====
/-
  The two programs' results agree, sample by sample.

  For arrays `K0 … K11` of real numbers — the batched adjacency and feature arrays, the three layers' weights and biases,
  the two normalizations' scales and shifts — and a batch member `b`: the reference's result array at `(b, i, j)` is the
  kernel body's result block of member `b` at `(i, j)`, and the reference's pooled features at `(b, q)` are lane `q`
  of the body's summary block.  Both sides are first read as functions of member `b`'s matrices; the reference's layer
  normalizations are then the kernel's because every matrix they normalize has real entries.
-/
import proofs.«115478_j10110353015360_2_alg».proof.Proof.RefValue
import proofs.«115478_j10110353015360_2_alg».proof.Proof.KBlock
import proofs.«115478_j10110353015360_2_alg».proof.Proof.Sample

noncomputable section

namespace Cert.Core

open Idealize.ShloMosaic Idealize.ShloMosaic.ValueIdx Cert.Spec Cert.KSpec Cert.RefSpec Cert.Algebra Cert.Bridge Cert.KRead
open Cert.KernelIdeal Cert.KernelIdeal.HFrame Cert.KernelIdeal.KVal
open scoped BigOperators

/-- Batch member `b`'s `[1, 512, 512]` block of a batched array. -/
def blk (K : FVec Ideal S64x512x512 .f32) (b : Fin 64) : FVec Ideal S1x512x512 .f32 :=
  fun y => K (ix3 b (y 1 : Fin 512) (y 2 : Fin 512))

theorem m3_apply {a b : ℕ} {φ : FTy} (v : FVec Ideal ⟨3, ![1, a, b]⟩ φ) (i : Fin a) (j : Fin b) :
    m3 v i j = v (ix3 (0 : Fin 1) i j) := rfl

theorem m3_blk (K : FVec Ideal S64x512x512 .f32) (b : Fin 64) : m3 (blk K b) = fun p q => K (ix3 b p q) := rfl

variable (K0 K1 : FVec Ideal S64x512x512 .f32) (K2 : FVec Ideal S6x512x64 .f32) (K3 : FVec Ideal S64 .f32)
  (K4 : FVec Ideal S6x64x64 .f32) (K5 : FVec Ideal S64 .f32) (K6 : FVec Ideal S6x64x64 .f32) (K7 : FVec Ideal S64 .f32)
  (K8 K9 K10 K11 : FVec Ideal S512x64 .f32)

/-- The arrays the normalizations depend on have real entries. -/
structure Reals : Prop where
  r0 : ∀ i, IsReal (K0 i)
  r1 : ∀ i, IsReal (K1 i)
  r2 : ∀ i, IsReal (K2 i)
  r3 : ∀ i, IsReal (K3 i)
  r4 : ∀ i, IsReal (K4 i)
  r5 : ∀ i, IsReal (K5 i)
  r8 : ∀ i, IsReal (K8 i)
  r9 : ∀ i, IsReal (K9 i)
  r10 : ∀ i, IsReal (K10 i)
  r11 : ∀ i, IsReal (K11 i)

/-- The reference's argument record holding these arrays (the heads' parameters are irrelevant here). -/
def Agrees (a : Cert.ReferenceIdeal.RefRun.Args) : Prop :=
  a.a0 = K0 ∧ a.a1 = K1 ∧ a.a2 = K2 ∧ a.a3 = K3 ∧ a.a4 = K4 ∧ a.a5 = K5 ∧ a.a6 = K6 ∧ a.a7 = K7 ∧ a.a8 = K8 ∧ a.a9 = K9
    ∧ a.a10 = K10 ∧ a.a11 = K11

variable {K0 K1 K2 K3 K4 K5 K6 K7 K8 K9 K10 K11}

open Cert.ReferenceIdeal.RefRun in
theorem H1R_eq (hr : Reals K0 K1 K2 K3 K4 K5 K8 K9 K10 K11) {a : Args} (ha : Agrees K0 K1 K2 K3 K4 K5 K6 K7 K8 K9 K10 K11 a) (b : Fin 64) :
    H1R a b = h1Of (blk K0 b) (blk K1 b) K2 K3 K8 K9 := by
  obtain ⟨e0, e1, e2, e3, e4, e5, e6, e7, e8, e9, e10, e11⟩ := ha
  unfold H1R h1Of
  rw [e0, e1, e2, e3, e8, e9]
  exact Sample.h1_eq (fun p q => hr.r0 _) (fun p q => hr.r1 _) (fun k p q => hr.r2 _) (fun q => hr.r3 _)

open Cert.ReferenceIdeal.RefRun in
theorem H2R_eq (hr : Reals K0 K1 K2 K3 K4 K5 K8 K9 K10 K11) {a : Args} (ha : Agrees K0 K1 K2 K3 K4 K5 K6 K7 K8 K9 K10 K11 a) (b : Fin 64) :
    H2R a b = h2Of (blk K0 b) (blk K1 b) K2 K3 K4 K5 K6 K7 K8 K9 K10 K11 := by
  have h1 := H1R_eq hr ha b
  obtain ⟨e0, e1, e2, e3, e4, e5, e6, e7, e8, e9, e10, e11⟩ := ha
  unfold H2R h2Of
  rw [h1]
  unfold h1Of
  rw [e0, e4, e5, e10, e11]
  have := Sample.h2_eq (A := fun p q => K0 (ix3 b p q)) (X := fun p q => K1 (ix3 b p q)) (W1 := fun w p q => K2 (ix3 w p q))
    (b1 := fun q => K3 (ix1 q)) (g1 := fun p q => K8 (ix2 p q)) (bt1 := fun p q => K9 (ix2 p q)) (g2 := fun p q => K10 (ix2 p q))
    (bt2 := fun p q => K11 (ix2 p q)) (W2 := fun w p q => K4 (ix3 w p q)) (b2 := fun q => K5 (ix1 q))
    (fun p q => hr.r0 _) (fun p q => hr.r1 _) (fun k p q => hr.r2 _) (fun q => hr.r3 _) (fun p q => hr.r8 _) (fun p q => hr.r9 _)
    (fun k p q => hr.r4 _) (fun q => hr.r5 _)
  rw [Sample.h1_eq (fun p q => hr.r0 _) (fun p q => hr.r1 _) (fun k p q => hr.r2 _) (fun q => hr.r3 _)] at this
  exact this

open Cert.ReferenceIdeal.RefRun in
/-- The result arrays agree entry by entry. -/
theorem ae_core (hr : Reals K0 K1 K2 K3 K4 K5 K8 K9 K10 K11) {a : Args} (ha : Agrees K0 K1 K2 K3 K4 K5 K6 K7 K8 K9 K10 K11 a) (b : Fin 64) (i j : Fin 512) :
    refAE a (ix3 b i j) = out0_12 (F := Ideal) (blk K0 b) (blk K1 b) K2 K3 K4 K5 K6 K7 K8 K9 K10 K11 (ix3 (0 : Fin 1) i j) := by
  have hk : out0_12 (F := Ideal) (blk K0 b) (blk K1 b) K2 K3 K4 K5 K6 K7 K8 K9 K10 K11 (ix3 (0 : Fin 1) i j)
      = aeK (cheb (m3 (blk K0 b)) (h2Of (blk K0 b) (blk K1 b) K2 K3 K4 K5 K6 K7 K8 K9 K10 K11) (wm K6) (vec1 K7)) i j :=
    (m3_apply (a := 512) (b := 512) (φ := .f32) (out0_12 (F := Ideal) (blk K0 b) (blk K1 b) K2 K3 K4 K5 K6 K7 K8 K9 K10 K11) i j).symm.trans
      (congrFun (congrFun (out0_12_m3 (blk K0 b) (blk K1 b) K2 K3 K4 K5 K6 K7 K8 K9 K10 K11) i) j)
  rw [hk, refAE_apply, aeR_eq_aeK, H2R_eq hr ha b, ha.1, ha.2.2.2.2.2.2.1, ha.2.2.2.2.2.2.2.1]
  rfl

open Cert.ReferenceIdeal.RefRun in
/-- The pooled features agree lane by lane. -/
theorem z_core (hr : Reals K0 K1 K2 K3 K4 K5 K8 K9 K10 K11) {a : Args} (ha : Agrees K0 K1 K2 K3 K4 K5 K6 K7 K8 K9 K10 K11 a) (b : Fin 64) (q : Fin 256) :
    refZ a (ix2 b q) = out0_13 (F := Ideal) (blk K0 b) (blk K1 b) K2 K3 K4 K5 K6 K7 K8 K9 K10 K11 (ix3 (0 : Fin 1) (0 : Fin 1) q) := by
  rw [refZ_apply, out0_13_lane, Sample.z_eq, H1R_eq hr ha b, H2R_eq hr ha b]

end Cert.Core

end
-- ==== Proof.KFinite.lean ====
/-
  Finiteness from the precondition.

  The precondition is the conjunction, over the 24 float argument arrays, of "all (|x| < +∞)": for each array the
  absolute value is compared, entry by entry, with the f32 pattern of +∞ broadcast to the array's shape, the
  comparison bits are folded by `and` over every axis from the bit 1, and the 24 resulting bits are joined by
  `and`, left to right.  Read at the exact instance, where a float is an extended real:

  * `ofBits_inf_f32`: the pattern 0x7F800000 is ⊤;
  * `isReal_of_allFinite`: if the folded bit of one array is 1 then every entry x of it satisfies
    max x (-x) < ⊤, hence is a real number (generic in the array's shape);
  * `fn_eq`: the printed precondition IS the left-nested `and` of the 24 folded bits (by unfolding);
  * `finite_all`: so if it is 1, every entry of every one of the 24 arrays is a real number;
  * `finite_of_pre_all` / `finite_of_pre`: the same for the argument arrays a memory holds, under the
    certificate's precondition: all 24, and the first twelve (the kernel's operands).
-/
import proofs.«115478_j10110353015360_2_alg».proof.Defs
import proofs.«115478_j10110353015360_2_alg».proof.Proof.Gen.Pre_finite_inputs
import proofs.«115478_j10110353015360_2_alg».proof.Proof.LibIsReal
import Idealize.ShloMosaic.Lib.ReduceAll
import Idealize.ShloMosaic.Lib.IdealHost

noncomputable section

namespace Cert.KernelIdeal.Finite

open Idealize.ShloMosaic Idealize.ShloMosaic.ValueIdx Idealize.SL.Sem

/-- The rank-0 shape has one index. -/
instance subsingleton_scalar_idx : Subsingleton (⟨0, ![]⟩ : Shape).Idx := ⟨fun a b => funext fun d => d.elim0⟩

/-- The f32 pattern 0x7F800000 is +∞. -/
theorem ofBits_inf_f32 : Ideal.ofBits .f32 0x7F800000#32 = ⊤ := by
  simp [Ideal.ofBits, Ideal.ieee]

/-- "all (|x| < +∞)" of an array, as the precondition prints it. -/
def allFinite {s : Shape} {axes : List (Fin s.rank)} (hb : (⟨0, ![]⟩ : Shape).BroadcastsInDim s (![] : Fin 0 → Fin s.rank))
    (hr : s.ReducesTo axes ⟨0, ![]⟩) (hu : 0 < (⟨0, ![]⟩ : Shape).numel) (x : FVec Ideal s .f32) : IVec ⟨0, ![]⟩ 1 :=
  Host.reduce IntOp.andi (cmpf .olt (Host.absf x) (broadcastInDim s ![] hb (constant ⟨0, ![]⟩ .f32 0x7F800000#32)))
    (constantI ⟨0, ![]⟩ 1 1#1) hr hu

theorem isReal_of_allFinite {s : Shape} {axes : List (Fin s.rank)} (hb : (⟨0, ![]⟩ : Shape).BroadcastsInDim s (![] : Fin 0 → Fin s.rank))
    (hr : s.ReducesTo axes ⟨0, ![]⟩) (hu : 0 < (⟨0, ![]⟩ : Shape).numel) (x : FVec Ideal s .f32) (j : (⟨0, ![]⟩ : Shape).Idx)
    (e : allFinite hb hr hu x j = 1#1) (i : s.Idx) : IsReal (x i) := by
  have h := Host.reduce_andi_all _ _ hr hu j e i
  have h2 : Ideal.cmp .olt (max (x i) (-(x i)))
      (broadcastInDim s ![] hb (constant (F := Ideal) ⟨0, ![]⟩ .f32 0x7F800000#32) i) = 1#1 := h
  rw [broadcastInDim_scalar_apply] at h2
  have h3 : Ideal.cmp .olt (max (x i) (-(x i))) (Ideal.ofBits .f32 0x7F800000#32) = 1#1 := h2
  rw [ofBits_inf_f32] at h3
  apply isReal_of_abs_lt_top
  have h4 : BitVec.ofBool (decide (max (x i) (-(x i)) < ⊤)) = 1#1 := h3
  cases hd : decide (max (x i) (-(x i)) < ⊤) with
  | true => exact of_decide_eq_true hd
  | false => rw [hd] at h4; exact absurd h4 (by decide)

/-- An `and` of two one-bit arrays is 1 at an index exactly when both are. -/
theorem andi_apply_eq_one {s : Shape} (a b : IVec s 1) (j : s.Idx) : andi a b j = 1#1 ↔ a j = 1#1 ∧ b j = 1#1 :=
  IntOp.andi_eq_one

/-- The printed precondition is the left-nested `and` of the 24 "all finite" bits. -/
theorem fn_eq [Cert.Pre_finite_inputs.Facts] (a0 : FVec Ideal Cert.Pre_finite_inputs.S64x512x512 .f32) (a1 : FVec Ideal Cert.Pre_finite_inputs.S64x512x512 .f32) (a2 : FVec Ideal Cert.Pre_finite_inputs.S6x512x64 .f32) (a3 : FVec Ideal Cert.Pre_finite_inputs.S64 .f32) (a4 : FVec Ideal Cert.Pre_finite_inputs.S6x64x64 .f32) (a5 : FVec Ideal Cert.Pre_finite_inputs.S64 .f32) (a6 : FVec Ideal Cert.Pre_finite_inputs.S6x64x64 .f32) (a7 : FVec Ideal Cert.Pre_finite_inputs.S64 .f32) (a8 : FVec Ideal Cert.Pre_finite_inputs.S512x64 .f32) (a9 : FVec Ideal Cert.Pre_finite_inputs.S512x64 .f32) (a10 : FVec Ideal Cert.Pre_finite_inputs.S512x64 .f32) (a11 : FVec Ideal Cert.Pre_finite_inputs.S512x64 .f32) (a12 : FVec Ideal Cert.Pre_finite_inputs.S256x64 .f32) (a13 : FVec Ideal Cert.Pre_finite_inputs.S64 .f32) (a14 : FVec Ideal Cert.Pre_finite_inputs.S64x64 .f32) (a15 : FVec Ideal Cert.Pre_finite_inputs.S64 .f32) (a16 : FVec Ideal Cert.Pre_finite_inputs.S64x4 .f32) (a17 : FVec Ideal Cert.Pre_finite_inputs.S4 .f32) (a18 : FVec Ideal Cert.Pre_finite_inputs.S256x64 .f32) (a19 : FVec Ideal Cert.Pre_finite_inputs.S64 .f32) (a20 : FVec Ideal Cert.Pre_finite_inputs.S64x64 .f32) (a21 : FVec Ideal Cert.Pre_finite_inputs.S64 .f32) (a22 : FVec Ideal Cert.Pre_finite_inputs.S64x2 .f32) (a23 : FVec Ideal Cert.Pre_finite_inputs.S2 .f32) :
    Cert.Pre_finite_inputs.fn (F := Ideal) a0 a1 a2 a3 a4 a5 a6 a7 a8 a9 a10 a11 a12 a13 a14 a15 a16 a17 a18 a19 a20 a21 a22 a23 =
      (andi (andi (andi (andi (andi (andi (andi (andi (andi (andi (andi (andi (andi (andi (andi (andi (andi (andi (andi (andi (andi (andi (andi (allFinite Cert.Pre_finite_inputs.Facts.bcast_S_S64x512x512 Cert.Pre_finite_inputs.Facts.reducesTo_S64x512x512_S_d0_1_2 Cert.Pre_finite_inputs.Facts.h_S_ a0)
      (allFinite Cert.Pre_finite_inputs.Facts.bcast_S_S64x512x512 Cert.Pre_finite_inputs.Facts.reducesTo_S64x512x512_S_d0_1_2 Cert.Pre_finite_inputs.Facts.h_S_ a1))
      (allFinite Cert.Pre_finite_inputs.Facts.bcast_S_S6x512x64 Cert.Pre_finite_inputs.Facts.reducesTo_S6x512x64_S_d0_1_2 Cert.Pre_finite_inputs.Facts.h_S_ a2))
      (allFinite Cert.Pre_finite_inputs.Facts.bcast_S_S64 Cert.Pre_finite_inputs.Facts.reducesTo_S64_S_d0 Cert.Pre_finite_inputs.Facts.h_S_ a3))
      (allFinite Cert.Pre_finite_inputs.Facts.bcast_S_S6x64x64 Cert.Pre_finite_inputs.Facts.reducesTo_S6x64x64_S_d0_1_2 Cert.Pre_finite_inputs.Facts.h_S_ a4))
      (allFinite Cert.Pre_finite_inputs.Facts.bcast_S_S64 Cert.Pre_finite_inputs.Facts.reducesTo_S64_S_d0 Cert.Pre_finite_inputs.Facts.h_S_ a5))
      (allFinite Cert.Pre_finite_inputs.Facts.bcast_S_S6x64x64 Cert.Pre_finite_inputs.Facts.reducesTo_S6x64x64_S_d0_1_2 Cert.Pre_finite_inputs.Facts.h_S_ a6))
      (allFinite Cert.Pre_finite_inputs.Facts.bcast_S_S64 Cert.Pre_finite_inputs.Facts.reducesTo_S64_S_d0 Cert.Pre_finite_inputs.Facts.h_S_ a7))
      (allFinite Cert.Pre_finite_inputs.Facts.bcast_S_S512x64 Cert.Pre_finite_inputs.Facts.reducesTo_S512x64_S_d0_1 Cert.Pre_finite_inputs.Facts.h_S_ a8))
      (allFinite Cert.Pre_finite_inputs.Facts.bcast_S_S512x64 Cert.Pre_finite_inputs.Facts.reducesTo_S512x64_S_d0_1 Cert.Pre_finite_inputs.Facts.h_S_ a9))
      (allFinite Cert.Pre_finite_inputs.Facts.bcast_S_S512x64 Cert.Pre_finite_inputs.Facts.reducesTo_S512x64_S_d0_1 Cert.Pre_finite_inputs.Facts.h_S_ a10))
      (allFinite Cert.Pre_finite_inputs.Facts.bcast_S_S512x64 Cert.Pre_finite_inputs.Facts.reducesTo_S512x64_S_d0_1 Cert.Pre_finite_inputs.Facts.h_S_ a11))
      (allFinite Cert.Pre_finite_inputs.Facts.bcast_S_S256x64 Cert.Pre_finite_inputs.Facts.reducesTo_S256x64_S_d0_1 Cert.Pre_finite_inputs.Facts.h_S_ a12))
      (allFinite Cert.Pre_finite_inputs.Facts.bcast_S_S64 Cert.Pre_finite_inputs.Facts.reducesTo_S64_S_d0 Cert.Pre_finite_inputs.Facts.h_S_ a13))
      (allFinite Cert.Pre_finite_inputs.Facts.bcast_S_S64x64 Cert.Pre_finite_inputs.Facts.reducesTo_S64x64_S_d0_1 Cert.Pre_finite_inputs.Facts.h_S_ a14))
      (allFinite Cert.Pre_finite_inputs.Facts.bcast_S_S64 Cert.Pre_finite_inputs.Facts.reducesTo_S64_S_d0 Cert.Pre_finite_inputs.Facts.h_S_ a15))
      (allFinite Cert.Pre_finite_inputs.Facts.bcast_S_S64x4 Cert.Pre_finite_inputs.Facts.reducesTo_S64x4_S_d0_1 Cert.Pre_finite_inputs.Facts.h_S_ a16))
      (allFinite Cert.Pre_finite_inputs.Facts.bcast_S_S4 Cert.Pre_finite_inputs.Facts.reducesTo_S4_S_d0 Cert.Pre_finite_inputs.Facts.h_S_ a17))
      (allFinite Cert.Pre_finite_inputs.Facts.bcast_S_S256x64 Cert.Pre_finite_inputs.Facts.reducesTo_S256x64_S_d0_1 Cert.Pre_finite_inputs.Facts.h_S_ a18))
      (allFinite Cert.Pre_finite_inputs.Facts.bcast_S_S64 Cert.Pre_finite_inputs.Facts.reducesTo_S64_S_d0 Cert.Pre_finite_inputs.Facts.h_S_ a19))
      (allFinite Cert.Pre_finite_inputs.Facts.bcast_S_S64x64 Cert.Pre_finite_inputs.Facts.reducesTo_S64x64_S_d0_1 Cert.Pre_finite_inputs.Facts.h_S_ a20))
      (allFinite Cert.Pre_finite_inputs.Facts.bcast_S_S64 Cert.Pre_finite_inputs.Facts.reducesTo_S64_S_d0 Cert.Pre_finite_inputs.Facts.h_S_ a21))
      (allFinite Cert.Pre_finite_inputs.Facts.bcast_S_S64x2 Cert.Pre_finite_inputs.Facts.reducesTo_S64x2_S_d0_1 Cert.Pre_finite_inputs.Facts.h_S_ a22))
      (allFinite Cert.Pre_finite_inputs.Facts.bcast_S_S2 Cert.Pre_finite_inputs.Facts.reducesTo_S2_S_d0 Cert.Pre_finite_inputs.Facts.h_S_ a23)) := rfl

/-- Every one of the 24 arrays has only real entries once the printed precondition holds at the one result index. -/
theorem finite_all [Cert.Pre_finite_inputs.Facts] (a0 : FVec Ideal Cert.Pre_finite_inputs.S64x512x512 .f32) (a1 : FVec Ideal Cert.Pre_finite_inputs.S64x512x512 .f32) (a2 : FVec Ideal Cert.Pre_finite_inputs.S6x512x64 .f32) (a3 : FVec Ideal Cert.Pre_finite_inputs.S64 .f32) (a4 : FVec Ideal Cert.Pre_finite_inputs.S6x64x64 .f32) (a5 : FVec Ideal Cert.Pre_finite_inputs.S64 .f32) (a6 : FVec Ideal Cert.Pre_finite_inputs.S6x64x64 .f32) (a7 : FVec Ideal Cert.Pre_finite_inputs.S64 .f32) (a8 : FVec Ideal Cert.Pre_finite_inputs.S512x64 .f32) (a9 : FVec Ideal Cert.Pre_finite_inputs.S512x64 .f32) (a10 : FVec Ideal Cert.Pre_finite_inputs.S512x64 .f32) (a11 : FVec Ideal Cert.Pre_finite_inputs.S512x64 .f32) (a12 : FVec Ideal Cert.Pre_finite_inputs.S256x64 .f32) (a13 : FVec Ideal Cert.Pre_finite_inputs.S64 .f32) (a14 : FVec Ideal Cert.Pre_finite_inputs.S64x64 .f32) (a15 : FVec Ideal Cert.Pre_finite_inputs.S64 .f32) (a16 : FVec Ideal Cert.Pre_finite_inputs.S64x4 .f32) (a17 : FVec Ideal Cert.Pre_finite_inputs.S4 .f32) (a18 : FVec Ideal Cert.Pre_finite_inputs.S256x64 .f32) (a19 : FVec Ideal Cert.Pre_finite_inputs.S64 .f32) (a20 : FVec Ideal Cert.Pre_finite_inputs.S64x64 .f32) (a21 : FVec Ideal Cert.Pre_finite_inputs.S64 .f32) (a22 : FVec Ideal Cert.Pre_finite_inputs.S64x2 .f32) (a23 : FVec Ideal Cert.Pre_finite_inputs.S2 .f32)
    (j : (⟨0, ![]⟩ : Shape).Idx) (h : Cert.Pre_finite_inputs.fn (F := Ideal) a0 a1 a2 a3 a4 a5 a6 a7 a8 a9 a10 a11 a12 a13 a14 a15 a16 a17 a18 a19 a20 a21 a22 a23 j = 1#1) :
    (∀ i, IsReal (a0 i)) ∧
      (∀ i, IsReal (a1 i)) ∧
      (∀ i, IsReal (a2 i)) ∧
      (∀ i, IsReal (a3 i)) ∧
      (∀ i, IsReal (a4 i)) ∧
      (∀ i, IsReal (a5 i)) ∧
      (∀ i, IsReal (a6 i)) ∧
      (∀ i, IsReal (a7 i)) ∧
      (∀ i, IsReal (a8 i)) ∧
      (∀ i, IsReal (a9 i)) ∧
      (∀ i, IsReal (a10 i)) ∧
      (∀ i, IsReal (a11 i)) ∧
      (∀ i, IsReal (a12 i)) ∧
      (∀ i, IsReal (a13 i)) ∧
      (∀ i, IsReal (a14 i)) ∧
      (∀ i, IsReal (a15 i)) ∧
      (∀ i, IsReal (a16 i)) ∧
      (∀ i, IsReal (a17 i)) ∧
      (∀ i, IsReal (a18 i)) ∧
      (∀ i, IsReal (a19 i)) ∧
      (∀ i, IsReal (a20 i)) ∧
      (∀ i, IsReal (a21 i)) ∧
      (∀ i, IsReal (a22 i)) ∧
      (∀ i, IsReal (a23 i)) := by
  rw [fn_eq] at h
  obtain ⟨h, h23⟩ := (andi_apply_eq_one _ _ j).1 h
  obtain ⟨h, h22⟩ := (andi_apply_eq_one _ _ j).1 h
  obtain ⟨h, h21⟩ := (andi_apply_eq_one _ _ j).1 h
  obtain ⟨h, h20⟩ := (andi_apply_eq_one _ _ j).1 h
  obtain ⟨h, h19⟩ := (andi_apply_eq_one _ _ j).1 h
  obtain ⟨h, h18⟩ := (andi_apply_eq_one _ _ j).1 h
  obtain ⟨h, h17⟩ := (andi_apply_eq_one _ _ j).1 h
  obtain ⟨h, h16⟩ := (andi_apply_eq_one _ _ j).1 h
  obtain ⟨h, h15⟩ := (andi_apply_eq_one _ _ j).1 h
  obtain ⟨h, h14⟩ := (andi_apply_eq_one _ _ j).1 h
  obtain ⟨h, h13⟩ := (andi_apply_eq_one _ _ j).1 h
  obtain ⟨h, h12⟩ := (andi_apply_eq_one _ _ j).1 h
  obtain ⟨h, h11⟩ := (andi_apply_eq_one _ _ j).1 h
  obtain ⟨h, h10⟩ := (andi_apply_eq_one _ _ j).1 h
  obtain ⟨h, h9⟩ := (andi_apply_eq_one _ _ j).1 h
  obtain ⟨h, h8⟩ := (andi_apply_eq_one _ _ j).1 h
  obtain ⟨h, h7⟩ := (andi_apply_eq_one _ _ j).1 h
  obtain ⟨h, h6⟩ := (andi_apply_eq_one _ _ j).1 h
  obtain ⟨h, h5⟩ := (andi_apply_eq_one _ _ j).1 h
  obtain ⟨h, h4⟩ := (andi_apply_eq_one _ _ j).1 h
  obtain ⟨h, h3⟩ := (andi_apply_eq_one _ _ j).1 h
  obtain ⟨h, h2⟩ := (andi_apply_eq_one _ _ j).1 h
  obtain ⟨h0, h1⟩ := (andi_apply_eq_one _ _ j).1 h
  exact ⟨isReal_of_allFinite _ _ _ a0 j h0,
    isReal_of_allFinite _ _ _ a1 j h1,
    isReal_of_allFinite _ _ _ a2 j h2,
    isReal_of_allFinite _ _ _ a3 j h3,
    isReal_of_allFinite _ _ _ a4 j h4,
    isReal_of_allFinite _ _ _ a5 j h5,
    isReal_of_allFinite _ _ _ a6 j h6,
    isReal_of_allFinite _ _ _ a7 j h7,
    isReal_of_allFinite _ _ _ a8 j h8,
    isReal_of_allFinite _ _ _ a9 j h9,
    isReal_of_allFinite _ _ _ a10 j h10,
    isReal_of_allFinite _ _ _ a11 j h11,
    isReal_of_allFinite _ _ _ a12 j h12,
    isReal_of_allFinite _ _ _ a13 j h13,
    isReal_of_allFinite _ _ _ a14 j h14,
    isReal_of_allFinite _ _ _ a15 j h15,
    isReal_of_allFinite _ _ _ a16 j h16,
    isReal_of_allFinite _ _ _ a17 j h17,
    isReal_of_allFinite _ _ _ a18 j h18,
    isReal_of_allFinite _ _ _ a19 j h19,
    isReal_of_allFinite _ _ _ a20 j h20,
    isReal_of_allFinite _ _ _ a21 j h21,
    isReal_of_allFinite _ _ _ a22 j h22,
    isReal_of_allFinite _ _ _ a23 j h23⟩

/-- Under the certificate's precondition every entry of all 24 argument arrays is a real number. -/
theorem finite_of_pre_all [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)) i)) ∧
      (∀ i, IsReal ((m ((c.tc : Thread Cert.KernelIdeal.nD Cert.KernelIdeal.τ).loc Cert.KernelIdeal.main_arg1)) i)) ∧
      (∀ i, IsReal ((m ((c.tc : Thread Cert.KernelIdeal.nD Cert.KernelIdeal.τ).loc Cert.KernelIdeal.main_arg2)) i)) ∧
      (∀ i, IsReal ((m ((c.tc : Thread Cert.KernelIdeal.nD Cert.KernelIdeal.τ).loc Cert.KernelIdeal.main_arg3)) i)) ∧
      (∀ i, IsReal ((m ((c.tc : Thread Cert.KernelIdeal.nD Cert.KernelIdeal.τ).loc Cert.KernelIdeal.main_arg4)) i)) ∧
      (∀ i, IsReal ((m ((c.tc : Thread Cert.KernelIdeal.nD Cert.KernelIdeal.τ).loc Cert.KernelIdeal.main_arg5)) i)) ∧
      (∀ i, IsReal ((m ((c.tc : Thread Cert.KernelIdeal.nD Cert.KernelIdeal.τ).loc Cert.KernelIdeal.main_arg6)) i)) ∧
      (∀ i, IsReal ((m ((c.tc : Thread Cert.KernelIdeal.nD Cert.KernelIdeal.τ).loc Cert.KernelIdeal.main_arg7)) i)) ∧
      (∀ i, IsReal ((m ((c.tc : Thread Cert.KernelIdeal.nD Cert.KernelIdeal.τ).loc Cert.KernelIdeal.main_arg8)) i)) ∧
      (∀ i, IsReal ((m ((c.tc : Thread Cert.KernelIdeal.nD Cert.KernelIdeal.τ).loc Cert.KernelIdeal.main_arg9)) i)) ∧
      (∀ i, IsReal ((m ((c.tc : Thread Cert.KernelIdeal.nD Cert.KernelIdeal.τ).loc Cert.KernelIdeal.main_arg10)) i)) ∧
      (∀ i, IsReal ((m ((c.tc : Thread Cert.KernelIdeal.nD Cert.KernelIdeal.τ).loc Cert.KernelIdeal.main_arg11)) i)) ∧
      (∀ i, IsReal ((m ((c.tc : Thread Cert.KernelIdeal.nD Cert.KernelIdeal.τ).loc Cert.KernelIdeal.main_arg12)) i)) ∧
      (∀ i, IsReal ((m ((c.tc : Thread Cert.KernelIdeal.nD Cert.KernelIdeal.τ).loc Cert.KernelIdeal.main_arg13)) i)) ∧
      (∀ i, IsReal ((m ((c.tc : Thread Cert.KernelIdeal.nD Cert.KernelIdeal.τ).loc Cert.KernelIdeal.main_arg14)) i)) ∧
      (∀ i, IsReal ((m ((c.tc : Thread Cert.KernelIdeal.nD Cert.KernelIdeal.τ).loc Cert.KernelIdeal.main_arg15)) i)) ∧
      (∀ i, IsReal ((m ((c.tc : Thread Cert.KernelIdeal.nD Cert.KernelIdeal.τ).loc Cert.KernelIdeal.main_arg16)) i)) ∧
      (∀ i, IsReal ((m ((c.tc : Thread Cert.KernelIdeal.nD Cert.KernelIdeal.τ).loc Cert.KernelIdeal.main_arg17)) i)) ∧
      (∀ i, IsReal ((m ((c.tc : Thread Cert.KernelIdeal.nD Cert.KernelIdeal.τ).loc Cert.KernelIdeal.main_arg18)) i)) ∧
      (∀ i, IsReal ((m ((c.tc : Thread Cert.KernelIdeal.nD Cert.KernelIdeal.τ).loc Cert.KernelIdeal.main_arg19)) i)) ∧
      (∀ i, IsReal ((m ((c.tc : Thread Cert.KernelIdeal.nD Cert.KernelIdeal.τ).loc Cert.KernelIdeal.main_arg20)) i)) ∧
      (∀ i, IsReal ((m ((c.tc : Thread Cert.KernelIdeal.nD Cert.KernelIdeal.τ).loc Cert.KernelIdeal.main_arg21)) i)) ∧
      (∀ i, IsReal ((m ((c.tc : Thread Cert.KernelIdeal.nD Cert.KernelIdeal.τ).loc Cert.KernelIdeal.main_arg22)) i)) ∧
      (∀ i, IsReal ((m ((c.tc : Thread Cert.KernelIdeal.nD Cert.KernelIdeal.τ).loc Cert.KernelIdeal.main_arg23)) i)) :=
  finite_all _ _ _ _ _ _ _ _ _ _ _ _ _ _ _ _ _ _ _ _ _ _ _ _ ix0 (congrFun (h c) ix0)

/-- Under the certificate's precondition every entry of the kernel's twelve operands is a real number. -/
theorem finite_of_pre [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, IsReal ((m ((c.tc : Thread Cert.KernelIdeal.nD Cert.KernelIdeal.τ).loc Cert.KernelIdeal.main_arg0)) i)) ∧
      (∀ i, IsReal ((m ((c.tc : Thread Cert.KernelIdeal.nD Cert.KernelIdeal.τ).loc Cert.KernelIdeal.main_arg1)) i)) ∧
      (∀ i, IsReal ((m ((c.tc : Thread Cert.KernelIdeal.nD Cert.KernelIdeal.τ).loc Cert.KernelIdeal.main_arg2)) i)) ∧
      (∀ i, IsReal ((m ((c.tc : Thread Cert.KernelIdeal.nD Cert.KernelIdeal.τ).loc Cert.KernelIdeal.main_arg3)) i)) ∧
      (∀ i, IsReal ((m ((c.tc : Thread Cert.KernelIdeal.nD Cert.KernelIdeal.τ).loc Cert.KernelIdeal.main_arg4)) i)) ∧
      (∀ i, IsReal ((m ((c.tc : Thread Cert.KernelIdeal.nD Cert.KernelIdeal.τ).loc Cert.KernelIdeal.main_arg5)) i)) ∧
      (∀ i, IsReal ((m ((c.tc : Thread Cert.KernelIdeal.nD Cert.KernelIdeal.τ).loc Cert.KernelIdeal.main_arg6)) i)) ∧
      (∀ i, IsReal ((m ((c.tc : Thread Cert.KernelIdeal.nD Cert.KernelIdeal.τ).loc Cert.KernelIdeal.main_arg7)) i)) ∧
      (∀ i, IsReal ((m ((c.tc : Thread Cert.KernelIdeal.nD Cert.KernelIdeal.τ).loc Cert.KernelIdeal.main_arg8)) i)) ∧
      (∀ i, IsReal ((m ((c.tc : Thread Cert.KernelIdeal.nD Cert.KernelIdeal.τ).loc Cert.KernelIdeal.main_arg9)) i)) ∧
      (∀ i, IsReal ((m ((c.tc : Thread Cert.KernelIdeal.nD Cert.KernelIdeal.τ).loc Cert.KernelIdeal.main_arg10)) i)) ∧
      (∀ i, IsReal ((m ((c.tc : Thread Cert.KernelIdeal.nD Cert.KernelIdeal.τ).loc Cert.KernelIdeal.main_arg11)) i)) := by
  obtain ⟨h0, h1, h2, h3, h4, h5, h6, h7, h8, h9, h10, h11, -⟩ := finite_of_pre_all m h c
  exact ⟨h0, h1, h2, h3, h4, h5, h6, h7, h8, h9, h10, h11⟩

end Cert.KernelIdeal.Finite
-- ==== Proof.Final.lean ====
/-
  The two programs end with equal results.  The kernel program's run leaves the result array and the two heads applied
  to the flattened summary array; the reference's run leaves its result array and the same two heads applied to its
  pooled features.  Under the precondition every pallas operand has real entries, so (sample by sample) the result
  arrays and the pooled features agree, and the heads, being one function on both sides, agree with them.
-/
import proofs.«115478_j10110353015360_2_alg».proof.Defs
import proofs.«115478_j10110353015360_2_alg».proof.Proof.KIValueRun
import proofs.«115478_j10110353015360_2_alg».proof.Proof.RefRun
import proofs.«115478_j10110353015360_2_alg».proof.Proof.Core
import proofs.«115478_j10110353015360_2_alg».proof.Proof.KFinite

noncomputable section

namespace Cert.Final

open Idealize.ShloMosaic Idealize.ShloMosaic.ValueIdx Idealize.SL.Sem

/-- The memories agree on the twenty-four arguments at device `c`. -/
def AgreeAt (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) : Prop :=
  (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))
      ∧ (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1))
      ∧ (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))
      ∧ (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3))
      ∧ (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))
      ∧ (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))
      ∧ (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6))
      ∧ (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7))
      ∧ (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))
      ∧ (m' ((c.tc : Thread Cert.ReferenceIdeal.nD Cert.ReferenceIdeal.τ).loc Cert.ReferenceIdeal.main_arg9)) = (m ((c.tc : Thread Cert.KernelIdeal.nD Cert.KernelIdeal.τ).loc Cert.KernelIdeal.main_arg9))
      ∧ (m' ((c.tc : Thread Cert.ReferenceIdeal.nD Cert.ReferenceIdeal.τ).loc Cert.ReferenceIdeal.main_arg10)) = (m ((c.tc : Thread Cert.KernelIdeal.nD Cert.KernelIdeal.τ).loc Cert.KernelIdeal.main_arg10))
      ∧ (m' ((c.tc : Thread Cert.ReferenceIdeal.nD Cert.ReferenceIdeal.τ).loc Cert.ReferenceIdeal.main_arg11)) = (m ((c.tc : Thread Cert.KernelIdeal.nD Cert.KernelIdeal.τ).loc Cert.KernelIdeal.main_arg11))
      ∧ (m' ((c.tc : Thread Cert.ReferenceIdeal.nD Cert.ReferenceIdeal.τ).loc Cert.ReferenceIdeal.main_arg12)) = (m ((c.tc : Thread Cert.KernelIdeal.nD Cert.KernelIdeal.τ).loc Cert.KernelIdeal.main_arg12))
      ∧ (m' ((c.tc : Thread Cert.ReferenceIdeal.nD Cert.ReferenceIdeal.τ).loc Cert.ReferenceIdeal.main_arg13)) = (m ((c.tc : Thread Cert.KernelIdeal.nD Cert.KernelIdeal.τ).loc Cert.KernelIdeal.main_arg13))
      ∧ (m' ((c.tc : Thread Cert.ReferenceIdeal.nD Cert.ReferenceIdeal.τ).loc Cert.ReferenceIdeal.main_arg14)) = (m ((c.tc : Thread Cert.KernelIdeal.nD Cert.KernelIdeal.τ).loc Cert.KernelIdeal.main_arg14))
      ∧ (m' ((c.tc : Thread Cert.ReferenceIdeal.nD Cert.ReferenceIdeal.τ).loc Cert.ReferenceIdeal.main_arg15)) = (m ((c.tc : Thread Cert.KernelIdeal.nD Cert.KernelIdeal.τ).loc Cert.KernelIdeal.main_arg15))
      ∧ (m' ((c.tc : Thread Cert.ReferenceIdeal.nD Cert.ReferenceIdeal.τ).loc Cert.ReferenceIdeal.main_arg16)) = (m ((c.tc : Thread Cert.KernelIdeal.nD Cert.KernelIdeal.τ).loc Cert.KernelIdeal.main_arg16))
      ∧ (m' ((c.tc : Thread Cert.ReferenceIdeal.nD Cert.ReferenceIdeal.τ).loc Cert.ReferenceIdeal.main_arg17)) = (m ((c.tc : Thread Cert.KernelIdeal.nD Cert.KernelIdeal.τ).loc Cert.KernelIdeal.main_arg17))
      ∧ (m' ((c.tc : Thread Cert.ReferenceIdeal.nD Cert.ReferenceIdeal.τ).loc Cert.ReferenceIdeal.main_arg18)) = (m ((c.tc : Thread Cert.KernelIdeal.nD Cert.KernelIdeal.τ).loc Cert.KernelIdeal.main_arg18))
      ∧ (m' ((c.tc : Thread Cert.ReferenceIdeal.nD Cert.ReferenceIdeal.τ).loc Cert.ReferenceIdeal.main_arg19)) = (m ((c.tc : Thread Cert.KernelIdeal.nD Cert.KernelIdeal.τ).loc Cert.KernelIdeal.main_arg19))
      ∧ (m' ((c.tc : Thread Cert.ReferenceIdeal.nD Cert.ReferenceIdeal.τ).loc Cert.ReferenceIdeal.main_arg20)) = (m ((c.tc : Thread Cert.KernelIdeal.nD Cert.KernelIdeal.τ).loc Cert.KernelIdeal.main_arg20))
      ∧ (m' ((c.tc : Thread Cert.ReferenceIdeal.nD Cert.ReferenceIdeal.τ).loc Cert.ReferenceIdeal.main_arg21)) = (m ((c.tc : Thread Cert.KernelIdeal.nD Cert.KernelIdeal.τ).loc Cert.KernelIdeal.main_arg21))
      ∧ (m' ((c.tc : Thread Cert.ReferenceIdeal.nD Cert.ReferenceIdeal.τ).loc Cert.ReferenceIdeal.main_arg22)) = (m ((c.tc : Thread Cert.KernelIdeal.nD Cert.KernelIdeal.τ).loc Cert.KernelIdeal.main_arg22))
      ∧ (m' ((c.tc : Thread Cert.ReferenceIdeal.nD Cert.ReferenceIdeal.τ).loc Cert.ReferenceIdeal.main_arg23)) = (m ((c.tc : Thread Cert.KernelIdeal.nD Cert.KernelIdeal.τ).loc Cert.KernelIdeal.main_arg23))

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ)
  (c : Dev Cert.KernelIdeal.nD)

theorem reals_of_pre (hpre : Cert.Pre_KernelIdeal (hPre_finite_inputs := Cert.Pre_finite_inputs.Gen.facts) m) :
    Cert.Core.Reals (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) := by
  obtain ⟨h0, h1, h2, h3, h4, h5, h6, h7, h8, h9, h10, h11⟩ := Cert.KernelIdeal.Finite.finite_of_pre m hpre c
  exact ⟨h0, h1, h2, h3, h4, h5, h8, h9, h10, h11⟩

theorem agrees_of (hag : AgreeAt m m' c) :
    Cert.Core.Agrees (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (Cert.ReferenceIdeal.RefRun.args m' c) := by
  obtain ⟨e0, e1, e2, e3, e4, e5, e6, e7, e8, e9, e10, e11, -⟩ := hag
  exact ⟨e0, e1, e2, e3, e4, e5, e6, e7, e8, e9, e10, e11⟩

/-- A `[64, 1, 256]` array flattened to `[64, 256]` reads, at `(b, q)`, the array at `(b, 0, q)`. -/
theorem flatten_apply {φ : FTy} (x : FVec Ideal ⟨3, ![64, 1, 256]⟩ φ) (h : (⟨3, ![64, 1, 256]⟩ : Shape).ShapeCasts ⟨2, ![64, 256]⟩)
    (b : Fin 64) (q : Fin 256) : shapeCast ⟨2, ![64, 256]⟩ x h (ix2 b q) = x (ix3 b (0 : Fin 1) q) :=
  shapeCast_apply x h _ _ (by
    rw [Shape.rowMajor_val_two, Shape.rowMajor_val_three]
    show (b.val * 1 + 0) * 256 + q.val = b.val * 256 + q.val
    omega)

theorem ae_eq (hpre : Cert.Pre_KernelIdeal (hPre_finite_inputs := Cert.Pre_finite_inputs.Gen.facts) m) (hag : AgreeAt m m' c) :
    Cert.ReferenceIdeal.RefRun.refAE (Cert.ReferenceIdeal.RefRun.args m' c) = Cert.KernelIdeal.HValue.aeArr m c := by
  funext idx
  obtain ⟨b, i, j, rfl⟩ : ∃ (b : Fin 64) (i j : Fin 512), idx = ix3 b i j := ⟨idx 0, idx 1, idx 2, eq_ix3 idx⟩
  rw [Cert.KernelIdeal.HValue.aeArr_apply]
  exact Cert.Core.ae_core (reals_of_pre m c hpre) (agrees_of m m' c hag) b i j

theorem z_eq (hpre : Cert.Pre_KernelIdeal (hPre_finite_inputs := Cert.Pre_finite_inputs.Gen.facts) m) (hag : AgreeAt m m' c) :
    Cert.ReferenceIdeal.RefRun.refZ (Cert.ReferenceIdeal.RefRun.args m' c) = Cert.KernelIdeal.HValue.zFlat m c := by
  funext idx
  obtain ⟨b, q, rfl⟩ : ∃ (b : Fin 64) (q : Fin 256), idx = ix2 b q := ⟨idx 0, idx 1, eq_ix2 idx⟩
  unfold Cert.KernelIdeal.HValue.zFlat
  rw [flatten_apply, Cert.KernelIdeal.HValue.zArr_apply]
  exact Cert.Core.z_core (reals_of_pre m c hpre) (agrees_of m m' c hag) b q

/-- The algebraic claim. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hag
  refine ⟨fun c => Cert.KernelIdeal.HValue.aeArr m c,
    fun c => Cert.Heads.headCls (Cert.KernelIdeal.HValue.zFlat m c) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)),
    fun c => Cert.Heads.headScan (Cert.KernelIdeal.HValue.zFlat m c) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)), ?_, ?_⟩
  · exact (θ_run _ _ _).mono (fun r h c => ⟨(h c).1.1, (h c).1.2.1, (h c).1.2.2, (h c).2⟩) (Cert.KernelIdeal.HValue.krun m ρ)
  · refine (θ_run _ _ _).mono (fun r h c => ?_) (Cert.ReferenceIdeal.RefRun.run m' ρ')
    obtain ⟨⟨h0, h1, h2⟩, hargs⟩ := h c
    have hz := z_eq m m' c hpre (hag c)
    obtain ⟨e0, e1, e2, e3, e4, e5, e6, e7, e8, e9, e10, e11, e12, e13, e14, e15, e16, e17, e18, e19, e20, e21, e22, e23⟩ := hag c
    refine ⟨h0.trans (ae_eq m m' c hpre (hag c)), h1.trans ?_, h2.trans ?_, hargs⟩
    · rw [hz, e12, e13, e14, e15, e16, e17]
    · rw [hz, e18, e19, e20, e21, e22, e23]

end Cert.Final

end
-- ==== Proof.lean ====
/-
  The certificate's claim: the kernel program, its reading on the extended reals, and the reference each run to the end
  without a fault and leave their arguments unchanged; the reading on the extended reals rewrites nothing; and the two
  readings, run from memories that agree on the arguments, end with equal results.

  The program is a three-layer Chebyshev graph network per batch member (order five: the recurrence
  `t_k = 2 A t_{k-1} - t_{k-2}` and six weight matrices per layer), with a layer normalization over all entries and a
  rectification after each of the first two layers, column means and maxima of the two hidden activations pooled into a
  summary, the rectified Gram matrix of the third layer's rows with its diagonal cleared and symmetrized, and two small
  perceptron heads on the summaries.  The kernel computes one batch member per grid point and the heads on the host; the
  reference computes everything batched.  On the extended reals the two differ only in how the layer normalization is
  arranged (mean of squares minus squared mean, and a reciprocal square root, against the mean squared deviation and
  a division by the square root), which agree on real entries; the precondition makes every entry real.
-/
import proofs.«115478_j10110353015360_2_alg».proof.Defs
import proofs.«115478_j10110353015360_2_alg».proof.Proof.Gen.Kernel
import proofs.«115478_j10110353015360_2_alg».proof.Proof.Gen.KernelIdeal
import proofs.«115478_j10110353015360_2_alg».proof.Proof.Gen.ReferenceIdeal
import proofs.«115478_j10110353015360_2_alg».proof.Proof.Gen.Pre_finite_inputs
import proofs.«115478_j10110353015360_2_alg».proof.Proof.KFrameRun
import proofs.«115478_j10110353015360_2_alg».proof.Proof.KIFrameRun
import proofs.«115478_j10110353015360_2_alg».proof.Proof.RefRun
import proofs.«115478_j10110353015360_2_alg».proof.Proof.Final

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs.Gen.facts,
    fun m ρ _ => Cert.Kernel.HFrame.frame m ρ,
    fun m ρ _ => Cert.KernelIdeal.HFrame.frame m ρ,
    fun m ρ _ => Cert.ReferenceIdeal.RefRun.frame m ρ,
    trivial,
    Cert.Final.algebraic⟩

end Cert.Proof

end
